-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part4 {F : FTy → Type} [FloatOps F] (main_arg16 : FVec F S32 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg13 : FVec F S32 .f32) (main_arg14 : FVec F S32 .f32) (main_arg15 : FVec F S32x32 .f32) (main_arg16 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg15
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg16 main_v63 main_v67

def fn_part2 {F : FTy → Type} [FloatOps F] (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S32x32 .f32) (main_arg16 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_v48 main_v49 main_v50

def fn_part1 {F : FTy → Type} [FloatOps F] (main_arg6 : FVec F S32 .f32) (main_arg7 : FVec F S32x32 .f32) (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S32x32 .f32) (main_arg16 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x32 .f32) (main_arg4 : FVec F S32 .f32) (main_arg5 : FVec F S32 .f32) (main_arg6 : FVec F S32 .f32) (main_arg7 : FVec F S32x32 .f32) (main_arg8 : FVec F S32 .f32) (main_arg9 : FVec F S32 .f32) (main_arg10 : FVec F S32 .f32) (main_arg11 : FVec F S32x32 .f32) (main_arg12 : FVec F S32 .f32) (main_arg13 : FVec F S32 .f32) (main_arg14 : FVec F S32 .f32) (main_arg15 : FVec F S32x32 .f32) (main_arg16 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x32 : Shape := ⟨2, ![100000, 32]⟩
abbrev S5000x128 : Shape := ⟨2, ![5000, 128]⟩
abbrev S5000x32 : Shape := ⟨2, ![5000, 32]⟩
abbrev S1600000x32 : Shape := ⟨2, ![1600000, 32]⟩
abbrev S1x32 : Shape := ⟨2, ![1, 32]⟩
abbrev S5000x1 : Shape := ⟨2, ![5000, 1]⟩
abbrev S64x32 : Shape := ⟨2, ![64, 32]⟩
abbrev S64 : Shape := ⟨1, ![64]⟩
abbrev S64x1 : Shape := ⟨2, ![64, 1]⟩

abbrev nBuf : Space → Nat
  | .hbm => 201
  | .vmem => 83
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32, .f32⟩
  | 6 => ⟨S32, .f32⟩
  | 7 => ⟨S32x32, .f32⟩
  | 8 => ⟨S32, .f32⟩
  | 9 => ⟨S32, .f32⟩
  | 10 => ⟨S32, .f32⟩
  | 11 => ⟨S32x32, .f32⟩
  | 12 => ⟨S32, .f32⟩
  | 13 => ⟨S32, .f32⟩
  | 14 => ⟨S32, .f32⟩
  | 15 => ⟨S32x32, .f32⟩
  | 16 => ⟨S32, .f32⟩
  | 17 => ⟨S1x1600000, .i32⟩
  | 18 => ⟨S1600000, .i32⟩
  | 19 => ⟨S1x1600000, .i32⟩
  | 20 => ⟨S1600000, .i32⟩
  | 21 => ⟨S1600000, .i32⟩
  | 22 => ⟨S1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .i32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .i32⟩
  | 42 => ⟨S_, .f32⟩
  | 43 => ⟨S1600000, .f32⟩
  | 44 => ⟨S_, .f32⟩
  | 45 => ⟨S100000, .f32⟩
  | 46 => ⟨S1600000x1, .i32⟩
  | 47 => ⟨S100000, .f32⟩
  | 48 => ⟨S_, .f32⟩
  | 49 => ⟨S100000, .f32⟩
  | 50 => ⟨S100000, .f32⟩
  | 51 => ⟨S100000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000, .f32⟩
  | 70 => ⟨S1600000, .f32⟩
  | 71 => ⟨S100000, .f32⟩
  | 72 => ⟨S100000x1, .f32⟩
  | 73 => ⟨S100000x32, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x32, .f32⟩
  | 83 => ⟨S1600000x1, .f32⟩
  | 84 => ⟨S1600000x32, .f32⟩
  | 85 => ⟨S1600000x32, .f32⟩
  | 86 => ⟨S_, .f32⟩
  | 87 => ⟨S100000x32, .f32⟩
  | 88 => ⟨S1600000x1, .i32⟩
  | 89 => ⟨S100000x32, .f32⟩
  | 90 => ⟨S1x32, .f32⟩
  | 91 => ⟨S1x32, .f32⟩
  | 92 => ⟨S1x32, .f32⟩
  | 93 => ⟨S_, .f32⟩
  | 94 => ⟨S1x32, .f32⟩
  | 95 => ⟨S1x32, .f32⟩
  | 96 => ⟨S_, .f32⟩
  | 97 => ⟨S1x32, .f32⟩
  | 98 => ⟨S1x32, .f32⟩
  | 99 => ⟨S1x32, .f32⟩
  | 100 => ⟨S1x32, .f32⟩
  | 101 => ⟨S1x32, .f32⟩
  | 102 => ⟨S1x32, .f32⟩
  | 103 => ⟨S1x32, .f32⟩
  | 104 => ⟨S100000x32, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x32, .f32⟩
  | 114 => ⟨S1600000x1, .f32⟩
  | 115 => ⟨S1600000x32, .f32⟩
  | 116 => ⟨S1600000x32, .f32⟩
  | 117 => ⟨S_, .f32⟩
  | 118 => ⟨S100000x32, .f32⟩
  | 119 => ⟨S1600000x1, .i32⟩
  | 120 => ⟨S100000x32, .f32⟩
  | 121 => ⟨S1x32, .f32⟩
  | 122 => ⟨S1x32, .f32⟩
  | 123 => ⟨S1x32, .f32⟩
  | 124 => ⟨S_, .f32⟩
  | 125 => ⟨S1x32, .f32⟩
  | 126 => ⟨S1x32, .f32⟩
  | 127 => ⟨S_, .f32⟩
  | _ => ⟨S100000x128, .f32⟩

abbrev hbmTy0_1 (i : Nat) : BufTy := match i % 128 with
  | 0 => ⟨S1x32, .f32⟩
  | 1 => ⟨S1x32, .f32⟩
  | 2 => ⟨S1x32, .f32⟩
  | 3 => ⟨S1x32, .f32⟩
  | 4 => ⟨S1x32, .f32⟩
  | 5 => ⟨S1x32, .f32⟩
  | 6 => ⟨S1x32, .f32⟩
  | 7 => ⟨S100000x32, .f32⟩
  | 8 => ⟨S_, .i32⟩
  | 9 => ⟨S1600000, .i32⟩
  | 10 => ⟨S1600000, .i1⟩
  | 11 => ⟨S_, .i32⟩
  | 12 => ⟨S1600000, .i32⟩
  | 13 => ⟨S1600000, .i32⟩
  | 14 => ⟨S1600000, .i32⟩
  | 15 => ⟨S1600000x1, .i32⟩
  | 16 => ⟨S1600000x32, .f32⟩
  | 17 => ⟨S1600000x1, .f32⟩
  | 18 => ⟨S1600000x32, .f32⟩
  | 19 => ⟨S1600000x32, .f32⟩
  | 20 => ⟨S_, .f32⟩
  | 21 => ⟨S100000x32, .f32⟩
  | 22 => ⟨S1600000x1, .i32⟩
  | 23 => ⟨S100000x32, .f32⟩
  | 24 => ⟨S1x32, .f32⟩
  | 25 => ⟨S1x32, .f32⟩
  | 26 => ⟨S1x32, .f32⟩
  | 27 => ⟨S_, .f32⟩
  | 28 => ⟨S1x32, .f32⟩
  | 29 => ⟨S1x32, .f32⟩
  | 30 => ⟨S_, .f32⟩
  | 31 => ⟨S1x32, .f32⟩
  | 32 => ⟨S1x32, .f32⟩
  | 33 => ⟨S1x32, .f32⟩
  | 34 => ⟨S1x32, .f32⟩
  | 35 => ⟨S1x32, .f32⟩
  | 36 => ⟨S1x32, .f32⟩
  | 37 => ⟨S1x32, .f32⟩
  | 38 => ⟨S100000x32, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x32, .f32⟩
  | 48 => ⟨S1600000x1, .f32⟩
  | 49 => ⟨S1600000x32, .f32⟩
  | 50 => ⟨S1600000x32, .f32⟩
  | 51 => ⟨S_, .f32⟩
  | 52 => ⟨S100000x32, .f32⟩
  | 53 => ⟨S1600000x1, .i32⟩
  | 54 => ⟨S100000x32, .f32⟩
  | 55 => ⟨S1x32, .f32⟩
  | 56 => ⟨S100000x32, .f32⟩
  | 57 => ⟨S_, .f32⟩
  | 58 => ⟨S64x32, .f32⟩
  | 59 => ⟨S100000x1, .i32⟩
  | 60 => ⟨S64x32, .f32⟩
  | 61 => ⟨S_, .f32⟩
  | 62 => ⟨S100000, .f32⟩
  | 63 => ⟨S_, .f32⟩
  | 64 => ⟨S64, .f32⟩
  | 65 => ⟨S100000x1, .i32⟩
  | 66 => ⟨S64, .f32⟩
  | 67 => ⟨S_, .f32⟩
  | 68 => ⟨S64, .f32⟩
  | 69 => ⟨S64, .f32⟩
  | 70 => ⟨S64x1, .f32⟩
  | 71 => ⟨S64x32, .f32⟩
  | 72 => ⟨S64x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x1, .f32⟩
  | .local _ .vmem, ⟨19, _⟩ => ⟨S5000x1, .f32⟩
  | .local _ .vmem, ⟨20, _⟩ => ⟨S1x32, .f32⟩
  | .local _ .vmem, ⟨21, _⟩ => ⟨S1x32, .f32⟩
  | .local _ .vmem, ⟨22, _⟩ => ⟨S1x32, .f32⟩
  | .local _ .vmem, ⟨23, _⟩ => ⟨S1x32, .f32⟩
  | .local _ .vmem, ⟨24, _⟩ => ⟨S1x32, .f32⟩
  | .local _ .vmem, ⟨25, _⟩ => ⟨S32x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S5000x1, .f32⟩
  | .local _ .vmem, ⟨33, _⟩ => ⟨S5000x1, .f32⟩
  | .local _ .vmem, ⟨34, _⟩ => ⟨S1x32, .f32⟩
  | .local _ .vmem, ⟨35, _⟩ => ⟨S1x32, .f32⟩
  | .local _ .vmem, ⟨36, _⟩ => ⟨S1x32, .f32⟩
  | .local _ .vmem, ⟨37, _⟩ => ⟨S5000x32, .f32⟩
  | .local _ .vmem, ⟨38, _⟩ => ⟨S5000x32, .f32⟩
  | .local _ .vmem, ⟨39, _⟩ => ⟨S5000x32, .f32⟩
  | .local _ .vmem, ⟨40, _⟩ => ⟨S5000x32, .f32⟩
  | .local _ .vmem, ⟨41, _⟩ => ⟨S5000x1, .f32⟩
  | .local _ .vmem, ⟨42, _⟩ => ⟨S5000x1, .f32⟩
  | .local _ .vmem, ⟨43, _⟩ => ⟨S1x32, .f32⟩
  | .local _ .vmem, ⟨44, _⟩ => ⟨S1x32, .f32⟩
  | .local _ .vmem, ⟨45, _⟩ => ⟨S1x32, .f32⟩
  | .local _ .vmem, ⟨46, _⟩ => ⟨S1x32, .f32⟩
  | .local _ .vmem, ⟨47, _⟩ => ⟨S1x32, .f32⟩
  | .local _ .vmem, ⟨48, _⟩ => ⟨S32x32, .f32⟩
  | .local _ .vmem, ⟨49, _⟩ => ⟨S5000x32, .f32⟩
  | .local _ .vmem, ⟨50, _⟩ => ⟨S5000x32, .f32⟩
  | .local _ .vmem, ⟨51, _⟩ => ⟨S5000x32, .f32⟩
  | .local _ .vmem, ⟨52, _⟩ => ⟨S5000x32, .f32⟩
  | .local _ .vmem, ⟨53, _⟩ => ⟨S5000x32, .f32⟩
  | .local _ .vmem, ⟨54, _⟩ => ⟨S5000x32, .f32⟩
  | .local _ .vmem, ⟨55, _⟩ => ⟨S5000x1, .f32⟩
  | .local _ .vmem, ⟨56, _⟩ => ⟨S5000x1, .f32⟩
  | .local _ .vmem, ⟨57, _⟩ => ⟨S1x32, .f32⟩
  | .local _ .vmem, ⟨58, _⟩ => ⟨S1x32, .f32⟩
  | .local _ .vmem, ⟨59, _⟩ => ⟨S1x32, .f32⟩
  | .local _ .vmem, ⟨60, _⟩ => ⟨S5000x32, .f32⟩
  | .local _ .vmem, ⟨61, _⟩ => ⟨S5000x32, .f32⟩
  | .local _ .vmem, ⟨62, _⟩ => ⟨S5000x32, .f32⟩
  | .local _ .vmem, ⟨63, _⟩ => ⟨S5000x32, .f32⟩
  | .local _ .vmem, ⟨64, _⟩ => ⟨S5000x1, .f32⟩
  | .local _ .vmem, ⟨65, _⟩ => ⟨S5000x1, .f32⟩
  | .local _ .vmem, ⟨66, _⟩ => ⟨S1x32, .f32⟩
  | .local _ .vmem, ⟨67, _⟩ => ⟨S1x32, .f32⟩
  | .local _ .vmem, ⟨68, _⟩ => ⟨S1x32, .f32⟩
  | .local _ .vmem, ⟨69, _⟩ => ⟨S1x32, .f32⟩
  | .local _ .vmem, ⟨70, _⟩ => ⟨S1x32, .f32⟩
  | .local _ .vmem, ⟨71, _⟩ => ⟨S32x32, .f32⟩
  | .local _ .vmem, ⟨72, _⟩ => ⟨S5000x32, .f32⟩
  | .local _ .vmem, ⟨73, _⟩ => ⟨S5000x32, .f32⟩
  | .local _ .vmem, ⟨74, _⟩ => ⟨S5000x32, .f32⟩
  | .local _ .vmem, ⟨75, _⟩ => ⟨S5000x32, .f32⟩
  | .local _ .vmem, ⟨76, _⟩ => ⟨S5000x32, .f32⟩
  | .local _ .vmem, ⟨77, _⟩ => ⟨S5000x32, .f32⟩
  | .local _ .vmem, ⟨78, _⟩ => ⟨S5000x1, .f32⟩
  | .local _ .vmem, ⟨79, _⟩ => ⟨S5000x1, .f32⟩
  | .local _ .vmem, ⟨80, _⟩ => ⟨S1x32, .f32⟩
  | .local _ .vmem, ⟨81, _⟩ => ⟨S5000x32, .f32⟩
  | .local _ .vmem, ⟨82, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | _, _ => false

abbrev semScoped : Fin 0 → Bool
  | ⟨_, h⟩ => absurd h (Nat.not_lt_zero _)

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  ofTc nBuf bufTy 0 83 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_v0 : Ref sig .tc := ⟨.hbm, 21, rfl⟩
abbrev main_call0_v1_0 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_9 : Ref sig .tc := ⟨.hbm, 74, rfl⟩
abbrev main_v44 : Ref sig .tc := ⟨.hbm, 75, rfl⟩
abbrev main_v45 : Ref sig .tc := ⟨.hbm, 76, rfl⟩
abbrev main_c_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58_0 : Ref sig .tc := ⟨.hbm, 91, rfl⟩
abbrev main_v58_1 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_cst_13 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_14 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_16 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83_0 : Ref sig .tc := ⟨.hbm, 122, rfl⟩
abbrev main_v83_1 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_19 : Ref sig .tc := ⟨.hbm, 136, rfl⟩
abbrev main_v94 : Ref sig .tc := ⟨.hbm, 137, rfl⟩
abbrev main_v95 : Ref sig .tc := ⟨.hbm, 138, rfl⟩
abbrev main_c_20 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_21 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108_0 : Ref sig .tc := ⟨.hbm, 153, rfl⟩
abbrev main_v108_1 : Ref sig .tc := ⟨.hbm, 154, rfl⟩
abbrev main_cst_22 : Ref sig .tc := ⟨.hbm, 155, rfl⟩
abbrev main_v109 : Ref sig .tc := ⟨.hbm, 156, rfl⟩
abbrev main_v110 : Ref sig .tc := ⟨.hbm, 157, rfl⟩
abbrev main_cst_23 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_24 : Ref sig .tc := ⟨.hbm, 167, rfl⟩
abbrev main_v119 : Ref sig .tc := ⟨.hbm, 168, rfl⟩
abbrev main_v120 : Ref sig .tc := ⟨.hbm, 169, rfl⟩
abbrev main_c_25 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_26 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_27 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_cst_28 : Ref sig .tc := ⟨.hbm, 189, rfl⟩
abbrev main_v137 : Ref sig .tc := ⟨.hbm, 190, rfl⟩
abbrev main_cst_29 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_cst_30 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg8_0 : Ref sig .tc := ⟨.vmem, 48, rfl⟩
abbrev cc4_stg9_0 : Ref sig .tc := ⟨.vmem, 49, rfl⟩
abbrev cc4_stg9_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg2_1 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg8_0 : Ref sig .tc := ⟨.vmem, 71, rfl⟩
abbrev cc6_stg9_0 : Ref sig .tc := ⟨.vmem, 72, rfl⟩
abbrev cc6_stg9_1 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg1_1 : Ref sig .tc := ⟨.vmem, 77, rfl⟩
abbrev cc7_stg2_0 : Ref sig .tc := ⟨.vmem, 78, rfl⟩
abbrev cc7_stg2_1 : Ref sig .tc := ⟨.vmem, 79, rfl⟩
abbrev cc7_stg3_0 : Ref sig .tc := ⟨.vmem, 80, rfl⟩
abbrev cc7_stg4_0 : Ref sig .tc := ⟨.vmem, 81, rfl⟩
abbrev cc7_stg4_1 : Ref sig .tc := ⟨.vmem, 82, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc4_sem0_0 : DmaSem sig := 37
abbrev cc4_sem0_1 : DmaSem sig := 38
abbrev cc4_sem1_0 : DmaSem sig := 39
abbrev cc4_sem1_1 : DmaSem sig := 40
abbrev cc4_sem2_0 : DmaSem sig := 41
abbrev cc4_sem2_1 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem8_0 : DmaSem sig := 48
abbrev cc4_sem9_0 : DmaSem sig := 49
abbrev cc4_sem9_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc5_sem3_0 : DmaSem sig := 57
abbrev cc5_sem4_0 : DmaSem sig := 58
abbrev cc5_sem5_0 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem8_0 : DmaSem sig := 71
abbrev cc6_sem9_0 : DmaSem sig := 72
abbrev cc6_sem9_1 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem2_1 : DmaSem sig := 79
abbrev cc7_sem3_0 : DmaSem sig := 80
abbrev cc7_sem4_0 : DmaSem sig := 81
abbrev cc7_sem4_1 : DmaSem sig := 82

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x32 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S32x32 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S5000x32 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x32 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S32x32 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S5000x32 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x32 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  shapeCasts_S1x32_S1x32 : S1x32.ShapeCasts S1x32
  broadcasts_S1x32_S5000x32 : S1x32.Broadcasts S5000x32
  reduces_S5000x32_S32 : S5000x32.Reduces [0] S32
  bcast_S_S1x32 : S_.BroadcastsInDim S1x32 (![] : Fin 0 → Fin S1x32.rank)
  inb_S32x32_S32x32_0_0 : ∀ a, (![0, 0] : Fin 2 → Nat) a + S32x32.size a ≤ S32x32.size a
  h_S32x32 : 0 < S32x32.numel
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  gather_S1600000_S1600000x1_S1600000_n_0_n_n_0_1_1_wf : GatherDims.WF S1600000 S1600000x1 S1600000 [] [0] [] [0] [] 1 ![1]
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x32_S5000x32_1_0_0_1_n_n_wf : DotDims.WF S5000x32 S32x32 S5000x32 [1] [0] [0] [1] [] []
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x32.size a ≤ S32x32.size a
  hwx2_8 : ∀ i : grid2.Coords, EltTy.bits .f32 = 32 ∨ (Rect.block (s := S32x32) S32x32.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x32.size a ≤ S100000x32.size a
  hwx2_9 : ∀ i : grid2.Coords, EltTy.bits .f32 = 32 ∨ (Rect.block (s := S100000x32) S5000x32.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x32.size a ≤ S100000x32.size a
  hwx4_1 : ∀ i : grid4.Coords, EltTy.bits .f32 = 32 ∨ (Rect.block (s := S100000x32) S5000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x32.size a ≤ S1x32.size a
  hwx4_6 : ∀ i : grid4.Coords, EltTy.bits .f32 = 32 ∨ (Rect.block (s := S1x32) S1x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S32x32.size a ≤ S32x32.size a
  hwx4_8 : ∀ i : grid4.Coords, EltTy.bits .f32 = 32 ∨ (Rect.block (s := S32x32) S32x32.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S5000x32.size a ≤ S100000x32.size a
  hwx4_9 : ∀ i : grid4.Coords, EltTy.bits .f32 = 32 ∨ (Rect.block (s := S100000x32) S5000x32.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x32.size a ≤ S1x32.size a
  hwx5_5 : ∀ i : grid5.Coords, EltTy.bits .f32 = 32 ∨ (Rect.block (s := S1x32) S1x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x32.size a ≤ S100000x32.size a
  hwx6_1 : ∀ i : grid6.Coords, EltTy.bits .f32 = 32 ∨ (Rect.block (s := S100000x32) S5000x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x32.size a ≤ S1x32.size a
  hwx6_3 : ∀ i : grid6.Coords, EltTy.bits .f32 = 32 ∨ (Rect.block (s := S1x32) S1x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x32.size a ≤ S1x32.size a
  hwx6_5 : ∀ i : grid6.Coords, EltTy.bits .f32 = 32 ∨ (Rect.block (s := S1x32) S1x32.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x32.size a ≤ S1x32.size a
  hwx6_6 : ∀ i : grid6.Coords, EltTy.bits .f32 = 32 ∨ (Rect.block (s := S1x32) S1x32.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x32.size a ≤ S1x32.size a
  hwx6_7 : ∀ i : grid6.Coords, EltTy.bits .f32 = 32 ∨ (Rect.block (s := S1x32) S1x32.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S32x32.size a ≤ S32x32.size a
  hwx6_8 : ∀ i : grid6.Coords, EltTy.bits .f32 = 32 ∨ (Rect.block (s := S32x32) S32x32.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S5000x32.size a ≤ S100000x32.size a
  hwx6_9 : ∀ i : grid6.Coords, EltTy.bits .f32 = 32 ∨ (Rect.block (s := S100000x32) S5000x32.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x32.size a ≤ S100000x32.size a
  hwx7_1 : ∀ i : grid7.Coords, EltTy.bits .f32 = 32 ∨ (Rect.block (s := S100000x32) S5000x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x1.size a ≤ S100000x1.size a
  hwx7_2 : ∀ i : grid7.Coords, EltTy.bits .f32 = 32 ∨ (Rect.block (s := S100000x1) S5000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x32.size a ≤ S100000x32.size a
  hwx7_4 : ∀ i : grid7.Coords, EltTy.bits .f32 = 32 ∨ (Rect.block (s := S100000x32) S5000x32.size (cc7_transform_4 i) (hinb7_4 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58_0) S1x32.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58_1) S1x32.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v66) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v67) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg7) S32x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v68) S5000x32.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v81) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83_0) S1x32.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83_1) S1x32.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S5000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v90) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v91) S1x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v92) S1x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg11) S32x32.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v93) S5000x32.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v106) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v42) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v107) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v108_0) S1x32.size cc5_transform_4 reads5_4 true true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108_1) S1x32.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v106) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S5000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v42) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v115) S1x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v110) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v114) S1x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v116) S1x32.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v117) S1x32.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_arg15) S32x32.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v118) S5000x32.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v131) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v118) S5000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v42) S5000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v132) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v133) S5000x32.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S100000x32 : Shape := ⟨2, ![100000, 32]⟩
abbrev S_ : Shape := ⟨0, ![]⟩
abbrev S1600000x1 : Shape := ⟨2, ![1600000, 1]⟩
abbrev S1600000x32 : Shape := ⟨2, ![1600000, 32]⟩
abbrev S100000x1 : Shape := ⟨2, ![100000, 1]⟩
abbrev S1x32 : Shape := ⟨2, ![1, 32]⟩
abbrev S64x32 : Shape := ⟨2, ![64, 32]⟩
abbrev S64 : Shape := ⟨1, ![64]⟩
abbrev S64x1 : Shape := ⟨2, ![64, 1]⟩

abbrev nBuf : Space → Nat
  | .hbm => 394
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32, .f32⟩
  | 6 => ⟨S32, .f32⟩
  | 7 => ⟨S32x32, .f32⟩
  | 8 => ⟨S32, .f32⟩
  | 9 => ⟨S32, .f32⟩
  | 10 => ⟨S32, .f32⟩
  | 11 => ⟨S32x32, .f32⟩
  | 12 => ⟨S32, .f32⟩
  | 13 => ⟨S32, .f32⟩
  | 14 => ⟨S32, .f32⟩
  | 15 => ⟨S32x32, .f32⟩
  | 16 => ⟨S32, .f32⟩
  | 17 => ⟨S1x1600000, .i32⟩
  | 18 => ⟨S1600000, .i32⟩
  | 19 => ⟨S1x1600000, .i32⟩
  | 20 => ⟨S1600000, .i32⟩
  | 21 => ⟨S100000x32, .f32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x32, .f32⟩
  | 60 => ⟨S1600000x1, .f32⟩
  | 61 => ⟨S1600000x32, .f32⟩
  | 62 => ⟨S1600000x32, .f32⟩
  | 63 => ⟨S_, .f32⟩
  | 64 => ⟨S100000x32, .f32⟩
  | 65 => ⟨S1600000x1, .i32⟩
  | 66 => ⟨S100000x32, .f32⟩
  | 67 => ⟨S100000, .f32⟩
  | 68 => ⟨S100000x1, .f32⟩
  | 69 => ⟨S100000x32, .f32⟩
  | 70 => ⟨S100000x32, .f32⟩
  | 71 => ⟨S100000x32, .f32⟩
  | 72 => ⟨S1x32, .f32⟩
  | 73 => ⟨S100000x32, .f32⟩
  | 74 => ⟨S100000x32, .f32⟩
  | 75 => ⟨S_, .f32⟩
  | 76 => ⟨S32, .f32⟩
  | 77 => ⟨S_, .f32⟩
  | 78 => ⟨S32, .f32⟩
  | 79 => ⟨S32, .f32⟩
  | 80 => ⟨S_, .i32⟩
  | 81 => ⟨S_, .f32⟩
  | 82 => ⟨S32, .f32⟩
  | 83 => ⟨S1x32, .f32⟩
  | 84 => ⟨S_, .f32⟩
  | 85 => ⟨S1x32, .f32⟩
  | 86 => ⟨S1x32, .f32⟩
  | 87 => ⟨S100000x32, .f32⟩
  | 88 => ⟨S100000x32, .f32⟩
  | 89 => ⟨S100000x32, .f32⟩
  | 90 => ⟨S_, .f32⟩
  | 91 => ⟨S_, .f32⟩
  | 92 => ⟨S_, .f32⟩
  | 93 => ⟨S_, .f32⟩
  | 94 => ⟨S32, .f32⟩
  | 95 => ⟨S32, .f32⟩
  | 96 => ⟨S32, .f32⟩
  | 97 => ⟨S_, .f32⟩
  | 98 => ⟨S_, .i1⟩
  | 99 => ⟨S_, .f32⟩
  | 100 => ⟨S_, .f32⟩
  | 101 => ⟨S32, .f32⟩
  | 102 => ⟨S32, .f32⟩
  | 103 => ⟨S1x32, .f32⟩
  | 104 => ⟨S100000x32, .f32⟩
  | 105 => ⟨S100000x32, .f32⟩
  | 106 => ⟨S_, .f32⟩
  | 107 => ⟨S32, .f32⟩
  | 108 => ⟨S32, .f32⟩
  | 109 => ⟨S32, .f32⟩
  | 110 => ⟨S1x32, .f32⟩
  | 111 => ⟨S100000x32, .f32⟩
  | 112 => ⟨S100000x32, .f32⟩
  | 113 => ⟨S1x32, .f32⟩
  | 114 => ⟨S100000x32, .f32⟩
  | 115 => ⟨S100000x32, .f32⟩
  | 116 => ⟨S1x32, .f32⟩
  | 117 => ⟨S100000x32, .f32⟩
  | 118 => ⟨S100000x32, .f32⟩
  | 119 => ⟨S_, .f32⟩
  | 120 => ⟨S100000x32, .f32⟩
  | 121 => ⟨S100000x32, .f32⟩
  | 122 => ⟨S100000x32, .f32⟩
  | 123 => ⟨S_, .f32⟩
  | 124 => ⟨S1600000, .f32⟩
  | 125 => ⟨S_, .f32⟩
  | 126 => ⟨S100000, .f32⟩
  | 127 => ⟨S1600000x1, .i32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000, .f32⟩
  | 23 => ⟨S1600000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x32, .f32⟩
  | 33 => ⟨S1600000x1, .f32⟩
  | 34 => ⟨S1600000x32, .f32⟩
  | 35 => ⟨S1600000x32, .f32⟩
  | 36 => ⟨S_, .f32⟩
  | 37 => ⟨S100000x32, .f32⟩
  | 38 => ⟨S1600000x1, .i32⟩
  | 39 => ⟨S100000x32, .f32⟩
  | 40 => ⟨S100000, .f32⟩
  | 41 => ⟨S100000x1, .f32⟩
  | 42 => ⟨S100000x32, .f32⟩
  | 43 => ⟨S100000x32, .f32⟩
  | 44 => ⟨S100000x32, .f32⟩
  | 45 => ⟨S1x32, .f32⟩
  | 46 => ⟨S100000x32, .f32⟩
  | 47 => ⟨S100000x32, .f32⟩
  | 48 => ⟨S_, .f32⟩
  | 49 => ⟨S32, .f32⟩
  | 50 => ⟨S_, .f32⟩
  | 51 => ⟨S32, .f32⟩
  | 52 => ⟨S32, .f32⟩
  | 53 => ⟨S_, .i32⟩
  | 54 => ⟨S_, .f32⟩
  | 55 => ⟨S32, .f32⟩
  | 56 => ⟨S1x32, .f32⟩
  | 57 => ⟨S_, .f32⟩
  | 58 => ⟨S1x32, .f32⟩
  | 59 => ⟨S1x32, .f32⟩
  | 60 => ⟨S100000x32, .f32⟩
  | 61 => ⟨S100000x32, .f32⟩
  | 62 => ⟨S100000x32, .f32⟩
  | 63 => ⟨S_, .f32⟩
  | 64 => ⟨S_, .f32⟩
  | 65 => ⟨S_, .f32⟩
  | 66 => ⟨S_, .f32⟩
  | 67 => ⟨S32, .f32⟩
  | 68 => ⟨S32, .f32⟩
  | 69 => ⟨S32, .f32⟩
  | 70 => ⟨S_, .f32⟩
  | 71 => ⟨S_, .i1⟩
  | 72 => ⟨S_, .f32⟩
  | 73 => ⟨S_, .f32⟩
  | 74 => ⟨S32, .f32⟩
  | 75 => ⟨S32, .f32⟩
  | 76 => ⟨S1x32, .f32⟩
  | 77 => ⟨S100000x32, .f32⟩
  | 78 => ⟨S100000x32, .f32⟩
  | 79 => ⟨S_, .f32⟩
  | 80 => ⟨S32, .f32⟩
  | 81 => ⟨S32, .f32⟩
  | 82 => ⟨S32, .f32⟩
  | 83 => ⟨S1x32, .f32⟩
  | 84 => ⟨S100000x32, .f32⟩
  | 85 => ⟨S100000x32, .f32⟩
  | 86 => ⟨S1x32, .f32⟩
  | 87 => ⟨S100000x32, .f32⟩
  | 88 => ⟨S100000x32, .f32⟩
  | 89 => ⟨S1x32, .f32⟩
  | 90 => ⟨S100000x32, .f32⟩
  | 91 => ⟨S100000x32, .f32⟩
  | 92 => ⟨S_, .f32⟩
  | 93 => ⟨S100000x32, .f32⟩
  | 94 => ⟨S100000x32, .f32⟩
  | 95 => ⟨S100000x32, .f32⟩
  | 96 => ⟨S_, .f32⟩
  | 97 => ⟨S1600000, .f32⟩
  | 98 => ⟨S_, .f32⟩
  | 99 => ⟨S100000, .f32⟩
  | 100 => ⟨S1600000x1, .i32⟩
  | 101 => ⟨S100000, .f32⟩
  | 102 => ⟨S_, .f32⟩
  | 103 => ⟨S100000, .f32⟩
  | 104 => ⟨S100000, .f32⟩
  | 105 => ⟨S100000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000, .f32⟩
  | 124 => ⟨S1600000, .f32⟩
  | 125 => ⟨S_, .i32⟩
  | 126 => ⟨S1600000, .i32⟩
  | 127 => ⟨S1600000, .i1⟩
  | _ => ⟨S100000x128, .f32⟩

abbrev hbmTy0_2 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000x32, .f32⟩
  | 6 => ⟨S1600000x1, .f32⟩
  | 7 => ⟨S1600000x32, .f32⟩
  | 8 => ⟨S1600000x32, .f32⟩
  | 9 => ⟨S_, .f32⟩
  | 10 => ⟨S100000x32, .f32⟩
  | 11 => ⟨S1600000x1, .i32⟩
  | 12 => ⟨S100000x32, .f32⟩
  | 13 => ⟨S100000, .f32⟩
  | 14 => ⟨S100000x1, .f32⟩
  | 15 => ⟨S100000x32, .f32⟩
  | 16 => ⟨S100000x32, .f32⟩
  | 17 => ⟨S100000x32, .f32⟩
  | 18 => ⟨S1x32, .f32⟩
  | 19 => ⟨S100000x32, .f32⟩
  | 20 => ⟨S100000x32, .f32⟩
  | 21 => ⟨S_, .f32⟩
  | 22 => ⟨S32, .f32⟩
  | 23 => ⟨S_, .f32⟩
  | 24 => ⟨S32, .f32⟩
  | 25 => ⟨S32, .f32⟩
  | 26 => ⟨S_, .i32⟩
  | 27 => ⟨S_, .f32⟩
  | 28 => ⟨S32, .f32⟩
  | 29 => ⟨S1x32, .f32⟩
  | 30 => ⟨S_, .f32⟩
  | 31 => ⟨S1x32, .f32⟩
  | 32 => ⟨S1x32, .f32⟩
  | 33 => ⟨S100000x32, .f32⟩
  | 34 => ⟨S100000x32, .f32⟩
  | 35 => ⟨S100000x32, .f32⟩
  | 36 => ⟨S_, .f32⟩
  | 37 => ⟨S_, .f32⟩
  | 38 => ⟨S_, .f32⟩
  | 39 => ⟨S_, .f32⟩
  | 40 => ⟨S32, .f32⟩
  | 41 => ⟨S32, .f32⟩
  | 42 => ⟨S32, .f32⟩
  | 43 => ⟨S_, .f32⟩
  | 44 => ⟨S_, .i1⟩
  | 45 => ⟨S_, .f32⟩
  | 46 => ⟨S_, .f32⟩
  | 47 => ⟨S32, .f32⟩
  | 48 => ⟨S32, .f32⟩
  | 49 => ⟨S1x32, .f32⟩
  | 50 => ⟨S100000x32, .f32⟩
  | 51 => ⟨S100000x32, .f32⟩
  | 52 => ⟨S_, .f32⟩
  | 53 => ⟨S32, .f32⟩
  | 54 => ⟨S32, .f32⟩
  | 55 => ⟨S32, .f32⟩
  | 56 => ⟨S1x32, .f32⟩
  | 57 => ⟨S100000x32, .f32⟩
  | 58 => ⟨S100000x32, .f32⟩
  | 59 => ⟨S1x32, .f32⟩
  | 60 => ⟨S100000x32, .f32⟩
  | 61 => ⟨S100000x32, .f32⟩
  | 62 => ⟨S1x32, .f32⟩
  | 63 => ⟨S100000x32, .f32⟩
  | 64 => ⟨S100000x32, .f32⟩
  | 65 => ⟨S_, .f32⟩
  | 66 => ⟨S100000x32, .f32⟩
  | 67 => ⟨S100000x32, .f32⟩
  | 68 => ⟨S100000x32, .f32⟩
  | 69 => ⟨S_, .f32⟩
  | 70 => ⟨S1600000, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S1600000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x32, .f32⟩
  | 107 => ⟨S1600000x1, .f32⟩
  | 108 => ⟨S1600000x32, .f32⟩
  | 109 => ⟨S1600000x32, .f32⟩
  | 110 => ⟨S_, .f32⟩
  | 111 => ⟨S100000x32, .f32⟩
  | 112 => ⟨S1600000x1, .i32⟩
  | 113 => ⟨S100000x32, .f32⟩
  | 114 => ⟨S100000, .f32⟩
  | 115 => ⟨S100000x1, .f32⟩
  | 116 => ⟨S100000x32, .f32⟩
  | 117 => ⟨S100000x32, .f32⟩
  | 118 => ⟨S100000x32, .f32⟩
  | 119 => ⟨S1x32, .f32⟩
  | 120 => ⟨S100000x32, .f32⟩
  | 121 => ⟨S100000x32, .f32⟩
  | 122 => ⟨S_, .f32⟩
  | 123 => ⟨S64x32, .f32⟩
  | 124 => ⟨S100000x1, .i32⟩
  | 125 => ⟨S64x32, .f32⟩
  | 126 => ⟨S_, .f32⟩
  | 127 => ⟨S100000, .f32⟩
  | _ => ⟨S100000x128, .f32⟩

abbrev hbmTy0_3 (i : Nat) : BufTy := match i % 128 with
  | 0 => ⟨S_, .f32⟩
  | 1 => ⟨S64, .f32⟩
  | 2 => ⟨S100000x1, .i32⟩
  | 3 => ⟨S64, .f32⟩
  | 4 => ⟨S_, .f32⟩
  | 5 => ⟨S64, .f32⟩
  | 6 => ⟨S64, .f32⟩
  | 7 => ⟨S64x1, .f32⟩
  | 8 => ⟨S64x32, .f32⟩
  | 9 => ⟨S64x32, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_call0_cst : Ref sig .tc := ⟨.hbm, 81, rfl⟩
abbrev main_call0_v0 : Ref sig .tc := ⟨.hbm, 82, rfl⟩
abbrev main_call0_v1 : Ref sig .tc := ⟨.hbm, 83, rfl⟩
abbrev main_call0_cst_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_cst_2 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_cst_3 : Ref sig .tc := ⟨.hbm, 97, rfl⟩
abbrev main_call0_v12 : Ref sig .tc := ⟨.hbm, 98, rfl⟩
abbrev main_call0_cst_4 : Ref sig .tc := ⟨.hbm, 99, rfl⟩
abbrev main_call0_call0_v0 : Ref sig .tc := ⟨.hbm, 100, rfl⟩
abbrev main_call0_call0_v1 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst_11 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_call1_cst : Ref sig .tc := ⟨.hbm, 119, rfl⟩
abbrev main_call1_v0 : Ref sig .tc := ⟨.hbm, 120, rfl⟩
abbrev main_v67 : Ref sig .tc := ⟨.hbm, 121, rfl⟩
abbrev main_v68 : Ref sig .tc := ⟨.hbm, 122, rfl⟩
abbrev main_cst_12 : Ref sig .tc := ⟨.hbm, 123, rfl⟩
abbrev main_v69 : Ref sig .tc := ⟨.hbm, 124, rfl⟩
abbrev main_cst_13 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_14 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_15 : Ref sig .tc := ⟨.hbm, 133, rfl⟩
abbrev main_v76 : Ref sig .tc := ⟨.hbm, 134, rfl⟩
abbrev main_v77 : Ref sig .tc := ⟨.hbm, 135, rfl⟩
abbrev main_c_16 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_c_17 : Ref sig .tc := ⟨.hbm, 142, rfl⟩
abbrev main_v83 : Ref sig .tc := ⟨.hbm, 143, rfl⟩
abbrev main_v84 : Ref sig .tc := ⟨.hbm, 144, rfl⟩
abbrev main_c_18 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_c_19 : Ref sig .tc := ⟨.hbm, 152, rfl⟩
abbrev main_v91 : Ref sig .tc := ⟨.hbm, 153, rfl⟩
abbrev main_v92 : Ref sig .tc := ⟨.hbm, 154, rfl⟩
abbrev main_c_20 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_21 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_22 : Ref sig .tc := ⟨.hbm, 176, rfl⟩
abbrev main_v112 : Ref sig .tc := ⟨.hbm, 177, rfl⟩
abbrev main_cst_23 : Ref sig .tc := ⟨.hbm, 178, rfl⟩
abbrev main_v113 : Ref sig .tc := ⟨.hbm, 179, rfl⟩
abbrev main_v114 : Ref sig .tc := ⟨.hbm, 180, rfl⟩
abbrev main_c_24 : Ref sig .tc := ⟨.hbm, 181, rfl⟩
abbrev main_call2_cst : Ref sig .tc := ⟨.hbm, 182, rfl⟩
abbrev main_call2_v0 : Ref sig .tc := ⟨.hbm, 183, rfl⟩
abbrev main_call2_v1 : Ref sig .tc := ⟨.hbm, 184, rfl⟩
abbrev main_call2_cst_0 : Ref sig .tc := ⟨.hbm, 185, rfl⟩
abbrev main_call2_v2 : Ref sig .tc := ⟨.hbm, 186, rfl⟩
abbrev main_call2_v3 : Ref sig .tc := ⟨.hbm, 187, rfl⟩
abbrev main_call2_v4 : Ref sig .tc := ⟨.hbm, 188, rfl⟩
abbrev main_call2_v5 : Ref sig .tc := ⟨.hbm, 189, rfl⟩
abbrev main_call2_v6 : Ref sig .tc := ⟨.hbm, 190, rfl⟩
abbrev main_call2_v7 : Ref sig .tc := ⟨.hbm, 191, rfl⟩
abbrev main_call2_cst_1 : Ref sig .tc := ⟨.hbm, 192, rfl⟩
abbrev main_call2_v8 : Ref sig .tc := ⟨.hbm, 193, rfl⟩
abbrev main_call2_cst_2 : Ref sig .tc := ⟨.hbm, 194, rfl⟩
abbrev main_call2_v9 : Ref sig .tc := ⟨.hbm, 195, rfl⟩
abbrev main_call2_v10 : Ref sig .tc := ⟨.hbm, 196, rfl⟩
abbrev main_call2_v11 : Ref sig .tc := ⟨.hbm, 197, rfl⟩
abbrev main_call2_cst_3 : Ref sig .tc := ⟨.hbm, 198, rfl⟩
abbrev main_call2_v12 : Ref sig .tc := ⟨.hbm, 199, rfl⟩
abbrev main_call2_cst_4 : Ref sig .tc := ⟨.hbm, 200, rfl⟩
abbrev main_call2_call0_v0 : Ref sig .tc := ⟨.hbm, 201, rfl⟩
abbrev main_call2_call0_v1 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_cst_25 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_call3_cst : Ref sig .tc := ⟨.hbm, 220, rfl⟩
abbrev main_call3_v0 : Ref sig .tc := ⟨.hbm, 221, rfl⟩
abbrev main_v131 : Ref sig .tc := ⟨.hbm, 222, rfl⟩
abbrev main_v132 : Ref sig .tc := ⟨.hbm, 223, rfl⟩
abbrev main_cst_26 : Ref sig .tc := ⟨.hbm, 224, rfl⟩
abbrev main_v133 : Ref sig .tc := ⟨.hbm, 225, rfl⟩
abbrev main_cst_27 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_cst_28 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_c_29 : Ref sig .tc := ⟨.hbm, 234, rfl⟩
abbrev main_v140 : Ref sig .tc := ⟨.hbm, 235, rfl⟩
abbrev main_v141 : Ref sig .tc := ⟨.hbm, 236, rfl⟩
abbrev main_c_30 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_v146 : Ref sig .tc := ⟨.hbm, 242, rfl⟩
abbrev main_c_31 : Ref sig .tc := ⟨.hbm, 243, rfl⟩
abbrev main_v147 : Ref sig .tc := ⟨.hbm, 244, rfl⟩
abbrev main_v148 : Ref sig .tc := ⟨.hbm, 245, rfl⟩
abbrev main_c_32 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_c_33 : Ref sig .tc := ⟨.hbm, 253, rfl⟩
abbrev main_v155 : Ref sig .tc := ⟨.hbm, 254, rfl⟩
abbrev main_v156 : Ref sig .tc := ⟨.hbm, 255, rfl⟩
abbrev main_c_34 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_v160 : Ref sig .tc := ⟨.hbm, 260, rfl⟩
abbrev main_v161 : Ref sig .tc := ⟨.hbm, 261, rfl⟩
abbrev main_v162 : Ref sig .tc := ⟨.hbm, 262, rfl⟩
abbrev main_v163 : Ref sig .tc := ⟨.hbm, 263, rfl⟩
abbrev main_v164 : Ref sig .tc := ⟨.hbm, 264, rfl⟩
abbrev main_cst_35 : Ref sig .tc := ⟨.hbm, 265, rfl⟩
abbrev main_v165 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_cst_36 : Ref sig .tc := ⟨.hbm, 277, rfl⟩
abbrev main_v176 : Ref sig .tc := ⟨.hbm, 278, rfl⟩
abbrev main_cst_37 : Ref sig .tc := ⟨.hbm, 279, rfl⟩
abbrev main_v177 : Ref sig .tc := ⟨.hbm, 280, rfl⟩
abbrev main_v178 : Ref sig .tc := ⟨.hbm, 281, rfl⟩
abbrev main_c_38 : Ref sig .tc := ⟨.hbm, 282, rfl⟩
abbrev main_call4_cst : Ref sig .tc := ⟨.hbm, 283, rfl⟩
abbrev main_call4_v0 : Ref sig .tc := ⟨.hbm, 284, rfl⟩
abbrev main_call4_v1 : Ref sig .tc := ⟨.hbm, 285, rfl⟩
abbrev main_call4_cst_0 : Ref sig .tc := ⟨.hbm, 286, rfl⟩
abbrev main_call4_v2 : Ref sig .tc := ⟨.hbm, 287, rfl⟩
abbrev main_call4_v3 : Ref sig .tc := ⟨.hbm, 288, rfl⟩
abbrev main_call4_v4 : Ref sig .tc := ⟨.hbm, 289, rfl⟩
abbrev main_call4_v5 : Ref sig .tc := ⟨.hbm, 290, rfl⟩
abbrev main_call4_v6 : Ref sig .tc := ⟨.hbm, 291, rfl⟩
abbrev main_call4_v7 : Ref sig .tc := ⟨.hbm, 292, rfl⟩
abbrev main_call4_cst_1 : Ref sig .tc := ⟨.hbm, 293, rfl⟩
abbrev main_call4_v8 : Ref sig .tc := ⟨.hbm, 294, rfl⟩
abbrev main_call4_cst_2 : Ref sig .tc := ⟨.hbm, 295, rfl⟩
abbrev main_call4_v9 : Ref sig .tc := ⟨.hbm, 296, rfl⟩
abbrev main_call4_v10 : Ref sig .tc := ⟨.hbm, 297, rfl⟩
abbrev main_call4_v11 : Ref sig .tc := ⟨.hbm, 298, rfl⟩
abbrev main_call4_cst_3 : Ref sig .tc := ⟨.hbm, 299, rfl⟩
abbrev main_call4_v12 : Ref sig .tc := ⟨.hbm, 300, rfl⟩
abbrev main_call4_cst_4 : Ref sig .tc := ⟨.hbm, 301, rfl⟩
abbrev main_call4_call0_v0 : Ref sig .tc := ⟨.hbm, 302, rfl⟩
abbrev main_call4_call0_v1 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_cst_39 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_v187 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_v192 : Ref sig .tc := ⟨.hbm, 318, rfl⟩
abbrev main_v193 : Ref sig .tc := ⟨.hbm, 319, rfl⟩
abbrev main_v194 : Ref sig .tc := ⟨.hbm, 320, rfl⟩
abbrev main_call5_cst : Ref sig .tc := ⟨.hbm, 321, rfl⟩
abbrev main_call5_v0 : Ref sig .tc := ⟨.hbm, 322, rfl⟩
abbrev main_v195 : Ref sig .tc := ⟨.hbm, 323, rfl⟩
abbrev main_v196 : Ref sig .tc := ⟨.hbm, 324, rfl⟩
abbrev main_cst_40 : Ref sig .tc := ⟨.hbm, 325, rfl⟩
abbrev main_v197 : Ref sig .tc := ⟨.hbm, 326, rfl⟩
abbrev main_cst_41 : Ref sig .tc := ⟨.hbm, 327, rfl⟩
abbrev main_v198 : Ref sig .tc := ⟨.hbm, 328, rfl⟩
abbrev main_v199 : Ref sig .tc := ⟨.hbm, 329, rfl⟩
abbrev main_v200 : Ref sig .tc := ⟨.hbm, 330, rfl⟩
abbrev main_cst_42 : Ref sig .tc := ⟨.hbm, 331, rfl⟩
abbrev main_v201 : Ref sig .tc := ⟨.hbm, 332, rfl⟩
abbrev main_v202 : Ref sig .tc := ⟨.hbm, 333, rfl⟩
abbrev main_v203 : Ref sig .tc := ⟨.hbm, 334, rfl⟩
abbrev main_c_43 : Ref sig .tc := ⟨.hbm, 335, rfl⟩
abbrev main_v204 : Ref sig .tc := ⟨.hbm, 336, rfl⟩
abbrev main_v205 : Ref sig .tc := ⟨.hbm, 337, rfl⟩
abbrev main_c_44 : Ref sig .tc := ⟨.hbm, 338, rfl⟩
abbrev main_v206 : Ref sig .tc := ⟨.hbm, 339, rfl⟩
abbrev main_v207 : Ref sig .tc := ⟨.hbm, 340, rfl⟩
abbrev main_v208 : Ref sig .tc := ⟨.hbm, 341, rfl⟩
abbrev main_v209 : Ref sig .tc := ⟨.hbm, 342, rfl⟩
abbrev main_v210 : Ref sig .tc := ⟨.hbm, 343, rfl⟩
abbrev main_c_45 : Ref sig .tc := ⟨.hbm, 344, rfl⟩
abbrev main_v211 : Ref sig .tc := ⟨.hbm, 345, rfl⟩
abbrev main_v212 : Ref sig .tc := ⟨.hbm, 346, rfl⟩
abbrev main_c_46 : Ref sig .tc := ⟨.hbm, 347, rfl⟩
abbrev main_v213 : Ref sig .tc := ⟨.hbm, 348, rfl⟩
abbrev main_v214 : Ref sig .tc := ⟨.hbm, 349, rfl⟩
abbrev main_v215 : Ref sig .tc := ⟨.hbm, 350, rfl⟩
abbrev main_v216 : Ref sig .tc := ⟨.hbm, 351, rfl⟩
abbrev main_v217 : Ref sig .tc := ⟨.hbm, 352, rfl⟩
abbrev main_v218 : Ref sig .tc := ⟨.hbm, 353, rfl⟩
abbrev main_c_47 : Ref sig .tc := ⟨.hbm, 354, rfl⟩
abbrev main_v219 : Ref sig .tc := ⟨.hbm, 355, rfl⟩
abbrev main_v220 : Ref sig .tc := ⟨.hbm, 356, rfl⟩
abbrev main_c_48 : Ref sig .tc := ⟨.hbm, 357, rfl⟩
abbrev main_v221 : Ref sig .tc := ⟨.hbm, 358, rfl⟩
abbrev main_v222 : Ref sig .tc := ⟨.hbm, 359, rfl⟩
abbrev main_v223 : Ref sig .tc := ⟨.hbm, 360, rfl⟩
abbrev main_v224 : Ref sig .tc := ⟨.hbm, 361, rfl⟩
abbrev main_v225 : Ref sig .tc := ⟨.hbm, 362, rfl⟩
abbrev main_v226 : Ref sig .tc := ⟨.hbm, 363, rfl⟩
abbrev main_v227 : Ref sig .tc := ⟨.hbm, 364, rfl⟩
abbrev main_v228 : Ref sig .tc := ⟨.hbm, 365, rfl⟩
abbrev main_cst_49 : Ref sig .tc := ⟨.hbm, 366, rfl⟩
abbrev main_v229 : Ref sig .tc := ⟨.hbm, 367, rfl⟩
abbrev main_v230 : Ref sig .tc := ⟨.hbm, 368, rfl⟩
abbrev main_v231 : Ref sig .tc := ⟨.hbm, 369, rfl⟩
abbrev main_v232 : Ref sig .tc := ⟨.hbm, 370, rfl⟩
abbrev main_v233 : Ref sig .tc := ⟨.hbm, 371, rfl⟩
abbrev main_v234 : Ref sig .tc := ⟨.hbm, 372, rfl⟩
abbrev main_v235 : Ref sig .tc := ⟨.hbm, 373, rfl⟩
abbrev main_v236 : Ref sig .tc := ⟨.hbm, 374, rfl⟩
abbrev main_v237 : Ref sig .tc := ⟨.hbm, 375, rfl⟩
abbrev main_v238 : Ref sig .tc := ⟨.hbm, 376, rfl⟩
abbrev main_v239 : Ref sig .tc := ⟨.hbm, 377, rfl⟩
abbrev main_cst_50 : Ref sig .tc := ⟨.hbm, 378, rfl⟩
abbrev main_v240 : Ref sig .tc := ⟨.hbm, 379, rfl⟩
abbrev main_v241 : Ref sig .tc := ⟨.hbm, 380, rfl⟩
abbrev main_v242 : Ref sig .tc := ⟨.hbm, 381, rfl⟩
abbrev main_cst_51 : Ref sig .tc := ⟨.hbm, 382, rfl⟩
abbrev main_v243 : Ref sig .tc := ⟨.hbm, 383, rfl⟩
abbrev main_cst_52 : Ref sig .tc := ⟨.hbm, 384, rfl⟩
abbrev main_v244 : Ref sig .tc := ⟨.hbm, 385, rfl⟩
abbrev main_v245 : Ref sig .tc := ⟨.hbm, 386, rfl⟩
abbrev main_v246 : Ref sig .tc := ⟨.hbm, 387, rfl⟩
abbrev main_cst_53 : Ref sig .tc := ⟨.hbm, 388, rfl⟩
abbrev main_v247 : Ref sig .tc := ⟨.hbm, 389, rfl⟩
abbrev main_v248 : Ref sig .tc := ⟨.hbm, 390, rfl⟩
abbrev main_v249 : Ref sig .tc := ⟨.hbm, 391, rfl⟩
abbrev main_v250 : Ref sig .tc := ⟨.hbm, 392, rfl⟩
abbrev main_v251 : Ref sig .tc := ⟨.hbm, 393, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  bcast_S_S64x32 : S_.BroadcastsInDim S64x32 (![] : Fin 0 → Fin S64x32.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  dot_S100000x128_S128x32_S100000x32_1_0_0_1_n_n_wf : DotDims.WF S100000x128 S128x32 S100000x32 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.RefPart0.lean ====
/-
  Statements 1 … 60 of the reference's @main as ONE list of host operations (a called function's
  operations listed at its call, over that call's buffers), and the window of @main that runs them as the
  straight line over that list.
-/
import proofs.«104369_j66383014527707_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 1 … 60, in order. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg3 main_v4 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v4 main_v32 main_v33 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v33 main_v35 main_v36 (mulf : (⟨S1600000x32, .f32⟩ : BufTy).Contents (Elt F) → (⟨S1600000x32, .f32⟩ : BufTy).Contents (Elt F) → (⟨S1600000x32, .f32⟩ : BufTy).Contents (Elt F)),
    StableHlo.nullary main_cst_7 (constant S_ .f32 0x00000000#32),
    StableHlo.unary main_cst_7 main_v37 (broadcastInDim S100000x32 ![] bcast_S_S100000x32 : (⟨S_, .f32⟩ : BufTy).Contents (Elt F) → (⟨S100000x32, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x32 ![0, 1] bcast_S100000x1_S100000x32_0_1 : (⟨S100000x1, .f32⟩ : BufTy).Contents (Elt F) → (⟨S100000x32, .f32⟩ : BufTy).Contents (Elt F)),
    StableHlo.binary main_v4 main_v42 main_v43 (mulf : (⟨S100000x32, .f32⟩ : BufTy).Contents (Elt F) → (⟨S100000x32, .f32⟩ : BufTy).Contents (Elt F) → (⟨S100000x32, .f32⟩ : BufTy).Contents (Elt F)),
    StableHlo.binary main_v39 main_v43 main_v44 (addf : (⟨S100000x32, .f32⟩ : BufTy).Contents (Elt F) → (⟨S100000x32, .f32⟩ : BufTy).Contents (Elt F) → (⟨S100000x32, .f32⟩ : BufTy).Contents (Elt F)),
    StableHlo.unary main_arg4 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S100000x32 ![0, 1] bcast_S1x32_S100000x32_0_1 : (⟨S1x32, .f32⟩ : BufTy).Contents (Elt F) → (⟨S100000x32, .f32⟩ : BufTy).Contents (Elt F)),
    StableHlo.binary main_v44 main_v46 main_v47 (addf : (⟨S100000x32, .f32⟩ : BufTy).Contents (Elt F) → (⟨S100000x32, .f32⟩ : BufTy).Contents (Elt F) → (⟨S100000x32, .f32⟩ : BufTy).Contents (Elt F)),
    StableHlo.nullary main_cst_8 (constant S_ .f32 0x00000000#32),
    StableHlo.binary main_v47 main_cst_8 main_v48 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)) ]

/-- The window is the straight line over the list: both are one chain of host steps. -/
theorem part0_eq (c : Dev nD) : main_part0 (F := F) c = seq ops0 := rfl

/-- Every operation touches TensorCore references only. -/
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub ..⟩

/-- No operation allocates a buffer. -/
theorem ops0_fresh : (ops0 : List (HloOp τ sig (Elt F))).Forall fun op => op.fresh = ∅ := by
  simp only [List.Forall]; repeat' constructor

end Cert.ReferenceIdeal.RefRun

end
-- ==== Proof.RefKept0.lean ====
/-
  The argument arrays pass through statements 1 … 60 of the reference's @main unchanged: no operation of
  the list writes one.
-/
import proofs.«104369_j66383014527707_2_alg».proof.Proof.RefPart0

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept0_main_arg0 (V : Valuation τ sig (Elt F)) :
    after ops0 V (Proc.devRef .tc main_arg0) = V (Proc.devRef .tc main_arg0) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg1 (V : Valuation τ sig (Elt F)) :
    after ops0 V (Proc.devRef .tc main_arg1) = V (Proc.devRef .tc main_arg1) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg2 (V : Valuation τ sig (Elt F)) :
    after ops0 V (Proc.devRef .tc main_arg2) = V (Proc.devRef .tc main_arg2) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg3 (V : Valuation τ sig (Elt F)) :
    after ops0 V (Proc.devRef .tc main_arg3) = V (Proc.devRef .tc main_arg3) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg4 (V : Valuation τ sig (Elt F)) :
    after ops0 V (Proc.devRef .tc main_arg4) = V (Proc.devRef .tc main_arg4) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg5 (V : Valuation τ sig (Elt F)) :
    after ops0 V (Proc.devRef .tc main_arg5) = V (Proc.devRef .tc main_arg5) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg6 (V : Valuation τ sig (Elt F)) :
    after ops0 V (Proc.devRef .tc main_arg6) = V (Proc.devRef .tc main_arg6) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg7 (V : Valuation τ sig (Elt F)) :
    after ops0 V (Proc.devRef .tc main_arg7) = V (Proc.devRef .tc main_arg7) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg8 (V : Valuation τ sig (Elt F)) :
    after ops0 V (Proc.devRef .tc main_arg8) = V (Proc.devRef .tc main_arg8) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg9 (V : Valuation τ sig (Elt F)) :
    after ops0 V (Proc.devRef .tc main_arg9) = V (Proc.devRef .tc main_arg9) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg10 (V : Valuation τ sig (Elt F)) :
    after ops0 V (Proc.devRef .tc main_arg10) = V (Proc.devRef .tc main_arg10) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg11 (V : Valuation τ sig (Elt F)) :
    after ops0 V (Proc.devRef .tc main_arg11) = V (Proc.devRef .tc main_arg11) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg12 (V : Valuation τ sig (Elt F)) :
    after ops0 V (Proc.devRef .tc main_arg12) = V (Proc.devRef .tc main_arg12) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg13 (V : Valuation τ sig (Elt F)) :
    after ops0 V (Proc.devRef .tc main_arg13) = V (Proc.devRef .tc main_arg13) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg14 (V : Valuation τ sig (Elt F)) :
    after ops0 V (Proc.devRef .tc main_arg14) = V (Proc.devRef .tc main_arg14) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg15 (V : Valuation τ sig (Elt F)) :
    after ops0 V (Proc.devRef .tc main_arg15) = V (Proc.devRef .tc main_arg15) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept0_main_arg16 (V : Valuation τ sig (Elt F)) :
    after ops0 V (Proc.devRef .tc main_arg16) = V (Proc.devRef .tc main_arg16) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

end Cert.ReferenceIdeal.RefRun

end
-- ==== Proof.RefPart1.lean ====
/-
  Statements 61 … 120 of the reference's @main as ONE list of host operations (a called function's
  operations listed at its call, over that call's buffers), and the window of @main that runs them as the
  straight line over that list.
-/
import proofs.«104369_j66383014527707_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 61 … 120, in order. -/
abbrev ops1 : List (HloOp τ sig (Elt F)) :=
  [ StableHlo.nullary main_cst_9 (constant S_ .f32 0x47C35000#32),
    StableHlo.unary main_cst_9 main_v49 (broadcastInDim S32 ![] bcast_S_S32 : (⟨S_, .f32⟩ : BufTy).Contents (Elt F) → (⟨S32, .f32⟩ : BufTy).Contents (Elt F)),
    StableHlo.binary main_v48 main_v49 main_v50 (Host.divf : (⟨S32, .f32⟩ : BufTy).Contents (Elt F) → (⟨S32, .f32⟩ : BufTy).Contents (Elt F) → (⟨S32, .f32⟩ : BufTy).Contents (Elt F)),
    StableHlo.nullary main_c_10 (constantI S_ 32 0#32),
    StableHlo.TRef.nullary main_call0.cst (constant S_ .f32 0x00000000#32),
    StableHlo.TRef.binary (.of main_v47) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (.of main_v47) main_call0.v4 main_call0.v5 subf,
    StableHlo.TRef.binary main_call0.v5 main_call0.v5 main_call0.v6 mulf,
    StableHlo.TRef.unary (.of main_c_10) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v50 main_v52 (broadcastInDim S1x32 ![1] bcast_S32_S1x32_1 : (⟨S32, .f32⟩ : BufTy).Contents (Elt F) → (⟨S1x32, .f32⟩ : BufTy).Contents (Elt F)),
    StableHlo.unary main_v52 main_v53 (broadcastInDim S100000x32 ![0, 1] bcast_S1x32_S100000x32_0_1 : (⟨S1x32, .f32⟩ : BufTy).Contents (Elt F) → (⟨S100000x32, .f32⟩ : BufTy).Contents (Elt F)),
    StableHlo.binary main_v47 main_v53 main_v54 (subf : (⟨S100000x32, .f32⟩ : BufTy).Contents (Elt F) → (⟨S100000x32, .f32⟩ : BufTy).Contents (Elt F) → (⟨S100000x32, .f32⟩ : BufTy).Contents (Elt F)),
    StableHlo.nullary main_cst_11 (constant S_ .f32 0x3727C5AC#32),
    StableHlo.unary main_cst_11 main_v55 (broadcastInDim S32 ![] bcast_S_S32 : (⟨S_, .f32⟩ : BufTy).Contents (Elt F) → (⟨S32, .f32⟩ : BufTy).Contents (Elt F)),
    StableHlo.binary main_v51 main_v55 main_v56 (addf : (⟨S32, .f32⟩ : BufTy).Contents (Elt F) → (⟨S32, .f32⟩ : BufTy).Contents (Elt F) → (⟨S32, .f32⟩ : BufTy).Contents (Elt F)),
    StableHlo.unary main_v56 main_v57 (Host.rsqrt : (⟨S32, .f32⟩ : BufTy).Contents (Elt F) → (⟨S32, .f32⟩ : BufTy).Contents (Elt F)),
    StableHlo.unary main_v57 main_v58 (broadcastInDim S1x32 ![1] bcast_S32_S1x32_1 : (⟨S32, .f32⟩ : BufTy).Contents (Elt F) → (⟨S1x32, .f32⟩ : BufTy).Contents (Elt F)),
    StableHlo.unary main_v58 main_v59 (broadcastInDim S100000x32 ![0, 1] bcast_S1x32_S100000x32_0_1 : (⟨S1x32, .f32⟩ : BufTy).Contents (Elt F) → (⟨S100000x32, .f32⟩ : BufTy).Contents (Elt F)),
    StableHlo.binary main_v54 main_v59 main_v60 (mulf : (⟨S100000x32, .f32⟩ : BufTy).Contents (Elt F) → (⟨S100000x32, .f32⟩ : BufTy).Contents (Elt F) → (⟨S100000x32, .f32⟩ : BufTy).Contents (Elt F)),
    StableHlo.unary main_arg5 main_v61 (broadcastInDim S1x32 ![1] bcast_S32_S1x32_1 : (⟨S32, .f32⟩ : BufTy).Contents (Elt F) → (⟨S1x32, .f32⟩ : BufTy).Contents (Elt F)),
    StableHlo.unary main_v61 main_v62 (broadcastInDim S100000x32 ![0, 1] bcast_S1x32_S100000x32_0_1 : (⟨S1x32, .f32⟩ : BufTy).Contents (Elt F) → (⟨S100000x32, .f32⟩ : BufTy).Contents (Elt F)),
    StableHlo.binary main_v60 main_v62 main_v63 (mulf : (⟨S100000x32, .f32⟩ : BufTy).Contents (Elt F) → (⟨S100000x32, .f32⟩ : BufTy).Contents (Elt F) → (⟨S100000x32, .f32⟩ : BufTy).Contents (Elt F)),
    StableHlo.unary main_arg6 main_v64 (broadcastInDim S1x32 ![1] bcast_S32_S1x32_1 : (⟨S32, .f32⟩ : BufTy).Contents (Elt F) → (⟨S1x32, .f32⟩ : BufTy).Contents (Elt F)),
    StableHlo.unary main_v64 main_v65 (broadcastInDim S100000x32 ![0, 1] bcast_S1x32_S100000x32_0_1 : (⟨S1x32, .f32⟩ : BufTy).Contents (Elt F) → (⟨S100000x32, .f32⟩ : BufTy).Contents (Elt F)),
    StableHlo.binary main_v63 main_v65 main_v66 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v66) main_call1.v0 main_call1.v1 maximumf,
    StableHlo.binary main_v67 main_arg7 main_v68 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_cst_12 (constant S_ .f32 0x3F800000#32),
    StableHlo.unary main_cst_12 main_v69 (broadcastInDim S1600000 ![] bcast_S_S1600000 : (⟨S_, .f32⟩ : BufTy).Contents (Elt F) → (⟨S1600000, .f32⟩ : BufTy).Contents (Elt F)),
    StableHlo.nullary main_cst_13 (constant S_ .f32 0x00000000#32),
    StableHlo.unary main_cst_13 main_v70 (broadcastInDim S100000 ![] bcast_S_S100000 : (⟨S_, .f32⟩ : BufTy).Contents (Elt F) → (⟨S100000, .f32⟩ : BufTy).Contents (Elt F)),
    StableHlo.unary main_v3 main_v71 (broadcastInDim S1600000x1 ![0] bcast_S1600000_S1600000x1_0 : (⟨S1600000, .i32⟩ : BufTy).Contents (Elt F) → (⟨S1600000x1, .i32⟩ : BufTy).Contents (Elt F)),
    StableHlo.ternary main_v70 main_v71 main_v69 main_v72 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_14 (constant S_ .f32 0x3F800000#32),
    StableHlo.unary main_cst_14 main_v73 (broadcastInDim S100000 ![] bcast_S_S100000 : (⟨S_, .f32⟩ : BufTy).Contents (Elt F) → (⟨S100000, .f32⟩ : BufTy).Contents (Elt F)),
    StableHlo.binary main_v72 main_v73 main_v74 (addf : (⟨S100000, .f32⟩ : BufTy).Contents (Elt F) → (⟨S100000, .f32⟩ : BufTy).Contents (Elt F) → (⟨S100000, .f32⟩ : BufTy).Contents (Elt F)),
    StableHlo.unary main_v74 main_v75 (Host.rsqrt : (⟨S100000, .f32⟩ : BufTy).Contents (Elt F) → (⟨S100000, .f32⟩ : BufTy).Contents (Elt F)),
    StableHlo.nullary main_c_15 (constantI S_ 32 0#32),
    StableHlo.unary main_c_15 main_v76 (broadcastInDim S1600000 ![] bcast_S_S1600000 : (⟨S_, .i32⟩ : BufTy).Contents (Elt F) → (⟨S1600000, .i32⟩ : BufTy).Contents (Elt F)),
    StableHlo.binary main_v1 main_v76 main_v77 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v78 (broadcastInDim S1600000 ![] bcast_S_S1600000 : (⟨S_, .i32⟩ : BufTy).Contents (Elt F) → (⟨S1600000, .i32⟩ : BufTy).Contents (Elt F)),
    StableHlo.binary main_v1 main_v78 main_v79 (addi : (⟨S1600000, .i32⟩ : BufTy).Contents (Elt F) → (⟨S1600000, .i32⟩ : BufTy).Contents (Elt F) → (⟨S1600000, .i32⟩ : BufTy).Contents (Elt F)),
    StableHlo.ternary main_v77 main_v79 main_v1 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v80 main_v81 (broadcastInDim S1600000x1 ![0] bcast_S1600000_S1600000x1_0 : (⟨S1600000, .i32⟩ : BufTy).Contents (Elt F) → (⟨S1600000x1, .i32⟩ : BufTy).Contents (Elt F)),
    StableHlo.binary main_v75 main_v81 main_v82 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_17 (constantI S_ 32 0#32),
    StableHlo.unary main_c_17 main_v83 (broadcastInDim S1600000 ![] bcast_S_S1600000 : (⟨S_, .i32⟩ : BufTy).Contents (Elt F) → (⟨S1600000, .i32⟩ : BufTy).Contents (Elt F)),
    StableHlo.binary main_v3 main_v83 main_v84 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v85 (broadcastInDim S1600000 ![] bcast_S_S1600000 : (⟨S_, .i32⟩ : BufTy).Contents (Elt F) → (⟨S1600000, .i32⟩ : BufTy).Contents (Elt F)),
    StableHlo.binary main_v3 main_v85 main_v86 (addi : (⟨S1600000, .i32⟩ : BufTy).Contents (Elt F) → (⟨S1600000, .i32⟩ : BufTy).Contents (Elt F) → (⟨S1600000, .i32⟩ : BufTy).Contents (Elt F)),
    StableHlo.ternary main_v84 main_v86 main_v3 main_v87 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v87 main_v88 (broadcastInDim S1600000x1 ![0] bcast_S1600000_S1600000x1_0 : (⟨S1600000, .i32⟩ : BufTy).Contents (Elt F) → (⟨S1600000x1, .i32⟩ : BufTy).Contents (Elt F)),
    StableHlo.binary main_v75 main_v88 main_v89 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v82 main_v89 main_v90 (mulf : (⟨S1600000, .f32⟩ : BufTy).Contents (Elt F) → (⟨S1600000, .f32⟩ : BufTy).Contents (Elt F) → (⟨S1600000, .f32⟩ : BufTy).Contents (Elt F)),
    StableHlo.nullary main_c_19 (constantI S_ 32 0#32),
    StableHlo.unary main_c_19 main_v91 (broadcastInDim S1600000 ![] bcast_S_S1600000 : (⟨S_, .i32⟩ : BufTy).Contents (Elt F) → (⟨S1600000, .i32⟩ : BufTy).Contents (Elt F)),
    StableHlo.binary main_v1 main_v91 main_v92 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v93 (broadcastInDim S1600000 ![] bcast_S_S1600000 : (⟨S_, .i32⟩ : BufTy).Contents (Elt F) → (⟨S1600000, .i32⟩ : BufTy).Contents (Elt F)),
    StableHlo.binary main_v1 main_v93 main_v94 (addi : (⟨S1600000, .i32⟩ : BufTy).Contents (Elt F) → (⟨S1600000, .i32⟩ : BufTy).Contents (Elt F) → (⟨S1600000, .i32⟩ : BufTy).Contents (Elt F)),
    StableHlo.ternary main_v92 main_v94 main_v1 main_v95 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v95 main_v96 (broadcastInDim S1600000x1 ![0] bcast_S1600000_S1600000x1_0 : (⟨S1600000, .i32⟩ : BufTy).Contents (Elt F) → (⟨S1600000x1, .i32⟩ : BufTy).Contents (Elt F)) ]

/-- The window is the straight line over the list: both are one chain of host steps. -/
theorem part1_eq (c : Dev nD) : main_part1 (F := F) c = seq ops1 := rfl

/-- Every operation touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub ..⟩

/-- No operation allocates a buffer. -/
theorem ops1_fresh : (ops1 : List (HloOp τ sig (Elt F))).Forall fun op => op.fresh = ∅ := by
  simp only [List.Forall]; repeat' constructor

end Cert.ReferenceIdeal.RefRun

end
-- ==== Proof.RefKept1.lean ====
/-
  The argument arrays pass through statements 61 … 120 of the reference's @main unchanged: no operation of
  the list writes one.
-/
import proofs.«104369_j66383014527707_2_alg».proof.Proof.RefPart1

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept1_main_arg0 (V : Valuation τ sig (Elt F)) :
    after ops1 V (Proc.devRef .tc main_arg0) = V (Proc.devRef .tc main_arg0) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg1 (V : Valuation τ sig (Elt F)) :
    after ops1 V (Proc.devRef .tc main_arg1) = V (Proc.devRef .tc main_arg1) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg2 (V : Valuation τ sig (Elt F)) :
    after ops1 V (Proc.devRef .tc main_arg2) = V (Proc.devRef .tc main_arg2) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg3 (V : Valuation τ sig (Elt F)) :
    after ops1 V (Proc.devRef .tc main_arg3) = V (Proc.devRef .tc main_arg3) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg4 (V : Valuation τ sig (Elt F)) :
    after ops1 V (Proc.devRef .tc main_arg4) = V (Proc.devRef .tc main_arg4) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg5 (V : Valuation τ sig (Elt F)) :
    after ops1 V (Proc.devRef .tc main_arg5) = V (Proc.devRef .tc main_arg5) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg6 (V : Valuation τ sig (Elt F)) :
    after ops1 V (Proc.devRef .tc main_arg6) = V (Proc.devRef .tc main_arg6) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg7 (V : Valuation τ sig (Elt F)) :
    after ops1 V (Proc.devRef .tc main_arg7) = V (Proc.devRef .tc main_arg7) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg8 (V : Valuation τ sig (Elt F)) :
    after ops1 V (Proc.devRef .tc main_arg8) = V (Proc.devRef .tc main_arg8) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg9 (V : Valuation τ sig (Elt F)) :
    after ops1 V (Proc.devRef .tc main_arg9) = V (Proc.devRef .tc main_arg9) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg10 (V : Valuation τ sig (Elt F)) :
    after ops1 V (Proc.devRef .tc main_arg10) = V (Proc.devRef .tc main_arg10) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg11 (V : Valuation τ sig (Elt F)) :
    after ops1 V (Proc.devRef .tc main_arg11) = V (Proc.devRef .tc main_arg11) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg12 (V : Valuation τ sig (Elt F)) :
    after ops1 V (Proc.devRef .tc main_arg12) = V (Proc.devRef .tc main_arg12) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg13 (V : Valuation τ sig (Elt F)) :
    after ops1 V (Proc.devRef .tc main_arg13) = V (Proc.devRef .tc main_arg13) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg14 (V : Valuation τ sig (Elt F)) :
    after ops1 V (Proc.devRef .tc main_arg14) = V (Proc.devRef .tc main_arg14) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg15 (V : Valuation τ sig (Elt F)) :
    after ops1 V (Proc.devRef .tc main_arg15) = V (Proc.devRef .tc main_arg15) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept1_main_arg16 (V : Valuation τ sig (Elt F)) :
    after ops1 V (Proc.devRef .tc main_arg16) = V (Proc.devRef .tc main_arg16) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

end Cert.ReferenceIdeal.RefRun

end
-- ==== Proof.RefPart2.lean ====
/-
  Statements 121 … 180 of the reference's @main as ONE list of host operations (a called function's
  operations listed at its call, over that call's buffers), and the window of @main that runs them as the
  straight line over that list.
-/
import proofs.«104369_j66383014527707_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 121 … 180, in order. -/
abbrev ops2 : List (HloOp τ sig (Elt F)) :=
  [ StableHlo.binary main_v68 main_v96 main_v97 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v90 main_v98 (broadcastInDim S1600000x1 ![0] bcast_S1600000_S1600000x1_0 : (⟨S1600000, .f32⟩ : BufTy).Contents (Elt F) → (⟨S1600000x1, .f32⟩ : BufTy).Contents (Elt F)),
    StableHlo.unary main_v98 main_v99 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v97 main_v99 main_v100 (mulf : (⟨S1600000x32, .f32⟩ : BufTy).Contents (Elt F) → (⟨S1600000x32, .f32⟩ : BufTy).Contents (Elt F) → (⟨S1600000x32, .f32⟩ : BufTy).Contents (Elt F)),
    StableHlo.nullary main_cst_21 (constant S_ .f32 0x00000000#32),
    StableHlo.unary main_cst_21 main_v101 (broadcastInDim S100000x32 ![] bcast_S_S100000x32 : (⟨S_, .f32⟩ : BufTy).Contents (Elt F) → (⟨S100000x32, .f32⟩ : BufTy).Contents (Elt F)),
    StableHlo.unary main_v3 main_v102 (broadcastInDim S1600000x1 ![0] bcast_S1600000_S1600000x1_0 : (⟨S1600000, .i32⟩ : BufTy).Contents (Elt F) → (⟨S1600000x1, .i32⟩ : BufTy).Contents (Elt F)),
    StableHlo.ternary main_v101 main_v102 main_v100 main_v103 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v75 main_v75 main_v104 (mulf : (⟨S100000, .f32⟩ : BufTy).Contents (Elt F) → (⟨S100000, .f32⟩ : BufTy).Contents (Elt F) → (⟨S100000, .f32⟩ : BufTy).Contents (Elt F)),
    StableHlo.unary main_v104 main_v105 (broadcastInDim S100000x1 ![0] bcast_S100000_S100000x1_0 : (⟨S100000, .f32⟩ : BufTy).Contents (Elt F) → (⟨S100000x1, .f32⟩ : BufTy).Contents (Elt F)),
    StableHlo.unary main_v105 main_v106 (broadcastInDim S100000x32 ![0, 1] bcast_S100000x1_S100000x32_0_1 : (⟨S100000x1, .f32⟩ : BufTy).Contents (Elt F) → (⟨S100000x32, .f32⟩ : BufTy).Contents (Elt F)),
    StableHlo.binary main_v68 main_v106 main_v107 (mulf : (⟨S100000x32, .f32⟩ : BufTy).Contents (Elt F) → (⟨S100000x32, .f32⟩ : BufTy).Contents (Elt F) → (⟨S100000x32, .f32⟩ : BufTy).Contents (Elt F)),
    StableHlo.binary main_v103 main_v107 main_v108 (addf : (⟨S100000x32, .f32⟩ : BufTy).Contents (Elt F) → (⟨S100000x32, .f32⟩ : BufTy).Contents (Elt F) → (⟨S100000x32, .f32⟩ : BufTy).Contents (Elt F)),
    StableHlo.unary main_arg8 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S100000x32 ![0, 1] bcast_S1x32_S100000x32_0_1 : (⟨S1x32, .f32⟩ : BufTy).Contents (Elt F) → (⟨S100000x32, .f32⟩ : BufTy).Contents (Elt F)),
    StableHlo.binary main_v108 main_v110 main_v111 (addf : (⟨S100000x32, .f32⟩ : BufTy).Contents (Elt F) → (⟨S100000x32, .f32⟩ : BufTy).Contents (Elt F) → (⟨S100000x32, .f32⟩ : BufTy).Contents (Elt F)),
    StableHlo.nullary main_cst_22 (constant S_ .f32 0x00000000#32),
    StableHlo.binary main_v111 main_cst_22 main_v112 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_23 (constant S_ .f32 0x47C35000#32),
    StableHlo.unary main_cst_23 main_v113 (broadcastInDim S32 ![] bcast_S_S32 : (⟨S_, .f32⟩ : BufTy).Contents (Elt F) → (⟨S32, .f32⟩ : BufTy).Contents (Elt F)),
    StableHlo.binary main_v112 main_v113 main_v114 (Host.divf : (⟨S32, .f32⟩ : BufTy).Contents (Elt F) → (⟨S32, .f32⟩ : BufTy).Contents (Elt F) → (⟨S32, .f32⟩ : BufTy).Contents (Elt F)),
    StableHlo.nullary main_c_24 (constantI S_ 32 0#32),
    StableHlo.TRef.nullary main_call2.cst (constant S_ .f32 0x00000000#32),
    StableHlo.TRef.binary (.of main_v111) main_call2.cst main_call2.v0 (fun x v => Host.reduceAdd x v reducesTo_S100000x32_S32_d0 h_S_),
    StableHlo.TRef.unary main_call2.v0 main_call2.v1 (broadcastInDim S1x32 ![1] bcast_S32_S1x32_1),
    StableHlo.TRef.nullary main_call2.cst_0 (constant S_ .f32 0x47C35000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S100000x32 ![0, 1] bcast_S1x32_S100000x32_0_1),
    StableHlo.TRef.binary (.of main_v111) main_call2.v4 main_call2.v5 subf,
    StableHlo.TRef.binary main_call2.v5 main_call2.v5 main_call2.v6 mulf,
    StableHlo.TRef.unary (.of main_c_24) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v114 main_v116 (broadcastInDim S1x32 ![1] bcast_S32_S1x32_1 : (⟨S32, .f32⟩ : BufTy).Contents (Elt F) → (⟨S1x32, .f32⟩ : BufTy).Contents (Elt F)),
    StableHlo.unary main_v116 main_v117 (broadcastInDim S100000x32 ![0, 1] bcast_S1x32_S100000x32_0_1 : (⟨S1x32, .f32⟩ : BufTy).Contents (Elt F) → (⟨S100000x32, .f32⟩ : BufTy).Contents (Elt F)),
    StableHlo.binary main_v111 main_v117 main_v118 (subf : (⟨S100000x32, .f32⟩ : BufTy).Contents (Elt F) → (⟨S100000x32, .f32⟩ : BufTy).Contents (Elt F) → (⟨S100000x32, .f32⟩ : BufTy).Contents (Elt F)),
    StableHlo.nullary main_cst_25 (constant S_ .f32 0x3727C5AC#32),
    StableHlo.unary main_cst_25 main_v119 (broadcastInDim S32 ![] bcast_S_S32 : (⟨S_, .f32⟩ : BufTy).Contents (Elt F) → (⟨S32, .f32⟩ : BufTy).Contents (Elt F)),
    StableHlo.binary main_v115 main_v119 main_v120 (addf : (⟨S32, .f32⟩ : BufTy).Contents (Elt F) → (⟨S32, .f32⟩ : BufTy).Contents (Elt F) → (⟨S32, .f32⟩ : BufTy).Contents (Elt F)),
    StableHlo.unary main_v120 main_v121 (Host.rsqrt : (⟨S32, .f32⟩ : BufTy).Contents (Elt F) → (⟨S32, .f32⟩ : BufTy).Contents (Elt F)),
    StableHlo.unary main_v121 main_v122 (broadcastInDim S1x32 ![1] bcast_S32_S1x32_1 : (⟨S32, .f32⟩ : BufTy).Contents (Elt F) → (⟨S1x32, .f32⟩ : BufTy).Contents (Elt F)),
    StableHlo.unary main_v122 main_v123 (broadcastInDim S100000x32 ![0, 1] bcast_S1x32_S100000x32_0_1 : (⟨S1x32, .f32⟩ : BufTy).Contents (Elt F) → (⟨S100000x32, .f32⟩ : BufTy).Contents (Elt F)),
    StableHlo.binary main_v118 main_v123 main_v124 (mulf : (⟨S100000x32, .f32⟩ : BufTy).Contents (Elt F) → (⟨S100000x32, .f32⟩ : BufTy).Contents (Elt F) → (⟨S100000x32, .f32⟩ : BufTy).Contents (Elt F)),
    StableHlo.unary main_arg9 main_v125 (broadcastInDim S1x32 ![1] bcast_S32_S1x32_1 : (⟨S32, .f32⟩ : BufTy).Contents (Elt F) → (⟨S1x32, .f32⟩ : BufTy).Contents (Elt F)),
    StableHlo.unary main_v125 main_v126 (broadcastInDim S100000x32 ![0, 1] bcast_S1x32_S100000x32_0_1 : (⟨S1x32, .f32⟩ : BufTy).Contents (Elt F) → (⟨S100000x32, .f32⟩ : BufTy).Contents (Elt F)),
    StableHlo.binary main_v124 main_v126 main_v127 (mulf : (⟨S100000x32, .f32⟩ : BufTy).Contents (Elt F) → (⟨S100000x32, .f32⟩ : BufTy).Contents (Elt F) → (⟨S100000x32, .f32⟩ : BufTy).Contents (Elt F)),
    StableHlo.unary main_arg10 main_v128 (broadcastInDim S1x32 ![1] bcast_S32_S1x32_1 : (⟨S32, .f32⟩ : BufTy).Contents (Elt F) → (⟨S1x32, .f32⟩ : BufTy).Contents (Elt F)),
    StableHlo.unary main_v128 main_v129 (broadcastInDim S100000x32 ![0, 1] bcast_S1x32_S100000x32_0_1 : (⟨S1x32, .f32⟩ : BufTy).Contents (Elt F) → (⟨S100000x32, .f32⟩ : BufTy).Contents (Elt F)),
    StableHlo.binary main_v127 main_v129 main_v130 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary (.of main_v130) main_call3.v0 main_call3.v1 maximumf,
    StableHlo.binary main_v131 main_arg11 main_v132 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_cst_26 (constant S_ .f32 0x3F800000#32),
    StableHlo.unary main_cst_26 main_v133 (broadcastInDim S1600000 ![] bcast_S_S1600000 : (⟨S_, .f32⟩ : BufTy).Contents (Elt F) → (⟨S1600000, .f32⟩ : BufTy).Contents (Elt F)),
    StableHlo.nullary main_cst_27 (constant S_ .f32 0x00000000#32),
    StableHlo.unary main_cst_27 main_v134 (broadcastInDim S100000 ![] bcast_S_S100000 : (⟨S_, .f32⟩ : BufTy).Contents (Elt F) → (⟨S100000, .f32⟩ : BufTy).Contents (Elt F)),
    StableHlo.unary main_v3 main_v135 (broadcastInDim S1600000x1 ![0] bcast_S1600000_S1600000x1_0 : (⟨S1600000, .i32⟩ : BufTy).Contents (Elt F) → (⟨S1600000x1, .i32⟩ : BufTy).Contents (Elt F)),
    StableHlo.ternary main_v134 main_v135 main_v133 main_v136 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_28 (constant S_ .f32 0x3F800000#32),
    StableHlo.unary main_cst_28 main_v137 (broadcastInDim S100000 ![] bcast_S_S100000 : (⟨S_, .f32⟩ : BufTy).Contents (Elt F) → (⟨S100000, .f32⟩ : BufTy).Contents (Elt F)),
    StableHlo.binary main_v136 main_v137 main_v138 (addf : (⟨S100000, .f32⟩ : BufTy).Contents (Elt F) → (⟨S100000, .f32⟩ : BufTy).Contents (Elt F) → (⟨S100000, .f32⟩ : BufTy).Contents (Elt F)),
    StableHlo.unary main_v138 main_v139 (Host.rsqrt : (⟨S100000, .f32⟩ : BufTy).Contents (Elt F) → (⟨S100000, .f32⟩ : BufTy).Contents (Elt F)),
    StableHlo.nullary main_c_29 (constantI S_ 32 0#32),
    StableHlo.unary main_c_29 main_v140 (broadcastInDim S1600000 ![] bcast_S_S1600000 : (⟨S_, .i32⟩ : BufTy).Contents (Elt F) → (⟨S1600000, .i32⟩ : BufTy).Contents (Elt F)),
    StableHlo.binary main_v1 main_v140 main_v141 (cmpi .slt : (⟨S1600000, .i32⟩ : BufTy).Contents (Elt F) → (⟨S1600000, .i32⟩ : BufTy).Contents (Elt F) → (⟨S1600000, .i1⟩ : BufTy).Contents (Elt F)),
    StableHlo.nullary main_c_30 (constantI S_ 32 100000#32),
    StableHlo.unary main_c_30 main_v142 (broadcastInDim S1600000 ![] bcast_S_S1600000 : (⟨S_, .i32⟩ : BufTy).Contents (Elt F) → (⟨S1600000, .i32⟩ : BufTy).Contents (Elt F)),
    StableHlo.binary main_v1 main_v142 main_v143 (addi : (⟨S1600000, .i32⟩ : BufTy).Contents (Elt F) → (⟨S1600000, .i32⟩ : BufTy).Contents (Elt F) → (⟨S1600000, .i32⟩ : BufTy).Contents (Elt F)),
    StableHlo.ternary main_v141 main_v143 main_v1 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v144 main_v145 (broadcastInDim S1600000x1 ![0] bcast_S1600000_S1600000x1_0 : (⟨S1600000, .i32⟩ : BufTy).Contents (Elt F) → (⟨S1600000x1, .i32⟩ : BufTy).Contents (Elt F)),
    StableHlo.binary main_v139 main_v145 main_v146 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)) ]

/-- The window is the straight line over the list: both are one chain of host steps. -/
theorem part2_eq (c : Dev nD) : main_part2 (F := F) c = seq ops2 := rfl

/-- Every operation touches TensorCore references only. -/
theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

/-- No operation allocates a buffer. -/
theorem ops2_fresh : (ops2 : List (HloOp τ sig (Elt F))).Forall fun op => op.fresh = ∅ := by
  simp only [List.Forall]; repeat' constructor

end Cert.ReferenceIdeal.RefRun

end
-- ==== Proof.RefKept2.lean ====
/-
  The argument arrays pass through statements 121 … 180 of the reference's @main unchanged: no operation of
  the list writes one.
-/
import proofs.«104369_j66383014527707_2_alg».proof.Proof.RefPart2

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept2_main_arg0 (V : Valuation τ sig (Elt F)) :
    after ops2 V (Proc.devRef .tc main_arg0) = V (Proc.devRef .tc main_arg0) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg1 (V : Valuation τ sig (Elt F)) :
    after ops2 V (Proc.devRef .tc main_arg1) = V (Proc.devRef .tc main_arg1) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg2 (V : Valuation τ sig (Elt F)) :
    after ops2 V (Proc.devRef .tc main_arg2) = V (Proc.devRef .tc main_arg2) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg3 (V : Valuation τ sig (Elt F)) :
    after ops2 V (Proc.devRef .tc main_arg3) = V (Proc.devRef .tc main_arg3) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg4 (V : Valuation τ sig (Elt F)) :
    after ops2 V (Proc.devRef .tc main_arg4) = V (Proc.devRef .tc main_arg4) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg5 (V : Valuation τ sig (Elt F)) :
    after ops2 V (Proc.devRef .tc main_arg5) = V (Proc.devRef .tc main_arg5) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg6 (V : Valuation τ sig (Elt F)) :
    after ops2 V (Proc.devRef .tc main_arg6) = V (Proc.devRef .tc main_arg6) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg7 (V : Valuation τ sig (Elt F)) :
    after ops2 V (Proc.devRef .tc main_arg7) = V (Proc.devRef .tc main_arg7) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg8 (V : Valuation τ sig (Elt F)) :
    after ops2 V (Proc.devRef .tc main_arg8) = V (Proc.devRef .tc main_arg8) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg9 (V : Valuation τ sig (Elt F)) :
    after ops2 V (Proc.devRef .tc main_arg9) = V (Proc.devRef .tc main_arg9) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg10 (V : Valuation τ sig (Elt F)) :
    after ops2 V (Proc.devRef .tc main_arg10) = V (Proc.devRef .tc main_arg10) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg11 (V : Valuation τ sig (Elt F)) :
    after ops2 V (Proc.devRef .tc main_arg11) = V (Proc.devRef .tc main_arg11) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg12 (V : Valuation τ sig (Elt F)) :
    after ops2 V (Proc.devRef .tc main_arg12) = V (Proc.devRef .tc main_arg12) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg13 (V : Valuation τ sig (Elt F)) :
    after ops2 V (Proc.devRef .tc main_arg13) = V (Proc.devRef .tc main_arg13) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg14 (V : Valuation τ sig (Elt F)) :
    after ops2 V (Proc.devRef .tc main_arg14) = V (Proc.devRef .tc main_arg14) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg15 (V : Valuation τ sig (Elt F)) :
    after ops2 V (Proc.devRef .tc main_arg15) = V (Proc.devRef .tc main_arg15) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept2_main_arg16 (V : Valuation τ sig (Elt F)) :
    after ops2 V (Proc.devRef .tc main_arg16) = V (Proc.devRef .tc main_arg16) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

end Cert.ReferenceIdeal.RefRun

end
-- ==== Proof.RefPart3.lean ====
/-
  Statements 181 … 240 of the reference's @main as ONE list of host operations (a called function's
  operations listed at its call, over that call's buffers), and the window of @main that runs them as the
  straight line over that list.
-/
import proofs.«104369_j66383014527707_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 181 … 240, in order. -/
abbrev ops3 : List (HloOp τ sig (Elt F)) :=
  [ StableHlo.nullary main_c_31 (constantI S_ 32 0#32),
    StableHlo.unary main_c_31 main_v147 (broadcastInDim S1600000 ![] bcast_S_S1600000 : (⟨S_, .i32⟩ : BufTy).Contents (Elt F) → (⟨S1600000, .i32⟩ : BufTy).Contents (Elt F)),
    StableHlo.binary main_v3 main_v147 main_v148 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v149 (broadcastInDim S1600000 ![] bcast_S_S1600000 : (⟨S_, .i32⟩ : BufTy).Contents (Elt F) → (⟨S1600000, .i32⟩ : BufTy).Contents (Elt F)),
    StableHlo.binary main_v3 main_v149 main_v150 (addi : (⟨S1600000, .i32⟩ : BufTy).Contents (Elt F) → (⟨S1600000, .i32⟩ : BufTy).Contents (Elt F) → (⟨S1600000, .i32⟩ : BufTy).Contents (Elt F)),
    StableHlo.ternary main_v148 main_v150 main_v3 main_v151 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v151 main_v152 (broadcastInDim S1600000x1 ![0] bcast_S1600000_S1600000x1_0 : (⟨S1600000, .i32⟩ : BufTy).Contents (Elt F) → (⟨S1600000x1, .i32⟩ : BufTy).Contents (Elt F)),
    StableHlo.binary main_v139 main_v152 main_v153 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v146 main_v153 main_v154 (mulf : (⟨S1600000, .f32⟩ : BufTy).Contents (Elt F) → (⟨S1600000, .f32⟩ : BufTy).Contents (Elt F) → (⟨S1600000, .f32⟩ : BufTy).Contents (Elt F)),
    StableHlo.nullary main_c_33 (constantI S_ 32 0#32),
    StableHlo.unary main_c_33 main_v155 (broadcastInDim S1600000 ![] bcast_S_S1600000 : (⟨S_, .i32⟩ : BufTy).Contents (Elt F) → (⟨S1600000, .i32⟩ : BufTy).Contents (Elt F)),
    StableHlo.binary main_v1 main_v155 main_v156 (cmpi .slt : (⟨S1600000, .i32⟩ : BufTy).Contents (Elt F) → (⟨S1600000, .i32⟩ : BufTy).Contents (Elt F) → (⟨S1600000, .i1⟩ : BufTy).Contents (Elt F)),
    StableHlo.nullary main_c_34 (constantI S_ 32 100000#32),
    StableHlo.unary main_c_34 main_v157 (broadcastInDim S1600000 ![] bcast_S_S1600000 : (⟨S_, .i32⟩ : BufTy).Contents (Elt F) → (⟨S1600000, .i32⟩ : BufTy).Contents (Elt F)),
    StableHlo.binary main_v1 main_v157 main_v158 (addi : (⟨S1600000, .i32⟩ : BufTy).Contents (Elt F) → (⟨S1600000, .i32⟩ : BufTy).Contents (Elt F) → (⟨S1600000, .i32⟩ : BufTy).Contents (Elt F)),
    StableHlo.ternary main_v156 main_v158 main_v1 main_v159 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v159 main_v160 (broadcastInDim S1600000x1 ![0] bcast_S1600000_S1600000x1_0 : (⟨S1600000, .i32⟩ : BufTy).Contents (Elt F) → (⟨S1600000x1, .i32⟩ : BufTy).Contents (Elt F)),
    StableHlo.binary main_v132 main_v160 main_v161 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v154 main_v162 (broadcastInDim S1600000x1 ![0] bcast_S1600000_S1600000x1_0 : (⟨S1600000, .f32⟩ : BufTy).Contents (Elt F) → (⟨S1600000x1, .f32⟩ : BufTy).Contents (Elt F)),
    StableHlo.unary main_v162 main_v163 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v161 main_v163 main_v164 (mulf : (⟨S1600000x32, .f32⟩ : BufTy).Contents (Elt F) → (⟨S1600000x32, .f32⟩ : BufTy).Contents (Elt F) → (⟨S1600000x32, .f32⟩ : BufTy).Contents (Elt F)),
    StableHlo.nullary main_cst_35 (constant S_ .f32 0x00000000#32),
    StableHlo.unary main_cst_35 main_v165 (broadcastInDim S100000x32 ![] bcast_S_S100000x32 : (⟨S_, .f32⟩ : BufTy).Contents (Elt F) → (⟨S100000x32, .f32⟩ : BufTy).Contents (Elt F)),
    StableHlo.unary main_v3 main_v166 (broadcastInDim S1600000x1 ![0] bcast_S1600000_S1600000x1_0 : (⟨S1600000, .i32⟩ : BufTy).Contents (Elt F) → (⟨S1600000x1, .i32⟩ : BufTy).Contents (Elt F)),
    StableHlo.ternary main_v165 main_v166 main_v164 main_v167 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v139 main_v139 main_v168 (mulf : (⟨S100000, .f32⟩ : BufTy).Contents (Elt F) → (⟨S100000, .f32⟩ : BufTy).Contents (Elt F) → (⟨S100000, .f32⟩ : BufTy).Contents (Elt F)),
    StableHlo.unary main_v168 main_v169 (broadcastInDim S100000x1 ![0] bcast_S100000_S100000x1_0 : (⟨S100000, .f32⟩ : BufTy).Contents (Elt F) → (⟨S100000x1, .f32⟩ : BufTy).Contents (Elt F)),
    StableHlo.unary main_v169 main_v170 (broadcastInDim S100000x32 ![0, 1] bcast_S100000x1_S100000x32_0_1 : (⟨S100000x1, .f32⟩ : BufTy).Contents (Elt F) → (⟨S100000x32, .f32⟩ : BufTy).Contents (Elt F)),
    StableHlo.binary main_v132 main_v170 main_v171 (mulf : (⟨S100000x32, .f32⟩ : BufTy).Contents (Elt F) → (⟨S100000x32, .f32⟩ : BufTy).Contents (Elt F) → (⟨S100000x32, .f32⟩ : BufTy).Contents (Elt F)),
    StableHlo.binary main_v167 main_v171 main_v172 (addf : (⟨S100000x32, .f32⟩ : BufTy).Contents (Elt F) → (⟨S100000x32, .f32⟩ : BufTy).Contents (Elt F) → (⟨S100000x32, .f32⟩ : BufTy).Contents (Elt F)),
    StableHlo.unary main_arg12 main_v173 (broadcastInDim S1x32 ![1] bcast_S32_S1x32_1 : (⟨S32, .f32⟩ : BufTy).Contents (Elt F) → (⟨S1x32, .f32⟩ : BufTy).Contents (Elt F)),
    StableHlo.unary main_v173 main_v174 (broadcastInDim S100000x32 ![0, 1] bcast_S1x32_S100000x32_0_1 : (⟨S1x32, .f32⟩ : BufTy).Contents (Elt F) → (⟨S100000x32, .f32⟩ : BufTy).Contents (Elt F)),
    StableHlo.binary main_v172 main_v174 main_v175 (addf : (⟨S100000x32, .f32⟩ : BufTy).Contents (Elt F) → (⟨S100000x32, .f32⟩ : BufTy).Contents (Elt F) → (⟨S100000x32, .f32⟩ : BufTy).Contents (Elt F)),
    StableHlo.nullary main_cst_36 (constant S_ .f32 0x00000000#32),
    StableHlo.binary main_v175 main_cst_36 main_v176 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_37 (constant S_ .f32 0x47C35000#32),
    StableHlo.unary main_cst_37 main_v177 (broadcastInDim S32 ![] bcast_S_S32 : (⟨S_, .f32⟩ : BufTy).Contents (Elt F) → (⟨S32, .f32⟩ : BufTy).Contents (Elt F)),
    StableHlo.binary main_v176 main_v177 main_v178 (Host.divf : (⟨S32, .f32⟩ : BufTy).Contents (Elt F) → (⟨S32, .f32⟩ : BufTy).Contents (Elt F) → (⟨S32, .f32⟩ : BufTy).Contents (Elt F)),
    StableHlo.nullary main_c_38 (constantI S_ 32 0#32),
    StableHlo.TRef.nullary main_call4.cst (constant S_ .f32 0x00000000#32),
    StableHlo.TRef.binary (.of main_v175) main_call4.cst main_call4.v0 (fun x v => Host.reduceAdd x v reducesTo_S100000x32_S32_d0 h_S_),
    StableHlo.TRef.unary main_call4.v0 main_call4.v1 (broadcastInDim S1x32 ![1] bcast_S32_S1x32_1),
    StableHlo.TRef.nullary main_call4.cst_0 (constant S_ .f32 0x47C35000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S100000x32 ![0, 1] bcast_S1x32_S100000x32_0_1),
    StableHlo.TRef.binary (.of main_v175) main_call4.v4 main_call4.v5 subf,
    StableHlo.TRef.binary main_call4.v5 main_call4.v5 main_call4.v6 mulf,
    StableHlo.TRef.unary (.of main_c_38) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b),
    StableHlo.unary main_v178 main_v180 (broadcastInDim S1x32 ![1] bcast_S32_S1x32_1 : (⟨S32, .f32⟩ : BufTy).Contents (Elt F) → (⟨S1x32, .f32⟩ : BufTy).Contents (Elt F)),
    StableHlo.unary main_v180 main_v181 (broadcastInDim S100000x32 ![0, 1] bcast_S1x32_S100000x32_0_1 : (⟨S1x32, .f32⟩ : BufTy).Contents (Elt F) → (⟨S100000x32, .f32⟩ : BufTy).Contents (Elt F)),
    StableHlo.binary main_v175 main_v181 main_v182 (subf : (⟨S100000x32, .f32⟩ : BufTy).Contents (Elt F) → (⟨S100000x32, .f32⟩ : BufTy).Contents (Elt F) → (⟨S100000x32, .f32⟩ : BufTy).Contents (Elt F)),
    StableHlo.nullary main_cst_39 (constant S_ .f32 0x3727C5AC#32),
    StableHlo.unary main_cst_39 main_v183 (broadcastInDim S32 ![] bcast_S_S32 : (⟨S_, .f32⟩ : BufTy).Contents (Elt F) → (⟨S32, .f32⟩ : BufTy).Contents (Elt F)),
    StableHlo.binary main_v179 main_v183 main_v184 (addf : (⟨S32, .f32⟩ : BufTy).Contents (Elt F) → (⟨S32, .f32⟩ : BufTy).Contents (Elt F) → (⟨S32, .f32⟩ : BufTy).Contents (Elt F)),
    StableHlo.unary main_v184 main_v185 (Host.rsqrt : (⟨S32, .f32⟩ : BufTy).Contents (Elt F) → (⟨S32, .f32⟩ : BufTy).Contents (Elt F)),
    StableHlo.unary main_v185 main_v186 (broadcastInDim S1x32 ![1] bcast_S32_S1x32_1 : (⟨S32, .f32⟩ : BufTy).Contents (Elt F) → (⟨S1x32, .f32⟩ : BufTy).Contents (Elt F)),
    StableHlo.unary main_v186 main_v187 (broadcastInDim S100000x32 ![0, 1] bcast_S1x32_S100000x32_0_1 : (⟨S1x32, .f32⟩ : BufTy).Contents (Elt F) → (⟨S100000x32, .f32⟩ : BufTy).Contents (Elt F)),
    StableHlo.binary main_v182 main_v187 main_v188 (mulf : (⟨S100000x32, .f32⟩ : BufTy).Contents (Elt F) → (⟨S100000x32, .f32⟩ : BufTy).Contents (Elt F) → (⟨S100000x32, .f32⟩ : BufTy).Contents (Elt F)),
    StableHlo.unary main_arg13 main_v189 (broadcastInDim S1x32 ![1] bcast_S32_S1x32_1 : (⟨S32, .f32⟩ : BufTy).Contents (Elt F) → (⟨S1x32, .f32⟩ : BufTy).Contents (Elt F)),
    StableHlo.unary main_v189 main_v190 (broadcastInDim S100000x32 ![0, 1] bcast_S1x32_S100000x32_0_1 : (⟨S1x32, .f32⟩ : BufTy).Contents (Elt F) → (⟨S100000x32, .f32⟩ : BufTy).Contents (Elt F)),
    StableHlo.binary main_v188 main_v190 main_v191 (mulf : (⟨S100000x32, .f32⟩ : BufTy).Contents (Elt F) → (⟨S100000x32, .f32⟩ : BufTy).Contents (Elt F) → (⟨S100000x32, .f32⟩ : BufTy).Contents (Elt F)),
    StableHlo.unary main_arg14 main_v192 (broadcastInDim S1x32 ![1] bcast_S32_S1x32_1 : (⟨S32, .f32⟩ : BufTy).Contents (Elt F) → (⟨S1x32, .f32⟩ : BufTy).Contents (Elt F)),
    StableHlo.unary main_v192 main_v193 (broadcastInDim S100000x32 ![0, 1] bcast_S1x32_S100000x32_0_1 : (⟨S1x32, .f32⟩ : BufTy).Contents (Elt F) → (⟨S100000x32, .f32⟩ : BufTy).Contents (Elt F)),
    StableHlo.binary main_v191 main_v193 main_v194 (addf : (⟨S100000x32, .f32⟩ : BufTy).Contents (Elt F) → (⟨S100000x32, .f32⟩ : BufTy).Contents (Elt F) → (⟨S100000x32, .f32⟩ : BufTy).Contents (Elt F)),
    StableHlo.TRef.nullary main_call5.cst (constant S_ .f32 0x00000000#32),
    StableHlo.TRef.unary main_call5.cst main_call5.v0 (broadcastInDim S100000x32 ![] bcast_S_S100000x32),
    StableHlo.TRef.binary (.of main_v194) main_call5.v0 main_call5.v1 maximumf,
    StableHlo.binary main_v195 main_arg15 main_v196 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.nullary main_cst_40 (constant S_ .f32 0x3F800000#32) ]

/-- The window is the straight line over the list: both are one chain of host steps. -/
theorem part3_eq (c : Dev nD) : main_part3 (F := F) c = seq ops3 := rfl

/-- Every operation touches TensorCore references only. -/
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub ..⟩

/-- No operation allocates a buffer. -/
theorem ops3_fresh : (ops3 : List (HloOp τ sig (Elt F))).Forall fun op => op.fresh = ∅ := by
  simp only [List.Forall]; repeat' constructor

end Cert.ReferenceIdeal.RefRun

end
-- ==== Proof.RefKept3.lean ====
/-
  The argument arrays pass through statements 181 … 240 of the reference's @main unchanged: no operation of
  the list writes one.
-/
import proofs.«104369_j66383014527707_2_alg».proof.Proof.RefPart3

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept3_main_arg0 (V : Valuation τ sig (Elt F)) :
    after ops3 V (Proc.devRef .tc main_arg0) = V (Proc.devRef .tc main_arg0) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg1 (V : Valuation τ sig (Elt F)) :
    after ops3 V (Proc.devRef .tc main_arg1) = V (Proc.devRef .tc main_arg1) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg2 (V : Valuation τ sig (Elt F)) :
    after ops3 V (Proc.devRef .tc main_arg2) = V (Proc.devRef .tc main_arg2) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg3 (V : Valuation τ sig (Elt F)) :
    after ops3 V (Proc.devRef .tc main_arg3) = V (Proc.devRef .tc main_arg3) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg4 (V : Valuation τ sig (Elt F)) :
    after ops3 V (Proc.devRef .tc main_arg4) = V (Proc.devRef .tc main_arg4) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg5 (V : Valuation τ sig (Elt F)) :
    after ops3 V (Proc.devRef .tc main_arg5) = V (Proc.devRef .tc main_arg5) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg6 (V : Valuation τ sig (Elt F)) :
    after ops3 V (Proc.devRef .tc main_arg6) = V (Proc.devRef .tc main_arg6) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg7 (V : Valuation τ sig (Elt F)) :
    after ops3 V (Proc.devRef .tc main_arg7) = V (Proc.devRef .tc main_arg7) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg8 (V : Valuation τ sig (Elt F)) :
    after ops3 V (Proc.devRef .tc main_arg8) = V (Proc.devRef .tc main_arg8) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg9 (V : Valuation τ sig (Elt F)) :
    after ops3 V (Proc.devRef .tc main_arg9) = V (Proc.devRef .tc main_arg9) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg10 (V : Valuation τ sig (Elt F)) :
    after ops3 V (Proc.devRef .tc main_arg10) = V (Proc.devRef .tc main_arg10) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg11 (V : Valuation τ sig (Elt F)) :
    after ops3 V (Proc.devRef .tc main_arg11) = V (Proc.devRef .tc main_arg11) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg12 (V : Valuation τ sig (Elt F)) :
    after ops3 V (Proc.devRef .tc main_arg12) = V (Proc.devRef .tc main_arg12) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg13 (V : Valuation τ sig (Elt F)) :
    after ops3 V (Proc.devRef .tc main_arg13) = V (Proc.devRef .tc main_arg13) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg14 (V : Valuation τ sig (Elt F)) :
    after ops3 V (Proc.devRef .tc main_arg14) = V (Proc.devRef .tc main_arg14) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg15 (V : Valuation τ sig (Elt F)) :
    after ops3 V (Proc.devRef .tc main_arg15) = V (Proc.devRef .tc main_arg15) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept3_main_arg16 (V : Valuation τ sig (Elt F)) :
    after ops3 V (Proc.devRef .tc main_arg16) = V (Proc.devRef .tc main_arg16) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

end Cert.ReferenceIdeal.RefRun

end
-- ==== Proof.RefPart4.lean ====
/-
  Statements 241 … 300 of the reference's @main as ONE list of host operations (a called function's
  operations listed at its call, over that call's buffers), and the window of @main that runs them as the
  straight line over that list.
-/
import proofs.«104369_j66383014527707_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 241 … 300, in order. -/
abbrev ops4 : List (HloOp τ sig (Elt F)) :=
  [ StableHlo.unary main_cst_40 main_v197 (broadcastInDim S1600000 ![] bcast_S_S1600000 : (⟨S_, .f32⟩ : BufTy).Contents (Elt F) → (⟨S1600000, .f32⟩ : BufTy).Contents (Elt F)),
    StableHlo.nullary main_cst_41 (constant S_ .f32 0x00000000#32),
    StableHlo.unary main_cst_41 main_v198 (broadcastInDim S100000 ![] bcast_S_S100000 : (⟨S_, .f32⟩ : BufTy).Contents (Elt F) → (⟨S100000, .f32⟩ : BufTy).Contents (Elt F)),
    StableHlo.unary main_v3 main_v199 (broadcastInDim S1600000x1 ![0] bcast_S1600000_S1600000x1_0 : (⟨S1600000, .i32⟩ : BufTy).Contents (Elt F) → (⟨S1600000x1, .i32⟩ : BufTy).Contents (Elt F)),
    StableHlo.ternary main_v198 main_v199 main_v197 main_v200 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_42 (constant S_ .f32 0x3F800000#32),
    StableHlo.unary main_cst_42 main_v201 (broadcastInDim S100000 ![] bcast_S_S100000 : (⟨S_, .f32⟩ : BufTy).Contents (Elt F) → (⟨S100000, .f32⟩ : BufTy).Contents (Elt F)),
    StableHlo.binary main_v200 main_v201 main_v202 (addf : (⟨S100000, .f32⟩ : BufTy).Contents (Elt F) → (⟨S100000, .f32⟩ : BufTy).Contents (Elt F) → (⟨S100000, .f32⟩ : BufTy).Contents (Elt F)),
    StableHlo.unary main_v202 main_v203 (Host.rsqrt : (⟨S100000, .f32⟩ : BufTy).Contents (Elt F) → (⟨S100000, .f32⟩ : BufTy).Contents (Elt F)),
    StableHlo.nullary main_c_43 (constantI S_ 32 0#32),
    StableHlo.unary main_c_43 main_v204 (broadcastInDim S1600000 ![] bcast_S_S1600000 : (⟨S_, .i32⟩ : BufTy).Contents (Elt F) → (⟨S1600000, .i32⟩ : BufTy).Contents (Elt F)),
    StableHlo.binary main_v1 main_v204 main_v205 (cmpi .slt : (⟨S1600000, .i32⟩ : BufTy).Contents (Elt F) → (⟨S1600000, .i32⟩ : BufTy).Contents (Elt F) → (⟨S1600000, .i1⟩ : BufTy).Contents (Elt F)),
    StableHlo.nullary main_c_44 (constantI S_ 32 100000#32),
    StableHlo.unary main_c_44 main_v206 (broadcastInDim S1600000 ![] bcast_S_S1600000 : (⟨S_, .i32⟩ : BufTy).Contents (Elt F) → (⟨S1600000, .i32⟩ : BufTy).Contents (Elt F)),
    StableHlo.binary main_v1 main_v206 main_v207 (addi : (⟨S1600000, .i32⟩ : BufTy).Contents (Elt F) → (⟨S1600000, .i32⟩ : BufTy).Contents (Elt F) → (⟨S1600000, .i32⟩ : BufTy).Contents (Elt F)),
    StableHlo.ternary main_v205 main_v207 main_v1 main_v208 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v208 main_v209 (broadcastInDim S1600000x1 ![0] bcast_S1600000_S1600000x1_0 : (⟨S1600000, .i32⟩ : BufTy).Contents (Elt F) → (⟨S1600000x1, .i32⟩ : BufTy).Contents (Elt F)),
    StableHlo.binary main_v203 main_v209 main_v210 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_45 (constantI S_ 32 0#32),
    StableHlo.unary main_c_45 main_v211 (broadcastInDim S1600000 ![] bcast_S_S1600000 : (⟨S_, .i32⟩ : BufTy).Contents (Elt F) → (⟨S1600000, .i32⟩ : BufTy).Contents (Elt F)),
    StableHlo.binary main_v3 main_v211 main_v212 (cmpi .slt : (⟨S1600000, .i32⟩ : BufTy).Contents (Elt F) → (⟨S1600000, .i32⟩ : BufTy).Contents (Elt F) → (⟨S1600000, .i1⟩ : BufTy).Contents (Elt F)),
    StableHlo.nullary main_c_46 (constantI S_ 32 100000#32),
    StableHlo.unary main_c_46 main_v213 (broadcastInDim S1600000 ![] bcast_S_S1600000 : (⟨S_, .i32⟩ : BufTy).Contents (Elt F) → (⟨S1600000, .i32⟩ : BufTy).Contents (Elt F)),
    StableHlo.binary main_v3 main_v213 main_v214 (addi : (⟨S1600000, .i32⟩ : BufTy).Contents (Elt F) → (⟨S1600000, .i32⟩ : BufTy).Contents (Elt F) → (⟨S1600000, .i32⟩ : BufTy).Contents (Elt F)),
    StableHlo.ternary main_v212 main_v214 main_v3 main_v215 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v215 main_v216 (broadcastInDim S1600000x1 ![0] bcast_S1600000_S1600000x1_0 : (⟨S1600000, .i32⟩ : BufTy).Contents (Elt F) → (⟨S1600000x1, .i32⟩ : BufTy).Contents (Elt F)),
    StableHlo.binary main_v203 main_v216 main_v217 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v210 main_v217 main_v218 (mulf : (⟨S1600000, .f32⟩ : BufTy).Contents (Elt F) → (⟨S1600000, .f32⟩ : BufTy).Contents (Elt F) → (⟨S1600000, .f32⟩ : BufTy).Contents (Elt F)),
    StableHlo.nullary main_c_47 (constantI S_ 32 0#32),
    StableHlo.unary main_c_47 main_v219 (broadcastInDim S1600000 ![] bcast_S_S1600000 : (⟨S_, .i32⟩ : BufTy).Contents (Elt F) → (⟨S1600000, .i32⟩ : BufTy).Contents (Elt F)),
    StableHlo.binary main_v1 main_v219 main_v220 (cmpi .slt : (⟨S1600000, .i32⟩ : BufTy).Contents (Elt F) → (⟨S1600000, .i32⟩ : BufTy).Contents (Elt F) → (⟨S1600000, .i1⟩ : BufTy).Contents (Elt F)),
    StableHlo.nullary main_c_48 (constantI S_ 32 100000#32),
    StableHlo.unary main_c_48 main_v221 (broadcastInDim S1600000 ![] bcast_S_S1600000 : (⟨S_, .i32⟩ : BufTy).Contents (Elt F) → (⟨S1600000, .i32⟩ : BufTy).Contents (Elt F)),
    StableHlo.binary main_v1 main_v221 main_v222 (addi : (⟨S1600000, .i32⟩ : BufTy).Contents (Elt F) → (⟨S1600000, .i32⟩ : BufTy).Contents (Elt F) → (⟨S1600000, .i32⟩ : BufTy).Contents (Elt F)),
    StableHlo.ternary main_v220 main_v222 main_v1 main_v223 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v223 main_v224 (broadcastInDim S1600000x1 ![0] bcast_S1600000_S1600000x1_0 : (⟨S1600000, .i32⟩ : BufTy).Contents (Elt F) → (⟨S1600000x1, .i32⟩ : BufTy).Contents (Elt F)),
    StableHlo.binary main_v196 main_v224 main_v225 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v218 main_v226 (broadcastInDim S1600000x1 ![0] bcast_S1600000_S1600000x1_0 : (⟨S1600000, .f32⟩ : BufTy).Contents (Elt F) → (⟨S1600000x1, .f32⟩ : BufTy).Contents (Elt F)),
    StableHlo.unary main_v226 main_v227 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v225 main_v227 main_v228 (mulf : (⟨S1600000x32, .f32⟩ : BufTy).Contents (Elt F) → (⟨S1600000x32, .f32⟩ : BufTy).Contents (Elt F) → (⟨S1600000x32, .f32⟩ : BufTy).Contents (Elt F)),
    StableHlo.nullary main_cst_49 (constant S_ .f32 0x00000000#32),
    StableHlo.unary main_cst_49 main_v229 (broadcastInDim S100000x32 ![] bcast_S_S100000x32 : (⟨S_, .f32⟩ : BufTy).Contents (Elt F) → (⟨S100000x32, .f32⟩ : BufTy).Contents (Elt F)),
    StableHlo.unary main_v3 main_v230 (broadcastInDim S1600000x1 ![0] bcast_S1600000_S1600000x1_0 : (⟨S1600000, .i32⟩ : BufTy).Contents (Elt F) → (⟨S1600000x1, .i32⟩ : BufTy).Contents (Elt F)),
    StableHlo.ternary main_v229 main_v230 main_v228 main_v231 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v203 main_v203 main_v232 (mulf : (⟨S100000, .f32⟩ : BufTy).Contents (Elt F) → (⟨S100000, .f32⟩ : BufTy).Contents (Elt F) → (⟨S100000, .f32⟩ : BufTy).Contents (Elt F)),
    StableHlo.unary main_v232 main_v233 (broadcastInDim S100000x1 ![0] bcast_S100000_S100000x1_0 : (⟨S100000, .f32⟩ : BufTy).Contents (Elt F) → (⟨S100000x1, .f32⟩ : BufTy).Contents (Elt F)),
    StableHlo.unary main_v233 main_v234 (broadcastInDim S100000x32 ![0, 1] bcast_S100000x1_S100000x32_0_1 : (⟨S100000x1, .f32⟩ : BufTy).Contents (Elt F) → (⟨S100000x32, .f32⟩ : BufTy).Contents (Elt F)),
    StableHlo.binary main_v196 main_v234 main_v235 (mulf : (⟨S100000x32, .f32⟩ : BufTy).Contents (Elt F) → (⟨S100000x32, .f32⟩ : BufTy).Contents (Elt F) → (⟨S100000x32, .f32⟩ : BufTy).Contents (Elt F)),
    StableHlo.binary main_v231 main_v235 main_v236 (addf : (⟨S100000x32, .f32⟩ : BufTy).Contents (Elt F) → (⟨S100000x32, .f32⟩ : BufTy).Contents (Elt F) → (⟨S100000x32, .f32⟩ : BufTy).Contents (Elt F)),
    StableHlo.unary main_arg16 main_v237 (broadcastInDim S1x32 ![1] bcast_S32_S1x32_1 : (⟨S32, .f32⟩ : BufTy).Contents (Elt F) → (⟨S1x32, .f32⟩ : BufTy).Contents (Elt F)),
    StableHlo.unary main_v237 main_v238 (broadcastInDim S100000x32 ![0, 1] bcast_S1x32_S100000x32_0_1 : (⟨S1x32, .f32⟩ : BufTy).Contents (Elt F) → (⟨S100000x32, .f32⟩ : BufTy).Contents (Elt F)),
    StableHlo.binary main_v236 main_v238 main_v239 (addf : (⟨S100000x32, .f32⟩ : BufTy).Contents (Elt F) → (⟨S100000x32, .f32⟩ : BufTy).Contents (Elt F) → (⟨S100000x32, .f32⟩ : BufTy).Contents (Elt F)),
    StableHlo.nullary main_cst_50 (constant S_ .f32 0x00000000#32),
    StableHlo.unary main_cst_50 main_v240 (broadcastInDim S64x32 ![] bcast_S_S64x32 : (⟨S_, .f32⟩ : BufTy).Contents (Elt F) → (⟨S64x32, .f32⟩ : BufTy).Contents (Elt F)),
    StableHlo.unary main_arg2 main_v241 (broadcastInDim S100000x1 ![0] bcast_S100000_S100000x1_0 : (⟨S100000, .i32⟩ : BufTy).Contents (Elt F) → (⟨S100000x1, .i32⟩ : BufTy).Contents (Elt F)),
    StableHlo.ternary main_v240 main_v241 main_v239 main_v242 ((fun x i u => Host.scatterAdd scatter_S64x32_S100000x1_S100000x32_1_0_0_1 x i u) : (⟨S64x32, .f32⟩ : BufTy).Contents (Elt F) → (⟨S100000x1, .i32⟩ : BufTy).Contents (Elt F) → (⟨S100000x32, .f32⟩ : BufTy).Contents (Elt F) → (⟨S64x32, .f32⟩ : BufTy).Contents (Elt F)),
    StableHlo.nullary main_cst_51 (constant S_ .f32 0x3F800000#32),
    StableHlo.unary main_cst_51 main_v243 (broadcastInDim S100000 ![] bcast_S_S100000 : (⟨S_, .f32⟩ : BufTy).Contents (Elt F) → (⟨S100000, .f32⟩ : BufTy).Contents (Elt F)),
    StableHlo.nullary main_cst_52 (constant S_ .f32 0x00000000#32),
    StableHlo.unary main_cst_52 main_v244 (broadcastInDim S64 ![] bcast_S_S64 : (⟨S_, .f32⟩ : BufTy).Contents (Elt F) → (⟨S64, .f32⟩ : BufTy).Contents (Elt F)) ]

/-- The window is the straight line over the list: both are one chain of host steps. -/
theorem part4_eq (c : Dev nD) : main_part4 (F := F) c = seq ops4 := rfl

/-- Every operation touches TensorCore references only. -/
theorem ops4_sub : (ops4 : List (HloOp τ sig (Elt F))).Forall fun op => op.bufs ⊆ tcRefs τ sig :=
  ⟨unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub ..⟩

/-- No operation allocates a buffer. -/
theorem ops4_fresh : (ops4 : List (HloOp τ sig (Elt F))).Forall fun op => op.fresh = ∅ := by
  simp only [List.Forall]; repeat' constructor

end Cert.ReferenceIdeal.RefRun

end
-- ==== Proof.RefKept4.lean ====
/-
  The argument arrays pass through statements 241 … 300 of the reference's @main unchanged: no operation of
  the list writes one.
-/
import proofs.«104369_j66383014527707_2_alg».proof.Proof.RefPart4

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept4_main_arg0 (V : Valuation τ sig (Elt F)) :
    after ops4 V (Proc.devRef .tc main_arg0) = V (Proc.devRef .tc main_arg0) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg1 (V : Valuation τ sig (Elt F)) :
    after ops4 V (Proc.devRef .tc main_arg1) = V (Proc.devRef .tc main_arg1) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg2 (V : Valuation τ sig (Elt F)) :
    after ops4 V (Proc.devRef .tc main_arg2) = V (Proc.devRef .tc main_arg2) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg3 (V : Valuation τ sig (Elt F)) :
    after ops4 V (Proc.devRef .tc main_arg3) = V (Proc.devRef .tc main_arg3) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg4 (V : Valuation τ sig (Elt F)) :
    after ops4 V (Proc.devRef .tc main_arg4) = V (Proc.devRef .tc main_arg4) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg5 (V : Valuation τ sig (Elt F)) :
    after ops4 V (Proc.devRef .tc main_arg5) = V (Proc.devRef .tc main_arg5) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg6 (V : Valuation τ sig (Elt F)) :
    after ops4 V (Proc.devRef .tc main_arg6) = V (Proc.devRef .tc main_arg6) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg7 (V : Valuation τ sig (Elt F)) :
    after ops4 V (Proc.devRef .tc main_arg7) = V (Proc.devRef .tc main_arg7) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg8 (V : Valuation τ sig (Elt F)) :
    after ops4 V (Proc.devRef .tc main_arg8) = V (Proc.devRef .tc main_arg8) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg9 (V : Valuation τ sig (Elt F)) :
    after ops4 V (Proc.devRef .tc main_arg9) = V (Proc.devRef .tc main_arg9) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg10 (V : Valuation τ sig (Elt F)) :
    after ops4 V (Proc.devRef .tc main_arg10) = V (Proc.devRef .tc main_arg10) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg11 (V : Valuation τ sig (Elt F)) :
    after ops4 V (Proc.devRef .tc main_arg11) = V (Proc.devRef .tc main_arg11) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg12 (V : Valuation τ sig (Elt F)) :
    after ops4 V (Proc.devRef .tc main_arg12) = V (Proc.devRef .tc main_arg12) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg13 (V : Valuation τ sig (Elt F)) :
    after ops4 V (Proc.devRef .tc main_arg13) = V (Proc.devRef .tc main_arg13) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg14 (V : Valuation τ sig (Elt F)) :
    after ops4 V (Proc.devRef .tc main_arg14) = V (Proc.devRef .tc main_arg14) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg15 (V : Valuation τ sig (Elt F)) :
    after ops4 V (Proc.devRef .tc main_arg15) = V (Proc.devRef .tc main_arg15) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept4_main_arg16 (V : Valuation τ sig (Elt F)) :
    after ops4 V (Proc.devRef .tc main_arg16) = V (Proc.devRef .tc main_arg16) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

end Cert.ReferenceIdeal.RefRun

end
-- ==== Proof.RefPart5.lean ====
/-
  Statements 301 … 309 of the reference's @main as ONE list of host operations (a called function's
  operations listed at its call, over that call's buffers), and the window of @main that runs them as the
  straight line over that list.
-/
import proofs.«104369_j66383014527707_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of statements 301 … 309, in order. -/
abbrev ops5 : List (HloOp τ sig (Elt F)) :=
  [ StableHlo.unary main_arg2 main_v245 (broadcastInDim S100000x1 ![0] bcast_S100000_S100000x1_0 : (⟨S100000, .i32⟩ : BufTy).Contents (Elt F) → (⟨S100000x1, .i32⟩ : BufTy).Contents (Elt F)),
    StableHlo.ternary main_v244 main_v245 main_v243 main_v246 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_53 (constant S_ .f32 0x3F800000#32),
    StableHlo.unary main_cst_53 main_v247 (broadcastInDim S64 ![] bcast_S_S64 : (⟨S_, .f32⟩ : BufTy).Contents (Elt F) → (⟨S64, .f32⟩ : BufTy).Contents (Elt F)),
    StableHlo.binary main_v246 main_v247 main_v248 (maximumf : (⟨S64, .f32⟩ : BufTy).Contents (Elt F) → (⟨S64, .f32⟩ : BufTy).Contents (Elt F) → (⟨S64, .f32⟩ : BufTy).Contents (Elt F)),
    StableHlo.unary main_v248 main_v249 (broadcastInDim S64x1 ![0] bcast_S64_S64x1_0 : (⟨S64, .f32⟩ : BufTy).Contents (Elt F) → (⟨S64x1, .f32⟩ : BufTy).Contents (Elt F)),
    StableHlo.unary main_v249 main_v250 (broadcastInDim S64x32 ![0, 1] bcast_S64x1_S64x32_0_1 : (⟨S64x1, .f32⟩ : BufTy).Contents (Elt F) → (⟨S64x32, .f32⟩ : BufTy).Contents (Elt F)),
    StableHlo.binary main_v242 main_v250 main_v251 (Host.divf : (⟨S64x32, .f32⟩ : BufTy).Contents (Elt F) → (⟨S64x32, .f32⟩ : BufTy).Contents (Elt F) → (⟨S64x32, .f32⟩ : BufTy).Contents (Elt F)) ]

/-- The window is the straight line over the list: both are one chain of host steps. -/
theorem part5_eq (c : Dev nD) : main_part5 (F := F) c = seq ops5 := rfl

/-- Every operation touches TensorCore references only. -/
theorem ops5_sub : (ops5 : List (HloOp τ sig (Elt F))).Forall fun op => op.bufs ⊆ tcRefs τ sig :=
  ⟨unary_bufs_sub .., ternary_bufs_sub .., nullary_bufs_sub .., unary_bufs_sub .., binary_bufs_sub .., unary_bufs_sub .., unary_bufs_sub .., binary_bufs_sub ..⟩

/-- No operation allocates a buffer. -/
theorem ops5_fresh : (ops5 : List (HloOp τ sig (Elt F))).Forall fun op => op.fresh = ∅ := by
  simp only [List.Forall]; repeat' constructor

end Cert.ReferenceIdeal.RefRun

end
-- ==== Proof.RefKept5.lean ====
/-
  The argument arrays pass through statements 301 … 309 of the reference's @main unchanged: no operation of
  the list writes one.
-/
import proofs.«104369_j66383014527707_2_alg».proof.Proof.RefPart5

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem kept5_main_arg0 (V : Valuation τ sig (Elt F)) :
    after ops5 V (Proc.devRef .tc main_arg0) = V (Proc.devRef .tc main_arg0) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg1 (V : Valuation τ sig (Elt F)) :
    after ops5 V (Proc.devRef .tc main_arg1) = V (Proc.devRef .tc main_arg1) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg2 (V : Valuation τ sig (Elt F)) :
    after ops5 V (Proc.devRef .tc main_arg2) = V (Proc.devRef .tc main_arg2) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg3 (V : Valuation τ sig (Elt F)) :
    after ops5 V (Proc.devRef .tc main_arg3) = V (Proc.devRef .tc main_arg3) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg4 (V : Valuation τ sig (Elt F)) :
    after ops5 V (Proc.devRef .tc main_arg4) = V (Proc.devRef .tc main_arg4) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg5 (V : Valuation τ sig (Elt F)) :
    after ops5 V (Proc.devRef .tc main_arg5) = V (Proc.devRef .tc main_arg5) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg6 (V : Valuation τ sig (Elt F)) :
    after ops5 V (Proc.devRef .tc main_arg6) = V (Proc.devRef .tc main_arg6) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg7 (V : Valuation τ sig (Elt F)) :
    after ops5 V (Proc.devRef .tc main_arg7) = V (Proc.devRef .tc main_arg7) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg8 (V : Valuation τ sig (Elt F)) :
    after ops5 V (Proc.devRef .tc main_arg8) = V (Proc.devRef .tc main_arg8) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg9 (V : Valuation τ sig (Elt F)) :
    after ops5 V (Proc.devRef .tc main_arg9) = V (Proc.devRef .tc main_arg9) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg10 (V : Valuation τ sig (Elt F)) :
    after ops5 V (Proc.devRef .tc main_arg10) = V (Proc.devRef .tc main_arg10) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg11 (V : Valuation τ sig (Elt F)) :
    after ops5 V (Proc.devRef .tc main_arg11) = V (Proc.devRef .tc main_arg11) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg12 (V : Valuation τ sig (Elt F)) :
    after ops5 V (Proc.devRef .tc main_arg12) = V (Proc.devRef .tc main_arg12) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg13 (V : Valuation τ sig (Elt F)) :
    after ops5 V (Proc.devRef .tc main_arg13) = V (Proc.devRef .tc main_arg13) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg14 (V : Valuation τ sig (Elt F)) :
    after ops5 V (Proc.devRef .tc main_arg14) = V (Proc.devRef .tc main_arg14) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg15 (V : Valuation τ sig (Elt F)) :
    after ops5 V (Proc.devRef .tc main_arg15) = V (Proc.devRef .tc main_arg15) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

theorem kept5_main_arg16 (V : Valuation τ sig (Elt F)) :
    after ops5 V (Proc.devRef .tc main_arg16) = V (Proc.devRef .tc main_arg16) :=
  StableHlo.after_of_forall_not_mem _ _ (List.forall_iff_forall_mem.mp (by
    simp only [List.Forall, StableHlo.nullary_writes, StableHlo.unary_writes, StableHlo.binary_writes, StableHlo.ternary_writes,
      StableHlo.quaternary_writes, StableHlo.reshape_writes, Finset.mem_singleton]
    repeat' apply And.intro
    all_goals exact StableHlo.devRef_ne_of_ne (by decide)))

end Cert.ReferenceIdeal.RefRun

end
-- ==== Proof.RefRun.lean ====
/-
  The reference's @main as ONE straight line of host operations — its six windows' lists one after the other — and its
  run: every weakly fair execution terminates with each buffer at the fold of the operations' results over the
  launch contents, and the argument arrays as launched.
-/
import proofs.«104369_j66383014527707_2_alg».proof.Proof.RefKept0
import proofs.«104369_j66383014527707_2_alg».proof.Proof.RefKept1
import proofs.«104369_j66383014527707_2_alg».proof.Proof.RefKept2
import proofs.«104369_j66383014527707_2_alg».proof.Proof.RefKept3
import proofs.«104369_j66383014527707_2_alg».proof.Proof.RefKept4
import proofs.«104369_j66383014527707_2_alg».proof.Proof.RefKept5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- All of @main's operations, in order. -/
abbrev ops : List (HloOp τ sig (Elt F)) := ops0 ++ (ops1 ++ (ops2 ++ (ops3 ++ (ops4 ++ ops5))))

/-- @main runs its windows in order, and each is the straight line over its list. -/
theorem main_eq (c : Dev nD) : main (F := F) c = seq ops := by
  show (main_part0 (F := F) c >>= fun _ => main_part1 (F := F) c >>= fun _ => main_part2 (F := F) c >>= fun _ =>
    main_part3 (F := F) c >>= fun _ => main_part4 (F := F) c >>= fun _ => main_part5 (F := F) c) = _
  rw [part0_eq, part1_eq, part2_eq, part3_eq, part4_eq, part5_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h | h
    · exact (List.forall_iff_forall_mem.mp ops0_sub) op h
    · exact (List.forall_iff_forall_mem.mp ops1_sub) op h
    · exact (List.forall_iff_forall_mem.mp ops2_sub) op h
    · exact (List.forall_iff_forall_mem.mp ops3_sub) op h
    · exact (List.forall_iff_forall_mem.mp ops4_sub) op h
    · exact (List.forall_iff_forall_mem.mp ops5_sub) op h

theorem ops_fresh : ∀ op ∈ (ops : List (HloOp τ sig (Elt F))), op.fresh = ∅ := fun op h => by
  simp only [ops, List.mem_append] at h
  rcases h with h | h | h | h | h | h
  · exact (List.forall_iff_forall_mem.mp ops0_fresh) op h
  · exact (List.forall_iff_forall_mem.mp ops1_fresh) op h
  · exact (List.forall_iff_forall_mem.mp ops2_fresh) op h
  · exact (List.forall_iff_forall_mem.mp ops3_fresh) op h
  · exact (List.forall_iff_forall_mem.mp ops4_fresh) op h
  · exact (List.forall_iff_forall_mem.mp ops5_fresh) op h

/-- The fold of all of @main, window by window. -/
theorem after_ops (V : Valuation τ sig (Elt F)) :
    after ops V = after ops5 (after ops4 (after ops3 (after ops2 (after ops1 (after ops0 V))))) := by
  simp only [ops, after_append]

theorem kept_main_arg0 (V : Valuation τ sig (Elt F)) : after ops V (Proc.devRef .tc main_arg0) = V (Proc.devRef .tc main_arg0) := by
  rw [after_ops, kept5_main_arg0, kept4_main_arg0, kept3_main_arg0, kept2_main_arg0, kept1_main_arg0, kept0_main_arg0]
theorem kept_main_arg1 (V : Valuation τ sig (Elt F)) : after ops V (Proc.devRef .tc main_arg1) = V (Proc.devRef .tc main_arg1) := by
  rw [after_ops, kept5_main_arg1, kept4_main_arg1, kept3_main_arg1, kept2_main_arg1, kept1_main_arg1, kept0_main_arg1]
theorem kept_main_arg2 (V : Valuation τ sig (Elt F)) : after ops V (Proc.devRef .tc main_arg2) = V (Proc.devRef .tc main_arg2) := by
  rw [after_ops, kept5_main_arg2, kept4_main_arg2, kept3_main_arg2, kept2_main_arg2, kept1_main_arg2, kept0_main_arg2]
theorem kept_main_arg3 (V : Valuation τ sig (Elt F)) : after ops V (Proc.devRef .tc main_arg3) = V (Proc.devRef .tc main_arg3) := by
  rw [after_ops, kept5_main_arg3, kept4_main_arg3, kept3_main_arg3, kept2_main_arg3, kept1_main_arg3, kept0_main_arg3]
theorem kept_main_arg4 (V : Valuation τ sig (Elt F)) : after ops V (Proc.devRef .tc main_arg4) = V (Proc.devRef .tc main_arg4) := by
  rw [after_ops, kept5_main_arg4, kept4_main_arg4, kept3_main_arg4, kept2_main_arg4, kept1_main_arg4, kept0_main_arg4]
theorem kept_main_arg5 (V : Valuation τ sig (Elt F)) : after ops V (Proc.devRef .tc main_arg5) = V (Proc.devRef .tc main_arg5) := by
  rw [after_ops, kept5_main_arg5, kept4_main_arg5, kept3_main_arg5, kept2_main_arg5, kept1_main_arg5, kept0_main_arg5]
theorem kept_main_arg6 (V : Valuation τ sig (Elt F)) : after ops V (Proc.devRef .tc main_arg6) = V (Proc.devRef .tc main_arg6) := by
  rw [after_ops, kept5_main_arg6, kept4_main_arg6, kept3_main_arg6, kept2_main_arg6, kept1_main_arg6, kept0_main_arg6]
theorem kept_main_arg7 (V : Valuation τ sig (Elt F)) : after ops V (Proc.devRef .tc main_arg7) = V (Proc.devRef .tc main_arg7) := by
  rw [after_ops, kept5_main_arg7, kept4_main_arg7, kept3_main_arg7, kept2_main_arg7, kept1_main_arg7, kept0_main_arg7]
theorem kept_main_arg8 (V : Valuation τ sig (Elt F)) : after ops V (Proc.devRef .tc main_arg8) = V (Proc.devRef .tc main_arg8) := by
  rw [after_ops, kept5_main_arg8, kept4_main_arg8, kept3_main_arg8, kept2_main_arg8, kept1_main_arg8, kept0_main_arg8]
theorem kept_main_arg9 (V : Valuation τ sig (Elt F)) : after ops V (Proc.devRef .tc main_arg9) = V (Proc.devRef .tc main_arg9) := by
  rw [after_ops, kept5_main_arg9, kept4_main_arg9, kept3_main_arg9, kept2_main_arg9, kept1_main_arg9, kept0_main_arg9]
theorem kept_main_arg10 (V : Valuation τ sig (Elt F)) : after ops V (Proc.devRef .tc main_arg10) = V (Proc.devRef .tc main_arg10) := by
  rw [after_ops, kept5_main_arg10, kept4_main_arg10, kept3_main_arg10, kept2_main_arg10, kept1_main_arg10, kept0_main_arg10]
theorem kept_main_arg11 (V : Valuation τ sig (Elt F)) : after ops V (Proc.devRef .tc main_arg11) = V (Proc.devRef .tc main_arg11) := by
  rw [after_ops, kept5_main_arg11, kept4_main_arg11, kept3_main_arg11, kept2_main_arg11, kept1_main_arg11, kept0_main_arg11]
theorem kept_main_arg12 (V : Valuation τ sig (Elt F)) : after ops V (Proc.devRef .tc main_arg12) = V (Proc.devRef .tc main_arg12) := by
  rw [after_ops, kept5_main_arg12, kept4_main_arg12, kept3_main_arg12, kept2_main_arg12, kept1_main_arg12, kept0_main_arg12]
theorem kept_main_arg13 (V : Valuation τ sig (Elt F)) : after ops V (Proc.devRef .tc main_arg13) = V (Proc.devRef .tc main_arg13) := by
  rw [after_ops, kept5_main_arg13, kept4_main_arg13, kept3_main_arg13, kept2_main_arg13, kept1_main_arg13, kept0_main_arg13]
theorem kept_main_arg14 (V : Valuation τ sig (Elt F)) : after ops V (Proc.devRef .tc main_arg14) = V (Proc.devRef .tc main_arg14) := by
  rw [after_ops, kept5_main_arg14, kept4_main_arg14, kept3_main_arg14, kept2_main_arg14, kept1_main_arg14, kept0_main_arg14]
theorem kept_main_arg15 (V : Valuation τ sig (Elt F)) : after ops V (Proc.devRef .tc main_arg15) = V (Proc.devRef .tc main_arg15) := by
  rw [after_ops, kept5_main_arg15, kept4_main_arg15, kept3_main_arg15, kept2_main_arg15, kept1_main_arg15, kept0_main_arg15]
theorem kept_main_arg16 (V : Valuation τ sig (Elt F)) : after ops V (Proc.devRef .tc main_arg16) = V (Proc.devRef .tc main_arg16) := by
  rw [after_ops, kept5_main_arg16, kept4_main_arg16, kept3_main_arg16, kept2_main_arg16, kept1_main_arg16, kept0_main_arg16]

/-- On every device, for any float values, from any memory with zero counters: every weakly fair execution of
    @main terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The frame: @main runs, and the argument arrays end as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _),
      (h c main_arg13).trans (kept_main_arg13 _),
      (h c main_arg14).trans (kept_main_arg14 _),
      (h c main_arg15).trans (kept_main_arg15 _),
      (h c main_arg16).trans (kept_main_arg16 _)⟩)
    (run_main m ρ)

end Cert.ReferenceIdeal.RefRun

end
-- ==== Proof.RefSpec.lean ====
/-
  The reference program's network as functions of arrays, spelt with the operations the reference uses: the edge
  list's rows, jnp's index normalisation, the symmetric normalisation's factors and the edge weights, a layer's
  pre-activation (segment sum over the edges, self-loop term, bias), batch norm with the variance as the mean squared
  deviation, rectifier, the dense projections, and the pooling over the graphs.
-/
import proofs.«104369_j66383014527707_2_alg».proof.Proof.Gen.ReferenceIdeal
import Idealize.ShloMosaic.Lib.StableHlo.Run
import Idealize.ShloMosaic.PureOps.Ideal

noncomputable section

namespace Cert.ReferenceIdeal.RSpec

open Cert.ReferenceIdeal Cert.ReferenceIdeal.Gen Idealize.ShloMosaic

variable {α : Type}

def rSrc (a1 : IVec S2x1600000 32) : IVec S1600000 32 :=
  fun i => shapeCast S1600000 (extractStridedSlice S1x1600000 ![0, 0] a1 slices_S2x1600000_S1x1600000_0_0)
    shapeCasts_S1x1600000_S1600000 i

def rDst (a1 : IVec S2x1600000 32) : IVec S1600000 32 :=
  fun i => shapeCast S1600000 (extractStridedSlice S1x1600000 ![1, 0] a1 slices_S2x1600000_S1x1600000_1_0)
    shapeCasts_S1x1600000_S1600000 i

/-- jnp's normalisation of a vector of node indices over the edges. -/
def wrapN (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

def colE (v : S1600000.Idx → α) : S1600000x1.Idx → α :=
  broadcastInDim S1600000x1 ![0] bcast_S1600000_S1600000x1_0 v

def rDinv (dst : IVec S1600000 32) : FVec Ideal S100000 .f32 :=
  Host.rsqrt (addf
    (Host.scatterAdd scatter_S100000_S1600000x1_S1600000_n_0_0_1
      (broadcastInDim S100000 ![] bcast_S_S100000 (constant S_ .f32 0x00000000#32)) (colE dst)
      (broadcastInDim S1600000 ![] bcast_S_S1600000 (constant S_ .f32 0x3F800000#32)))
    (broadcastInDim S100000 ![] bcast_S_S100000 (constant S_ .f32 0x3F800000#32)))

def rNorm (dinv : FVec Ideal S100000 .f32) (src dst : IVec S1600000 32) : FVec Ideal S1600000 .f32 :=
  mulf (Host.gather gather_S100000_S1600000x1_S1600000_n_0_n_n_0_1_1 dinv (colE (wrapN src)))
    (Host.gather gather_S100000_S1600000x1_S1600000_n_0_n_n_0_1_1 dinv (colE (wrapN dst)))

def rAgg (h : FVec Ideal S100000x32 .f32) (nrm : FVec Ideal S1600000 .f32) (src dst : IVec S1600000 32) :
    FVec Ideal S100000x32 .f32 :=
  Host.scatterAdd scatter_S100000x32_S1600000x1_S1600000x32_1_0_0_1
    (broadcastInDim S100000x32 ![] bcast_S_S100000x32 (constant S_ .f32 0x00000000#32)) (colE dst)
    (mulf (Host.gather gather_S100000x32_S1600000x1_S1600000x32_1_0_n_n_0_1_132 h (colE (wrapN src)))
      (broadcastInDim S1600000x32 ![0, 1] bcast_S1600000x1_S1600000x32_0_1 (colE nrm)))

/-- A per-node vector across the 32 channels. -/
def bcNode (v : FVec Ideal S100000 .f32) : FVec Ideal S100000x32 .f32 :=
  broadcastInDim S100000x32 ![0, 1] bcast_S100000x1_S100000x32_0_1
    (broadcastInDim S100000x1 ![0] bcast_S100000_S100000x1_0 v)

/-- A per-channel vector down the nodes. -/
def bcChan (v : FVec Ideal S32 .f32) : FVec Ideal S100000x32 .f32 :=
  broadcastInDim S100000x32 ![0, 1] bcast_S1x32_S100000x32_0_1 (broadcastInDim S1x32 ![1] bcast_S32_S1x32_1 v)

def rPre (h : FVec Ideal S100000x32 .f32) (src dst : IVec S1600000 32) (b : FVec Ideal S32 .f32) :
    FVec Ideal S100000x32 .f32 :=
  addf (addf (rAgg h (rNorm (rDinv dst) src dst) src dst) (mulf h (bcNode (mulf (rDinv dst) (rDinv dst))))) (bcChan b)

def rSum (p : FVec Ideal S100000x32 .f32) : FVec Ideal S32 .f32 :=
  Host.reduceAdd p (constant S_ .f32 0x00000000#32) reducesTo_S100000x32_S32_d0 h_S_

def rMean (p : FVec Ideal S100000x32 .f32) : FVec Ideal S32 .f32 :=
  Host.divf (rSum p) (broadcastInDim S32 ![] bcast_S_S32 (constant S_ .f32 0x47C35000#32))

/-- The deviations from the mean, as jnp's variance forms them. -/
def rDev (p : FVec Ideal S100000x32 .f32) : FVec Ideal S100000x32 .f32 :=
  subf p (broadcastInDim S100000x32 ![0, 1] bcast_S1x32_S100000x32_0_1
    (Host.divf (broadcastInDim S1x32 ![1] bcast_S32_S1x32_1 (rSum p))
      (broadcastInDim S1x32 ![] bcast_S_S1x32 (constant S_ .f32 0x47C35000#32))))

/-- The divisor of jnp's variance: the number of nodes less the degrees of freedom, here none. -/
def rDof : FVec Ideal S_ .f32 := subf (constant S_ .f32 0x47C35000#32) (sitofp .f32 (constantI S_ 32 0#32))

def rVar (p : FVec Ideal S100000x32 .f32) : FVec Ideal S32 .f32 :=
  select (broadcastInDim S32 ![] bcast_S_S32 (cmpf .ogt rDof (constant S_ .f32 0x00000000#32)))
    (Host.divf (Host.reduceAdd (mulf (rDev p) (rDev p)) (constant S_ .f32 0x00000000#32) reducesTo_S100000x32_S32_d0 h_S_)
      (broadcastInDim S32 ![] bcast_S_S32 rDof))
    (broadcastInDim S32 ![] bcast_S_S32 (id (constant S_ .f32 0x7FC00000#32)))

def rAct (p : FVec Ideal S100000x32 .f32) (g be : FVec Ideal S32 .f32) : FVec Ideal S100000x32 .f32 :=
  maximumf
    (addf (mulf (mulf (subf p (bcChan (rMean p)))
      (bcChan (Host.rsqrt (addf (rVar p) (broadcastInDim S32 ![] bcast_S_S32 (constant S_ .f32 0x3727C5AC#32))))))
      (bcChan g)) (bcChan be))
    (broadcastInDim S100000x32 ![] bcast_S_S100000x32 (constant S_ .f32 0x00000000#32))

def rNext (p : FVec Ideal S100000x32 .f32) (g be : FVec Ideal S32 .f32) (W : FVec Ideal S32x32 .f32) :
    FVec Ideal S100000x32 .f32 :=
  Host.dotGeneral dot_S100000x32_S32x32_S100000x32_1_0_0_1_n_n none (rAct p g be) W

def rDot0 (x : FVec Ideal S100000x128 .f32) (W : FVec Ideal S128x32 .f32) : FVec Ideal S100000x32 .f32 :=
  Host.dotGeneral dot_S100000x128_S128x32_S100000x32_1_0_0_1_n_n none x W

def rTail (out : FVec Ideal S100000x32 .f32) (batch : IVec S100000 32) : FVec Ideal S64x32 .f32 :=
  Host.divf
    (Host.scatterAdd scatter_S64x32_S100000x1_S100000x32_1_0_0_1
      (broadcastInDim S64x32 ![] bcast_S_S64x32 (constant S_ .f32 0x00000000#32))
      (broadcastInDim S100000x1 ![0] bcast_S100000_S100000x1_0 batch) out)
    (broadcastInDim S64x32 ![0, 1] bcast_S64x1_S64x32_0_1
      (broadcastInDim S64x1 ![0] bcast_S64_S64x1_0
        (maximumf
          (Host.scatterAdd scatter_S64_S100000x1_S100000_n_0_0_1
            (broadcastInDim S64 ![] bcast_S_S64 (constant S_ .f32 0x00000000#32))
            (broadcastInDim S100000x1 ![0] bcast_S100000_S100000x1_0 batch)
            (broadcastInDim S100000 ![] bcast_S_S100000 (constant S_ .f32 0x3F800000#32)))
          (broadcastInDim S64 ![] bcast_S_S64 (constant S_ .f32 0x3F800000#32)))))

/-- The whole network as the reference computes it. -/
def rNet (x : FVec Ideal S100000x128 .f32) (ei : IVec S2x1600000 32) (batch : IVec S100000 32)
    (W0 : FVec Ideal S128x32 .f32) (b0 g0 be0 : FVec Ideal S32 .f32)
    (W1 : FVec Ideal S32x32 .f32) (b1 g1 be1 : FVec Ideal S32 .f32)
    (W2 : FVec Ideal S32x32 .f32) (b2 g2 be2 : FVec Ideal S32 .f32)
    (Wc : FVec Ideal S32x32 .f32) (bc : FVec Ideal S32 .f32) : FVec Ideal S64x32 .f32 :=
  rTail (rPre (rNext (rPre (rNext (rPre (rNext (rPre (rDot0 x W0) (rSrc ei) (rDst ei) b0) g0 be0 W1) (rSrc ei) (rDst ei) b1)
    g1 be1 W2) (rSrc ei) (rDst ei) b2) g2 be2 Wc) (rSrc ei) (rDst ei) bc) batch

end Cert.ReferenceIdeal.RSpec

end
-- ==== Proof.RefStages.lean ====
/-
  The reference's @main cut where the network's layers meet: the first projection; per layer, the pre-activation
  and then batch norm, rectifier and the next projection; the pooling. What each piece computes, as the reference's
  own functions of the buffers it reads, for any contents it starts from; and which buffers it leaves alone.
-/
import proofs.«104369_j66383014527707_2_alg».proof.Proof.RefRun
import proofs.«104369_j66383014527707_2_alg».proof.Proof.RefSpec

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RSpec

variable {F : FTy → Type} [FloatOps F]

abbrev Sa : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg3 main_v4 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)) ]

def writes_Sa : List (Ref sig .tc) := [main_v0, main_v1, main_v2, main_v3, main_v4]

theorem keep_Sa (V : Valuation τ sig (Elt F)) (r : Ref sig .tc) (hr : r ∉ writes_Sa) :
    after Sa V (Proc.devRef .tc r) = V (Proc.devRef .tc r) :=
  after_of_writes_sub Sa V (by
    simp only [List.Forall, StableHlo.nullary_writes, StableHlo.unary_writes, StableHlo.binary_writes, StableHlo.ternary_writes,
      StableHlo.quaternary_writes, StableHlo.reshape_writes, writes_Sa]
    repeat' apply And.intro
    all_goals exact Finset.singleton_subset_iff.mpr (List.mem_toFinset.mpr (List.mem_map_of_mem (by decide)))) hr

abbrev Sb0 : List (HloOp τ sig (Elt F)) :=
  [ StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v4 main_v32 main_v33 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v33 main_v35 main_v36 (mulf : (⟨S1600000x32, .f32⟩ : BufTy).Contents (Elt F) → (⟨S1600000x32, .f32⟩ : BufTy).Contents (Elt F) → (⟨S1600000x32, .f32⟩ : BufTy).Contents (Elt F)),
    StableHlo.nullary main_cst_7 (constant S_ .f32 0x00000000#32),
    StableHlo.unary main_cst_7 main_v37 (broadcastInDim S100000x32 ![] bcast_S_S100000x32 : (⟨S_, .f32⟩ : BufTy).Contents (Elt F) → (⟨S100000x32, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v11 main_v11 main_v40 (mulf : (⟨S100000, .f32⟩ : BufTy).Contents (Elt F) → (⟨S100000, .f32⟩ : BufTy).Contents (Elt F) → (⟨S100000, .f32⟩ : BufTy).Contents (Elt F)),
    StableHlo.unary main_v40 main_v41 (broadcastInDim S100000x1 ![0] bcast_S100000_S100000x1_0 : (⟨S100000, .f32⟩ : BufTy).Contents (Elt F) → (⟨S100000x1, .f32⟩ : BufTy).Contents (Elt F)),
    StableHlo.unary main_v41 main_v42 (broadcastInDim S100000x32 ![0, 1] bcast_S100000x1_S100000x32_0_1 : (⟨S100000x1, .f32⟩ : BufTy).Contents (Elt F) → (⟨S100000x32, .f32⟩ : BufTy).Contents (Elt F)),
    StableHlo.binary main_v4 main_v42 main_v43 (mulf : (⟨S100000x32, .f32⟩ : BufTy).Contents (Elt F) → (⟨S100000x32, .f32⟩ : BufTy).Contents (Elt F) → (⟨S100000x32, .f32⟩ : BufTy).Contents (Elt F)),
    StableHlo.binary main_v39 main_v43 main_v44 (addf : (⟨S100000x32, .f32⟩ : BufTy).Contents (Elt F) → (⟨S100000x32, .f32⟩ : BufTy).Contents (Elt F) → (⟨S100000x32, .f32⟩ : BufTy).Contents (Elt F)),
    StableHlo.unary main_arg4 main_v45 (broadcastInDim S1x32 ![1] bcast_S32_S1x32_1 : (⟨S32, .f32⟩ : BufTy).Contents (Elt F) → (⟨S1x32, .f32⟩ : BufTy).Contents (Elt F)),
    StableHlo.unary main_v45 main_v46 (broadcastInDim S100000x32 ![0, 1] bcast_S1x32_S100000x32_0_1 : (⟨S1x32, .f32⟩ : BufTy).Contents (Elt F) → (⟨S100000x32, .f32⟩ : BufTy).Contents (Elt F)),
    StableHlo.binary main_v44 main_v46 main_v47 (addf : (⟨S100000x32, .f32⟩ : BufTy).Contents (Elt F) → (⟨S100000x32, .f32⟩ : BufTy).Contents (Elt F) → (⟨S100000x32, .f32⟩ : BufTy).Contents (Elt F)) ]

def writes_Sb0 : List (Ref sig .tc) := [main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_v40, main_v41, main_v42, main_v43, main_v44, main_v45, main_v46, main_v47]

theorem keep_Sb0 (V : Valuation τ sig (Elt F)) (r : Ref sig .tc) (hr : r ∉ writes_Sb0) :
    after Sb0 V (Proc.devRef .tc r) = V (Proc.devRef .tc r) :=
  after_of_writes_sub Sb0 V (by
    simp only [List.Forall, StableHlo.nullary_writes, StableHlo.unary_writes, StableHlo.binary_writes, StableHlo.ternary_writes,
      StableHlo.quaternary_writes, StableHlo.reshape_writes, writes_Sb0]
    repeat' apply And.intro
    all_goals exact Finset.singleton_subset_iff.mpr (List.mem_toFinset.mpr (List.mem_map_of_mem (by decide)))) hr

abbrev Sc0 : List (HloOp τ sig (Elt F)) :=
  [ StableHlo.nullary main_cst_8 (constant S_ .f32 0x00000000#32),
    StableHlo.binary main_v47 main_cst_8 main_v48 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_9 (constant S_ .f32 0x47C35000#32),
    StableHlo.unary main_cst_9 main_v49 (broadcastInDim S32 ![] bcast_S_S32 : (⟨S_, .f32⟩ : BufTy).Contents (Elt F) → (⟨S32, .f32⟩ : BufTy).Contents (Elt F)),
    StableHlo.binary main_v48 main_v49 main_v50 (Host.divf : (⟨S32, .f32⟩ : BufTy).Contents (Elt F) → (⟨S32, .f32⟩ : BufTy).Contents (Elt F) → (⟨S32, .f32⟩ : BufTy).Contents (Elt F)),
    StableHlo.nullary main_c_10 (constantI S_ 32 0#32),
    StableHlo.TRef.nullary main_call0.cst (constant S_ .f32 0x00000000#32),
    StableHlo.TRef.binary (.of main_v47) main_call0.cst main_call0.v0 (fun x v => Host.reduceAdd x v reducesTo_S100000x32_S32_d0 h_S_),
    StableHlo.TRef.unary main_call0.v0 main_call0.v1 (broadcastInDim S1x32 ![1] bcast_S32_S1x32_1),
    StableHlo.TRef.nullary main_call0.cst_0 (constant S_ .f32 0x47C35000#32),
    StableHlo.TRef.unary main_call0.cst_0 main_call0.v2 (broadcastInDim S1x32 ![] bcast_S_S1x32),
    StableHlo.TRef.binary main_call0.v1 main_call0.v2 main_call0.v3 Host.divf,
    StableHlo.TRef.unary main_call0.v3 main_call0.v4 (broadcastInDim S100000x32 ![0, 1] bcast_S1x32_S100000x32_0_1),
    StableHlo.TRef.binary (.of main_v47) main_call0.v4 main_call0.v5 subf,
    StableHlo.TRef.binary main_call0.v5 main_call0.v5 main_call0.v6 mulf,
    StableHlo.TRef.unary (.of main_c_10) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x32_S32_d0 h_S_),
    StableHlo.TRef.unary main_call0.v8 main_call0.v10 (broadcastInDim S32 ![] bcast_S_S32),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32 ![] bcast_S_S32),
    StableHlo.TRef.ternary main_call0.v12 main_call0.v11 main_call0.call0.v1 main_call0.call0.v2 (fun p a b => select (broadcastInDim S32 ![] bcast_S_S32 p) a b),
    StableHlo.unary main_v50 main_v52 (broadcastInDim S1x32 ![1] bcast_S32_S1x32_1 : (⟨S32, .f32⟩ : BufTy).Contents (Elt F) → (⟨S1x32, .f32⟩ : BufTy).Contents (Elt F)),
    StableHlo.unary main_v52 main_v53 (broadcastInDim S100000x32 ![0, 1] bcast_S1x32_S100000x32_0_1 : (⟨S1x32, .f32⟩ : BufTy).Contents (Elt F) → (⟨S100000x32, .f32⟩ : BufTy).Contents (Elt F)),
    StableHlo.binary main_v47 main_v53 main_v54 (subf : (⟨S100000x32, .f32⟩ : BufTy).Contents (Elt F) → (⟨S100000x32, .f32⟩ : BufTy).Contents (Elt F) → (⟨S100000x32, .f32⟩ : BufTy).Contents (Elt F)),
    StableHlo.nullary main_cst_11 (constant S_ .f32 0x3727C5AC#32),
    StableHlo.unary main_cst_11 main_v55 (broadcastInDim S32 ![] bcast_S_S32 : (⟨S_, .f32⟩ : BufTy).Contents (Elt F) → (⟨S32, .f32⟩ : BufTy).Contents (Elt F)),
    StableHlo.binary main_v51 main_v55 main_v56 (addf : (⟨S32, .f32⟩ : BufTy).Contents (Elt F) → (⟨S32, .f32⟩ : BufTy).Contents (Elt F) → (⟨S32, .f32⟩ : BufTy).Contents (Elt F)),
    StableHlo.unary main_v56 main_v57 (Host.rsqrt : (⟨S32, .f32⟩ : BufTy).Contents (Elt F) → (⟨S32, .f32⟩ : BufTy).Contents (Elt F)),
    StableHlo.unary main_v57 main_v58 (broadcastInDim S1x32 ![1] bcast_S32_S1x32_1 : (⟨S32, .f32⟩ : BufTy).Contents (Elt F) → (⟨S1x32, .f32⟩ : BufTy).Contents (Elt F)),
    StableHlo.unary main_v58 main_v59 (broadcastInDim S100000x32 ![0, 1] bcast_S1x32_S100000x32_0_1 : (⟨S1x32, .f32⟩ : BufTy).Contents (Elt F) → (⟨S100000x32, .f32⟩ : BufTy).Contents (Elt F)),
    StableHlo.binary main_v54 main_v59 main_v60 (mulf : (⟨S100000x32, .f32⟩ : BufTy).Contents (Elt F) → (⟨S100000x32, .f32⟩ : BufTy).Contents (Elt F) → (⟨S100000x32, .f32⟩ : BufTy).Contents (Elt F)),
    StableHlo.unary main_arg5 main_v61 (broadcastInDim S1x32 ![1] bcast_S32_S1x32_1 : (⟨S32, .f32⟩ : BufTy).Contents (Elt F) → (⟨S1x32, .f32⟩ : BufTy).Contents (Elt F)),
    StableHlo.unary main_v61 main_v62 (broadcastInDim S100000x32 ![0, 1] bcast_S1x32_S100000x32_0_1 : (⟨S1x32, .f32⟩ : BufTy).Contents (Elt F) → (⟨S100000x32, .f32⟩ : BufTy).Contents (Elt F)),
    StableHlo.binary main_v60 main_v62 main_v63 (mulf : (⟨S100000x32, .f32⟩ : BufTy).Contents (Elt F) → (⟨S100000x32, .f32⟩ : BufTy).Contents (Elt F) → (⟨S100000x32, .f32⟩ : BufTy).Contents (Elt F)),
    StableHlo.unary main_arg6 main_v64 (broadcastInDim S1x32 ![1] bcast_S32_S1x32_1 : (⟨S32, .f32⟩ : BufTy).Contents (Elt F) → (⟨S1x32, .f32⟩ : BufTy).Contents (Elt F)),
    StableHlo.unary main_v64 main_v65 (broadcastInDim S100000x32 ![0, 1] bcast_S1x32_S100000x32_0_1 : (⟨S1x32, .f32⟩ : BufTy).Contents (Elt F) → (⟨S100000x32, .f32⟩ : BufTy).Contents (Elt F)),
    StableHlo.binary main_v63 main_v65 main_v66 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v66) main_call1.v0 main_call1.v1 maximumf,
    StableHlo.binary main_v67 main_arg7 main_v68 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

def writes_Sc0 : List (Ref sig .tc) := [main_cst_8, main_v48, main_cst_9, main_v49, main_v50, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v51, main_v52, main_v53, main_v54, main_cst_11, main_v55, main_v56, main_v57, main_v58, main_v59, main_v60, main_v61, main_v62, main_v63, main_v64, main_v65, main_v66, main_call1_cst, main_call1_v0, main_v67, main_v68]

theorem keep_Sc0 (V : Valuation τ sig (Elt F)) (r : Ref sig .tc) (hr : r ∉ writes_Sc0) :
    after Sc0 V (Proc.devRef .tc r) = V (Proc.devRef .tc r) :=
  after_of_writes_sub Sc0 V (by
    simp only [List.Forall, StableHlo.nullary_writes, StableHlo.unary_writes, StableHlo.binary_writes, StableHlo.ternary_writes,
      StableHlo.quaternary_writes, StableHlo.reshape_writes, writes_Sc0]
    repeat' apply And.intro
    all_goals exact Finset.singleton_subset_iff.mpr (List.mem_toFinset.mpr (List.mem_map_of_mem (by decide)))) hr

abbrev Sb1 : List (HloOp τ sig (Elt F)) :=
  [ StableHlo.nullary main_cst_12 (constant S_ .f32 0x3F800000#32),
    StableHlo.unary main_cst_12 main_v69 (broadcastInDim S1600000 ![] bcast_S_S1600000 : (⟨S_, .f32⟩ : BufTy).Contents (Elt F) → (⟨S1600000, .f32⟩ : BufTy).Contents (Elt F)),
    StableHlo.nullary main_cst_13 (constant S_ .f32 0x00000000#32),
    StableHlo.unary main_cst_13 main_v70 (broadcastInDim S100000 ![] bcast_S_S100000 : (⟨S_, .f32⟩ : BufTy).Contents (Elt F) → (⟨S100000, .f32⟩ : BufTy).Contents (Elt F)),
    StableHlo.unary main_v3 main_v71 (broadcastInDim S1600000x1 ![0] bcast_S1600000_S1600000x1_0 : (⟨S1600000, .i32⟩ : BufTy).Contents (Elt F) → (⟨S1600000x1, .i32⟩ : BufTy).Contents (Elt F)),
    StableHlo.ternary main_v70 main_v71 main_v69 main_v72 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_14 (constant S_ .f32 0x3F800000#32),
    StableHlo.unary main_cst_14 main_v73 (broadcastInDim S100000 ![] bcast_S_S100000 : (⟨S_, .f32⟩ : BufTy).Contents (Elt F) → (⟨S100000, .f32⟩ : BufTy).Contents (Elt F)),
    StableHlo.binary main_v72 main_v73 main_v74 (addf : (⟨S100000, .f32⟩ : BufTy).Contents (Elt F) → (⟨S100000, .f32⟩ : BufTy).Contents (Elt F) → (⟨S100000, .f32⟩ : BufTy).Contents (Elt F)),
    StableHlo.unary main_v74 main_v75 (Host.rsqrt : (⟨S100000, .f32⟩ : BufTy).Contents (Elt F) → (⟨S100000, .f32⟩ : BufTy).Contents (Elt F)),
    StableHlo.nullary main_c_15 (constantI S_ 32 0#32),
    StableHlo.unary main_c_15 main_v76 (broadcastInDim S1600000 ![] bcast_S_S1600000 : (⟨S_, .i32⟩ : BufTy).Contents (Elt F) → (⟨S1600000, .i32⟩ : BufTy).Contents (Elt F)),
    StableHlo.binary main_v1 main_v76 main_v77 (cmpi .slt : (⟨S1600000, .i32⟩ : BufTy).Contents (Elt F) → (⟨S1600000, .i32⟩ : BufTy).Contents (Elt F) → (⟨S1600000, .i1⟩ : BufTy).Contents (Elt F)),
    StableHlo.nullary main_c_16 (constantI S_ 32 100000#32),
    StableHlo.unary main_c_16 main_v78 (broadcastInDim S1600000 ![] bcast_S_S1600000 : (⟨S_, .i32⟩ : BufTy).Contents (Elt F) → (⟨S1600000, .i32⟩ : BufTy).Contents (Elt F)),
    StableHlo.binary main_v1 main_v78 main_v79 (addi : (⟨S1600000, .i32⟩ : BufTy).Contents (Elt F) → (⟨S1600000, .i32⟩ : BufTy).Contents (Elt F) → (⟨S1600000, .i32⟩ : BufTy).Contents (Elt F)),
    StableHlo.ternary main_v77 main_v79 main_v1 main_v80 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v80 main_v81 (broadcastInDim S1600000x1 ![0] bcast_S1600000_S1600000x1_0 : (⟨S1600000, .i32⟩ : BufTy).Contents (Elt F) → (⟨S1600000x1, .i32⟩ : BufTy).Contents (Elt F)),
    StableHlo.binary main_v75 main_v81 main_v82 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_17 (constantI S_ 32 0#32),
    StableHlo.unary main_c_17 main_v83 (broadcastInDim S1600000 ![] bcast_S_S1600000 : (⟨S_, .i32⟩ : BufTy).Contents (Elt F) → (⟨S1600000, .i32⟩ : BufTy).Contents (Elt F)),
    StableHlo.binary main_v3 main_v83 main_v84 (cmpi .slt : (⟨S1600000, .i32⟩ : BufTy).Contents (Elt F) → (⟨S1600000, .i32⟩ : BufTy).Contents (Elt F) → (⟨S1600000, .i1⟩ : BufTy).Contents (Elt F)),
    StableHlo.nullary main_c_18 (constantI S_ 32 100000#32),
    StableHlo.unary main_c_18 main_v85 (broadcastInDim S1600000 ![] bcast_S_S1600000 : (⟨S_, .i32⟩ : BufTy).Contents (Elt F) → (⟨S1600000, .i32⟩ : BufTy).Contents (Elt F)),
    StableHlo.binary main_v3 main_v85 main_v86 (addi : (⟨S1600000, .i32⟩ : BufTy).Contents (Elt F) → (⟨S1600000, .i32⟩ : BufTy).Contents (Elt F) → (⟨S1600000, .i32⟩ : BufTy).Contents (Elt F)),
    StableHlo.ternary main_v84 main_v86 main_v3 main_v87 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v87 main_v88 (broadcastInDim S1600000x1 ![0] bcast_S1600000_S1600000x1_0 : (⟨S1600000, .i32⟩ : BufTy).Contents (Elt F) → (⟨S1600000x1, .i32⟩ : BufTy).Contents (Elt F)),
    StableHlo.binary main_v75 main_v88 main_v89 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v82 main_v89 main_v90 (mulf : (⟨S1600000, .f32⟩ : BufTy).Contents (Elt F) → (⟨S1600000, .f32⟩ : BufTy).Contents (Elt F) → (⟨S1600000, .f32⟩ : BufTy).Contents (Elt F)),
    StableHlo.nullary main_c_19 (constantI S_ 32 0#32),
    StableHlo.unary main_c_19 main_v91 (broadcastInDim S1600000 ![] bcast_S_S1600000 : (⟨S_, .i32⟩ : BufTy).Contents (Elt F) → (⟨S1600000, .i32⟩ : BufTy).Contents (Elt F)),
    StableHlo.binary main_v1 main_v91 main_v92 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v93 (broadcastInDim S1600000 ![] bcast_S_S1600000 : (⟨S_, .i32⟩ : BufTy).Contents (Elt F) → (⟨S1600000, .i32⟩ : BufTy).Contents (Elt F)),
    StableHlo.binary main_v1 main_v93 main_v94 (addi : (⟨S1600000, .i32⟩ : BufTy).Contents (Elt F) → (⟨S1600000, .i32⟩ : BufTy).Contents (Elt F) → (⟨S1600000, .i32⟩ : BufTy).Contents (Elt F)),
    StableHlo.ternary main_v92 main_v94 main_v1 main_v95 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v95 main_v96 (broadcastInDim S1600000x1 ![0] bcast_S1600000_S1600000x1_0 : (⟨S1600000, .i32⟩ : BufTy).Contents (Elt F) → (⟨S1600000x1, .i32⟩ : BufTy).Contents (Elt F)),
    StableHlo.binary main_v68 main_v96 main_v97 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v90 main_v98 (broadcastInDim S1600000x1 ![0] bcast_S1600000_S1600000x1_0 : (⟨S1600000, .f32⟩ : BufTy).Contents (Elt F) → (⟨S1600000x1, .f32⟩ : BufTy).Contents (Elt F)),
    StableHlo.unary main_v98 main_v99 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v97 main_v99 main_v100 (mulf : (⟨S1600000x32, .f32⟩ : BufTy).Contents (Elt F) → (⟨S1600000x32, .f32⟩ : BufTy).Contents (Elt F) → (⟨S1600000x32, .f32⟩ : BufTy).Contents (Elt F)),
    StableHlo.nullary main_cst_21 (constant S_ .f32 0x00000000#32),
    StableHlo.unary main_cst_21 main_v101 (broadcastInDim S100000x32 ![] bcast_S_S100000x32 : (⟨S_, .f32⟩ : BufTy).Contents (Elt F) → (⟨S100000x32, .f32⟩ : BufTy).Contents (Elt F)),
    StableHlo.unary main_v3 main_v102 (broadcastInDim S1600000x1 ![0] bcast_S1600000_S1600000x1_0 : (⟨S1600000, .i32⟩ : BufTy).Contents (Elt F) → (⟨S1600000x1, .i32⟩ : BufTy).Contents (Elt F)),
    StableHlo.ternary main_v101 main_v102 main_v100 main_v103 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v75 main_v75 main_v104 (mulf : (⟨S100000, .f32⟩ : BufTy).Contents (Elt F) → (⟨S100000, .f32⟩ : BufTy).Contents (Elt F) → (⟨S100000, .f32⟩ : BufTy).Contents (Elt F)),
    StableHlo.unary main_v104 main_v105 (broadcastInDim S100000x1 ![0] bcast_S100000_S100000x1_0 : (⟨S100000, .f32⟩ : BufTy).Contents (Elt F) → (⟨S100000x1, .f32⟩ : BufTy).Contents (Elt F)),
    StableHlo.unary main_v105 main_v106 (broadcastInDim S100000x32 ![0, 1] bcast_S100000x1_S100000x32_0_1 : (⟨S100000x1, .f32⟩ : BufTy).Contents (Elt F) → (⟨S100000x32, .f32⟩ : BufTy).Contents (Elt F)),
    StableHlo.binary main_v68 main_v106 main_v107 (mulf : (⟨S100000x32, .f32⟩ : BufTy).Contents (Elt F) → (⟨S100000x32, .f32⟩ : BufTy).Contents (Elt F) → (⟨S100000x32, .f32⟩ : BufTy).Contents (Elt F)),
    StableHlo.binary main_v103 main_v107 main_v108 (addf : (⟨S100000x32, .f32⟩ : BufTy).Contents (Elt F) → (⟨S100000x32, .f32⟩ : BufTy).Contents (Elt F) → (⟨S100000x32, .f32⟩ : BufTy).Contents (Elt F)),
    StableHlo.unary main_arg8 main_v109 (broadcastInDim S1x32 ![1] bcast_S32_S1x32_1 : (⟨S32, .f32⟩ : BufTy).Contents (Elt F) → (⟨S1x32, .f32⟩ : BufTy).Contents (Elt F)),
    StableHlo.unary main_v109 main_v110 (broadcastInDim S100000x32 ![0, 1] bcast_S1x32_S100000x32_0_1 : (⟨S1x32, .f32⟩ : BufTy).Contents (Elt F) → (⟨S100000x32, .f32⟩ : BufTy).Contents (Elt F)),
    StableHlo.binary main_v108 main_v110 main_v111 (addf : (⟨S100000x32, .f32⟩ : BufTy).Contents (Elt F) → (⟨S100000x32, .f32⟩ : BufTy).Contents (Elt F) → (⟨S100000x32, .f32⟩ : BufTy).Contents (Elt F)) ]

def writes_Sb1 : List (Ref sig .tc) := [main_cst_12, main_v69, main_cst_13, main_v70, main_v71, main_v72, main_cst_14, main_v73, main_v74, main_v75, main_c_15, main_v76, main_v77, main_c_16, main_v78, main_v79, main_v80, main_v81, main_v82, main_c_17, main_v83, main_v84, main_c_18, main_v85, main_v86, main_v87, main_v88, main_v89, main_v90, main_c_19, main_v91, main_v92, main_c_20, main_v93, main_v94, main_v95, main_v96, main_v97, main_v98, main_v99, main_v100, main_cst_21, main_v101, main_v102, main_v103, main_v104, main_v105, main_v106, main_v107, main_v108, main_v109, main_v110, main_v111]

theorem keep_Sb1 (V : Valuation τ sig (Elt F)) (r : Ref sig .tc) (hr : r ∉ writes_Sb1) :
    after Sb1 V (Proc.devRef .tc r) = V (Proc.devRef .tc r) :=
  after_of_writes_sub Sb1 V (by
    simp only [List.Forall, StableHlo.nullary_writes, StableHlo.unary_writes, StableHlo.binary_writes, StableHlo.ternary_writes,
      StableHlo.quaternary_writes, StableHlo.reshape_writes, writes_Sb1]
    repeat' apply And.intro
    all_goals exact Finset.singleton_subset_iff.mpr (List.mem_toFinset.mpr (List.mem_map_of_mem (by decide)))) hr

abbrev Sc1 : List (HloOp τ sig (Elt F)) :=
  [ StableHlo.nullary main_cst_22 (constant S_ .f32 0x00000000#32),
    StableHlo.binary main_v111 main_cst_22 main_v112 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_23 (constant S_ .f32 0x47C35000#32),
    StableHlo.unary main_cst_23 main_v113 (broadcastInDim S32 ![] bcast_S_S32 : (⟨S_, .f32⟩ : BufTy).Contents (Elt F) → (⟨S32, .f32⟩ : BufTy).Contents (Elt F)),
    StableHlo.binary main_v112 main_v113 main_v114 (Host.divf : (⟨S32, .f32⟩ : BufTy).Contents (Elt F) → (⟨S32, .f32⟩ : BufTy).Contents (Elt F) → (⟨S32, .f32⟩ : BufTy).Contents (Elt F)),
    StableHlo.nullary main_c_24 (constantI S_ 32 0#32),
    StableHlo.TRef.nullary main_call2.cst (constant S_ .f32 0x00000000#32),
    StableHlo.TRef.binary (.of main_v111) main_call2.cst main_call2.v0 (fun x v => Host.reduceAdd x v reducesTo_S100000x32_S32_d0 h_S_),
    StableHlo.TRef.unary main_call2.v0 main_call2.v1 (broadcastInDim S1x32 ![1] bcast_S32_S1x32_1),
    StableHlo.TRef.nullary main_call2.cst_0 (constant S_ .f32 0x47C35000#32),
    StableHlo.TRef.unary main_call2.cst_0 main_call2.v2 (broadcastInDim S1x32 ![] bcast_S_S1x32),
    StableHlo.TRef.binary main_call2.v1 main_call2.v2 main_call2.v3 Host.divf,
    StableHlo.TRef.unary main_call2.v3 main_call2.v4 (broadcastInDim S100000x32 ![0, 1] bcast_S1x32_S100000x32_0_1),
    StableHlo.TRef.binary (.of main_v111) main_call2.v4 main_call2.v5 subf,
    StableHlo.TRef.binary main_call2.v5 main_call2.v5 main_call2.v6 mulf,
    StableHlo.TRef.unary (.of main_c_24) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x32_S32_d0 h_S_),
    StableHlo.TRef.unary main_call2.v8 main_call2.v10 (broadcastInDim S32 ![] bcast_S_S32),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32 ![] bcast_S_S32),
    StableHlo.TRef.ternary main_call2.v12 main_call2.v11 main_call2.call0.v1 main_call2.call0.v2 (fun p a b => select (broadcastInDim S32 ![] bcast_S_S32 p) a b),
    StableHlo.unary main_v114 main_v116 (broadcastInDim S1x32 ![1] bcast_S32_S1x32_1 : (⟨S32, .f32⟩ : BufTy).Contents (Elt F) → (⟨S1x32, .f32⟩ : BufTy).Contents (Elt F)),
    StableHlo.unary main_v116 main_v117 (broadcastInDim S100000x32 ![0, 1] bcast_S1x32_S100000x32_0_1 : (⟨S1x32, .f32⟩ : BufTy).Contents (Elt F) → (⟨S100000x32, .f32⟩ : BufTy).Contents (Elt F)),
    StableHlo.binary main_v111 main_v117 main_v118 (subf : (⟨S100000x32, .f32⟩ : BufTy).Contents (Elt F) → (⟨S100000x32, .f32⟩ : BufTy).Contents (Elt F) → (⟨S100000x32, .f32⟩ : BufTy).Contents (Elt F)),
    StableHlo.nullary main_cst_25 (constant S_ .f32 0x3727C5AC#32),
    StableHlo.unary main_cst_25 main_v119 (broadcastInDim S32 ![] bcast_S_S32 : (⟨S_, .f32⟩ : BufTy).Contents (Elt F) → (⟨S32, .f32⟩ : BufTy).Contents (Elt F)),
    StableHlo.binary main_v115 main_v119 main_v120 (addf : (⟨S32, .f32⟩ : BufTy).Contents (Elt F) → (⟨S32, .f32⟩ : BufTy).Contents (Elt F) → (⟨S32, .f32⟩ : BufTy).Contents (Elt F)),
    StableHlo.unary main_v120 main_v121 (Host.rsqrt : (⟨S32, .f32⟩ : BufTy).Contents (Elt F) → (⟨S32, .f32⟩ : BufTy).Contents (Elt F)),
    StableHlo.unary main_v121 main_v122 (broadcastInDim S1x32 ![1] bcast_S32_S1x32_1 : (⟨S32, .f32⟩ : BufTy).Contents (Elt F) → (⟨S1x32, .f32⟩ : BufTy).Contents (Elt F)),
    StableHlo.unary main_v122 main_v123 (broadcastInDim S100000x32 ![0, 1] bcast_S1x32_S100000x32_0_1 : (⟨S1x32, .f32⟩ : BufTy).Contents (Elt F) → (⟨S100000x32, .f32⟩ : BufTy).Contents (Elt F)),
    StableHlo.binary main_v118 main_v123 main_v124 (mulf : (⟨S100000x32, .f32⟩ : BufTy).Contents (Elt F) → (⟨S100000x32, .f32⟩ : BufTy).Contents (Elt F) → (⟨S100000x32, .f32⟩ : BufTy).Contents (Elt F)),
    StableHlo.unary main_arg9 main_v125 (broadcastInDim S1x32 ![1] bcast_S32_S1x32_1 : (⟨S32, .f32⟩ : BufTy).Contents (Elt F) → (⟨S1x32, .f32⟩ : BufTy).Contents (Elt F)),
    StableHlo.unary main_v125 main_v126 (broadcastInDim S100000x32 ![0, 1] bcast_S1x32_S100000x32_0_1 : (⟨S1x32, .f32⟩ : BufTy).Contents (Elt F) → (⟨S100000x32, .f32⟩ : BufTy).Contents (Elt F)),
    StableHlo.binary main_v124 main_v126 main_v127 (mulf : (⟨S100000x32, .f32⟩ : BufTy).Contents (Elt F) → (⟨S100000x32, .f32⟩ : BufTy).Contents (Elt F) → (⟨S100000x32, .f32⟩ : BufTy).Contents (Elt F)),
    StableHlo.unary main_arg10 main_v128 (broadcastInDim S1x32 ![1] bcast_S32_S1x32_1 : (⟨S32, .f32⟩ : BufTy).Contents (Elt F) → (⟨S1x32, .f32⟩ : BufTy).Contents (Elt F)),
    StableHlo.unary main_v128 main_v129 (broadcastInDim S100000x32 ![0, 1] bcast_S1x32_S100000x32_0_1 : (⟨S1x32, .f32⟩ : BufTy).Contents (Elt F) → (⟨S100000x32, .f32⟩ : BufTy).Contents (Elt F)),
    StableHlo.binary main_v127 main_v129 main_v130 (addf : (⟨S100000x32, .f32⟩ : BufTy).Contents (Elt F) → (⟨S100000x32, .f32⟩ : BufTy).Contents (Elt F) → (⟨S100000x32, .f32⟩ : BufTy).Contents (Elt F)),
    StableHlo.TRef.nullary main_call3.cst (constant S_ .f32 0x00000000#32),
    StableHlo.TRef.unary main_call3.cst main_call3.v0 (broadcastInDim S100000x32 ![] bcast_S_S100000x32),
    StableHlo.TRef.binary (.of main_v130) main_call3.v0 main_call3.v1 maximumf,
    StableHlo.binary main_v131 main_arg11 main_v132 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

def writes_Sc1 : List (Ref sig .tc) := [main_cst_22, main_v112, main_cst_23, main_v113, main_v114, main_c_24, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v115, main_v116, main_v117, main_v118, main_cst_25, main_v119, main_v120, main_v121, main_v122, main_v123, main_v124, main_v125, main_v126, main_v127, main_v128, main_v129, main_v130, main_call3_cst, main_call3_v0, main_v131, main_v132]

theorem keep_Sc1 (V : Valuation τ sig (Elt F)) (r : Ref sig .tc) (hr : r ∉ writes_Sc1) :
    after Sc1 V (Proc.devRef .tc r) = V (Proc.devRef .tc r) :=
  after_of_writes_sub Sc1 V (by
    simp only [List.Forall, StableHlo.nullary_writes, StableHlo.unary_writes, StableHlo.binary_writes, StableHlo.ternary_writes,
      StableHlo.quaternary_writes, StableHlo.reshape_writes, writes_Sc1]
    repeat' apply And.intro
    all_goals exact Finset.singleton_subset_iff.mpr (List.mem_toFinset.mpr (List.mem_map_of_mem (by decide)))) hr

abbrev Sb2 : List (HloOp τ sig (Elt F)) :=
  [ StableHlo.nullary main_cst_26 (constant S_ .f32 0x3F800000#32),
    StableHlo.unary main_cst_26 main_v133 (broadcastInDim S1600000 ![] bcast_S_S1600000 : (⟨S_, .f32⟩ : BufTy).Contents (Elt F) → (⟨S1600000, .f32⟩ : BufTy).Contents (Elt F)),
    StableHlo.nullary main_cst_27 (constant S_ .f32 0x00000000#32),
    StableHlo.unary main_cst_27 main_v134 (broadcastInDim S100000 ![] bcast_S_S100000 : (⟨S_, .f32⟩ : BufTy).Contents (Elt F) → (⟨S100000, .f32⟩ : BufTy).Contents (Elt F)),
    StableHlo.unary main_v3 main_v135 (broadcastInDim S1600000x1 ![0] bcast_S1600000_S1600000x1_0 : (⟨S1600000, .i32⟩ : BufTy).Contents (Elt F) → (⟨S1600000x1, .i32⟩ : BufTy).Contents (Elt F)),
    StableHlo.ternary main_v134 main_v135 main_v133 main_v136 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_28 (constant S_ .f32 0x3F800000#32),
    StableHlo.unary main_cst_28 main_v137 (broadcastInDim S100000 ![] bcast_S_S100000 : (⟨S_, .f32⟩ : BufTy).Contents (Elt F) → (⟨S100000, .f32⟩ : BufTy).Contents (Elt F)),
    StableHlo.binary main_v136 main_v137 main_v138 (addf : (⟨S100000, .f32⟩ : BufTy).Contents (Elt F) → (⟨S100000, .f32⟩ : BufTy).Contents (Elt F) → (⟨S100000, .f32⟩ : BufTy).Contents (Elt F)),
    StableHlo.unary main_v138 main_v139 (Host.rsqrt : (⟨S100000, .f32⟩ : BufTy).Contents (Elt F) → (⟨S100000, .f32⟩ : BufTy).Contents (Elt F)),
    StableHlo.nullary main_c_29 (constantI S_ 32 0#32),
    StableHlo.unary main_c_29 main_v140 (broadcastInDim S1600000 ![] bcast_S_S1600000 : (⟨S_, .i32⟩ : BufTy).Contents (Elt F) → (⟨S1600000, .i32⟩ : BufTy).Contents (Elt F)),
    StableHlo.binary main_v1 main_v140 main_v141 (cmpi .slt : (⟨S1600000, .i32⟩ : BufTy).Contents (Elt F) → (⟨S1600000, .i32⟩ : BufTy).Contents (Elt F) → (⟨S1600000, .i1⟩ : BufTy).Contents (Elt F)),
    StableHlo.nullary main_c_30 (constantI S_ 32 100000#32),
    StableHlo.unary main_c_30 main_v142 (broadcastInDim S1600000 ![] bcast_S_S1600000 : (⟨S_, .i32⟩ : BufTy).Contents (Elt F) → (⟨S1600000, .i32⟩ : BufTy).Contents (Elt F)),
    StableHlo.binary main_v1 main_v142 main_v143 (addi : (⟨S1600000, .i32⟩ : BufTy).Contents (Elt F) → (⟨S1600000, .i32⟩ : BufTy).Contents (Elt F) → (⟨S1600000, .i32⟩ : BufTy).Contents (Elt F)),
    StableHlo.ternary main_v141 main_v143 main_v1 main_v144 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v144 main_v145 (broadcastInDim S1600000x1 ![0] bcast_S1600000_S1600000x1_0 : (⟨S1600000, .i32⟩ : BufTy).Contents (Elt F) → (⟨S1600000x1, .i32⟩ : BufTy).Contents (Elt F)),
    StableHlo.binary main_v139 main_v145 main_v146 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_31 (constantI S_ 32 0#32),
    StableHlo.unary main_c_31 main_v147 (broadcastInDim S1600000 ![] bcast_S_S1600000 : (⟨S_, .i32⟩ : BufTy).Contents (Elt F) → (⟨S1600000, .i32⟩ : BufTy).Contents (Elt F)),
    StableHlo.binary main_v3 main_v147 main_v148 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v149 (broadcastInDim S1600000 ![] bcast_S_S1600000 : (⟨S_, .i32⟩ : BufTy).Contents (Elt F) → (⟨S1600000, .i32⟩ : BufTy).Contents (Elt F)),
    StableHlo.binary main_v3 main_v149 main_v150 (addi : (⟨S1600000, .i32⟩ : BufTy).Contents (Elt F) → (⟨S1600000, .i32⟩ : BufTy).Contents (Elt F) → (⟨S1600000, .i32⟩ : BufTy).Contents (Elt F)),
    StableHlo.ternary main_v148 main_v150 main_v3 main_v151 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v151 main_v152 (broadcastInDim S1600000x1 ![0] bcast_S1600000_S1600000x1_0 : (⟨S1600000, .i32⟩ : BufTy).Contents (Elt F) → (⟨S1600000x1, .i32⟩ : BufTy).Contents (Elt F)),
    StableHlo.binary main_v139 main_v152 main_v153 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v146 main_v153 main_v154 (mulf : (⟨S1600000, .f32⟩ : BufTy).Contents (Elt F) → (⟨S1600000, .f32⟩ : BufTy).Contents (Elt F) → (⟨S1600000, .f32⟩ : BufTy).Contents (Elt F)),
    StableHlo.nullary main_c_33 (constantI S_ 32 0#32),
    StableHlo.unary main_c_33 main_v155 (broadcastInDim S1600000 ![] bcast_S_S1600000 : (⟨S_, .i32⟩ : BufTy).Contents (Elt F) → (⟨S1600000, .i32⟩ : BufTy).Contents (Elt F)),
    StableHlo.binary main_v1 main_v155 main_v156 (cmpi .slt : (⟨S1600000, .i32⟩ : BufTy).Contents (Elt F) → (⟨S1600000, .i32⟩ : BufTy).Contents (Elt F) → (⟨S1600000, .i1⟩ : BufTy).Contents (Elt F)),
    StableHlo.nullary main_c_34 (constantI S_ 32 100000#32),
    StableHlo.unary main_c_34 main_v157 (broadcastInDim S1600000 ![] bcast_S_S1600000 : (⟨S_, .i32⟩ : BufTy).Contents (Elt F) → (⟨S1600000, .i32⟩ : BufTy).Contents (Elt F)),
    StableHlo.binary main_v1 main_v157 main_v158 (addi : (⟨S1600000, .i32⟩ : BufTy).Contents (Elt F) → (⟨S1600000, .i32⟩ : BufTy).Contents (Elt F) → (⟨S1600000, .i32⟩ : BufTy).Contents (Elt F)),
    StableHlo.ternary main_v156 main_v158 main_v1 main_v159 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v159 main_v160 (broadcastInDim S1600000x1 ![0] bcast_S1600000_S1600000x1_0 : (⟨S1600000, .i32⟩ : BufTy).Contents (Elt F) → (⟨S1600000x1, .i32⟩ : BufTy).Contents (Elt F)),
    StableHlo.binary main_v132 main_v160 main_v161 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v154 main_v162 (broadcastInDim S1600000x1 ![0] bcast_S1600000_S1600000x1_0 : (⟨S1600000, .f32⟩ : BufTy).Contents (Elt F) → (⟨S1600000x1, .f32⟩ : BufTy).Contents (Elt F)),
    StableHlo.unary main_v162 main_v163 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v161 main_v163 main_v164 (mulf : (⟨S1600000x32, .f32⟩ : BufTy).Contents (Elt F) → (⟨S1600000x32, .f32⟩ : BufTy).Contents (Elt F) → (⟨S1600000x32, .f32⟩ : BufTy).Contents (Elt F)),
    StableHlo.nullary main_cst_35 (constant S_ .f32 0x00000000#32),
    StableHlo.unary main_cst_35 main_v165 (broadcastInDim S100000x32 ![] bcast_S_S100000x32 : (⟨S_, .f32⟩ : BufTy).Contents (Elt F) → (⟨S100000x32, .f32⟩ : BufTy).Contents (Elt F)),
    StableHlo.unary main_v3 main_v166 (broadcastInDim S1600000x1 ![0] bcast_S1600000_S1600000x1_0 : (⟨S1600000, .i32⟩ : BufTy).Contents (Elt F) → (⟨S1600000x1, .i32⟩ : BufTy).Contents (Elt F)),
    StableHlo.ternary main_v165 main_v166 main_v164 main_v167 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v139 main_v139 main_v168 (mulf : (⟨S100000, .f32⟩ : BufTy).Contents (Elt F) → (⟨S100000, .f32⟩ : BufTy).Contents (Elt F) → (⟨S100000, .f32⟩ : BufTy).Contents (Elt F)),
    StableHlo.unary main_v168 main_v169 (broadcastInDim S100000x1 ![0] bcast_S100000_S100000x1_0 : (⟨S100000, .f32⟩ : BufTy).Contents (Elt F) → (⟨S100000x1, .f32⟩ : BufTy).Contents (Elt F)),
    StableHlo.unary main_v169 main_v170 (broadcastInDim S100000x32 ![0, 1] bcast_S100000x1_S100000x32_0_1 : (⟨S100000x1, .f32⟩ : BufTy).Contents (Elt F) → (⟨S100000x32, .f32⟩ : BufTy).Contents (Elt F)),
    StableHlo.binary main_v132 main_v170 main_v171 (mulf : (⟨S100000x32, .f32⟩ : BufTy).Contents (Elt F) → (⟨S100000x32, .f32⟩ : BufTy).Contents (Elt F) → (⟨S100000x32, .f32⟩ : BufTy).Contents (Elt F)),
    StableHlo.binary main_v167 main_v171 main_v172 (addf : (⟨S100000x32, .f32⟩ : BufTy).Contents (Elt F) → (⟨S100000x32, .f32⟩ : BufTy).Contents (Elt F) → (⟨S100000x32, .f32⟩ : BufTy).Contents (Elt F)),
    StableHlo.unary main_arg12 main_v173 (broadcastInDim S1x32 ![1] bcast_S32_S1x32_1 : (⟨S32, .f32⟩ : BufTy).Contents (Elt F) → (⟨S1x32, .f32⟩ : BufTy).Contents (Elt F)),
    StableHlo.unary main_v173 main_v174 (broadcastInDim S100000x32 ![0, 1] bcast_S1x32_S100000x32_0_1 : (⟨S1x32, .f32⟩ : BufTy).Contents (Elt F) → (⟨S100000x32, .f32⟩ : BufTy).Contents (Elt F)),
    StableHlo.binary main_v172 main_v174 main_v175 (addf : (⟨S100000x32, .f32⟩ : BufTy).Contents (Elt F) → (⟨S100000x32, .f32⟩ : BufTy).Contents (Elt F) → (⟨S100000x32, .f32⟩ : BufTy).Contents (Elt F)) ]

def writes_Sb2 : List (Ref sig .tc) := [main_cst_26, main_v133, main_cst_27, main_v134, main_v135, main_v136, main_cst_28, main_v137, main_v138, main_v139, main_c_29, main_v140, main_v141, main_c_30, main_v142, main_v143, main_v144, main_v145, main_v146, main_c_31, main_v147, main_v148, main_c_32, main_v149, main_v150, main_v151, main_v152, main_v153, main_v154, main_c_33, main_v155, main_v156, main_c_34, main_v157, main_v158, main_v159, main_v160, main_v161, main_v162, main_v163, main_v164, main_cst_35, main_v165, main_v166, main_v167, main_v168, main_v169, main_v170, main_v171, main_v172, main_v173, main_v174, main_v175]

theorem keep_Sb2 (V : Valuation τ sig (Elt F)) (r : Ref sig .tc) (hr : r ∉ writes_Sb2) :
    after Sb2 V (Proc.devRef .tc r) = V (Proc.devRef .tc r) :=
  after_of_writes_sub Sb2 V (by
    simp only [List.Forall, StableHlo.nullary_writes, StableHlo.unary_writes, StableHlo.binary_writes, StableHlo.ternary_writes,
      StableHlo.quaternary_writes, StableHlo.reshape_writes, writes_Sb2]
    repeat' apply And.intro
    all_goals exact Finset.singleton_subset_iff.mpr (List.mem_toFinset.mpr (List.mem_map_of_mem (by decide)))) hr

abbrev Sc2 : List (HloOp τ sig (Elt F)) :=
  [ StableHlo.nullary main_cst_36 (constant S_ .f32 0x00000000#32),
    StableHlo.binary main_v175 main_cst_36 main_v176 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    StableHlo.nullary main_cst_37 (constant S_ .f32 0x47C35000#32),
    StableHlo.unary main_cst_37 main_v177 (broadcastInDim S32 ![] bcast_S_S32 : (⟨S_, .f32⟩ : BufTy).Contents (Elt F) → (⟨S32, .f32⟩ : BufTy).Contents (Elt F)),
    StableHlo.binary main_v176 main_v177 main_v178 (Host.divf : (⟨S32, .f32⟩ : BufTy).Contents (Elt F) → (⟨S32, .f32⟩ : BufTy).Contents (Elt F) → (⟨S32, .f32⟩ : BufTy).Contents (Elt F)),
    StableHlo.nullary main_c_38 (constantI S_ 32 0#32),
    StableHlo.TRef.nullary main_call4.cst (constant S_ .f32 0x00000000#32),
    StableHlo.TRef.binary (.of main_v175) main_call4.cst main_call4.v0 (fun x v => Host.reduceAdd x v reducesTo_S100000x32_S32_d0 h_S_),
    StableHlo.TRef.unary main_call4.v0 main_call4.v1 (broadcastInDim S1x32 ![1] bcast_S32_S1x32_1),
    StableHlo.TRef.nullary main_call4.cst_0 (constant S_ .f32 0x47C35000#32),
    StableHlo.TRef.unary main_call4.cst_0 main_call4.v2 (broadcastInDim S1x32 ![] bcast_S_S1x32),
    StableHlo.TRef.binary main_call4.v1 main_call4.v2 main_call4.v3 Host.divf,
    StableHlo.TRef.unary main_call4.v3 main_call4.v4 (broadcastInDim S100000x32 ![0, 1] bcast_S1x32_S100000x32_0_1),
    StableHlo.TRef.binary (.of main_v175) main_call4.v4 main_call4.v5 subf,
    StableHlo.TRef.binary main_call4.v5 main_call4.v5 main_call4.v6 mulf,
    StableHlo.TRef.unary (.of main_c_38) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x32_S32_d0 h_S_),
    StableHlo.TRef.unary main_call4.v8 main_call4.v10 (broadcastInDim S32 ![] bcast_S_S32),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S32 ![] bcast_S_S32),
    StableHlo.TRef.ternary main_call4.v12 main_call4.v11 main_call4.call0.v1 main_call4.call0.v2 (fun p a b => select (broadcastInDim S32 ![] bcast_S_S32 p) a b),
    StableHlo.unary main_v178 main_v180 (broadcastInDim S1x32 ![1] bcast_S32_S1x32_1 : (⟨S32, .f32⟩ : BufTy).Contents (Elt F) → (⟨S1x32, .f32⟩ : BufTy).Contents (Elt F)),
    StableHlo.unary main_v180 main_v181 (broadcastInDim S100000x32 ![0, 1] bcast_S1x32_S100000x32_0_1 : (⟨S1x32, .f32⟩ : BufTy).Contents (Elt F) → (⟨S100000x32, .f32⟩ : BufTy).Contents (Elt F)),
    StableHlo.binary main_v175 main_v181 main_v182 (subf : (⟨S100000x32, .f32⟩ : BufTy).Contents (Elt F) → (⟨S100000x32, .f32⟩ : BufTy).Contents (Elt F) → (⟨S100000x32, .f32⟩ : BufTy).Contents (Elt F)),
    StableHlo.nullary main_cst_39 (constant S_ .f32 0x3727C5AC#32),
    StableHlo.unary main_cst_39 main_v183 (broadcastInDim S32 ![] bcast_S_S32 : (⟨S_, .f32⟩ : BufTy).Contents (Elt F) → (⟨S32, .f32⟩ : BufTy).Contents (Elt F)),
    StableHlo.binary main_v179 main_v183 main_v184 (addf : (⟨S32, .f32⟩ : BufTy).Contents (Elt F) → (⟨S32, .f32⟩ : BufTy).Contents (Elt F) → (⟨S32, .f32⟩ : BufTy).Contents (Elt F)),
    StableHlo.unary main_v184 main_v185 (Host.rsqrt : (⟨S32, .f32⟩ : BufTy).Contents (Elt F) → (⟨S32, .f32⟩ : BufTy).Contents (Elt F)),
    StableHlo.unary main_v185 main_v186 (broadcastInDim S1x32 ![1] bcast_S32_S1x32_1 : (⟨S32, .f32⟩ : BufTy).Contents (Elt F) → (⟨S1x32, .f32⟩ : BufTy).Contents (Elt F)),
    StableHlo.unary main_v186 main_v187 (broadcastInDim S100000x32 ![0, 1] bcast_S1x32_S100000x32_0_1 : (⟨S1x32, .f32⟩ : BufTy).Contents (Elt F) → (⟨S100000x32, .f32⟩ : BufTy).Contents (Elt F)),
    StableHlo.binary main_v182 main_v187 main_v188 (mulf : (⟨S100000x32, .f32⟩ : BufTy).Contents (Elt F) → (⟨S100000x32, .f32⟩ : BufTy).Contents (Elt F) → (⟨S100000x32, .f32⟩ : BufTy).Contents (Elt F)),
    StableHlo.unary main_arg13 main_v189 (broadcastInDim S1x32 ![1] bcast_S32_S1x32_1 : (⟨S32, .f32⟩ : BufTy).Contents (Elt F) → (⟨S1x32, .f32⟩ : BufTy).Contents (Elt F)),
    StableHlo.unary main_v189 main_v190 (broadcastInDim S100000x32 ![0, 1] bcast_S1x32_S100000x32_0_1 : (⟨S1x32, .f32⟩ : BufTy).Contents (Elt F) → (⟨S100000x32, .f32⟩ : BufTy).Contents (Elt F)),
    StableHlo.binary main_v188 main_v190 main_v191 (mulf : (⟨S100000x32, .f32⟩ : BufTy).Contents (Elt F) → (⟨S100000x32, .f32⟩ : BufTy).Contents (Elt F) → (⟨S100000x32, .f32⟩ : BufTy).Contents (Elt F)),
    StableHlo.unary main_arg14 main_v192 (broadcastInDim S1x32 ![1] bcast_S32_S1x32_1 : (⟨S32, .f32⟩ : BufTy).Contents (Elt F) → (⟨S1x32, .f32⟩ : BufTy).Contents (Elt F)),
    StableHlo.unary main_v192 main_v193 (broadcastInDim S100000x32 ![0, 1] bcast_S1x32_S100000x32_0_1 : (⟨S1x32, .f32⟩ : BufTy).Contents (Elt F) → (⟨S100000x32, .f32⟩ : BufTy).Contents (Elt F)),
    StableHlo.binary main_v191 main_v193 main_v194 (addf : (⟨S100000x32, .f32⟩ : BufTy).Contents (Elt F) → (⟨S100000x32, .f32⟩ : BufTy).Contents (Elt F) → (⟨S100000x32, .f32⟩ : BufTy).Contents (Elt F)),
    StableHlo.TRef.nullary main_call5.cst (constant S_ .f32 0x00000000#32),
    StableHlo.TRef.unary main_call5.cst main_call5.v0 (broadcastInDim S100000x32 ![] bcast_S_S100000x32),
    StableHlo.TRef.binary (.of main_v194) main_call5.v0 main_call5.v1 maximumf,
    StableHlo.binary main_v195 main_arg15 main_v196 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)) ]

def writes_Sc2 : List (Ref sig .tc) := [main_cst_36, main_v176, main_cst_37, main_v177, main_v178, main_c_38, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v179, main_v180, main_v181, main_v182, main_cst_39, main_v183, main_v184, main_v185, main_v186, main_v187, main_v188, main_v189, main_v190, main_v191, main_v192, main_v193, main_v194, main_call5_cst, main_call5_v0, main_v195, main_v196]

theorem keep_Sc2 (V : Valuation τ sig (Elt F)) (r : Ref sig .tc) (hr : r ∉ writes_Sc2) :
    after Sc2 V (Proc.devRef .tc r) = V (Proc.devRef .tc r) :=
  after_of_writes_sub Sc2 V (by
    simp only [List.Forall, StableHlo.nullary_writes, StableHlo.unary_writes, StableHlo.binary_writes, StableHlo.ternary_writes,
      StableHlo.quaternary_writes, StableHlo.reshape_writes, writes_Sc2]
    repeat' apply And.intro
    all_goals exact Finset.singleton_subset_iff.mpr (List.mem_toFinset.mpr (List.mem_map_of_mem (by decide)))) hr

abbrev Sb3 : List (HloOp τ sig (Elt F)) :=
  [ StableHlo.nullary main_cst_40 (constant S_ .f32 0x3F800000#32),
    StableHlo.unary main_cst_40 main_v197 (broadcastInDim S1600000 ![] bcast_S_S1600000 : (⟨S_, .f32⟩ : BufTy).Contents (Elt F) → (⟨S1600000, .f32⟩ : BufTy).Contents (Elt F)),
    StableHlo.nullary main_cst_41 (constant S_ .f32 0x00000000#32),
    StableHlo.unary main_cst_41 main_v198 (broadcastInDim S100000 ![] bcast_S_S100000 : (⟨S_, .f32⟩ : BufTy).Contents (Elt F) → (⟨S100000, .f32⟩ : BufTy).Contents (Elt F)),
    StableHlo.unary main_v3 main_v199 (broadcastInDim S1600000x1 ![0] bcast_S1600000_S1600000x1_0 : (⟨S1600000, .i32⟩ : BufTy).Contents (Elt F) → (⟨S1600000x1, .i32⟩ : BufTy).Contents (Elt F)),
    StableHlo.ternary main_v198 main_v199 main_v197 main_v200 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_42 (constant S_ .f32 0x3F800000#32),
    StableHlo.unary main_cst_42 main_v201 (broadcastInDim S100000 ![] bcast_S_S100000 : (⟨S_, .f32⟩ : BufTy).Contents (Elt F) → (⟨S100000, .f32⟩ : BufTy).Contents (Elt F)),
    StableHlo.binary main_v200 main_v201 main_v202 (addf : (⟨S100000, .f32⟩ : BufTy).Contents (Elt F) → (⟨S100000, .f32⟩ : BufTy).Contents (Elt F) → (⟨S100000, .f32⟩ : BufTy).Contents (Elt F)),
    StableHlo.unary main_v202 main_v203 (Host.rsqrt : (⟨S100000, .f32⟩ : BufTy).Contents (Elt F) → (⟨S100000, .f32⟩ : BufTy).Contents (Elt F)),
    StableHlo.nullary main_c_43 (constantI S_ 32 0#32),
    StableHlo.unary main_c_43 main_v204 (broadcastInDim S1600000 ![] bcast_S_S1600000 : (⟨S_, .i32⟩ : BufTy).Contents (Elt F) → (⟨S1600000, .i32⟩ : BufTy).Contents (Elt F)),
    StableHlo.binary main_v1 main_v204 main_v205 (cmpi .slt : (⟨S1600000, .i32⟩ : BufTy).Contents (Elt F) → (⟨S1600000, .i32⟩ : BufTy).Contents (Elt F) → (⟨S1600000, .i1⟩ : BufTy).Contents (Elt F)),
    StableHlo.nullary main_c_44 (constantI S_ 32 100000#32),
    StableHlo.unary main_c_44 main_v206 (broadcastInDim S1600000 ![] bcast_S_S1600000 : (⟨S_, .i32⟩ : BufTy).Contents (Elt F) → (⟨S1600000, .i32⟩ : BufTy).Contents (Elt F)),
    StableHlo.binary main_v1 main_v206 main_v207 (addi : (⟨S1600000, .i32⟩ : BufTy).Contents (Elt F) → (⟨S1600000, .i32⟩ : BufTy).Contents (Elt F) → (⟨S1600000, .i32⟩ : BufTy).Contents (Elt F)),
    StableHlo.ternary main_v205 main_v207 main_v1 main_v208 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v208 main_v209 (broadcastInDim S1600000x1 ![0] bcast_S1600000_S1600000x1_0 : (⟨S1600000, .i32⟩ : BufTy).Contents (Elt F) → (⟨S1600000x1, .i32⟩ : BufTy).Contents (Elt F)),
    StableHlo.binary main_v203 main_v209 main_v210 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_45 (constantI S_ 32 0#32),
    StableHlo.unary main_c_45 main_v211 (broadcastInDim S1600000 ![] bcast_S_S1600000 : (⟨S_, .i32⟩ : BufTy).Contents (Elt F) → (⟨S1600000, .i32⟩ : BufTy).Contents (Elt F)),
    StableHlo.binary main_v3 main_v211 main_v212 (cmpi .slt : (⟨S1600000, .i32⟩ : BufTy).Contents (Elt F) → (⟨S1600000, .i32⟩ : BufTy).Contents (Elt F) → (⟨S1600000, .i1⟩ : BufTy).Contents (Elt F)),
    StableHlo.nullary main_c_46 (constantI S_ 32 100000#32),
    StableHlo.unary main_c_46 main_v213 (broadcastInDim S1600000 ![] bcast_S_S1600000 : (⟨S_, .i32⟩ : BufTy).Contents (Elt F) → (⟨S1600000, .i32⟩ : BufTy).Contents (Elt F)),
    StableHlo.binary main_v3 main_v213 main_v214 (addi : (⟨S1600000, .i32⟩ : BufTy).Contents (Elt F) → (⟨S1600000, .i32⟩ : BufTy).Contents (Elt F) → (⟨S1600000, .i32⟩ : BufTy).Contents (Elt F)),
    StableHlo.ternary main_v212 main_v214 main_v3 main_v215 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v215 main_v216 (broadcastInDim S1600000x1 ![0] bcast_S1600000_S1600000x1_0 : (⟨S1600000, .i32⟩ : BufTy).Contents (Elt F) → (⟨S1600000x1, .i32⟩ : BufTy).Contents (Elt F)),
    StableHlo.binary main_v203 main_v216 main_v217 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v210 main_v217 main_v218 (mulf : (⟨S1600000, .f32⟩ : BufTy).Contents (Elt F) → (⟨S1600000, .f32⟩ : BufTy).Contents (Elt F) → (⟨S1600000, .f32⟩ : BufTy).Contents (Elt F)),
    StableHlo.nullary main_c_47 (constantI S_ 32 0#32),
    StableHlo.unary main_c_47 main_v219 (broadcastInDim S1600000 ![] bcast_S_S1600000 : (⟨S_, .i32⟩ : BufTy).Contents (Elt F) → (⟨S1600000, .i32⟩ : BufTy).Contents (Elt F)),
    StableHlo.binary main_v1 main_v219 main_v220 (cmpi .slt : (⟨S1600000, .i32⟩ : BufTy).Contents (Elt F) → (⟨S1600000, .i32⟩ : BufTy).Contents (Elt F) → (⟨S1600000, .i1⟩ : BufTy).Contents (Elt F)),
    StableHlo.nullary main_c_48 (constantI S_ 32 100000#32),
    StableHlo.unary main_c_48 main_v221 (broadcastInDim S1600000 ![] bcast_S_S1600000 : (⟨S_, .i32⟩ : BufTy).Contents (Elt F) → (⟨S1600000, .i32⟩ : BufTy).Contents (Elt F)),
    StableHlo.binary main_v1 main_v221 main_v222 (addi : (⟨S1600000, .i32⟩ : BufTy).Contents (Elt F) → (⟨S1600000, .i32⟩ : BufTy).Contents (Elt F) → (⟨S1600000, .i32⟩ : BufTy).Contents (Elt F)),
    StableHlo.ternary main_v220 main_v222 main_v1 main_v223 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v223 main_v224 (broadcastInDim S1600000x1 ![0] bcast_S1600000_S1600000x1_0 : (⟨S1600000, .i32⟩ : BufTy).Contents (Elt F) → (⟨S1600000x1, .i32⟩ : BufTy).Contents (Elt F)),
    StableHlo.binary main_v196 main_v224 main_v225 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v218 main_v226 (broadcastInDim S1600000x1 ![0] bcast_S1600000_S1600000x1_0 : (⟨S1600000, .f32⟩ : BufTy).Contents (Elt F) → (⟨S1600000x1, .f32⟩ : BufTy).Contents (Elt F)),
    StableHlo.unary main_v226 main_v227 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v225 main_v227 main_v228 (mulf : (⟨S1600000x32, .f32⟩ : BufTy).Contents (Elt F) → (⟨S1600000x32, .f32⟩ : BufTy).Contents (Elt F) → (⟨S1600000x32, .f32⟩ : BufTy).Contents (Elt F)),
    StableHlo.nullary main_cst_49 (constant S_ .f32 0x00000000#32),
    StableHlo.unary main_cst_49 main_v229 (broadcastInDim S100000x32 ![] bcast_S_S100000x32 : (⟨S_, .f32⟩ : BufTy).Contents (Elt F) → (⟨S100000x32, .f32⟩ : BufTy).Contents (Elt F)),
    StableHlo.unary main_v3 main_v230 (broadcastInDim S1600000x1 ![0] bcast_S1600000_S1600000x1_0 : (⟨S1600000, .i32⟩ : BufTy).Contents (Elt F) → (⟨S1600000x1, .i32⟩ : BufTy).Contents (Elt F)),
    StableHlo.ternary main_v229 main_v230 main_v228 main_v231 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.binary main_v203 main_v203 main_v232 (mulf : (⟨S100000, .f32⟩ : BufTy).Contents (Elt F) → (⟨S100000, .f32⟩ : BufTy).Contents (Elt F) → (⟨S100000, .f32⟩ : BufTy).Contents (Elt F)),
    StableHlo.unary main_v232 main_v233 (broadcastInDim S100000x1 ![0] bcast_S100000_S100000x1_0 : (⟨S100000, .f32⟩ : BufTy).Contents (Elt F) → (⟨S100000x1, .f32⟩ : BufTy).Contents (Elt F)),
    StableHlo.unary main_v233 main_v234 (broadcastInDim S100000x32 ![0, 1] bcast_S100000x1_S100000x32_0_1 : (⟨S100000x1, .f32⟩ : BufTy).Contents (Elt F) → (⟨S100000x32, .f32⟩ : BufTy).Contents (Elt F)),
    StableHlo.binary main_v196 main_v234 main_v235 (mulf : (⟨S100000x32, .f32⟩ : BufTy).Contents (Elt F) → (⟨S100000x32, .f32⟩ : BufTy).Contents (Elt F) → (⟨S100000x32, .f32⟩ : BufTy).Contents (Elt F)),
    StableHlo.binary main_v231 main_v235 main_v236 (addf : (⟨S100000x32, .f32⟩ : BufTy).Contents (Elt F) → (⟨S100000x32, .f32⟩ : BufTy).Contents (Elt F) → (⟨S100000x32, .f32⟩ : BufTy).Contents (Elt F)),
    StableHlo.unary main_arg16 main_v237 (broadcastInDim S1x32 ![1] bcast_S32_S1x32_1 : (⟨S32, .f32⟩ : BufTy).Contents (Elt F) → (⟨S1x32, .f32⟩ : BufTy).Contents (Elt F)),
    StableHlo.unary main_v237 main_v238 (broadcastInDim S100000x32 ![0, 1] bcast_S1x32_S100000x32_0_1 : (⟨S1x32, .f32⟩ : BufTy).Contents (Elt F) → (⟨S100000x32, .f32⟩ : BufTy).Contents (Elt F)),
    StableHlo.binary main_v236 main_v238 main_v239 (addf : (⟨S100000x32, .f32⟩ : BufTy).Contents (Elt F) → (⟨S100000x32, .f32⟩ : BufTy).Contents (Elt F) → (⟨S100000x32, .f32⟩ : BufTy).Contents (Elt F)) ]

def writes_Sb3 : List (Ref sig .tc) := [main_cst_40, main_v197, main_cst_41, main_v198, main_v199, main_v200, main_cst_42, main_v201, main_v202, main_v203, main_c_43, main_v204, main_v205, main_c_44, main_v206, main_v207, main_v208, main_v209, main_v210, main_c_45, main_v211, main_v212, main_c_46, main_v213, main_v214, main_v215, main_v216, main_v217, main_v218, main_c_47, main_v219, main_v220, main_c_48, main_v221, main_v222, main_v223, main_v224, main_v225, main_v226, main_v227, main_v228, main_cst_49, main_v229, main_v230, main_v231, main_v232, main_v233, main_v234, main_v235, main_v236, main_v237, main_v238, main_v239]

theorem keep_Sb3 (V : Valuation τ sig (Elt F)) (r : Ref sig .tc) (hr : r ∉ writes_Sb3) :
    after Sb3 V (Proc.devRef .tc r) = V (Proc.devRef .tc r) :=
  after_of_writes_sub Sb3 V (by
    simp only [List.Forall, StableHlo.nullary_writes, StableHlo.unary_writes, StableHlo.binary_writes, StableHlo.ternary_writes,
      StableHlo.quaternary_writes, StableHlo.reshape_writes, writes_Sb3]
    repeat' apply And.intro
    all_goals exact Finset.singleton_subset_iff.mpr (List.mem_toFinset.mpr (List.mem_map_of_mem (by decide)))) hr

abbrev St : List (HloOp τ sig (Elt F)) :=
  [ StableHlo.nullary main_cst_50 (constant S_ .f32 0x00000000#32),
    StableHlo.unary main_cst_50 main_v240 (broadcastInDim S64x32 ![] bcast_S_S64x32 : (⟨S_, .f32⟩ : BufTy).Contents (Elt F) → (⟨S64x32, .f32⟩ : BufTy).Contents (Elt F)),
    StableHlo.unary main_arg2 main_v241 (broadcastInDim S100000x1 ![0] bcast_S100000_S100000x1_0 : (⟨S100000, .i32⟩ : BufTy).Contents (Elt F) → (⟨S100000x1, .i32⟩ : BufTy).Contents (Elt F)),
    StableHlo.ternary main_v240 main_v241 main_v239 main_v242 ((fun x i u => Host.scatterAdd scatter_S64x32_S100000x1_S100000x32_1_0_0_1 x i u) : (⟨S64x32, .f32⟩ : BufTy).Contents (Elt F) → (⟨S100000x1, .i32⟩ : BufTy).Contents (Elt F) → (⟨S100000x32, .f32⟩ : BufTy).Contents (Elt F) → (⟨S64x32, .f32⟩ : BufTy).Contents (Elt F)),
    StableHlo.nullary main_cst_51 (constant S_ .f32 0x3F800000#32),
    StableHlo.unary main_cst_51 main_v243 (broadcastInDim S100000 ![] bcast_S_S100000 : (⟨S_, .f32⟩ : BufTy).Contents (Elt F) → (⟨S100000, .f32⟩ : BufTy).Contents (Elt F)),
    StableHlo.nullary main_cst_52 (constant S_ .f32 0x00000000#32),
    StableHlo.unary main_cst_52 main_v244 (broadcastInDim S64 ![] bcast_S_S64 : (⟨S_, .f32⟩ : BufTy).Contents (Elt F) → (⟨S64, .f32⟩ : BufTy).Contents (Elt F)),
    StableHlo.unary main_arg2 main_v245 (broadcastInDim S100000x1 ![0] bcast_S100000_S100000x1_0 : (⟨S100000, .i32⟩ : BufTy).Contents (Elt F) → (⟨S100000x1, .i32⟩ : BufTy).Contents (Elt F)),
    StableHlo.ternary main_v244 main_v245 main_v243 main_v246 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_53 (constant S_ .f32 0x3F800000#32),
    StableHlo.unary main_cst_53 main_v247 (broadcastInDim S64 ![] bcast_S_S64 : (⟨S_, .f32⟩ : BufTy).Contents (Elt F) → (⟨S64, .f32⟩ : BufTy).Contents (Elt F)),
    StableHlo.binary main_v246 main_v247 main_v248 (maximumf : (⟨S64, .f32⟩ : BufTy).Contents (Elt F) → (⟨S64, .f32⟩ : BufTy).Contents (Elt F) → (⟨S64, .f32⟩ : BufTy).Contents (Elt F)),
    StableHlo.unary main_v248 main_v249 (broadcastInDim S64x1 ![0] bcast_S64_S64x1_0 : (⟨S64, .f32⟩ : BufTy).Contents (Elt F) → (⟨S64x1, .f32⟩ : BufTy).Contents (Elt F)),
    StableHlo.unary main_v249 main_v250 (broadcastInDim S64x32 ![0, 1] bcast_S64x1_S64x32_0_1 : (⟨S64x1, .f32⟩ : BufTy).Contents (Elt F) → (⟨S64x32, .f32⟩ : BufTy).Contents (Elt F)),
    StableHlo.binary main_v242 main_v250 main_v251 (Host.divf : (⟨S64x32, .f32⟩ : BufTy).Contents (Elt F) → (⟨S64x32, .f32⟩ : BufTy).Contents (Elt F) → (⟨S64x32, .f32⟩ : BufTy).Contents (Elt F)) ]

def writes_St : List (Ref sig .tc) := [main_cst_50, main_v240, main_v241, main_v242, main_cst_51, main_v243, main_cst_52, main_v244, main_v245, main_v246, main_cst_53, main_v247, main_v248, main_v249, main_v250, main_v251]

theorem keep_St (V : Valuation τ sig (Elt F)) (r : Ref sig .tc) (hr : r ∉ writes_St) :
    after St V (Proc.devRef .tc r) = V (Proc.devRef .tc r) :=
  after_of_writes_sub St V (by
    simp only [List.Forall, StableHlo.nullary_writes, StableHlo.unary_writes, StableHlo.binary_writes, StableHlo.ternary_writes,
      StableHlo.quaternary_writes, StableHlo.reshape_writes, writes_St]
    repeat' apply And.intro
    all_goals exact Finset.singleton_subset_iff.mpr (List.mem_toFinset.mpr (List.mem_map_of_mem (by decide)))) hr

/-- @main's operations are the pieces one after the other. -/
theorem ops_cut : (ops : List (HloOp τ sig (Elt F))) = Sa ++ (Sb0 ++ (Sc0 ++ (Sb1 ++ (Sc1 ++ (Sb2 ++ (Sc2 ++ (Sb3 ++ (St)))))))) := rfl

theorem after_cut (V : Valuation τ sig (Elt F)) :
    after ops V = after St (after Sb3 (after Sc2 (after Sb2 (after Sc1 (after Sb1 (after Sc0 (after Sb0 (after Sa (V))))))))) := by
  rw [ops_cut]
  simp only [after_append]

theorem sa_src (V : Valuation τ sig (Elt Ideal)) :
    after Sa V (Proc.devRef .tc main_v1) = rSrc (V (Proc.devRef .tc main_arg1)) := by
  after_results_simp
  rfl

theorem sa_dst (V : Valuation τ sig (Elt Ideal)) :
    after Sa V (Proc.devRef .tc main_v3) = rDst (V (Proc.devRef .tc main_arg1)) := by
  after_results_simp
  rfl

theorem sa_h (V : Valuation τ sig (Elt Ideal)) :
    after Sa V (Proc.devRef .tc main_v4) = rDot0 (V (Proc.devRef .tc main_arg0)) (V (Proc.devRef .tc main_arg3)) := by
  after_results_simp
  rfl

theorem sb0_pre (V : Valuation τ sig (Elt Ideal)) :
    after Sb0 V (Proc.devRef .tc main_v47) = rPre (V (Proc.devRef .tc main_v4)) (V (Proc.devRef .tc main_v1)) (V (Proc.devRef .tc main_v3)) (V (Proc.devRef .tc main_arg4)) := by
  after_results_simp
  rfl

theorem sc0_h (V : Valuation τ sig (Elt Ideal)) :
    after Sc0 V (Proc.devRef .tc main_v68) = rNext (V (Proc.devRef .tc main_v47)) (V (Proc.devRef .tc main_arg5)) (V (Proc.devRef .tc main_arg6)) (V (Proc.devRef .tc main_arg7)) := by
  after_results_simp
  rfl

theorem sb1_pre (V : Valuation τ sig (Elt Ideal)) :
    after Sb1 V (Proc.devRef .tc main_v111) = rPre (V (Proc.devRef .tc main_v68)) (V (Proc.devRef .tc main_v1)) (V (Proc.devRef .tc main_v3)) (V (Proc.devRef .tc main_arg8)) := by
  after_results_simp
  rfl

theorem sc1_h (V : Valuation τ sig (Elt Ideal)) :
    after Sc1 V (Proc.devRef .tc main_v132) = rNext (V (Proc.devRef .tc main_v111)) (V (Proc.devRef .tc main_arg9)) (V (Proc.devRef .tc main_arg10)) (V (Proc.devRef .tc main_arg11)) := by
  after_results_simp
  rfl

theorem sb2_pre (V : Valuation τ sig (Elt Ideal)) :
    after Sb2 V (Proc.devRef .tc main_v175) = rPre (V (Proc.devRef .tc main_v132)) (V (Proc.devRef .tc main_v1)) (V (Proc.devRef .tc main_v3)) (V (Proc.devRef .tc main_arg12)) := by
  after_results_simp
  rfl

theorem sc2_h (V : Valuation τ sig (Elt Ideal)) :
    after Sc2 V (Proc.devRef .tc main_v196) = rNext (V (Proc.devRef .tc main_v175)) (V (Proc.devRef .tc main_arg13)) (V (Proc.devRef .tc main_arg14)) (V (Proc.devRef .tc main_arg15)) := by
  after_results_simp
  rfl

theorem sb3_pre (V : Valuation τ sig (Elt Ideal)) :
    after Sb3 V (Proc.devRef .tc main_v239) = rPre (V (Proc.devRef .tc main_v196)) (V (Proc.devRef .tc main_v1)) (V (Proc.devRef .tc main_v3)) (V (Proc.devRef .tc main_arg16)) := by
  after_results_simp
  rfl

theorem st_out (V : Valuation τ sig (Elt Ideal)) :
    after St V (Proc.devRef .tc main_v251) = rTail (V (Proc.devRef .tc main_v239)) (V (Proc.devRef .tc main_arg2)) := by
  after_results_simp
  rfl

end Cert.ReferenceIdeal.RefRun

end
-- ==== Proof.RefValue.lean ====
/-
  The reference's result as a function of its arguments: the fold of @main's operations read at the result buffer,
  piece by piece.
-/
import proofs.«104369_j66383014527707_2_alg».proof.Proof.RefStages

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RSpec

abbrev B0 (V : Valuation τ sig (Elt Ideal)) : Valuation τ sig (Elt Ideal) := V
abbrev B1 (V : Valuation τ sig (Elt Ideal)) : Valuation τ sig (Elt Ideal) := after Sa (B0 V)
abbrev B2 (V : Valuation τ sig (Elt Ideal)) : Valuation τ sig (Elt Ideal) := after Sb0 (B1 V)
abbrev B3 (V : Valuation τ sig (Elt Ideal)) : Valuation τ sig (Elt Ideal) := after Sc0 (B2 V)
abbrev B4 (V : Valuation τ sig (Elt Ideal)) : Valuation τ sig (Elt Ideal) := after Sb1 (B3 V)
abbrev B5 (V : Valuation τ sig (Elt Ideal)) : Valuation τ sig (Elt Ideal) := after Sc1 (B4 V)
abbrev B6 (V : Valuation τ sig (Elt Ideal)) : Valuation τ sig (Elt Ideal) := after Sb2 (B5 V)
abbrev B7 (V : Valuation τ sig (Elt Ideal)) : Valuation τ sig (Elt Ideal) := after Sc2 (B6 V)
abbrev B8 (V : Valuation τ sig (Elt Ideal)) : Valuation τ sig (Elt Ideal) := after Sb3 (B7 V)
abbrev B9 (V : Valuation τ sig (Elt Ideal)) : Valuation τ sig (Elt Ideal) := after St (B8 V)

set_option maxHeartbeats 4000000 in
/-- The result buffer after all of @main is the reference's network of the argument buffers' contents. -/
theorem ref_value (V : Valuation τ sig (Elt Ideal)) :
    after ops V (Proc.devRef .tc main_v251) = rNet (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  have f1_src : B1 V (Proc.devRef .tc main_v1) = rSrc (V (Proc.devRef .tc main_arg1)) :=
    sa_src V
  have f1_dst : B1 V (Proc.devRef .tc main_v3) = rDst (V (Proc.devRef .tc main_arg1)) :=
    sa_dst V
  have f1_h : B1 V (Proc.devRef .tc main_v4) = rDot0 (V (Proc.devRef .tc main_arg0)) (V (Proc.devRef .tc main_arg3)) :=
    sa_h V
  have f2_pre : B2 V (Proc.devRef .tc main_v47) = (rPre (rDot0 (V (Proc.devRef .tc main_arg0)) (V (Proc.devRef .tc main_arg3))) (rSrc (V (Proc.devRef .tc main_arg1))) (rDst (V (Proc.devRef .tc main_arg1))) (V (Proc.devRef .tc main_arg4))) :=
    (sb0_pre (B1 V)).trans (by
      rw [show B1 V (Proc.devRef .tc main_v4) = _ from f1_h, show B1 V (Proc.devRef .tc main_v1) = _ from f1_src, show B1 V (Proc.devRef .tc main_v3) = _ from f1_dst, show B1 V (Proc.devRef .tc main_arg4) = _ from (keep_Sa (B0 V) main_arg4 (by decide))])
  have f3_h : B3 V (Proc.devRef .tc main_v68) = (rNext (rPre (rDot0 (V (Proc.devRef .tc main_arg0)) (V (Proc.devRef .tc main_arg3))) (rSrc (V (Proc.devRef .tc main_arg1))) (rDst (V (Proc.devRef .tc main_arg1))) (V (Proc.devRef .tc main_arg4))) (V (Proc.devRef .tc main_arg5)) (V (Proc.devRef .tc main_arg6)) (V (Proc.devRef .tc main_arg7))) :=
    (sc0_h (B2 V)).trans (by
      rw [show B2 V (Proc.devRef .tc main_v47) = _ from f2_pre, show B2 V (Proc.devRef .tc main_arg5) = _ from ((keep_Sb0 (B1 V) main_arg5 (by decide)).trans (keep_Sa (B0 V) main_arg5 (by decide))), show B2 V (Proc.devRef .tc main_arg6) = _ from ((keep_Sb0 (B1 V) main_arg6 (by decide)).trans (keep_Sa (B0 V) main_arg6 (by decide))), show B2 V (Proc.devRef .tc main_arg7) = _ from ((keep_Sb0 (B1 V) main_arg7 (by decide)).trans (keep_Sa (B0 V) main_arg7 (by decide)))])
  have f4_pre : B4 V (Proc.devRef .tc main_v111) = (rPre (rNext (rPre (rDot0 (V (Proc.devRef .tc main_arg0)) (V (Proc.devRef .tc main_arg3))) (rSrc (V (Proc.devRef .tc main_arg1))) (rDst (V (Proc.devRef .tc main_arg1))) (V (Proc.devRef .tc main_arg4))) (V (Proc.devRef .tc main_arg5)) (V (Proc.devRef .tc main_arg6)) (V (Proc.devRef .tc main_arg7))) (rSrc (V (Proc.devRef .tc main_arg1))) (rDst (V (Proc.devRef .tc main_arg1))) (V (Proc.devRef .tc main_arg8))) :=
    (sb1_pre (B3 V)).trans (by
      rw [show B3 V (Proc.devRef .tc main_v68) = _ from f3_h, show B3 V (Proc.devRef .tc main_v1) = _ from ((keep_Sc0 (B2 V) main_v1 (by decide)).trans (keep_Sb0 (B1 V) main_v1 (by decide))).trans f1_src, show B3 V (Proc.devRef .tc main_v3) = _ from ((keep_Sc0 (B2 V) main_v3 (by decide)).trans (keep_Sb0 (B1 V) main_v3 (by decide))).trans f1_dst, show B3 V (Proc.devRef .tc main_arg8) = _ from ((keep_Sc0 (B2 V) main_arg8 (by decide)).trans ((keep_Sb0 (B1 V) main_arg8 (by decide)).trans (keep_Sa (B0 V) main_arg8 (by decide))))])
  have f5_h : B5 V (Proc.devRef .tc main_v132) = (rNext (rPre (rNext (rPre (rDot0 (V (Proc.devRef .tc main_arg0)) (V (Proc.devRef .tc main_arg3))) (rSrc (V (Proc.devRef .tc main_arg1))) (rDst (V (Proc.devRef .tc main_arg1))) (V (Proc.devRef .tc main_arg4))) (V (Proc.devRef .tc main_arg5)) (V (Proc.devRef .tc main_arg6)) (V (Proc.devRef .tc main_arg7))) (rSrc (V (Proc.devRef .tc main_arg1))) (rDst (V (Proc.devRef .tc main_arg1))) (V (Proc.devRef .tc main_arg8))) (V (Proc.devRef .tc main_arg9)) (V (Proc.devRef .tc main_arg10)) (V (Proc.devRef .tc main_arg11))) :=
    (sc1_h (B4 V)).trans (by
      rw [show B4 V (Proc.devRef .tc main_v111) = _ from f4_pre, show B4 V (Proc.devRef .tc main_arg9) = _ from ((keep_Sb1 (B3 V) main_arg9 (by decide)).trans ((keep_Sc0 (B2 V) main_arg9 (by decide)).trans ((keep_Sb0 (B1 V) main_arg9 (by decide)).trans (keep_Sa (B0 V) main_arg9 (by decide))))), show B4 V (Proc.devRef .tc main_arg10) = _ from ((keep_Sb1 (B3 V) main_arg10 (by decide)).trans ((keep_Sc0 (B2 V) main_arg10 (by decide)).trans ((keep_Sb0 (B1 V) main_arg10 (by decide)).trans (keep_Sa (B0 V) main_arg10 (by decide))))), show B4 V (Proc.devRef .tc main_arg11) = _ from ((keep_Sb1 (B3 V) main_arg11 (by decide)).trans ((keep_Sc0 (B2 V) main_arg11 (by decide)).trans ((keep_Sb0 (B1 V) main_arg11 (by decide)).trans (keep_Sa (B0 V) main_arg11 (by decide)))))])
  have f6_pre : B6 V (Proc.devRef .tc main_v175) = (rPre (rNext (rPre (rNext (rPre (rDot0 (V (Proc.devRef .tc main_arg0)) (V (Proc.devRef .tc main_arg3))) (rSrc (V (Proc.devRef .tc main_arg1))) (rDst (V (Proc.devRef .tc main_arg1))) (V (Proc.devRef .tc main_arg4))) (V (Proc.devRef .tc main_arg5)) (V (Proc.devRef .tc main_arg6)) (V (Proc.devRef .tc main_arg7))) (rSrc (V (Proc.devRef .tc main_arg1))) (rDst (V (Proc.devRef .tc main_arg1))) (V (Proc.devRef .tc main_arg8))) (V (Proc.devRef .tc main_arg9)) (V (Proc.devRef .tc main_arg10)) (V (Proc.devRef .tc main_arg11))) (rSrc (V (Proc.devRef .tc main_arg1))) (rDst (V (Proc.devRef .tc main_arg1))) (V (Proc.devRef .tc main_arg12))) :=
    (sb2_pre (B5 V)).trans (by
      rw [show B5 V (Proc.devRef .tc main_v132) = _ from f5_h, show B5 V (Proc.devRef .tc main_v1) = _ from ((keep_Sc1 (B4 V) main_v1 (by decide)).trans ((keep_Sb1 (B3 V) main_v1 (by decide)).trans ((keep_Sc0 (B2 V) main_v1 (by decide)).trans (keep_Sb0 (B1 V) main_v1 (by decide))))).trans f1_src, show B5 V (Proc.devRef .tc main_v3) = _ from ((keep_Sc1 (B4 V) main_v3 (by decide)).trans ((keep_Sb1 (B3 V) main_v3 (by decide)).trans ((keep_Sc0 (B2 V) main_v3 (by decide)).trans (keep_Sb0 (B1 V) main_v3 (by decide))))).trans f1_dst, show B5 V (Proc.devRef .tc main_arg12) = _ from ((keep_Sc1 (B4 V) main_arg12 (by decide)).trans ((keep_Sb1 (B3 V) main_arg12 (by decide)).trans ((keep_Sc0 (B2 V) main_arg12 (by decide)).trans ((keep_Sb0 (B1 V) main_arg12 (by decide)).trans (keep_Sa (B0 V) main_arg12 (by decide))))))])
  have f7_h : B7 V (Proc.devRef .tc main_v196) = (rNext (rPre (rNext (rPre (rNext (rPre (rDot0 (V (Proc.devRef .tc main_arg0)) (V (Proc.devRef .tc main_arg3))) (rSrc (V (Proc.devRef .tc main_arg1))) (rDst (V (Proc.devRef .tc main_arg1))) (V (Proc.devRef .tc main_arg4))) (V (Proc.devRef .tc main_arg5)) (V (Proc.devRef .tc main_arg6)) (V (Proc.devRef .tc main_arg7))) (rSrc (V (Proc.devRef .tc main_arg1))) (rDst (V (Proc.devRef .tc main_arg1))) (V (Proc.devRef .tc main_arg8))) (V (Proc.devRef .tc main_arg9)) (V (Proc.devRef .tc main_arg10)) (V (Proc.devRef .tc main_arg11))) (rSrc (V (Proc.devRef .tc main_arg1))) (rDst (V (Proc.devRef .tc main_arg1))) (V (Proc.devRef .tc main_arg12))) (V (Proc.devRef .tc main_arg13)) (V (Proc.devRef .tc main_arg14)) (V (Proc.devRef .tc main_arg15))) :=
    (sc2_h (B6 V)).trans (by
      rw [show B6 V (Proc.devRef .tc main_v175) = _ from f6_pre, show B6 V (Proc.devRef .tc main_arg13) = _ from ((keep_Sb2 (B5 V) main_arg13 (by decide)).trans ((keep_Sc1 (B4 V) main_arg13 (by decide)).trans ((keep_Sb1 (B3 V) main_arg13 (by decide)).trans ((keep_Sc0 (B2 V) main_arg13 (by decide)).trans ((keep_Sb0 (B1 V) main_arg13 (by decide)).trans (keep_Sa (B0 V) main_arg13 (by decide))))))), show B6 V (Proc.devRef .tc main_arg14) = _ from ((keep_Sb2 (B5 V) main_arg14 (by decide)).trans ((keep_Sc1 (B4 V) main_arg14 (by decide)).trans ((keep_Sb1 (B3 V) main_arg14 (by decide)).trans ((keep_Sc0 (B2 V) main_arg14 (by decide)).trans ((keep_Sb0 (B1 V) main_arg14 (by decide)).trans (keep_Sa (B0 V) main_arg14 (by decide))))))), show B6 V (Proc.devRef .tc main_arg15) = _ from ((keep_Sb2 (B5 V) main_arg15 (by decide)).trans ((keep_Sc1 (B4 V) main_arg15 (by decide)).trans ((keep_Sb1 (B3 V) main_arg15 (by decide)).trans ((keep_Sc0 (B2 V) main_arg15 (by decide)).trans ((keep_Sb0 (B1 V) main_arg15 (by decide)).trans (keep_Sa (B0 V) main_arg15 (by decide)))))))])
  have f8_out : B8 V (Proc.devRef .tc main_v239) = (rPre (rNext (rPre (rNext (rPre (rNext (rPre (rDot0 (V (Proc.devRef .tc main_arg0)) (V (Proc.devRef .tc main_arg3))) (rSrc (V (Proc.devRef .tc main_arg1))) (rDst (V (Proc.devRef .tc main_arg1))) (V (Proc.devRef .tc main_arg4))) (V (Proc.devRef .tc main_arg5)) (V (Proc.devRef .tc main_arg6)) (V (Proc.devRef .tc main_arg7))) (rSrc (V (Proc.devRef .tc main_arg1))) (rDst (V (Proc.devRef .tc main_arg1))) (V (Proc.devRef .tc main_arg8))) (V (Proc.devRef .tc main_arg9)) (V (Proc.devRef .tc main_arg10)) (V (Proc.devRef .tc main_arg11))) (rSrc (V (Proc.devRef .tc main_arg1))) (rDst (V (Proc.devRef .tc main_arg1))) (V (Proc.devRef .tc main_arg12))) (V (Proc.devRef .tc main_arg13)) (V (Proc.devRef .tc main_arg14)) (V (Proc.devRef .tc main_arg15))) (rSrc (V (Proc.devRef .tc main_arg1))) (rDst (V (Proc.devRef .tc main_arg1))) (V (Proc.devRef .tc main_arg16))) :=
    (sb3_pre (B7 V)).trans (by
      rw [show B7 V (Proc.devRef .tc main_v196) = _ from f7_h, show B7 V (Proc.devRef .tc main_v1) = _ from ((keep_Sc2 (B6 V) main_v1 (by decide)).trans ((keep_Sb2 (B5 V) main_v1 (by decide)).trans ((keep_Sc1 (B4 V) main_v1 (by decide)).trans ((keep_Sb1 (B3 V) main_v1 (by decide)).trans ((keep_Sc0 (B2 V) main_v1 (by decide)).trans (keep_Sb0 (B1 V) main_v1 (by decide))))))).trans f1_src, show B7 V (Proc.devRef .tc main_v3) = _ from ((keep_Sc2 (B6 V) main_v3 (by decide)).trans ((keep_Sb2 (B5 V) main_v3 (by decide)).trans ((keep_Sc1 (B4 V) main_v3 (by decide)).trans ((keep_Sb1 (B3 V) main_v3 (by decide)).trans ((keep_Sc0 (B2 V) main_v3 (by decide)).trans (keep_Sb0 (B1 V) main_v3 (by decide))))))).trans f1_dst, show B7 V (Proc.devRef .tc main_arg16) = _ from ((keep_Sc2 (B6 V) main_arg16 (by decide)).trans ((keep_Sb2 (B5 V) main_arg16 (by decide)).trans ((keep_Sc1 (B4 V) main_arg16 (by decide)).trans ((keep_Sb1 (B3 V) main_arg16 (by decide)).trans ((keep_Sc0 (B2 V) main_arg16 (by decide)).trans ((keep_Sb0 (B1 V) main_arg16 (by decide)).trans (keep_Sa (B0 V) main_arg16 (by decide))))))))])
  have f9 : B9 V (Proc.devRef .tc main_v251) = rTail (rPre (rNext (rPre (rNext (rPre (rNext (rPre (rDot0 (V (Proc.devRef .tc main_arg0)) (V (Proc.devRef .tc main_arg3))) (rSrc (V (Proc.devRef .tc main_arg1))) (rDst (V (Proc.devRef .tc main_arg1))) (V (Proc.devRef .tc main_arg4))) (V (Proc.devRef .tc main_arg5)) (V (Proc.devRef .tc main_arg6)) (V (Proc.devRef .tc main_arg7))) (rSrc (V (Proc.devRef .tc main_arg1))) (rDst (V (Proc.devRef .tc main_arg1))) (V (Proc.devRef .tc main_arg8))) (V (Proc.devRef .tc main_arg9)) (V (Proc.devRef .tc main_arg10)) (V (Proc.devRef .tc main_arg11))) (rSrc (V (Proc.devRef .tc main_arg1))) (rDst (V (Proc.devRef .tc main_arg1))) (V (Proc.devRef .tc main_arg12))) (V (Proc.devRef .tc main_arg13)) (V (Proc.devRef .tc main_arg14)) (V (Proc.devRef .tc main_arg15))) (rSrc (V (Proc.devRef .tc main_arg1))) (rDst (V (Proc.devRef .tc main_arg1))) (V (Proc.devRef .tc main_arg16))) (V (Proc.devRef .tc main_arg2)) :=
    (st_out (B8 V)).trans (by rw [f8_out, show B8 V (Proc.devRef .tc main_arg2) = _ from ((keep_Sb3 (B7 V) main_arg2 (by decide)).trans ((keep_Sc2 (B6 V) main_arg2 (by decide)).trans ((keep_Sb2 (B5 V) main_arg2 (by decide)).trans ((keep_Sc1 (B4 V) main_arg2 (by decide)).trans ((keep_Sb1 (B3 V) main_arg2 (by decide)).trans ((keep_Sc0 (B2 V) main_arg2 (by decide)).trans ((keep_Sb0 (B1 V) main_arg2 (by decide)).trans (keep_Sa (B0 V) main_arg2 (by decide)))))))))])
  rw [after_cut]
  exact f9

end Cert.ReferenceIdeal.RefRun

end
-- ==== Proof.KRun.lean ====
/-
  The idealized kernel program's run with its RESULT named: every weakly fair execution of @main terminates,
  nothing faulting, the argument arrays end as launched and the result buffer holds what the fold of the program's
  nineteen segments (nine stretches of host operations, eight tiled regions) leaves in it. The argument is the
  frame's own — the launch over the segments, the last thread state read against the final state — with the
  result buffer read off the last boundary's contents as the arguments are.
-/
import proofs.«104369_j66383014527707_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v145) = W19 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v145 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c)⟩)

end Cert.KernelIdeal.KRun

end
-- ==== Proof.Chain.lean ====
/-
  The host computations both programs share, as functions of arrays: jnp's normalisation of an index vector, an
  indexed read of a vector or of the rows of a matrix, the inverse square roots of the in-degrees plus one, the
  edge weights, and one layer's aggregation — a segment sum over the edges of the source rows scaled by the edge
  weights.
-/
import proofs.«104369_j66383014527707_2_alg».proof.Proof.Gen.KernelIdeal
import Idealize.ShloMosaic.Lib.StableHlo.Run

noncomputable section

namespace Cert.KernelIdeal.Chain

open Cert.KernelIdeal Cert.KernelIdeal.Gen Idealize.ShloMosaic

variable {F : FTy → Type} [FloatOps F] {α : Type}

/-- jnp's normalisation of a vector of indices into an axis of extent `K`: a negative index counts from the end. -/
def wrapE (K : BitVec 32) (v : IVec S1600000 32) : IVec S1600000 32 :=
  select (cmpi .slt v (broadcastInDim S1600000 ![] bcast_S_S1600000 (constantI S_ 32 0#32)))
    (addi v (broadcastInDim S1600000 ![] bcast_S_S1600000 (constantI S_ 32 K))) v

/-- A vector over the edges as a column. -/
def colE (v : S1600000.Idx → α) : S1600000x1.Idx → α :=
  broadcastInDim S1600000x1 ![0] bcast_S1600000_S1600000x1_0 v

/-- `x[i]` for a vector of words over the edges and a vector of positions among the edges. -/
def takeI (x : IVec S1600000 32) (i : IVec S1600000 32) : IVec S1600000 32 :=
  Host.gather gather_S1600000_S1600000x1_S1600000_n_0_n_n_0_1_1 x (colE (wrapE 1600000#32 i))

/-- `x[i]` for a vector over the nodes and a vector of node indices over the edges. -/
def takeV (x : FVec F S100000 .f32) (i : IVec S1600000 32) : FVec F S1600000 .f32 :=
  Host.gather gather_S100000_S1600000x1_S1600000_n_0_n_n_0_1_1 x (colE (wrapE 100000#32 i))

/-- `h[i]`: the rows of a matrix over the nodes at a vector of node indices over the edges. -/
def takeRows (h : FVec F S100000x32 .f32) (i : IVec S1600000 32) : FVec F S1600000x32 .f32 :=
  Host.gather gather_S100000x32_S1600000x1_S1600000x32_1_0_n_n_0_1_132 h (colE (wrapE 100000#32 i))

/-- The in-degree of every node (a segment sum of ones over the edges' destinations) plus one, inverse square
    root: the symmetric normalisation's factor. -/
def dinvOf (dst : IVec S1600000 32) : FVec F S100000 .f32 :=
  Host.rsqrt (addf
    (Host.scatterAdd scatter_S100000_S1600000x1_S1600000_n_0_0_1
      (broadcastInDim S100000 ![] bcast_S_S100000 (constant S_ .f32 0x00000000#32)) (colE dst)
      (broadcastInDim S1600000 ![] bcast_S_S1600000 (constant S_ .f32 0x3F800000#32)))
    (broadcastInDim S100000 ![] bcast_S_S100000 (constant S_ .f32 0x3F800000#32)))

/-- An edge's weight: the factors of its two ends multiplied. -/
def normOf (dinv : FVec F S100000 .f32) (src dst : IVec S1600000 32) : FVec F S1600000 .f32 :=
  mulf (takeV dinv src) (takeV dinv dst)

/-- One layer's aggregation: every node receives the sum, over the edges that end in it, of the edge's source row
    scaled by the edge's weight. -/
def aggOf (h : FVec F S100000x32 .f32) (norm : FVec F S1600000 .f32) (src dst : IVec S1600000 32) :
    FVec F S100000x32 .f32 :=
  Host.scatterAdd scatter_S100000x32_S1600000x1_S1600000x32_1_0_0_1
    (broadcastInDim S100000x32 ![] bcast_S_S100000x32 (constant S_ .f32 0x00000000#32)) (colE dst)
    (mulf (takeRows h src)
      (broadcastInDim S1600000x32 ![0, 1] bcast_S1600000x1_S1600000x32_0_1 (colE norm)))

/-- The positions an argsort of the destinations gives. -/
def sortIdx (dst : IVec S1600000 32) : IVec S1600000 32 :=
  (Host.sort2 S1600000 0 comparator_i32_i32_d0 dst (iotaInDim S1600000 32 0)).2

end Cert.KernelIdeal.Chain

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.LibBlockSum.lean ====
/-
  Sums over a long axis taken block by block.

  A kernel that walks an axis of extent `N = T * R` in `T` blocks of `R` rows and keeps a running total adds up, in the
  end, the same terms as one sum over the whole axis: in a commutative monoid (the extended reals under `+` are one, infinities
  included) only the grouping differs.  Stated over an arbitrary commutative monoid, for literal or symbolic extents.
-/
import Idealize.ShloMosaic.Lib.ValueIdx

namespace Cert.LibBlockSum

open Finset

variable {M : Type*} [AddCommMonoid M]

/-- Row `r` of block `t`, as a row of the whole axis: `t * R + r`. -/
def row {T R : ℕ} (t : Fin T) (r : Fin R) : Fin (T * R) :=
  ⟨t.val * R + r.val, by
    have ht := t.isLt
    have hr := r.isLt
    calc t.val * R + r.val < t.val * R + R := by omega
      _ = (t.val + 1) * R := by ring
      _ ≤ T * R := Nat.mul_le_mul_right R ht⟩

@[simp] theorem row_val {T R : ℕ} (t : Fin T) (r : Fin R) : (row t r).val = t.val * R + r.val := rfl

/-- A sum over an axis of extent `T * R` is the sum over the `T` blocks of the sums over each block's `R` rows. -/
theorem sum_blocks (T R : ℕ) (f : Fin (T * R) → M) :
    ∑ i, f i = ∑ t : Fin T, ∑ r : Fin R, f (row t r) := by
  rw [← Equiv.sum_comp finProdFinEquiv f, Fintype.sum_prod_type]
  refine Finset.sum_congr rfl fun t _ => Finset.sum_congr rfl fun r _ => congrArg f ?_
  apply Fin.ext
  simp only [finProdFinEquiv_apply_val, row_val]
  ring

/-- The same over an axis whose extent `N` is given as a number with `T * R = N` (for instance `20 * 5000 = 100000`):
    the row `t * R + r` is named by its value. -/
theorem sum_blocks_of_eq {N : ℕ} (T R : ℕ) (h : T * R = N) (f : Fin N → M) :
    ∑ i, f i = ∑ t : Fin T, ∑ r : Fin R,
      f ⟨t.val * R + r.val, h ▸ (row t r).isLt⟩ := by
  subst h
  exact sum_blocks T R f

/-- A running total: start from `0`, add `g 0`, then `g 1`, … — what an accumulator holds after `k` steps. -/
def running (g : ℕ → M) : ℕ → M
  | 0 => 0
  | k + 1 => running g k + g k

@[simp] theorem running_zero (g : ℕ → M) : running g 0 = 0 := rfl
@[simp] theorem running_succ (g : ℕ → M) (k : ℕ) : running g (k + 1) = running g k + g k := rfl

/-- After `k` steps the accumulator holds the sum of the first `k` contributions. -/
theorem running_eq_sum_range (g : ℕ → M) (k : ℕ) : running g k = ∑ t ∈ Finset.range k, g t := by
  induction k with
  | zero => simp
  | succ k ih => rw [running_succ, ih, Finset.sum_range_succ]

/-- After all `T` steps: the sum over the `T` blocks. -/
theorem running_eq_sum_fin (g : ℕ → M) (T : ℕ) : running g T = ∑ t : Fin T, g t.val := by
  rw [running_eq_sum_range, Finset.sum_range]

/-- An accumulator fed block sums of `f` ends at the sum of `f` over the whole axis. -/
theorem running_blocks (T R : ℕ) (f : Fin (T * R) → M) (g : ℕ → M)
    (hg : ∀ t : Fin T, g t.val = ∑ r : Fin R, f (row t r)) :
    running g T = ∑ i, f i := by
  rw [running_eq_sum_fin, sum_blocks]
  exact Finset.sum_congr rfl fun t _ => hg t

end Cert.LibBlockSum
-- ==== Proof.RegShared.lean ====
/-
  What the tiled regions share: a layer's pre-activation at an entry of a block and as a function of the whole
  arrays; batch norm with scale, shift and rectifier on one entry; column sums of a block and of the whole arrays;
  the broadcasts of a row and of a column over a block.
-/
import proofs.«104369_j66383014527707_2_alg».proof.Proof.Gen.KernelIdeal.Frame
import proofs.«104369_j66383014527707_2_alg».proof.Proof.LibRowOps
import proofs.«104369_j66383014527707_2_alg».proof.Proof.LibBlockSum
import Idealize.ShloMosaic.Lib.Pipeline.Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)
open Cert.LibBlockSum

theorem hz : (![0, 0] : Fin 2 → Nat) = fun _ => 0 := funext fun a => by fin_cases a <;> rfl

/-- The pre-activation of a block at row `p`, column `q`: aggregate plus self-loop term plus bias. -/
def preB (x0 x1 : Vec Ideal S5000x32 .f32) (x2 : Vec Ideal S5000x1 .f32) (x3 : Vec Ideal S1x32 .f32)
    (p : Fin 5000) (q : Fin 32) : EReal :=
  x0 (ix2 p q) + x1 (ix2 p q) * x2 (ix2 p (0 : Fin 1)) + x3 (ix2 (0 : Fin 1) q)

/-- A layer's pre-activation as one function of the whole arrays: at node `i`, channel `q`, the aggregate plus
    the node's own row scaled by its self-loop weight plus the bias. -/
def preW (agg h : S100000x32.Idx → EReal) (ss : S100000x1.Idx → EReal) (b : S1x32.Idx → EReal) :
    S100000x32.Idx → EReal :=
  fun i => agg i + h i * ss (ix2 (i 0) (0 : Fin 1)) + b (ix2 (0 : Fin 1) (i 1))

theorem preW_apply (agg h : S100000x32.Idx → EReal) (ss : S100000x1.Idx → EReal) (b : S1x32.Idx → EReal)
    (r : Fin 100000) (q : Fin 32) :
    preW agg h ss b (ix2 r q) = agg (ix2 r q) + h (ix2 r q) * ss (ix2 r (0 : Fin 1)) + b (ix2 (0 : Fin 1) q) := rfl

/-- Batch norm, scale, shift and rectifier on one entry: `max(((x − mean) · rsqrt(var + ε)) · γ + β, 0)`, the
    two constants as the program's words. -/
def act (x mean var g be : EReal) : EReal :=
  max (((x - mean) * Ideal.rsqrt (var + Ideal.ofBits .f32 0x3727C5AC#32)) * g + be) (Ideal.ofBits .f32 0x00000000#32)

/-- The activated pre-activation of the whole arrays. -/
def actW (pre : S100000x32.Idx → EReal) (mean var g be : S1x32.Idx → EReal) : S100000x32.Idx → EReal :=
  fun i => act (pre i) (mean (ix2 (0 : Fin 1) (i 1))) (var (ix2 (0 : Fin 1) (i 1))) (g (ix2 (0 : Fin 1) (i 1)))
    (be (ix2 (0 : Fin 1) (i 1)))

theorem actW_apply (pre : S100000x32.Idx → EReal) (mean var g be : S1x32.Idx → EReal) (r : Fin 100000) (k : Fin 32) :
    actW pre mean var g be (ix2 r k) = act (pre (ix2 r k)) (mean (ix2 (0 : Fin 1) k)) (var (ix2 (0 : Fin 1) k))
      (g (ix2 (0 : Fin 1) k)) (be (ix2 (0 : Fin 1) k)) := rfl

theorem bcRow (x : FVec Ideal S1x32 .f32) :
    broadcastTo S5000x32 x broadcasts_S1x32_S5000x32 = fun i => x (ix2 (0 : Fin 1) (i 1)) := by
  funext i
  refine broadcastTo_apply x broadcasts_S1x32_S5000x32 i (ix2 (0 : Fin 1) (i 1)) fun ax => ?_
  match ax with
  | ⟨0, _⟩ => rfl
  | ⟨1, _⟩ => rfl

theorem bcCol (x : FVec Ideal S5000x1 .f32) :
    broadcastTo S5000x32 x broadcasts_S5000x1_S5000x32 = fun i => x (ix2 (i 0) (0 : Fin 1)) :=
  Cert.LibRowOps.col_bcast (a := 5000) (b := 32) x broadcasts_S5000x1_S5000x32

/-- The column of a 5000 × 32 block that a sum over its rows reads. -/
theorem lift_col (h : S5000x32.Reduces [0] S32) (j : S32.Idx) (k : Fin 5000) : h.lift j k = ix2 k (j 0) := by
  funext c
  apply Fin.ext
  show h.liftVal j k.val c = (ix2 k (j 0) c).val
  match c with
  | ⟨0, _⟩ => simp [Shape.Reduces.liftVal]
  | ⟨1, _⟩ => simp [Shape.Reduces.liftVal]

/-- A sum over the rows of a block, kept as one row: entry `(u, q)` is column `q`'s sum. -/
theorem colsum_apply (v : FVec Ideal S5000x32 .f32) (u : Fin 1) (q : Fin 32) :
    shapeCast S1x32 (multiReduction .add [0] S32 v 0x00000000#32 reduces_S5000x32_S32 (.inl rfl) rfl) shapeCasts_S32_S1x32 (ix2 u q)
      = ∑ p : Fin 5000, v (ix2 p q) := by
  rw [shapeCast_addUnit_apply (n := 1) ![32]]
  refine (Ideal.multiReduction_add_single v 0x00000000#32 reduces_S5000x32_S32 (.inl rfl) rfl _).trans ?_
  refine Finset.sum_congr rfl fun p _ => ?_
  exact congrArg v (lift_col reduces_S5000x32_S32 (fun a => ix2 u q a.succ) p)

/-- Row `p` of block `k` among all the rows. -/
def rowAt (k : ℕ) (hk : k < 20) (p : Fin 5000) : Fin 100000 := ⟨k * 5000 + p.val, by have := p.isLt; omega⟩

/-- All twenty blocks' contributions are the sum over all the rows. -/
theorem running_all (f : Fin 100000 → EReal) (gg : ℕ → EReal)
    (hg : ∀ k (hk : k < 20), gg k = ∑ p : Fin 5000, f (rowAt k hk p)) :
    running gg 20 = ∑ r : Fin 100000, f r := by
  rw [running_eq_sum_fin, sum_blocks_of_eq 20 5000 (by norm_num) f]
  exact Finset.sum_congr rfl fun t _ => hg t.val t.isLt

/-- Column sums over all the rows, of an array and of its square. -/
def colSum (P : S100000x32.Idx → EReal) : S1x32.Idx → EReal := fun j => ∑ r : Fin 100000, P (ix2 r (j 1))
def colSumSq (P : S100000x32.Idx → EReal) : S1x32.Idx → EReal :=
  fun j => ∑ r : Fin 100000, P (ix2 r (j 1)) * P (ix2 r (j 1))

end Cert.KernelIdeal.Reg

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Spec.lean ====
/-
  The network both programs compute, as functions of arrays: the edge list's two rows, a bias or scale vector as a
  row, the batch-norm statistics the kernel program forms from column sums, a hidden layer's next projection, and
  the final pooling over the graphs of the batch.
-/
import proofs.«104369_j66383014527707_2_alg».proof.Proof.Chain
import proofs.«104369_j66383014527707_2_alg».proof.Proof.RegShared
import proofs.«104369_j66383014527707_2_alg».proof.Proof.LibMatmul

noncomputable section

namespace Cert.KernelIdeal.Spec

open Cert.KernelIdeal Cert.KernelIdeal.Gen Idealize.ShloMosaic Idealize.ShloMosaic.ValueIdx
open Cert.KernelIdeal.Chain Cert.KernelIdeal.Reg Cert.LibMatmul

/-- The sources of the edges: row 0 of the edge list. -/
def srcOf (a1 : IVec S2x1600000 32) : IVec S1600000 32 :=
  fun i => shapeCast S1600000 (extractStridedSlice S1x1600000 ![0, 0] a1 slices_S2x1600000_S1x1600000_0_0)
    shapeCasts_S1x1600000_S1600000 i

/-- The destinations of the edges: row 1 of the edge list. -/
def dstOf (a1 : IVec S2x1600000 32) : IVec S1600000 32 :=
  fun i => shapeCast S1600000 (extractStridedSlice S1x1600000 ![1, 0] a1 slices_S2x1600000_S1x1600000_1_0)
    shapeCasts_S1x1600000_S1600000 i

/-- The self-loop weights, as a column: the squared normalisation factors. -/
def ssOf (dinv : FVec Ideal S100000 .f32) : FVec Ideal S100000x1 .f32 :=
  fun i => shapeCast S100000x1 (mulf dinv dinv) shapeCasts_S100000_S100000x1 i

/-- A vector of 32 channels as one row. -/
def rowV (b : FVec Ideal S32 .f32) : FVec Ideal S1x32 .f32 :=
  fun i => shapeCast S1x32 b shapeCasts_S32_S1x32 i

/-- The number of nodes, as a row of the program's word for 100000. -/
def nodesRow : FVec Ideal S1x32 .f32 := broadcastInDim S1x32 ![] bcast_S_S1x32 (constant S_ .f32 0x47C35000#32)

/-- The mean the kernel program forms from the column sums. -/
def meanK (s : FVec Ideal S1x32 .f32) : FVec Ideal S1x32 .f32 := Host.divf s nodesRow

/-- The variance the kernel program forms: mean of squares minus squared mean. -/
def varK (s s2 : FVec Ideal S1x32 .f32) : FVec Ideal S1x32 .f32 :=
  subf (Host.divf s2 nodesRow) (mulf (Host.divf s nodesRow) (Host.divf s nodesRow))

/-- A hidden layer of the kernel program after its pre-activation: batch norm with the statistics above, scale,
    shift, rectifier, and the next projection. -/
def nextH (P : S100000x32.Idx → EReal) (g be : FVec Ideal S32 .f32) (W : FVec Ideal S32x32 .f32) : S100000x32.Idx → EReal :=
  MM (A := 100000) (K := 32) (B := 32)
    (actW P (meanK (colSum P)) (varK (colSum P) (colSumSq P)) (rowV g) (rowV be)) W

/-- The pooling: per graph of the batch, the sum of its nodes' rows over the larger of its node count and one. -/
def tailOf (out : FVec Ideal S100000x32 .f32) (batch : IVec S100000 32) : FVec Ideal S64x32 .f32 :=
  Host.divf
    (Host.scatterAdd scatter_S64x32_S100000x1_S100000x32_1_0_0_1
      (broadcastInDim S64x32 ![] bcast_S_S64x32 (constant S_ .f32 0x00000000#32))
      (broadcastInDim S100000x1 ![0] bcast_S100000_S100000x1_0 batch) out)
    (broadcastInDim S64x32 ![0, 1] bcast_S64x1_S64x32_0_1
      (broadcastInDim S64x1 ![0] bcast_S64_S64x1_0
        (maximumf
          (Host.scatterAdd scatter_S64_S100000x1_S100000_n_0_0_1
            (broadcastInDim S64 ![] bcast_S_S64 (constant S_ .f32 0x00000000#32))
            (broadcastInDim S100000x1 ![0] bcast_S100000_S100000x1_0 batch)
            (broadcastInDim S100000 ![] bcast_S_S100000 (constant S_ .f32 0x3F800000#32)))
          (broadcastInDim S64 ![] bcast_S_S64 (constant S_ .f32 0x3F800000#32)))))

/-- The kernel program's edge list: sources and destinations read at the positions an argsort of the destinations
    gives, and the normalisation factors computed from the sorted destinations. -/
def srcS (ei : IVec S2x1600000 32) : IVec S1600000 32 := takeI (srcOf ei) (sortIdx (dstOf ei))
def dstS (ei : IVec S2x1600000 32) : IVec S1600000 32 := takeI (dstOf ei) (sortIdx (dstOf ei))
def dinvK (ei : IVec S2x1600000 32) : FVec Ideal S100000 .f32 := dinvOf (dstS ei)

/-- A layer's pre-activation in the kernel program: the aggregation over the sorted edge list. -/
def preK (ei : IVec S2x1600000 32) (h : S100000x32.Idx → EReal) (b : FVec Ideal S32 .f32) : S100000x32.Idx → EReal :=
  preW (aggOf h (normOf (dinvK ei) (srcS ei) (dstS ei)) (srcS ei) (dstS ei)) h (ssOf (dinvK ei)) (rowV b)

/-- A layer's pre-activation on the edge list as given. -/
def preR (ei : IVec S2x1600000 32) (h : S100000x32.Idx → EReal) (b : FVec Ideal S32 .f32) : S100000x32.Idx → EReal :=
  preW (aggOf (F := Ideal) h (normOf (dinvOf (F := Ideal) (dstOf ei)) (srcOf ei) (dstOf ei)) (srcOf ei) (dstOf ei)) h
    (ssOf (dinvOf (F := Ideal) (dstOf ei))) (rowV b)

/-- The whole network as the kernel program computes it. -/
def kNet (x : FVec Ideal S100000x128 .f32) (ei : IVec S2x1600000 32) (batch : IVec S100000 32)
    (W0 : FVec Ideal S128x32 .f32) (b0 g0 be0 : FVec Ideal S32 .f32)
    (W1 : FVec Ideal S32x32 .f32) (b1 g1 be1 : FVec Ideal S32 .f32)
    (W2 : FVec Ideal S32x32 .f32) (b2 g2 be2 : FVec Ideal S32 .f32)
    (Wc : FVec Ideal S32x32 .f32) (bc : FVec Ideal S32 .f32) : FVec Ideal S64x32 .f32 :=
  tailOf (preK ei (nextH (preK ei (nextH (preK ei (nextH (preK ei (MM (A := 100000) (K := 128) (B := 32) x W0) b0)
    g0 be0 W1) b1) g1 be1 W2) b2) g2 be2 Wc) bc) batch

end Cert.KernelIdeal.Spec

end
-- ==== Proof.KHost.lean ====
/-
  What each stretch of the kernel program's host operations computes, buffer by buffer, as the shared functions of
  the buffers it reads: for any contents the stretch starts from.
-/
import proofs.«104369_j66383014527707_2_alg».proof.Proof.Spec
import proofs.«104369_j66383014527707_2_alg».proof.Proof.Gen.KernelIdeal.Launch
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo
open Cert.KernelIdeal.Chain Cert.KernelIdeal.Spec

theorem h0_src (V : Valuation τ sig (Elt Ideal)) :
    after hostOps0 V (Proc.devRef .tc main_v1) = srcOf (V (Proc.devRef .tc main_arg1)) := by
  after_results_simp
  rfl

theorem h0_dst (V : Valuation τ sig (Elt Ideal)) :
    after hostOps0 V (Proc.devRef .tc main_v3) = dstOf (V (Proc.devRef .tc main_arg1)) := by
  after_results_simp
  rfl

theorem h01_sort (V : Valuation τ sig (Elt Ideal)) :
    after hostOps0_1 V (Proc.devRef .tc main_v4) = sortIdx (V (Proc.devRef .tc main_v3)) := by
  after_results_simp
  rfl

theorem h02_srcS (V : Valuation τ sig (Elt Ideal)) :
    after hostOps0_2 V (Proc.devRef .tc main_v11) = takeI (V (Proc.devRef .tc main_v1)) (V (Proc.devRef .tc main_v4)) := by
  after_results_simp
  rfl

theorem h02_dstS (V : Valuation τ sig (Elt Ideal)) :
    after hostOps0_2 V (Proc.devRef .tc main_v18) = takeI (V (Proc.devRef .tc main_v3)) (V (Proc.devRef .tc main_v4)) := by
  after_results_simp
  rfl

theorem h02_nrm (V : Valuation τ sig (Elt Ideal)) :
    after hostOps0_2 V (Proc.devRef .tc main_v40) = normOf (F := Ideal) (dinvOf (F := Ideal) (takeI (V (Proc.devRef .tc main_v3)) (V (Proc.devRef .tc main_v4)))) (takeI (V (Proc.devRef .tc main_v1)) (V (Proc.devRef .tc main_v4))) (takeI (V (Proc.devRef .tc main_v3)) (V (Proc.devRef .tc main_v4))) := by
  after_results_simp
  rfl

theorem h02_ss (V : Valuation τ sig (Elt Ideal)) :
    after hostOps0_2 V (Proc.devRef .tc main_v42) = ssOf (dinvOf (F := Ideal) (takeI (V (Proc.devRef .tc main_v3)) (V (Proc.devRef .tc main_v4)))) := by
  after_results_simp
  rfl

theorem h1_agg (V : Valuation τ sig (Elt Ideal)) :
    after hostOps1 V (Proc.devRef .tc main_v56) = aggOf (F := Ideal) (V (Proc.devRef .tc main_v43)) (V (Proc.devRef .tc main_v40)) (V (Proc.devRef .tc main_v11)) (V (Proc.devRef .tc main_v18)) := by
  after_results_simp
  rfl

theorem h1_b (V : Valuation τ sig (Elt Ideal)) :
    after hostOps1 V (Proc.devRef .tc main_v57) = rowV (V (Proc.devRef .tc main_arg4)) := by
  after_results_simp
  rfl

theorem h2_mean (V : Valuation τ sig (Elt Ideal)) :
    after hostOps2 V (Proc.devRef .tc main_v60) = meanK (V (Proc.devRef .tc main_v58_0)) := by
  after_results_simp
  rfl

theorem h2_var (V : Valuation τ sig (Elt Ideal)) :
    after hostOps2 V (Proc.devRef .tc main_v64) = varK (V (Proc.devRef .tc main_v58_0)) (V (Proc.devRef .tc main_v58_1)) := by
  after_results_simp
  rfl

theorem h2_r0 (V : Valuation τ sig (Elt Ideal)) :
    after hostOps2 V (Proc.devRef .tc main_v65) = rowV (V (Proc.devRef .tc main_arg4)) := by
  after_results_simp
  rfl

theorem h2_r1 (V : Valuation τ sig (Elt Ideal)) :
    after hostOps2 V (Proc.devRef .tc main_v66) = rowV (V (Proc.devRef .tc main_arg5)) := by
  after_results_simp
  rfl

theorem h2_r2 (V : Valuation τ sig (Elt Ideal)) :
    after hostOps2 V (Proc.devRef .tc main_v67) = rowV (V (Proc.devRef .tc main_arg6)) := by
  after_results_simp
  rfl

theorem h3_agg (V : Valuation τ sig (Elt Ideal)) :
    after hostOps3 V (Proc.devRef .tc main_v81) = aggOf (F := Ideal) (V (Proc.devRef .tc main_v68)) (V (Proc.devRef .tc main_v40)) (V (Proc.devRef .tc main_v11)) (V (Proc.devRef .tc main_v18)) := by
  after_results_simp
  rfl

theorem h3_b (V : Valuation τ sig (Elt Ideal)) :
    after hostOps3 V (Proc.devRef .tc main_v82) = rowV (V (Proc.devRef .tc main_arg8)) := by
  after_results_simp
  rfl

theorem h4_mean (V : Valuation τ sig (Elt Ideal)) :
    after hostOps4 V (Proc.devRef .tc main_v85) = meanK (V (Proc.devRef .tc main_v83_0)) := by
  after_results_simp
  rfl

theorem h4_var (V : Valuation τ sig (Elt Ideal)) :
    after hostOps4 V (Proc.devRef .tc main_v89) = varK (V (Proc.devRef .tc main_v83_0)) (V (Proc.devRef .tc main_v83_1)) := by
  after_results_simp
  rfl

theorem h4_r0 (V : Valuation τ sig (Elt Ideal)) :
    after hostOps4 V (Proc.devRef .tc main_v90) = rowV (V (Proc.devRef .tc main_arg8)) := by
  after_results_simp
  rfl

theorem h4_r1 (V : Valuation τ sig (Elt Ideal)) :
    after hostOps4 V (Proc.devRef .tc main_v91) = rowV (V (Proc.devRef .tc main_arg9)) := by
  after_results_simp
  rfl

theorem h4_r2 (V : Valuation τ sig (Elt Ideal)) :
    after hostOps4 V (Proc.devRef .tc main_v92) = rowV (V (Proc.devRef .tc main_arg10)) := by
  after_results_simp
  rfl

theorem h5_agg (V : Valuation τ sig (Elt Ideal)) :
    after hostOps5 V (Proc.devRef .tc main_v106) = aggOf (F := Ideal) (V (Proc.devRef .tc main_v93)) (V (Proc.devRef .tc main_v40)) (V (Proc.devRef .tc main_v11)) (V (Proc.devRef .tc main_v18)) := by
  after_results_simp
  rfl

theorem h5_b (V : Valuation τ sig (Elt Ideal)) :
    after hostOps5 V (Proc.devRef .tc main_v107) = rowV (V (Proc.devRef .tc main_arg12)) := by
  after_results_simp
  rfl

theorem h6_mean (V : Valuation τ sig (Elt Ideal)) :
    after hostOps6 V (Proc.devRef .tc main_v110) = meanK (V (Proc.devRef .tc main_v108_0)) := by
  after_results_simp
  rfl

theorem h6_var (V : Valuation τ sig (Elt Ideal)) :
    after hostOps6 V (Proc.devRef .tc main_v114) = varK (V (Proc.devRef .tc main_v108_0)) (V (Proc.devRef .tc main_v108_1)) := by
  after_results_simp
  rfl

theorem h6_r0 (V : Valuation τ sig (Elt Ideal)) :
    after hostOps6 V (Proc.devRef .tc main_v115) = rowV (V (Proc.devRef .tc main_arg12)) := by
  after_results_simp
  rfl

theorem h6_r1 (V : Valuation τ sig (Elt Ideal)) :
    after hostOps6 V (Proc.devRef .tc main_v116) = rowV (V (Proc.devRef .tc main_arg13)) := by
  after_results_simp
  rfl

theorem h6_r2 (V : Valuation τ sig (Elt Ideal)) :
    after hostOps6 V (Proc.devRef .tc main_v117) = rowV (V (Proc.devRef .tc main_arg14)) := by
  after_results_simp
  rfl

theorem h7_agg (V : Valuation τ sig (Elt Ideal)) :
    after hostOps7 V (Proc.devRef .tc main_v131) = aggOf (F := Ideal) (V (Proc.devRef .tc main_v118)) (V (Proc.devRef .tc main_v40)) (V (Proc.devRef .tc main_v11)) (V (Proc.devRef .tc main_v18)) := by
  after_results_simp
  rfl

theorem h7_b (V : Valuation τ sig (Elt Ideal)) :
    after hostOps7 V (Proc.devRef .tc main_v132) = rowV (V (Proc.devRef .tc main_arg16)) := by
  after_results_simp
  rfl

theorem h8_out (V : Valuation τ sig (Elt Ideal)) :
    after hostOps8 V (Proc.devRef .tc main_v145) = tailOf (V (Proc.devRef .tc main_v133)) (V (Proc.devRef .tc main_arg2)) := by
  after_results_simp
  rfl

end Cert.KernelIdeal.KHost

end
-- ==== Proof.Keep.lean ====
/-
  Which buffers a stretch of the kernel program's host operations leaves alone: every buffer but the ones its
  operations write.
-/
import proofs.«104369_j66383014527707_2_alg».proof.Proof.Gen.KernelIdeal.Launch
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem Idealize.ShloMosaic.StableHlo

variable {F : FTy → Type} [FloatOps F]

/-- The buffers `hostOps0` writes. -/
def writes_hostOps0 : List (Ref sig .tc) := [main_v0, main_v1, main_v2, main_v3]

theorem keep_hostOps0 (V : Valuation τ sig (Elt F)) (r : Ref sig .tc) (hr : r ∉ writes_hostOps0) :
    after hostOps0 V (Proc.devRef .tc r) = V (Proc.devRef .tc r) :=
  after_of_writes_sub hostOps0 V (by
    simp only [hostOps0, List.Forall, StableHlo.nullary_writes, StableHlo.unary_writes, StableHlo.binary_writes, StableHlo.ternary_writes,
      StableHlo.quaternary_writes, StableHlo.reshape_writes, writes_hostOps0]
    repeat' apply And.intro
    all_goals exact Finset.singleton_subset_iff.mpr (List.mem_toFinset.mpr (List.mem_map_of_mem (by decide)))) hr

/-- The buffers `hostOps0_1` writes. -/
def writes_hostOps0_1 : List (Ref sig .tc) := [main_call0_v0, main_call0_v1_0, main_v4]

theorem keep_hostOps0_1 (V : Valuation τ sig (Elt F)) (r : Ref sig .tc) (hr : r ∉ writes_hostOps0_1) :
    after hostOps0_1 V (Proc.devRef .tc r) = V (Proc.devRef .tc r) :=
  after_of_writes_sub hostOps0_1 V (by
    simp only [hostOps0_1, List.Forall, StableHlo.nullary_writes, StableHlo.unary_writes, StableHlo.binary_writes, StableHlo.ternary_writes,
      StableHlo.quaternary_writes, StableHlo.reshape_writes, writes_hostOps0_1]
    repeat' apply And.intro
    all_goals exact Finset.singleton_subset_iff.mpr (List.mem_toFinset.mpr (List.mem_map_of_mem (by decide)))) hr

/-- The buffers `hostOps0_2` writes. -/
def writes_hostOps0_2 : List (Ref sig .tc) := [main_c, main_v5, main_v6, main_c_0, main_v7, main_v8, main_v9, main_v10, main_v11, main_c_1, main_v12, main_v13, main_c_2, main_v14, main_v15, main_v16, main_v17, main_v18, main_cst, main_v19, main_cst_3, main_v20, main_v21, main_v22, main_cst_4, main_v23, main_v24, main_v25, main_c_5, main_v26, main_v27, main_c_6, main_v28, main_v29, main_v30, main_v31, main_v32, main_c_7, main_v33, main_v34, main_c_8, main_v35, main_v36, main_v37, main_v38, main_v39, main_v40, main_v41, main_v42]

theorem keep_hostOps0_2 (V : Valuation τ sig (Elt F)) (r : Ref sig .tc) (hr : r ∉ writes_hostOps0_2) :
    after hostOps0_2 V (Proc.devRef .tc r) = V (Proc.devRef .tc r) :=
  after_of_writes_sub hostOps0_2 V (by
    simp only [hostOps0_2, List.Forall, StableHlo.nullary_writes, StableHlo.unary_writes, StableHlo.binary_writes, StableHlo.ternary_writes,
      StableHlo.quaternary_writes, StableHlo.reshape_writes, writes_hostOps0_2]
    repeat' apply And.intro
    all_goals exact Finset.singleton_subset_iff.mpr (List.mem_toFinset.mpr (List.mem_map_of_mem (by decide)))) hr

/-- The buffers `hostOps1` writes. -/
def writes_hostOps1 : List (Ref sig .tc) := [main_c_9, main_v44, main_v45, main_c_10, main_v46, main_v47, main_v48, main_v49, main_v50, main_v51, main_v52, main_v53, main_cst_11, main_v54, main_v55, main_v56, main_v57]

theorem keep_hostOps1 (V : Valuation τ sig (Elt F)) (r : Ref sig .tc) (hr : r ∉ writes_hostOps1) :
    after hostOps1 V (Proc.devRef .tc r) = V (Proc.devRef .tc r) :=
  after_of_writes_sub hostOps1 V (by
    simp only [hostOps1, List.Forall, StableHlo.nullary_writes, StableHlo.unary_writes, StableHlo.binary_writes, StableHlo.ternary_writes,
      StableHlo.quaternary_writes, StableHlo.reshape_writes, writes_hostOps1]
    repeat' apply And.intro
    all_goals exact Finset.singleton_subset_iff.mpr (List.mem_toFinset.mpr (List.mem_map_of_mem (by decide)))) hr

/-- The buffers `hostOps2` writes. -/
def writes_hostOps2 : List (Ref sig .tc) := [main_cst_12, main_v59, main_v60, main_cst_13, main_v61, main_v62, main_v63, main_v64, main_v65, main_v66, main_v67]

theorem keep_hostOps2 (V : Valuation τ sig (Elt F)) (r : Ref sig .tc) (hr : r ∉ writes_hostOps2) :
    after hostOps2 V (Proc.devRef .tc r) = V (Proc.devRef .tc r) :=
  after_of_writes_sub hostOps2 V (by
    simp only [hostOps2, List.Forall, StableHlo.nullary_writes, StableHlo.unary_writes, StableHlo.binary_writes, StableHlo.ternary_writes,
      StableHlo.quaternary_writes, StableHlo.reshape_writes, writes_hostOps2]
    repeat' apply And.intro
    all_goals exact Finset.singleton_subset_iff.mpr (List.mem_toFinset.mpr (List.mem_map_of_mem (by decide)))) hr

/-- The buffers `hostOps3` writes. -/
def writes_hostOps3 : List (Ref sig .tc) := [main_c_14, main_v69, main_v70, main_c_15, main_v71, main_v72, main_v73, main_v74, main_v75, main_v76, main_v77, main_v78, main_cst_16, main_v79, main_v80, main_v81, main_v82]

theorem keep_hostOps3 (V : Valuation τ sig (Elt F)) (r : Ref sig .tc) (hr : r ∉ writes_hostOps3) :
    after hostOps3 V (Proc.devRef .tc r) = V (Proc.devRef .tc r) :=
  after_of_writes_sub hostOps3 V (by
    simp only [hostOps3, List.Forall, StableHlo.nullary_writes, StableHlo.unary_writes, StableHlo.binary_writes, StableHlo.ternary_writes,
      StableHlo.quaternary_writes, StableHlo.reshape_writes, writes_hostOps3]
    repeat' apply And.intro
    all_goals exact Finset.singleton_subset_iff.mpr (List.mem_toFinset.mpr (List.mem_map_of_mem (by decide)))) hr

/-- The buffers `hostOps4` writes. -/
def writes_hostOps4 : List (Ref sig .tc) := [main_cst_17, main_v84, main_v85, main_cst_18, main_v86, main_v87, main_v88, main_v89, main_v90, main_v91, main_v92]

theorem keep_hostOps4 (V : Valuation τ sig (Elt F)) (r : Ref sig .tc) (hr : r ∉ writes_hostOps4) :
    after hostOps4 V (Proc.devRef .tc r) = V (Proc.devRef .tc r) :=
  after_of_writes_sub hostOps4 V (by
    simp only [hostOps4, List.Forall, StableHlo.nullary_writes, StableHlo.unary_writes, StableHlo.binary_writes, StableHlo.ternary_writes,
      StableHlo.quaternary_writes, StableHlo.reshape_writes, writes_hostOps4]
    repeat' apply And.intro
    all_goals exact Finset.singleton_subset_iff.mpr (List.mem_toFinset.mpr (List.mem_map_of_mem (by decide)))) hr

/-- The buffers `hostOps5` writes. -/
def writes_hostOps5 : List (Ref sig .tc) := [main_c_19, main_v94, main_v95, main_c_20, main_v96, main_v97, main_v98, main_v99, main_v100, main_v101, main_v102, main_v103, main_cst_21, main_v104, main_v105, main_v106, main_v107]

theorem keep_hostOps5 (V : Valuation τ sig (Elt F)) (r : Ref sig .tc) (hr : r ∉ writes_hostOps5) :
    after hostOps5 V (Proc.devRef .tc r) = V (Proc.devRef .tc r) :=
  after_of_writes_sub hostOps5 V (by
    simp only [hostOps5, List.Forall, StableHlo.nullary_writes, StableHlo.unary_writes, StableHlo.binary_writes, StableHlo.ternary_writes,
      StableHlo.quaternary_writes, StableHlo.reshape_writes, writes_hostOps5]
    repeat' apply And.intro
    all_goals exact Finset.singleton_subset_iff.mpr (List.mem_toFinset.mpr (List.mem_map_of_mem (by decide)))) hr

/-- The buffers `hostOps6` writes. -/
def writes_hostOps6 : List (Ref sig .tc) := [main_cst_22, main_v109, main_v110, main_cst_23, main_v111, main_v112, main_v113, main_v114, main_v115, main_v116, main_v117]

theorem keep_hostOps6 (V : Valuation τ sig (Elt F)) (r : Ref sig .tc) (hr : r ∉ writes_hostOps6) :
    after hostOps6 V (Proc.devRef .tc r) = V (Proc.devRef .tc r) :=
  after_of_writes_sub hostOps6 V (by
    simp only [hostOps6, List.Forall, StableHlo.nullary_writes, StableHlo.unary_writes, StableHlo.binary_writes, StableHlo.ternary_writes,
      StableHlo.quaternary_writes, StableHlo.reshape_writes, writes_hostOps6]
    repeat' apply And.intro
    all_goals exact Finset.singleton_subset_iff.mpr (List.mem_toFinset.mpr (List.mem_map_of_mem (by decide)))) hr

/-- The buffers `hostOps7` writes. -/
def writes_hostOps7 : List (Ref sig .tc) := [main_c_24, main_v119, main_v120, main_c_25, main_v121, main_v122, main_v123, main_v124, main_v125, main_v126, main_v127, main_v128, main_cst_26, main_v129, main_v130, main_v131, main_v132]

theorem keep_hostOps7 (V : Valuation τ sig (Elt F)) (r : Ref sig .tc) (hr : r ∉ writes_hostOps7) :
    after hostOps7 V (Proc.devRef .tc r) = V (Proc.devRef .tc r) :=
  after_of_writes_sub hostOps7 V (by
    simp only [hostOps7, List.Forall, StableHlo.nullary_writes, StableHlo.unary_writes, StableHlo.binary_writes, StableHlo.ternary_writes,
      StableHlo.quaternary_writes, StableHlo.reshape_writes, writes_hostOps7]
    repeat' apply And.intro
    all_goals exact Finset.singleton_subset_iff.mpr (List.mem_toFinset.mpr (List.mem_map_of_mem (by decide)))) hr

/-- The buffers `hostOps8` writes. -/
def writes_hostOps8 : List (Ref sig .tc) := [main_cst_27, main_v134, main_v135, main_v136, main_cst_28, main_v137, main_cst_29, main_v138, main_v139, main_v140, main_cst_30, main_v141, main_v142, main_v143, main_v144, main_v145]

theorem keep_hostOps8 (V : Valuation τ sig (Elt F)) (r : Ref sig .tc) (hr : r ∉ writes_hostOps8) :
    after hostOps8 V (Proc.devRef .tc r) = V (Proc.devRef .tc r) :=
  after_of_writes_sub hostOps8 V (by
    simp only [hostOps8, List.Forall, StableHlo.nullary_writes, StableHlo.unary_writes, StableHlo.binary_writes, StableHlo.ternary_writes,
      StableHlo.quaternary_writes, StableHlo.reshape_writes, writes_hostOps8]
    repeat' apply And.intro
    all_goals exact Finset.singleton_subset_iff.mpr (List.mem_toFinset.mpr (List.mem_map_of_mem (by decide)))) hr

end Cert.KernelIdeal.Keep

end
-- ==== Proof.Region0.lean ====
/-
  The first tiled region: the dense projection of the node features. Each of the twenty grid points multiplies
  its block of 5000 rows by the whole weight matrix and writes the block of the result back, so the result array
  ends holding the matrix product of the whole operands — a row of a product depends on that row of the left
  factor only.
-/
import proofs.«104369_j66383014527707_2_alg».proof.Proof.Gen.KernelIdeal.Frame
import proofs.«104369_j66383014527707_2_alg».proof.Proof.LibMatmul
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.LibMatmul

variable (V : (c : Dev nD) → (b : Ref sig .tc) → Buf (Elt Ideal) ((c : Thread nD τ).loc b))

theorem hz : (![0, 0] : Fin 2 → Nat) = fun _ => 0 := funext fun a => by fin_cases a <;> rfl

/-- The body's payload is the matrix product of its two loaded blocks. -/
theorem pay_eq (x0 : Vec Ideal S5000x128 .f32) (x1 : Vec Ideal S128x32 .f32) :
    k0_pay1 (F := Ideal) x0 x1 = MM (A := 5000) (K := 128) (B := 32) x0 x1 :=
  matmul_zero_eq dot_S5000x128_S128x32_S5000x32_1_0_0_1_n_n rfl rfl rfl rfl rfl rfl none x0 x1

/-- The printed index maps over the grid: the left operand's and the result's blocks are block `t` of the rows,
    the weight matrix is whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the whole operands. -/
theorem flushed_eq (c : Dev nD) (t : Fin cfg0.N) :
    (dat0 V c).flushed 2 t = ((cfg0.win 2).blk t).view.read (Elt Ideal)
      (MM (A := 100000) (K := 128) (B := 32) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x32) hz]
  rw [pay_eq]
  obtain ⟨e0, e1, e2, e3, e4, e5⟩ := idx_facts t
  funext j
  obtain ⟨p, q, rfl⟩ : ∃ (p : Fin 5000) (q : Fin 32), j = ix2 p q := ⟨j 0, j 1, eq_ix2 j⟩
  have ht := t.isLt
  have htN : t.val < 20 := ht
  let r : Fin 100000 := ⟨t.val * 5000 + p.val, by have := p.isLt; omega⟩
  have hemb : ((cfg0.win 2).blk t).view.emb (ix2 p q) = ix2 r q := by
    funext a; apply Fin.ext
    match a with
    | ⟨0, _⟩ => show win0_2.index t (0 : Fin 2) * 5000 + 1 * p.val = t.val * 5000 + p.val; omega
    | ⟨1, _⟩ => show win0_2.index t (1 : Fin 2) * 32 + 1 * q.val = q.val; omega
  show MM (A := 5000) (K := 128) (B := 32) (iblk0 V c 0 t) (iblk0 V c 1 t) (ix2 p q)
    = MM (A := 100000) (K := 128) (B := 32) (V c main_arg0) (V c main_arg3) (((cfg0.win 2).blk t).view.emb (ix2 p q))
  rw [hemb, MM_apply, MM_apply]
  refine Finset.sum_congr rfl fun k _ => ?_
  have h0 : ((cfg0.win 0).blk t).view.emb (ix2 p k) = ix2 r k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 32 + 1 * q.val = q.val; omega
  have hx : iblk0 V c 0 t (ix2 p k) = V c main_arg0 (ix2 r k) := by
    show V c main_arg0 (((cfg0.win 0).blk t).view.emb (ix2 p k)) = _
    rw [h0]
  have hw : iblk0 V c 1 t (ix2 k q) = V c main_arg3 (ix2 k q) := by
    show V c main_arg3 (((cfg0.win 1).blk t).view.emb (ix2 k q)) = _
    rw [h1]
  rw [hx, hw]

/-- An index of the result array is in point `t`'s block iff each coordinate is in the block's range. -/
theorem mem_blk (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v43).slice (win0_2.rect t)).set ↔ _
  rw [View.set_slice_whole, Rect.mem_set_unit]
  exact Iff.rfl

/-- Every row is in some point's block: row `r` in block `r / 5000`. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  refine ⟨⟨(i 0).val / 5000, by show (i 0).val / 5000 < 20; omega⟩, flush0_2 _, ?_⟩
  rw [mem_blk]
  obtain ⟨e0, e1, e2, e3, e4, e5⟩ := idx_facts ⟨(i 0).val / 5000, by show (i 0).val / 5000 < 20; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 32 ≤ (i 1).val ∧ (i 1).val < win0_2.index _ (1 : Fin 2) * 32 + 32; rw [e5]; omega

/-- The result array after the region: the product of the whole operands as the region finds them. -/
theorem final (c : Dev nD) :
    (dat0 V c).arrAt 2 cfg0.N = MM (A := 100000) (K := 128) (B := 32) (V c main_arg0) (V c main_arg3) :=
  (dat0 V c).arrAt_eq_of_cover 2 _ (fun t _ => flushed_eq V c t) cover

end Cert.KernelIdeal.Reg0

end
-- ==== Proof.Region1.lean ====
/-
  A batch-norm statistics region. At a grid point the body forms the pre-activation of its block of 5000 rows
  and adds the block's column sums, and the column sums of the squares, to two running totals it keeps across the
  grid (zeroed at the first point, written back once after the last): the two result arrays end at the column sums
  over all rows.
-/
import proofs.«104369_j66383014527707_2_alg».proof.Proof.RegShared
import proofs.«104369_j66383014527707_2_alg».proof.Proof.LibMatmul

set_option maxRecDepth 16384

noncomputable section

namespace Cert.KernelIdeal.Reg1

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)
open Cert.KernelIdeal.Reg
open Cert.LibBlockSum Cert.LibMatmul

section Pieces
variable {F : FTy → Type} [FloatOps F]

theorem pieceA4 (c : Dev nD) (i : grid1.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : cond1_0 i)
    (x0 : Vec F S5000x32 .f32) (x1 : Vec F S5000x32 .f32) (x2 : Vec F S5000x1 .f32) (x3 : Vec F S1x32 .f32) :
    out1_A_4 (F := F) c i arg1 harg1 arg2 harg2 arg3 harg3 arg4 harg4 arg5 harg5 arg6 harg6 hc0 x0 x1 x2 x3 = k1_pay4 x0 x1 x2 x3 k1_pay1 := by
  unfold out1_A_4
  rw [View.read_writes_eq_canon _ _ _ (cover1_A_4 c i arg1 harg1 arg2 harg2 arg3 harg3 arg4 harg4 arg5 harg5 arg6 harg6 hc0 x0 x1 x2 x3)]
  unfold kernelRun1_A
  dsimp only
  sl_unfold_words
  rw [View.canon_cons_unit_zero hz]
  simp only [View.readAt_eq_ld, harg1.read_unread, harg2.read_unread, harg3.read_unread, harg4.read_unread, harg5.read_unread,
    View.ld_unit_zero (S := S5000x32) hz, View.ld_unit_zero (S := S5000x1) hz, View.ld_unit_zero (S := S1x32) hz,
    View.readCov_unit_zero (S := S1x32) _ hz]

theorem pieceA5 (c : Dev nD) (i : grid1.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : cond1_0 i)
    (x0 : Vec F S5000x32 .f32) (x1 : Vec F S5000x32 .f32) (x2 : Vec F S5000x1 .f32) (x3 : Vec F S1x32 .f32) :
    out1_A_5 (F := F) c i arg1 harg1 arg2 harg2 arg3 harg3 arg4 harg4 arg5 harg5 arg6 harg6 hc0 x0 x1 x2 x3 = k1_pay5 x0 x1 x2 x3 k1_pay2 := by
  unfold out1_A_5
  rw [View.read_writes_eq_canon _ _ _ (cover1_A_5 c i arg1 harg1 arg2 harg2 arg3 harg3 arg4 harg4 arg5 harg5 arg6 harg6 hc0 x0 x1 x2 x3)]
  unfold kernelRun1_A
  dsimp only
  sl_unfold_words
  rw [View.canon_cons_unit_zero hz]
  simp only [View.readAt_eq_ld, harg1.read_unread, harg2.read_unread, harg3.read_unread, harg4.read_unread, harg6.read_unread,
    View.ld_unit_zero (S := S5000x32) hz, View.ld_unit_zero (S := S5000x1) hz, View.ld_unit_zero (S := S1x32) hz,
    View.readCov_unit_zero (S := S1x32) _ hz]

theorem pieceB4 (c : Dev nD) (i : grid1.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : ¬cond1_0 i)
    (x0 : Vec F S5000x32 .f32) (x1 : Vec F S5000x32 .f32) (x2 : Vec F S5000x1 .f32) (x3 : Vec F S1x32 .f32) (xo4 xo5 : Vec F S1x32 .f32) :
    out1_B_4 (F := F) c i arg1 harg1 arg2 harg2 arg3 harg3 arg4 harg4 arg5 harg5 arg6 harg6 hc0 x0 x1 x2 x3 xo4 xo5 = k1_pay4 x0 x1 x2 x3 xo4 := by
  unfold out1_B_4
  rw [View.read_writes_eq_canon _ _ _ (cover1_B_4 c i arg1 harg1 arg2 harg2 arg3 harg3 arg4 harg4 arg5 harg5 arg6 harg6 hc0 x0 x1 x2 x3 xo4 xo5)]
  unfold kernelRun1_B
  dsimp only
  rw [View.canon_unit_zero hz]
  simp only [View.readAt_eq_ld, harg1.read_unread, harg2.read_unread, harg3.read_unread, harg4.read_unread, harg5.read_unread,
    View.ld_unit_zero (S := S5000x32) hz, View.ld_unit_zero (S := S5000x1) hz, View.ld_unit_zero (S := S1x32) hz]

theorem pieceB5 (c : Dev nD) (i : grid1.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : ¬cond1_0 i)
    (x0 : Vec F S5000x32 .f32) (x1 : Vec F S5000x32 .f32) (x2 : Vec F S5000x1 .f32) (x3 : Vec F S1x32 .f32) (xo4 xo5 : Vec F S1x32 .f32) :
    out1_B_5 (F := F) c i arg1 harg1 arg2 harg2 arg3 harg3 arg4 harg4 arg5 harg5 arg6 harg6 hc0 x0 x1 x2 x3 xo4 xo5 = k1_pay5 x0 x1 x2 x3 xo5 := by
  unfold out1_B_5
  rw [View.read_writes_eq_canon _ _ _ (cover1_B_5 c i arg1 harg1 arg2 harg2 arg3 harg3 arg4 harg4 arg5 harg5 arg6 harg6 hc0 x0 x1 x2 x3 xo4 xo5)]
  unfold kernelRun1_B
  dsimp only
  rw [View.canon_unit_zero hz]
  simp only [View.readAt_eq_ld, harg1.read_unread, harg2.read_unread, harg3.read_unread, harg4.read_unread, harg6.read_unread,
    View.ld_unit_zero (S := S5000x32) hz, View.ld_unit_zero (S := S5000x1) hz, View.ld_unit_zero (S := S1x32) hz]

end Pieces

theorem pay3_apply (x0 x1 : Vec Ideal S5000x32 .f32) (x2 : Vec Ideal S5000x1 .f32) (x3 : Vec Ideal S1x32 .f32)
    (p : Fin 5000) (q : Fin 32) : k1_pay3 (F := Ideal) x0 x1 x2 x3 (ix2 p q) = preB x0 x1 x2 x3 p q := by
  unfold k1_pay3
  simp only [shapeCast_self, bcRow, bcCol]
  rfl

theorem pay4_apply (x0 x1 : Vec Ideal S5000x32 .f32) (x2 : Vec Ideal S5000x1 .f32) (x3 acc : Vec Ideal S1x32 .f32)
    (u : Fin 1) (q : Fin 32) :
    k1_pay4 (F := Ideal) x0 x1 x2 x3 acc (ix2 u q) = acc (ix2 u q) + ∑ p : Fin 5000, preB x0 x1 x2 x3 p q := by
  unfold k1_pay4
  simp only [shapeCast_self]
  show acc (ix2 u q) + shapeCast S1x32 (multiReduction .add [0] S32 (k1_pay3 x0 x1 x2 x3) 0x00000000#32 reduces_S5000x32_S32 (.inl rfl) rfl) shapeCasts_S32_S1x32 (ix2 u q) = _
  rw [colsum_apply]
  congr 1
  exact Finset.sum_congr rfl fun p _ => pay3_apply x0 x1 x2 x3 p q

theorem pay5_apply (x0 x1 : Vec Ideal S5000x32 .f32) (x2 : Vec Ideal S5000x1 .f32) (x3 acc : Vec Ideal S1x32 .f32)
    (u : Fin 1) (q : Fin 32) :
    k1_pay5 (F := Ideal) x0 x1 x2 x3 acc (ix2 u q)
      = acc (ix2 u q) + ∑ p : Fin 5000, preB x0 x1 x2 x3 p q * preB x0 x1 x2 x3 p q := by
  unfold k1_pay5
  simp only [shapeCast_self]
  show acc (ix2 u q) + shapeCast S1x32 (multiReduction .add [0] S32 (mulf (k1_pay3 x0 x1 x2 x3) (k1_pay3 x0 x1 x2 x3)) 0x00000000#32 reduces_S5000x32_S32 (.inl rfl) rfl) shapeCasts_S32_S1x32 (ix2 u q) = _
  rw [colsum_apply]
  congr 1
  refine Finset.sum_congr rfl fun p _ => ?_
  show k1_pay3 x0 x1 x2 x3 (ix2 p q) * k1_pay3 x0 x1 x2 x3 (ix2 p q) = _
  rw [pay3_apply]

theorem pay1_apply (j : S1x32.Idx) : k1_pay1 (F := Ideal) j = 0 := by
  unfold k1_pay1
  show Ideal.ofBits .f32 0x00000000#32 = 0
  exact Ideal.ofBits_zero_f32

theorem pay2_apply (j : S1x32.Idx) : k1_pay2 (F := Ideal) j = 0 := by
  unfold k1_pay2
  show Ideal.ofBits .f32 0x00000000#32 = 0
  exact Ideal.ofBits_zero_f32

variable (V : (c : Dev nD) → (b : Ref sig .tc) → Buf (Elt Ideal) ((c : Thread nD τ).loc b))

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- The pre-activation of the whole arrays as the region finds them. -/
def P (c : Dev nD) : S100000x32.Idx → EReal :=
  preW (V c main_v56) (V c main_v43) (V c main_v42) (V c main_v57)

theorem preB_blk (c : Dev nD) (t : Fin cfg1.N) (p : Fin 5000) (q : Fin 32) :
    preB (iblk1 V c 0 t) (iblk1 V c 1 t) (iblk1 V c 2 t) (iblk1 V c 3 t) p q = P V c (ix2 (rowAt t.val t.isLt p) q) := by
  obtain ⟨e0, e1, e2, e3, e4, e5, e6, e7, e8, e9, e10, e11⟩ := idx_facts t
  have htN : t.val < 20 := t.isLt
  unfold preB P
  rw [preW_apply]
  have h0 : ((cfg1.win 0).blk t).view.emb (ix2 p q) = ix2 (rowAt t.val t.isLt p) q := by
    funext a; apply Fin.ext
    match a with
    | ⟨0, _⟩ => show win1_0.index t (0 : Fin 2) * 5000 + 1 * p.val = t.val * 5000 + p.val; omega
    | ⟨1, _⟩ => show win1_0.index t (1 : Fin 2) * 32 + 1 * q.val = q.val; omega
  have h1 : ((cfg1.win 1).blk t).view.emb (ix2 p q) = ix2 (rowAt t.val t.isLt p) q := by
    funext a; apply Fin.ext
    match a with
    | ⟨0, _⟩ => show win1_1.index t (0 : Fin 2) * 5000 + 1 * p.val = t.val * 5000 + p.val; omega
    | ⟨1, _⟩ => show win1_1.index t (1 : Fin 2) * 32 + 1 * q.val = q.val; omega
  have h2 : ((cfg1.win 2).blk t).view.emb (ix2 p (0 : Fin 1)) = ix2 (rowAt t.val t.isLt p) (0 : Fin 1) := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 32 + 1 * q.val = q.val; omega
  have b0 : iblk1 V c 0 t (ix2 p q) = V c main_v56 (ix2 (rowAt t.val t.isLt p) q) := by
    show V c main_v56 (((cfg1.win 0).blk t).view.emb (ix2 p q)) = _; rw [h0]
  have b1 : iblk1 V c 1 t (ix2 p q) = V c main_v43 (ix2 (rowAt t.val t.isLt p) q) := by
    show V c main_v43 (((cfg1.win 1).blk t).view.emb (ix2 p q)) = _; rw [h1]
  have b2 : iblk1 V c 2 t (ix2 p (0 : Fin 1)) = V c main_v42 (ix2 (rowAt t.val t.isLt p) (0 : Fin 1)) := by
    show V c main_v42 (((cfg1.win 2).blk t).view.emb (ix2 p (0 : Fin 1))) = _; rw [h2]
  have b3 : iblk1 V c 3 t (ix2 (0 : Fin 1) q) = V c main_v57 (ix2 (0 : Fin 1) q) := by
    show V c main_v57 (((cfg1.win 3).blk t).view.emb (ix2 (0 : Fin 1) q)) = _; rw [h3]
  rw [b0, b1, b2, b3]

/-- Block `k`'s contribution to column `q`'s sum, and to its sum of squares. -/
def g (c : Dev nD) (q : Fin 32) (k : ℕ) : EReal :=
  if hk : k < 20 then ∑ p : Fin 5000, P V c (ix2 (rowAt k hk p) q) else 0
def g2 (c : Dev nD) (q : Fin 32) (k : ℕ) : EReal :=
  if hk : k < 20 then ∑ p : Fin 5000, P V c (ix2 (rowAt k hk p) q) * P V c (ix2 (rowAt k hk p) q) else 0

theorem outsAt_cast (c : Dev nD) (k n : ℕ) (hk : k < cfg1.N) (hn : n < cfg1.N) (h : k = n) :
    outsAt1 V c k hk = outsAt1 V c n hn := by subst h; rfl

/-- THE INVARIANT: after point `n` the totals are the running sums of the first `n + 1` blocks' contributions. -/
theorem inv (c : Dev nD) (q : Fin 32) (u : Fin 1) : ∀ (n : ℕ) (hn : n < cfg1.N),
    (outsAt1 V c n hn).1 (ix2 u q) = running (g V c q) (n + 1)
    ∧ (outsAt1 V c n hn).2 (ix2 u q) = running (g2 V c q) (n + 1) := by
  intro n
  induction n with
  | zero =>
    intro hn
    have hA := outsAt1_A V c ⟨0, hn⟩ (Nat.zero_mod _)
    have hk : (0 : ℕ) < 20 := by omega
    constructor
    · rw [show outsAt1 V c 0 hn = _ from hA]
      dsimp only
      rw [pieceA4, pay4_apply, pay1_apply, zero_add, running_succ, running_zero, zero_add]
      unfold g
      rw [dif_pos hk]
      exact Finset.sum_congr rfl fun p _ => preB_blk V c ⟨0, hn⟩ p q
    · rw [show outsAt1 V c 0 hn = _ from hA]
      dsimp only
      rw [pieceA5, pay5_apply, pay2_apply, zero_add, running_succ, running_zero, zero_add]
      unfold g2
      rw [dif_pos hk]
      exact Finset.sum_congr rfl fun p _ => by rw [preB_blk V c ⟨0, hn⟩ p q]
  | succ n ih =>
    intro hn
    have hn20 : n + 1 < 20 := hn
    have h0 : ¬ (n + 1) % 20 = 0 := by omega
    have hB := outsAt1_B V c ⟨n + 1, hn⟩ h0
    have hprev : n < cfg1.N := by show n < 20; omega
    have hcast := outsAt_cast V c (n + 1 - 1) n (Nat.lt_of_le_of_lt (Nat.sub_le _ _) hn) hprev (by omega)
    obtain ⟨ih1, ih2⟩ := ih hprev
    constructor
    · rw [show outsAt1 V c (n + 1) hn = _ from hB]
      dsimp only
      rw [pieceB4, pay4_apply]
      rw [show (outsAt1 V c (n + 1 - 1) (Nat.lt_of_le_of_lt (Nat.sub_le _ _) hn)) = _ from hcast, ih1, running_succ (g V c q) (n + 1)]
      congr 1
      unfold g
      rw [dif_pos hn20]
      exact Finset.sum_congr rfl fun p _ => preB_blk V c ⟨n + 1, hn⟩ p q
    · rw [show outsAt1 V c (n + 1) hn = _ from hB]
      dsimp only
      rw [pieceB5, pay5_apply]
      rw [show (outsAt1 V c (n + 1 - 1) (Nat.lt_of_le_of_lt (Nat.sub_le _ _) hn)) = _ from hcast, ih2, running_succ (g2 V c q) (n + 1)]
      congr 1
      unfold g2
      rw [dif_pos hn20]
      exact Finset.sum_congr rfl fun p _ => by rw [preB_blk V c ⟨n + 1, hn⟩ p q]

theorem last1 (c : Dev nD) (t : Fin cfg1.N) (ht : t.val = 19) (u : Fin 1) (q : Fin 32) :
    (outsAt1 V c t.val t.isLt).1 (ix2 u q) = ∑ r : Fin 100000, P V c (ix2 r q) := by
  rw [outsAt_cast V c t.val 19 t.isLt (by show 19 < 20; omega) ht, (inv V c q u 19 _).1]
  exact running_all (fun r => P V c (ix2 r q)) _ fun k hk => by unfold g; rw [dif_pos hk]

theorem last2 (c : Dev nD) (t : Fin cfg1.N) (ht : t.val = 19) (u : Fin 1) (q : Fin 32) :
    (outsAt1 V c t.val t.isLt).2 (ix2 u q) = ∑ r : Fin 100000, P V c (ix2 r q) * P V c (ix2 r q) := by
  rw [outsAt_cast V c t.val 19 t.isLt (by show 19 < 20; omega) ht, (inv V c q u 19 _).2]
  exact running_all (fun r => P V c (ix2 r q) * P V c (ix2 r q)) _ fun k hk => by unfold g2; rw [dif_pos hk]

theorem mem_blk4 (t : Fin cfg1.N) (i : S1x32.Idx) :
    i ∈ ((cfg1.win 4).blk t).view.set ↔ ∀ a : Fin 2, win1_4.index t a * S1x32.size a ≤ (i a).val ∧ (i a).val < win1_4.index t a * S1x32.size a + S1x32.size a := by
  show i ∈ ((View.whole main_v58_0).slice (win1_4.rect t)).set ↔ _
  rw [View.set_slice_whole, Rect.mem_set_unit]
  exact Iff.rfl

theorem mem_blk5 (t : Fin cfg1.N) (i : S1x32.Idx) :
    i ∈ ((cfg1.win 5).blk t).view.set ↔ ∀ a : Fin 2, win1_5.index t a * S1x32.size a ≤ (i a).val ∧ (i a).val < win1_5.index t a * S1x32.size a + S1x32.size a := by
  show i ∈ ((View.whole main_v58_1).slice (win1_5.rect t)).set ↔ _
  rw [View.set_slice_whole, Rect.mem_set_unit]
  exact Iff.rfl

set_option maxRecDepth 200000 in
theorem flushed4_eq (c : Dev nD) (t : Fin cfg1.N) (hf : (cfg1.win 4).flush t = true) :
    (dat1 V c).flushed 4 t = ((cfg1.win 4).blk t).view.read (Elt Ideal) (colSum (P V c)) := by
  have ht : t.val = 19 := by have := (flush1_4 t).mp hf; have h20 : t.val < 20 := t.isLt; omega
  obtain ⟨e0, e1, e2, e3, e4, e5, e6, e7, e8, e9, e10, e11⟩ := idx_facts t
  show (cfg1.win 4).cut (grid1.coords t) ((dat1 V c).after 4 t) = _
  rw [after1_4]
  funext j
  obtain ⟨u, q, rfl⟩ : ∃ (u : Fin 1) (q : Fin 32), j = ix2 u q := ⟨j 0, j 1, eq_ix2 j⟩
  show (outsAt1 V c t.val t.isLt).1 (ix2 u q) = colSum (P V c) (((cfg1.win 4).blk t).view.emb (ix2 u q))
  rw [last1 V c t ht u q]
  unfold colSum
  have hq : ((((cfg1.win 4).blk t).view.emb (ix2 u q)) 1) = q := by
    apply Fin.ext
    show win1_4.index t (1 : Fin 2) * 32 + 1 * q.val = q.val; omega
  rw [hq]

set_option maxRecDepth 200000 in
theorem flushed5_eq (c : Dev nD) (t : Fin cfg1.N) (hf : (cfg1.win 5).flush t = true) :
    (dat1 V c).flushed 5 t = ((cfg1.win 5).blk t).view.read (Elt Ideal) (colSumSq (P V c)) := by
  have ht : t.val = 19 := by have := (flush1_5 t).mp hf; have h20 : t.val < 20 := t.isLt; omega
  obtain ⟨e0, e1, e2, e3, e4, e5, e6, e7, e8, e9, e10, e11⟩ := idx_facts t
  show (cfg1.win 5).cut (grid1.coords t) ((dat1 V c).after 5 t) = _
  rw [after1_5]
  funext j
  obtain ⟨u, q, rfl⟩ : ∃ (u : Fin 1) (q : Fin 32), j = ix2 u q := ⟨j 0, j 1, eq_ix2 j⟩
  show (outsAt1 V c t.val t.isLt).2 (ix2 u q) = colSumSq (P V c) (((cfg1.win 5).blk t).view.emb (ix2 u q))
  rw [last2 V c t ht u q]
  unfold colSumSq
  have hq : ((((cfg1.win 5).blk t).view.emb (ix2 u q)) 1) = q := by
    apply Fin.ext
    show win1_5.index t (1 : Fin 2) * 32 + 1 * q.val = q.val; omega
  rw [hq]

theorem cover4 (i : S1x32.Idx) : ∃ t : Fin cfg1.N, (cfg1.win 4).flush t = true ∧ i ∈ ((cfg1.win 4).blk t).view.set := by
  have hi0 : (i 0).val < 1 := (i 0).isLt
  have hi1 : (i 1).val < 32 := (i 1).isLt
  refine ⟨⟨19, by show 19 < 20; omega⟩, (flush1_4 _).mpr (by rfl), ?_⟩
  rw [mem_blk4]
  obtain ⟨e0, e1, e2, e3, e4, e5, e6, e7, e8, e9, e10, e11⟩ := idx_facts ⟨19, by show 19 < 20; omega⟩
  intro a
  match a with
  | ⟨0, _⟩ => show win1_4.index _ (0 : Fin 2) * 1 ≤ (i 0).val ∧ (i 0).val < win1_4.index _ (0 : Fin 2) * 1 + 1; rw [e8]; omega
  | ⟨1, _⟩ => show win1_4.index _ (1 : Fin 2) * 32 ≤ (i 1).val ∧ (i 1).val < win1_4.index _ (1 : Fin 2) * 32 + 32; rw [e9]; omega

theorem cover5 (i : S1x32.Idx) : ∃ t : Fin cfg1.N, (cfg1.win 5).flush t = true ∧ i ∈ ((cfg1.win 5).blk t).view.set := by
  have hi0 : (i 0).val < 1 := (i 0).isLt
  have hi1 : (i 1).val < 32 := (i 1).isLt
  refine ⟨⟨19, by show 19 < 20; omega⟩, (flush1_5 _).mpr (by rfl), ?_⟩
  rw [mem_blk5]
  obtain ⟨e0, e1, e2, e3, e4, e5, e6, e7, e8, e9, e10, e11⟩ := idx_facts ⟨19, by show 19 < 20; omega⟩
  intro a
  match a with
  | ⟨0, _⟩ => show win1_5.index _ (0 : Fin 2) * 1 ≤ (i 0).val ∧ (i 0).val < win1_5.index _ (0 : Fin 2) * 1 + 1; rw [e10]; omega
  | ⟨1, _⟩ => show win1_5.index _ (1 : Fin 2) * 32 ≤ (i 1).val ∧ (i 1).val < win1_5.index _ (1 : Fin 2) * 32 + 32; rw [e11]; omega

/-- The two result arrays after the region: the column sums of the pre-activation and of its square. -/
theorem final4 (c : Dev nD) : (dat1 V c).arrAt 4 cfg1.N = colSum (P V c) :=
  (dat1 V c).arrAt_eq_of_cover 4 _ (fun t hf => flushed4_eq V c t hf) cover4

theorem final5 (c : Dev nD) : (dat1 V c).arrAt 5 cfg1.N = colSumSq (P V c) :=
  (dat1 V c).arrAt_eq_of_cover 5 _ (fun t hf => flushed5_eq V c t hf) cover5

end Cert.KernelIdeal.Reg1

end
-- ==== Proof.Region2.lean ====
/-
  The fused region of a hidden layer: batch norm, rectifier, and the next layer's dense projection. Each grid
  point forms its block's pre-activation, normalises it with the layer's mean and variance, scales, shifts, rectifies,
  and multiplies by the whole next weight matrix; the result array ends holding the product of the activated
  pre-activation of the whole arrays with that matrix.
-/
import proofs.«104369_j66383014527707_2_alg».proof.Proof.RegShared
import proofs.«104369_j66383014527707_2_alg».proof.Proof.LibMatmul

set_option maxRecDepth 16384

noncomputable section

namespace Cert.KernelIdeal.Reg2

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)
open Cert.KernelIdeal.Reg
open Cert.LibBlockSum Cert.LibMatmul

variable (V : (c : Dev nD) → (b : Ref sig .tc) → Buf (Elt Ideal) ((c : Thread nD τ).loc b))

/-- The body's payload: the block's activated pre-activation times the weight matrix. -/
theorem pay_eq (x0 x1 : Vec Ideal S5000x32 .f32) (x2 : Vec Ideal S5000x1 .f32) (x3 x4 x5 x6 x7 : Vec Ideal S1x32 .f32)
    (x8 : Vec Ideal S32x32 .f32) :
    k2_pay1 (F := Ideal) x0 x1 x2 x3 x4 x5 x6 x7 x8
      = MM (A := 5000) (K := 32) (B := 32)
          (fun i => act (preB x0 x1 x2 x3 (i 0) (i 1)) (x4 (ix2 (0 : Fin 1) (i 1))) (x5 (ix2 (0 : Fin 1) (i 1)))
            (x6 (ix2 (0 : Fin 1) (i 1))) (x7 (ix2 (0 : Fin 1) (i 1)))) x8 := by
  unfold k2_pay1
  simp only [shapeCast_self, bcRow, bcCol]
  refine (matmul_zero_eq dot_S5000x32_S32x32_S5000x32_1_0_0_1_n_n rfl rfl rfl rfl rfl rfl none _ _).trans ?_
  refine congrArg₂ (MM (A := 5000) (K := 32) (B := 32)) ?_ rfl
  funext i
  obtain ⟨p, k, rfl⟩ : ∃ (p : Fin 5000) (k : Fin 32), i = ix2 p k := ⟨i 0, i 1, eq_ix2 i⟩
  rfl

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

/-- The layer's pre-activation, and the region's result, as functions of the arrays the region finds. -/
def P (c : Dev nD) : S100000x32.Idx → EReal :=
  preW (V c main_v56) (V c main_v43) (V c main_v42) (V c main_v65)
def G (c : Dev nD) : S100000x32.Idx → EReal :=
  MM (A := 100000) (K := 32) (B := 32) (actW (P V c) (V c main_v60) (V c main_v64) (V c main_v66) (V c main_v67)) (V c main_arg7)

set_option maxHeartbeats 2000000 in
/-- What point `t` writes back is block `t` of that product. -/
theorem flushed_eq (c : Dev nD) (t : Fin cfg2.N) :
    (dat2 V c).flushed 9 t = ((cfg2.win 9).blk t).view.read (Elt Ideal) (G V c) := by
  show (cfg2.win 9).cut (grid2.coords t) ((dat2 V c).after 9 t) = _
  rw [after2_9]
  unfold out2_9
  rw [View.canon_unit_zero hz]
  simp only [View.ld_unit_zero (S := S5000x32) hz, View.ld_unit_zero (S := S5000x1) hz, View.ld_unit_zero (S := S1x32) hz,
    View.ld_unit_zero (S := S32x32) hz]
  rw [pay_eq]
  obtain ⟨e0, e1, e2, e3, e4, e5, e6, e7, e8, e9, e10, e11, e12, e13, e14, e15, e16, e17, e18, e19⟩ := idx_facts t
  funext j
  obtain ⟨p, q, rfl⟩ : ∃ (p : Fin 5000) (q : Fin 32), j = ix2 p q := ⟨j 0, j 1, eq_ix2 j⟩
  have htN : t.val < 20 := t.isLt
  have hemb : ((cfg2.win 9).blk t).view.emb (ix2 p q) = ix2 (rowAt t.val t.isLt p) q := by
    funext a; apply Fin.ext
    match a with
    | ⟨0, _⟩ => show win2_9.index t (0 : Fin 2) * 5000 + 1 * p.val = t.val * 5000 + p.val; omega
    | ⟨1, _⟩ => show win2_9.index t (1 : Fin 2) * 32 + 1 * q.val = q.val; omega
  show MM (A := 5000) (K := 32) (B := 32) _ (iblk2 V c 8 t) (ix2 p q) = G V c (((cfg2.win 9).blk t).view.emb (ix2 p q))
  rw [hemb]
  unfold G
  rw [MM_apply, MM_apply]
  refine Finset.sum_congr rfl fun k _ => ?_
  show act (preB (iblk2 V c 0 t) (iblk2 V c 1 t) (iblk2 V c 2 t) (iblk2 V c 3 t) p k)
      (iblk2 V c 4 t (ix2 (0 : Fin 1) k)) (iblk2 V c 5 t (ix2 (0 : Fin 1) k)) (iblk2 V c 6 t (ix2 (0 : Fin 1) k))
      (iblk2 V c 7 t (ix2 (0 : Fin 1) k)) * iblk2 V c 8 t (ix2 k q)
    = actW (P V c) (V c main_v60) (V c main_v64) (V c main_v66) (V c main_v67) (ix2 (rowAt t.val t.isLt p) k) * V c main_arg7 (ix2 k q)
  rw [actW_apply]
  have hpre : preB (iblk2 V c 0 t) (iblk2 V c 1 t) (iblk2 V c 2 t) (iblk2 V c 3 t) p k = P V c (ix2 (rowAt t.val t.isLt p) k) := by
    unfold preB P
    rw [preW_apply]
    have h0 : ((cfg2.win 0).blk t).view.emb (ix2 p k) = ix2 (rowAt t.val t.isLt p) k := by
      funext a; apply Fin.ext
      match a with
      | ⟨0, _⟩ => show win2_0.index t (0 : Fin 2) * 5000 + 1 * p.val = t.val * 5000 + p.val; omega
      | ⟨1, _⟩ => show win2_0.index t (1 : Fin 2) * 32 + 1 * k.val = k.val; omega
    have h1 : ((cfg2.win 1).blk t).view.emb (ix2 p k) = ix2 (rowAt t.val t.isLt p) k := by
      funext a; apply Fin.ext
      match a with
      | ⟨0, _⟩ => show win2_1.index t (0 : Fin 2) * 5000 + 1 * p.val = t.val * 5000 + p.val; omega
      | ⟨1, _⟩ => show win2_1.index t (1 : Fin 2) * 32 + 1 * k.val = k.val; omega
    have h2 : ((cfg2.win 2).blk t).view.emb (ix2 p (0 : Fin 1)) = ix2 (rowAt t.val t.isLt p) (0 : Fin 1) := by
      funext a; apply Fin.ext
      match a with
      | ⟨0, _⟩ => show win2_2.index t (0 : Fin 2) * 5000 + 1 * p.val = t.val * 5000 + p.val; omega
      | ⟨1, _⟩ => show win2_2.index t (1 : Fin 2) * 1 + 1 * 0 = 0; omega
    have h3 : ((cfg2.win 3).blk t).view.emb (ix2 (0 : Fin 1) k) = ix2 (0 : Fin 1) k := by
      funext a; apply Fin.ext
      match a with
      | ⟨0, _⟩ => show win2_3.index t (0 : Fin 2) * 1 + 1 * 0 = 0; omega
      | ⟨1, _⟩ => show win2_3.index t (1 : Fin 2) * 32 + 1 * k.val = k.val; omega
    have b0 : iblk2 V c 0 t (ix2 p k) = V c main_v56 (ix2 (rowAt t.val t.isLt p) k) := by
      show V c main_v56 (((cfg2.win 0).blk t).view.emb (ix2 p k)) = _; rw [h0]
    have b1 : iblk2 V c 1 t (ix2 p k) = V c main_v43 (ix2 (rowAt t.val t.isLt p) k) := by
      show V c main_v43 (((cfg2.win 1).blk t).view.emb (ix2 p k)) = _; rw [h1]
    have b2 : iblk2 V c 2 t (ix2 p (0 : Fin 1)) = V c main_v42 (ix2 (rowAt t.val t.isLt p) (0 : Fin 1)) := by
      show V c main_v42 (((cfg2.win 2).blk t).view.emb (ix2 p (0 : Fin 1))) = _; rw [h2]
    have b3 : iblk2 V c 3 t (ix2 (0 : Fin 1) k) = V c main_v65 (ix2 (0 : Fin 1) k) := by
      show V c main_v65 (((cfg2.win 3).blk t).view.emb (ix2 (0 : Fin 1) k)) = _; rw [h3]
    rw [b0, b1, b2, b3]
  have h4 : ((cfg2.win 4).blk t).view.emb (ix2 (0 : Fin 1) k) = ix2 (0 : Fin 1) k := by
    funext a; apply Fin.ext
    match a with
    | ⟨0, _⟩ => show win2_4.index t (0 : Fin 2) * 1 + 1 * 0 = 0; omega
    | ⟨1, _⟩ => show win2_4.index t (1 : Fin 2) * 32 + 1 * k.val = k.val; omega
  have h5 : ((cfg2.win 5).blk t).view.emb (ix2 (0 : Fin 1) k) = ix2 (0 : Fin 1) k := by
    funext a; apply Fin.ext
    match a with
    | ⟨0, _⟩ => show win2_5.index t (0 : Fin 2) * 1 + 1 * 0 = 0; omega
    | ⟨1, _⟩ => show win2_5.index t (1 : Fin 2) * 32 + 1 * k.val = k.val; omega
  have h6 : ((cfg2.win 6).blk t).view.emb (ix2 (0 : Fin 1) k) = ix2 (0 : Fin 1) k := by
    funext a; apply Fin.ext
    match a with
    | ⟨0, _⟩ => show win2_6.index t (0 : Fin 2) * 1 + 1 * 0 = 0; omega
    | ⟨1, _⟩ => show win2_6.index t (1 : Fin 2) * 32 + 1 * k.val = k.val; omega
  have h7 : ((cfg2.win 7).blk t).view.emb (ix2 (0 : Fin 1) k) = ix2 (0 : Fin 1) k := by
    funext a; apply Fin.ext
    match a with
    | ⟨0, _⟩ => show win2_7.index t (0 : Fin 2) * 1 + 1 * 0 = 0; omega
    | ⟨1, _⟩ => show win2_7.index t (1 : Fin 2) * 32 + 1 * k.val = k.val; omega
  have b4 : iblk2 V c 4 t (ix2 (0 : Fin 1) k) = V c main_v60 (ix2 (0 : Fin 1) k) := by
    show V c main_v60 (((cfg2.win 4).blk t).view.emb (ix2 (0 : Fin 1) k)) = _; rw [h4]
  have b5 : iblk2 V c 5 t (ix2 (0 : Fin 1) k) = V c main_v64 (ix2 (0 : Fin 1) k) := by
    show V c main_v64 (((cfg2.win 5).blk t).view.emb (ix2 (0 : Fin 1) k)) = _; rw [h5]
  have b6 : iblk2 V c 6 t (ix2 (0 : Fin 1) k) = V c main_v66 (ix2 (0 : Fin 1) k) := by
    show V c main_v66 (((cfg2.win 6).blk t).view.emb (ix2 (0 : Fin 1) k)) = _; rw [h6]
  have b7 : iblk2 V c 7 t (ix2 (0 : Fin 1) k) = V c main_v67 (ix2 (0 : Fin 1) k) := by
    show V c main_v67 (((cfg2.win 7).blk t).view.emb (ix2 (0 : Fin 1) k)) = _; rw [h7]
  have h8 : ((cfg2.win 8).blk t).view.emb (ix2 k q) = ix2 k q := by
    funext a; apply Fin.ext
    match a with
    | ⟨0, _⟩ => show win2_8.index t (0 : Fin 2) * 32 + 1 * k.val = k.val; omega
    | ⟨1, _⟩ => show win2_8.index t (1 : Fin 2) * 32 + 1 * q.val = q.val; omega
  have b8 : iblk2 V c 8 t (ix2 k q) = V c main_arg7 (ix2 k q) := by
    show V c main_arg7 (((cfg2.win 8).blk t).view.emb (ix2 k q)) = _; rw [h8]
  rw [hpre, b4, b5, b6, b7, b8]

theorem mem_blk (t : Fin cfg2.N) (i : S100000x32.Idx) :
    i ∈ ((cfg2.win 9).blk t).view.set ↔ ∀ a : Fin 2, win2_9.index t a * S5000x32.size a ≤ (i a).val ∧ (i a).val < win2_9.index t a * S5000x32.size a + S5000x32.size a := by
  show i ∈ ((View.whole main_v68).slice (win2_9.rect t)).set ↔ _
  rw [View.set_slice_whole, Rect.mem_set_unit]
  exact Iff.rfl

theorem cover (i : S100000x32.Idx) : ∃ t : Fin cfg2.N, (cfg2.win 9).flush t = true ∧ i ∈ ((cfg2.win 9).blk t).view.set := by
  have hi0 : (i 0).val < 100000 := (i 0).isLt
  have hi1 : (i 1).val < 32 := (i 1).isLt
  refine ⟨⟨(i 0).val / 5000, by show (i 0).val / 5000 < 20; omega⟩, flush2_9 _, ?_⟩
  rw [mem_blk]
  obtain ⟨e0, e1, e2, e3, e4, e5, e6, e7, e8, e9, e10, e11, e12, e13, e14, e15, e16, e17, e18, e19⟩ := idx_facts ⟨(i 0).val / 5000, by show (i 0).val / 5000 < 20; omega⟩
  intro a
  match a with
  | ⟨0, _⟩ => show win2_9.index _ (0 : Fin 2) * 5000 ≤ (i 0).val ∧ (i 0).val < win2_9.index _ (0 : Fin 2) * 5000 + 5000; rw [e18]; show (i 0).val / 5000 * 5000 ≤ (i 0).val ∧ (i 0).val < (i 0).val / 5000 * 5000 + 5000; omega
  | ⟨1, _⟩ => show win2_9.index _ (1 : Fin 2) * 32 ≤ (i 1).val ∧ (i 1).val < win2_9.index _ (1 : Fin 2) * 32 + 32; rw [e19]; omega

/-- The result array after the region. -/
theorem final (c : Dev nD) : (dat2 V c).arrAt 9 cfg2.N = G V c :=
  (dat2 V c).arrAt_eq_of_cover 9 _ (fun t _ => flushed_eq V c t) cover

end Cert.KernelIdeal.Reg2

end
-- ==== Proof.Region3.lean ====
/-
  A batch-norm statistics region. At a grid point the body forms the pre-activation of its block of 5000 rows
  and adds the block's column sums, and the column sums of the squares, to two running totals it keeps across the
  grid (zeroed at the first point, written back once after the last): the two result arrays end at the column sums
  over all rows.
-/
import proofs.«104369_j66383014527707_2_alg».proof.Proof.RegShared
import proofs.«104369_j66383014527707_2_alg».proof.Proof.LibMatmul

set_option maxRecDepth 16384

noncomputable section

namespace Cert.KernelIdeal.Reg3

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)
open Cert.KernelIdeal.Reg
open Cert.LibBlockSum Cert.LibMatmul

section Pieces
variable {F : FTy → Type} [FloatOps F]

theorem pieceA4 (c : Dev nD) (i : grid3.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : cond3_0 i)
    (x0 : Vec F S5000x32 .f32) (x1 : Vec F S5000x32 .f32) (x2 : Vec F S5000x1 .f32) (x3 : Vec F S1x32 .f32) :
    out3_A_4 (F := F) c i arg1 harg1 arg2 harg2 arg3 harg3 arg4 harg4 arg5 harg5 arg6 harg6 hc0 x0 x1 x2 x3 = k3_pay4 x0 x1 x2 x3 k3_pay1 := by
  unfold out3_A_4
  rw [View.read_writes_eq_canon _ _ _ (cover3_A_4 c i arg1 harg1 arg2 harg2 arg3 harg3 arg4 harg4 arg5 harg5 arg6 harg6 hc0 x0 x1 x2 x3)]
  unfold kernelRun3_A
  dsimp only
  sl_unfold_words
  rw [View.canon_cons_unit_zero hz]
  simp only [View.readAt_eq_ld, harg1.read_unread, harg2.read_unread, harg3.read_unread, harg4.read_unread, harg5.read_unread,
    View.ld_unit_zero (S := S5000x32) hz, View.ld_unit_zero (S := S5000x1) hz, View.ld_unit_zero (S := S1x32) hz,
    View.readCov_unit_zero (S := S1x32) _ hz]

theorem pieceA5 (c : Dev nD) (i : grid3.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : cond3_0 i)
    (x0 : Vec F S5000x32 .f32) (x1 : Vec F S5000x32 .f32) (x2 : Vec F S5000x1 .f32) (x3 : Vec F S1x32 .f32) :
    out3_A_5 (F := F) c i arg1 harg1 arg2 harg2 arg3 harg3 arg4 harg4 arg5 harg5 arg6 harg6 hc0 x0 x1 x2 x3 = k3_pay5 x0 x1 x2 x3 k3_pay2 := by
  unfold out3_A_5
  rw [View.read_writes_eq_canon _ _ _ (cover3_A_5 c i arg1 harg1 arg2 harg2 arg3 harg3 arg4 harg4 arg5 harg5 arg6 harg6 hc0 x0 x1 x2 x3)]
  unfold kernelRun3_A
  dsimp only
  sl_unfold_words
  rw [View.canon_cons_unit_zero hz]
  simp only [View.readAt_eq_ld, harg1.read_unread, harg2.read_unread, harg3.read_unread, harg4.read_unread, harg6.read_unread,
    View.ld_unit_zero (S := S5000x32) hz, View.ld_unit_zero (S := S5000x1) hz, View.ld_unit_zero (S := S1x32) hz,
    View.readCov_unit_zero (S := S1x32) _ hz]

theorem pieceB4 (c : Dev nD) (i : grid3.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : ¬cond3_0 i)
    (x0 : Vec F S5000x32 .f32) (x1 : Vec F S5000x32 .f32) (x2 : Vec F S5000x1 .f32) (x3 : Vec F S1x32 .f32) (xo4 xo5 : Vec F S1x32 .f32) :
    out3_B_4 (F := F) c i arg1 harg1 arg2 harg2 arg3 harg3 arg4 harg4 arg5 harg5 arg6 harg6 hc0 x0 x1 x2 x3 xo4 xo5 = k3_pay4 x0 x1 x2 x3 xo4 := by
  unfold out3_B_4
  rw [View.read_writes_eq_canon _ _ _ (cover3_B_4 c i arg1 harg1 arg2 harg2 arg3 harg3 arg4 harg4 arg5 harg5 arg6 harg6 hc0 x0 x1 x2 x3 xo4 xo5)]
  unfold kernelRun3_B
  dsimp only
  rw [View.canon_unit_zero hz]
  simp only [View.readAt_eq_ld, harg1.read_unread, harg2.read_unread, harg3.read_unread, harg4.read_unread, harg5.read_unread,
    View.ld_unit_zero (S := S5000x32) hz, View.ld_unit_zero (S := S5000x1) hz, View.ld_unit_zero (S := S1x32) hz]

theorem pieceB5 (c : Dev nD) (i : grid3.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : ¬cond3_0 i)
    (x0 : Vec F S5000x32 .f32) (x1 : Vec F S5000x32 .f32) (x2 : Vec F S5000x1 .f32) (x3 : Vec F S1x32 .f32) (xo4 xo5 : Vec F S1x32 .f32) :
    out3_B_5 (F := F) c i arg1 harg1 arg2 harg2 arg3 harg3 arg4 harg4 arg5 harg5 arg6 harg6 hc0 x0 x1 x2 x3 xo4 xo5 = k3_pay5 x0 x1 x2 x3 xo5 := by
  unfold out3_B_5
  rw [View.read_writes_eq_canon _ _ _ (cover3_B_5 c i arg1 harg1 arg2 harg2 arg3 harg3 arg4 harg4 arg5 harg5 arg6 harg6 hc0 x0 x1 x2 x3 xo4 xo5)]
  unfold kernelRun3_B
  dsimp only
  rw [View.canon_unit_zero hz]
  simp only [View.readAt_eq_ld, harg1.read_unread, harg2.read_unread, harg3.read_unread, harg4.read_unread, harg6.read_unread,
    View.ld_unit_zero (S := S5000x32) hz, View.ld_unit_zero (S := S5000x1) hz, View.ld_unit_zero (S := S1x32) hz]

end Pieces

theorem pay3_apply (x0 x1 : Vec Ideal S5000x32 .f32) (x2 : Vec Ideal S5000x1 .f32) (x3 : Vec Ideal S1x32 .f32)
    (p : Fin 5000) (q : Fin 32) : k3_pay3 (F := Ideal) x0 x1 x2 x3 (ix2 p q) = preB x0 x1 x2 x3 p q := by
  unfold k3_pay3
  simp only [shapeCast_self, bcRow, bcCol]
  rfl

theorem pay4_apply (x0 x1 : Vec Ideal S5000x32 .f32) (x2 : Vec Ideal S5000x1 .f32) (x3 acc : Vec Ideal S1x32 .f32)
    (u : Fin 1) (q : Fin 32) :
    k3_pay4 (F := Ideal) x0 x1 x2 x3 acc (ix2 u q) = acc (ix2 u q) + ∑ p : Fin 5000, preB x0 x1 x2 x3 p q := by
  unfold k3_pay4
  simp only [shapeCast_self]
  show acc (ix2 u q) + shapeCast S1x32 (multiReduction .add [0] S32 (k3_pay3 x0 x1 x2 x3) 0x00000000#32 reduces_S5000x32_S32 (.inl rfl) rfl) shapeCasts_S32_S1x32 (ix2 u q) = _
  rw [colsum_apply]
  congr 1
  exact Finset.sum_congr rfl fun p _ => pay3_apply x0 x1 x2 x3 p q

theorem pay5_apply (x0 x1 : Vec Ideal S5000x32 .f32) (x2 : Vec Ideal S5000x1 .f32) (x3 acc : Vec Ideal S1x32 .f32)
    (u : Fin 1) (q : Fin 32) :
    k3_pay5 (F := Ideal) x0 x1 x2 x3 acc (ix2 u q)
      = acc (ix2 u q) + ∑ p : Fin 5000, preB x0 x1 x2 x3 p q * preB x0 x1 x2 x3 p q := by
  unfold k3_pay5
  simp only [shapeCast_self]
  show acc (ix2 u q) + shapeCast S1x32 (multiReduction .add [0] S32 (mulf (k3_pay3 x0 x1 x2 x3) (k3_pay3 x0 x1 x2 x3)) 0x00000000#32 reduces_S5000x32_S32 (.inl rfl) rfl) shapeCasts_S32_S1x32 (ix2 u q) = _
  rw [colsum_apply]
  congr 1
  refine Finset.sum_congr rfl fun p _ => ?_
  show k3_pay3 x0 x1 x2 x3 (ix2 p q) * k3_pay3 x0 x1 x2 x3 (ix2 p q) = _
  rw [pay3_apply]

theorem pay1_apply (j : S1x32.Idx) : k3_pay1 (F := Ideal) j = 0 := by
  unfold k3_pay1
  show Ideal.ofBits .f32 0x00000000#32 = 0
  exact Ideal.ofBits_zero_f32

theorem pay2_apply (j : S1x32.Idx) : k3_pay2 (F := Ideal) j = 0 := by
  unfold k3_pay2
  show Ideal.ofBits .f32 0x00000000#32 = 0
  exact Ideal.ofBits_zero_f32

variable (V : (c : Dev nD) → (b : Ref sig .tc) → Buf (Elt Ideal) ((c : Thread nD τ).loc b))

theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The pre-activation of the whole arrays as the region finds them. -/
def P (c : Dev nD) : S100000x32.Idx → EReal :=
  preW (V c main_v81) (V c main_v68) (V c main_v42) (V c main_v82)

theorem preB_blk (c : Dev nD) (t : Fin cfg3.N) (p : Fin 5000) (q : Fin 32) :
    preB (iblk3 V c 0 t) (iblk3 V c 1 t) (iblk3 V c 2 t) (iblk3 V c 3 t) p q = P V c (ix2 (rowAt t.val t.isLt p) q) := by
  obtain ⟨e0, e1, e2, e3, e4, e5, e6, e7, e8, e9, e10, e11⟩ := idx_facts t
  have htN : t.val < 20 := t.isLt
  unfold preB P
  rw [preW_apply]
  have h0 : ((cfg3.win 0).blk t).view.emb (ix2 p q) = ix2 (rowAt t.val t.isLt p) q := by
    funext a; apply Fin.ext
    match a with
    | ⟨0, _⟩ => show win3_0.index t (0 : Fin 2) * 5000 + 1 * p.val = t.val * 5000 + p.val; omega
    | ⟨1, _⟩ => show win3_0.index t (1 : Fin 2) * 32 + 1 * q.val = q.val; omega
  have h1 : ((cfg3.win 1).blk t).view.emb (ix2 p q) = ix2 (rowAt t.val t.isLt p) q := by
    funext a; apply Fin.ext
    match a with
    | ⟨0, _⟩ => show win3_1.index t (0 : Fin 2) * 5000 + 1 * p.val = t.val * 5000 + p.val; omega
    | ⟨1, _⟩ => show win3_1.index t (1 : Fin 2) * 32 + 1 * q.val = q.val; omega
  have h2 : ((cfg3.win 2).blk t).view.emb (ix2 p (0 : Fin 1)) = ix2 (rowAt t.val t.isLt p) (0 : Fin 1) := by
    funext a; apply Fin.ext
    match a with
    | ⟨0, _⟩ => show win3_2.index t (0 : Fin 2) * 5000 + 1 * p.val = t.val * 5000 + p.val; omega
    | ⟨1, _⟩ => show win3_2.index t (1 : Fin 2) * 1 + 1 * 0 = 0; omega
  have h3 : ((cfg3.win 3).blk t).view.emb (ix2 (0 : Fin 1) q) = ix2 (0 : Fin 1) q := by
    funext a; apply Fin.ext
    match a with
    | ⟨0, _⟩ => show win3_3.index t (0 : Fin 2) * 1 + 1 * 0 = 0; omega
    | ⟨1, _⟩ => show win3_3.index t (1 : Fin 2) * 32 + 1 * q.val = q.val; omega
  have b0 : iblk3 V c 0 t (ix2 p q) = V c main_v81 (ix2 (rowAt t.val t.isLt p) q) := by
    show V c main_v81 (((cfg3.win 0).blk t).view.emb (ix2 p q)) = _; rw [h0]
  have b1 : iblk3 V c 1 t (ix2 p q) = V c main_v68 (ix2 (rowAt t.val t.isLt p) q) := by
    show V c main_v68 (((cfg3.win 1).blk t).view.emb (ix2 p q)) = _; rw [h1]
  have b2 : iblk3 V c 2 t (ix2 p (0 : Fin 1)) = V c main_v42 (ix2 (rowAt t.val t.isLt p) (0 : Fin 1)) := by
    show V c main_v42 (((cfg3.win 2).blk t).view.emb (ix2 p (0 : Fin 1))) = _; rw [h2]
  have b3 : iblk3 V c 3 t (ix2 (0 : Fin 1) q) = V c main_v82 (ix2 (0 : Fin 1) q) := by
    show V c main_v82 (((cfg3.win 3).blk t).view.emb (ix2 (0 : Fin 1) q)) = _; rw [h3]
  rw [b0, b1, b2, b3]

/-- Block `k`'s contribution to column `q`'s sum, and to its sum of squares. -/
def g (c : Dev nD) (q : Fin 32) (k : ℕ) : EReal :=
  if hk : k < 20 then ∑ p : Fin 5000, P V c (ix2 (rowAt k hk p) q) else 0
def g2 (c : Dev nD) (q : Fin 32) (k : ℕ) : EReal :=
  if hk : k < 20 then ∑ p : Fin 5000, P V c (ix2 (rowAt k hk p) q) * P V c (ix2 (rowAt k hk p) q) else 0

theorem outsAt_cast (c : Dev nD) (k n : ℕ) (hk : k < cfg3.N) (hn : n < cfg3.N) (h : k = n) :
    outsAt3 V c k hk = outsAt3 V c n hn := by subst h; rfl

/-- THE INVARIANT: after point `n` the totals are the running sums of the first `n + 1` blocks' contributions. -/
theorem inv (c : Dev nD) (q : Fin 32) (u : Fin 1) : ∀ (n : ℕ) (hn : n < cfg3.N),
    (outsAt3 V c n hn).1 (ix2 u q) = running (g V c q) (n + 1)
    ∧ (outsAt3 V c n hn).2 (ix2 u q) = running (g2 V c q) (n + 1) := by
  intro n
  induction n with
  | zero =>
    intro hn
    have hA := outsAt3_A V c ⟨0, hn⟩ (Nat.zero_mod _)
    have hk : (0 : ℕ) < 20 := by omega
    constructor
    · rw [show outsAt3 V c 0 hn = _ from hA]
      dsimp only
      rw [pieceA4, pay4_apply, pay1_apply, zero_add, running_succ, running_zero, zero_add]
      unfold g
      rw [dif_pos hk]
      exact Finset.sum_congr rfl fun p _ => preB_blk V c ⟨0, hn⟩ p q
    · rw [show outsAt3 V c 0 hn = _ from hA]
      dsimp only
      rw [pieceA5, pay5_apply, pay2_apply, zero_add, running_succ, running_zero, zero_add]
      unfold g2
      rw [dif_pos hk]
      exact Finset.sum_congr rfl fun p _ => by rw [preB_blk V c ⟨0, hn⟩ p q]
  | succ n ih =>
    intro hn
    have hn20 : n + 1 < 20 := hn
    have h0 : ¬ (n + 1) % 20 = 0 := by omega
    have hB := outsAt3_B V c ⟨n + 1, hn⟩ h0
    have hprev : n < cfg3.N := by show n < 20; omega
    have hcast := outsAt_cast V c (n + 1 - 1) n (Nat.lt_of_le_of_lt (Nat.sub_le _ _) hn) hprev (by omega)
    obtain ⟨ih1, ih2⟩ := ih hprev
    constructor
    · rw [show outsAt3 V c (n + 1) hn = _ from hB]
      dsimp only
      rw [pieceB4, pay4_apply]
      rw [show (outsAt3 V c (n + 1 - 1) (Nat.lt_of_le_of_lt (Nat.sub_le _ _) hn)) = _ from hcast, ih1, running_succ (g V c q) (n + 1)]
      congr 1
      unfold g
      rw [dif_pos hn20]
      exact Finset.sum_congr rfl fun p _ => preB_blk V c ⟨n + 1, hn⟩ p q
    · rw [show outsAt3 V c (n + 1) hn = _ from hB]
      dsimp only
      rw [pieceB5, pay5_apply]
      rw [show (outsAt3 V c (n + 1 - 1) (Nat.lt_of_le_of_lt (Nat.sub_le _ _) hn)) = _ from hcast, ih2, running_succ (g2 V c q) (n + 1)]
      congr 1
      unfold g2
      rw [dif_pos hn20]
      exact Finset.sum_congr rfl fun p _ => by rw [preB_blk V c ⟨n + 1, hn⟩ p q]

theorem last1 (c : Dev nD) (t : Fin cfg3.N) (ht : t.val = 19) (u : Fin 1) (q : Fin 32) :
    (outsAt3 V c t.val t.isLt).1 (ix2 u q) = ∑ r : Fin 100000, P V c (ix2 r q) := by
  rw [outsAt_cast V c t.val 19 t.isLt (by show 19 < 20; omega) ht, (inv V c q u 19 _).1]
  exact running_all (fun r => P V c (ix2 r q)) _ fun k hk => by unfold g; rw [dif_pos hk]

theorem last2 (c : Dev nD) (t : Fin cfg3.N) (ht : t.val = 19) (u : Fin 1) (q : Fin 32) :
    (outsAt3 V c t.val t.isLt).2 (ix2 u q) = ∑ r : Fin 100000, P V c (ix2 r q) * P V c (ix2 r q) := by
  rw [outsAt_cast V c t.val 19 t.isLt (by show 19 < 20; omega) ht, (inv V c q u 19 _).2]
  exact running_all (fun r => P V c (ix2 r q) * P V c (ix2 r q)) _ fun k hk => by unfold g2; rw [dif_pos hk]

theorem mem_blk4 (t : Fin cfg3.N) (i : S1x32.Idx) :
    i ∈ ((cfg3.win 4).blk t).view.set ↔ ∀ a : Fin 2, win3_4.index t a * S1x32.size a ≤ (i a).val ∧ (i a).val < win3_4.index t a * S1x32.size a + S1x32.size a := by
  show i ∈ ((View.whole main_v83_0).slice (win3_4.rect t)).set ↔ _
  rw [View.set_slice_whole, Rect.mem_set_unit]
  exact Iff.rfl

theorem mem_blk5 (t : Fin cfg3.N) (i : S1x32.Idx) :
    i ∈ ((cfg3.win 5).blk t).view.set ↔ ∀ a : Fin 2, win3_5.index t a * S1x32.size a ≤ (i a).val ∧ (i a).val < win3_5.index t a * S1x32.size a + S1x32.size a := by
  show i ∈ ((View.whole main_v83_1).slice (win3_5.rect t)).set ↔ _
  rw [View.set_slice_whole, Rect.mem_set_unit]
  exact Iff.rfl

set_option maxRecDepth 200000 in
theorem flushed4_eq (c : Dev nD) (t : Fin cfg3.N) (hf : (cfg3.win 4).flush t = true) :
    (dat3 V c).flushed 4 t = ((cfg3.win 4).blk t).view.read (Elt Ideal) (colSum (P V c)) := by
  have ht : t.val = 19 := by have := (flush3_4 t).mp hf; have h20 : t.val < 20 := t.isLt; omega
  obtain ⟨e0, e1, e2, e3, e4, e5, e6, e7, e8, e9, e10, e11⟩ := idx_facts t
  show (cfg3.win 4).cut (grid3.coords t) ((dat3 V c).after 4 t) = _
  rw [after3_4]
  funext j
  obtain ⟨u, q, rfl⟩ : ∃ (u : Fin 1) (q : Fin 32), j = ix2 u q := ⟨j 0, j 1, eq_ix2 j⟩
  show (outsAt3 V c t.val t.isLt).1 (ix2 u q) = colSum (P V c) (((cfg3.win 4).blk t).view.emb (ix2 u q))
  rw [last1 V c t ht u q]
  unfold colSum
  have hq : ((((cfg3.win 4).blk t).view.emb (ix2 u q)) 1) = q := by
    apply Fin.ext
    show win3_4.index t (1 : Fin 2) * 32 + 1 * q.val = q.val; omega
  rw [hq]

set_option maxRecDepth 200000 in
theorem flushed5_eq (c : Dev nD) (t : Fin cfg3.N) (hf : (cfg3.win 5).flush t = true) :
    (dat3 V c).flushed 5 t = ((cfg3.win 5).blk t).view.read (Elt Ideal) (colSumSq (P V c)) := by
  have ht : t.val = 19 := by have := (flush3_5 t).mp hf; have h20 : t.val < 20 := t.isLt; omega
  obtain ⟨e0, e1, e2, e3, e4, e5, e6, e7, e8, e9, e10, e11⟩ := idx_facts t
  show (cfg3.win 5).cut (grid3.coords t) ((dat3 V c).after 5 t) = _
  rw [after3_5]
  funext j
  obtain ⟨u, q, rfl⟩ : ∃ (u : Fin 1) (q : Fin 32), j = ix2 u q := ⟨j 0, j 1, eq_ix2 j⟩
  show (outsAt3 V c t.val t.isLt).2 (ix2 u q) = colSumSq (P V c) (((cfg3.win 5).blk t).view.emb (ix2 u q))
  rw [last2 V c t ht u q]
  unfold colSumSq
  have hq : ((((cfg3.win 5).blk t).view.emb (ix2 u q)) 1) = q := by
    apply Fin.ext
    show win3_5.index t (1 : Fin 2) * 32 + 1 * q.val = q.val; omega
  rw [hq]

theorem cover4 (i : S1x32.Idx) : ∃ t : Fin cfg3.N, (cfg3.win 4).flush t = true ∧ i ∈ ((cfg3.win 4).blk t).view.set := by
  have hi0 : (i 0).val < 1 := (i 0).isLt
  have hi1 : (i 1).val < 32 := (i 1).isLt
  refine ⟨⟨19, by show 19 < 20; omega⟩, (flush3_4 _).mpr (by rfl), ?_⟩
  rw [mem_blk4]
  obtain ⟨e0, e1, e2, e3, e4, e5, e6, e7, e8, e9, e10, e11⟩ := idx_facts ⟨19, by show 19 < 20; omega⟩
  intro a
  match a with
  | ⟨0, _⟩ => show win3_4.index _ (0 : Fin 2) * 1 ≤ (i 0).val ∧ (i 0).val < win3_4.index _ (0 : Fin 2) * 1 + 1; rw [e8]; omega
  | ⟨1, _⟩ => show win3_4.index _ (1 : Fin 2) * 32 ≤ (i 1).val ∧ (i 1).val < win3_4.index _ (1 : Fin 2) * 32 + 32; rw [e9]; omega

theorem cover5 (i : S1x32.Idx) : ∃ t : Fin cfg3.N, (cfg3.win 5).flush t = true ∧ i ∈ ((cfg3.win 5).blk t).view.set := by
  have hi0 : (i 0).val < 1 := (i 0).isLt
  have hi1 : (i 1).val < 32 := (i 1).isLt
  refine ⟨⟨19, by show 19 < 20; omega⟩, (flush3_5 _).mpr (by rfl), ?_⟩
  rw [mem_blk5]
  obtain ⟨e0, e1, e2, e3, e4, e5, e6, e7, e8, e9, e10, e11⟩ := idx_facts ⟨19, by show 19 < 20; omega⟩
  intro a
  match a with
  | ⟨0, _⟩ => show win3_5.index _ (0 : Fin 2) * 1 ≤ (i 0).val ∧ (i 0).val < win3_5.index _ (0 : Fin 2) * 1 + 1; rw [e10]; omega
  | ⟨1, _⟩ => show win3_5.index _ (1 : Fin 2) * 32 ≤ (i 1).val ∧ (i 1).val < win3_5.index _ (1 : Fin 2) * 32 + 32; rw [e11]; omega

/-- The two result arrays after the region: the column sums of the pre-activation and of its square. -/
theorem final4 (c : Dev nD) : (dat3 V c).arrAt 4 cfg3.N = colSum (P V c) :=
  (dat3 V c).arrAt_eq_of_cover 4 _ (fun t hf => flushed4_eq V c t hf) cover4

theorem final5 (c : Dev nD) : (dat3 V c).arrAt 5 cfg3.N = colSumSq (P V c) :=
  (dat3 V c).arrAt_eq_of_cover 5 _ (fun t hf => flushed5_eq V c t hf) cover5

end Cert.KernelIdeal.Reg3

end
-- ==== Proof.Region4.lean ====
/-
  The fused region of a hidden layer: batch norm, rectifier, and the next layer's dense projection. Each grid
  point forms its block's pre-activation, normalises it with the layer's mean and variance, scales, shifts, rectifies,
  and multiplies by the whole next weight matrix; the result array ends holding the product of the activated
  pre-activation of the whole arrays with that matrix.
-/
import proofs.«104369_j66383014527707_2_alg».proof.Proof.RegShared
import proofs.«104369_j66383014527707_2_alg».proof.Proof.LibMatmul

set_option maxRecDepth 16384

noncomputable section

namespace Cert.KernelIdeal.Reg4

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)
open Cert.KernelIdeal.Reg
open Cert.LibBlockSum Cert.LibMatmul

variable (V : (c : Dev nD) → (b : Ref sig .tc) → Buf (Elt Ideal) ((c : Thread nD τ).loc b))

/-- The body's payload: the block's activated pre-activation times the weight matrix. -/
theorem pay_eq (x0 x1 : Vec Ideal S5000x32 .f32) (x2 : Vec Ideal S5000x1 .f32) (x3 x4 x5 x6 x7 : Vec Ideal S1x32 .f32)
    (x8 : Vec Ideal S32x32 .f32) :
    k4_pay1 (F := Ideal) x0 x1 x2 x3 x4 x5 x6 x7 x8
      = MM (A := 5000) (K := 32) (B := 32)
          (fun i => act (preB x0 x1 x2 x3 (i 0) (i 1)) (x4 (ix2 (0 : Fin 1) (i 1))) (x5 (ix2 (0 : Fin 1) (i 1)))
            (x6 (ix2 (0 : Fin 1) (i 1))) (x7 (ix2 (0 : Fin 1) (i 1)))) x8 := by
  unfold k4_pay1
  simp only [shapeCast_self, bcRow, bcCol]
  refine (matmul_zero_eq dot_S5000x32_S32x32_S5000x32_1_0_0_1_n_n rfl rfl rfl rfl rfl rfl none _ _).trans ?_
  refine congrArg₂ (MM (A := 5000) (K := 32) (B := 32)) ?_ rfl
  funext i
  obtain ⟨p, k, rfl⟩ : ∃ (p : Fin 5000) (k : Fin 32), i = ix2 p k := ⟨i 0, i 1, eq_ix2 i⟩
  rfl

theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = 0 ∧ win4_8.index t (1 : Fin 2) = 0
    ∧ win4_9.index t (0 : Fin 2) = t.val ∧ win4_9.index t (1 : Fin 2) = 0 :=
  (by decide +kernel : ∀ t : Fin grid4.N, _)

/-- The layer's pre-activation, and the region's result, as functions of the arrays the region finds. -/
def P (c : Dev nD) : S100000x32.Idx → EReal :=
  preW (V c main_v81) (V c main_v68) (V c main_v42) (V c main_v90)
def G (c : Dev nD) : S100000x32.Idx → EReal :=
  MM (A := 100000) (K := 32) (B := 32) (actW (P V c) (V c main_v85) (V c main_v89) (V c main_v91) (V c main_v92)) (V c main_arg11)

set_option maxHeartbeats 2000000 in
/-- What point `t` writes back is block `t` of that product. -/
theorem flushed_eq (c : Dev nD) (t : Fin cfg4.N) :
    (dat4 V c).flushed 9 t = ((cfg4.win 9).blk t).view.read (Elt Ideal) (G V c) := by
  show (cfg4.win 9).cut (grid4.coords t) ((dat4 V c).after 9 t) = _
  rw [after4_9]
  unfold out4_9
  rw [View.canon_unit_zero hz]
  simp only [View.ld_unit_zero (S := S5000x32) hz, View.ld_unit_zero (S := S5000x1) hz, View.ld_unit_zero (S := S1x32) hz,
    View.ld_unit_zero (S := S32x32) hz]
  rw [pay_eq]
  obtain ⟨e0, e1, e2, e3, e4, e5, e6, e7, e8, e9, e10, e11, e12, e13, e14, e15, e16, e17, e18, e19⟩ := idx_facts t
  funext j
  obtain ⟨p, q, rfl⟩ : ∃ (p : Fin 5000) (q : Fin 32), j = ix2 p q := ⟨j 0, j 1, eq_ix2 j⟩
  have htN : t.val < 20 := t.isLt
  have hemb : ((cfg4.win 9).blk t).view.emb (ix2 p q) = ix2 (rowAt t.val t.isLt p) q := by
    funext a; apply Fin.ext
    match a with
    | ⟨0, _⟩ => show win4_9.index t (0 : Fin 2) * 5000 + 1 * p.val = t.val * 5000 + p.val; omega
    | ⟨1, _⟩ => show win4_9.index t (1 : Fin 2) * 32 + 1 * q.val = q.val; omega
  show MM (A := 5000) (K := 32) (B := 32) _ (iblk4 V c 8 t) (ix2 p q) = G V c (((cfg4.win 9).blk t).view.emb (ix2 p q))
  rw [hemb]
  unfold G
  rw [MM_apply, MM_apply]
  refine Finset.sum_congr rfl fun k _ => ?_
  show act (preB (iblk4 V c 0 t) (iblk4 V c 1 t) (iblk4 V c 2 t) (iblk4 V c 3 t) p k)
      (iblk4 V c 4 t (ix2 (0 : Fin 1) k)) (iblk4 V c 5 t (ix2 (0 : Fin 1) k)) (iblk4 V c 6 t (ix2 (0 : Fin 1) k))
      (iblk4 V c 7 t (ix2 (0 : Fin 1) k)) * iblk4 V c 8 t (ix2 k q)
    = actW (P V c) (V c main_v85) (V c main_v89) (V c main_v91) (V c main_v92) (ix2 (rowAt t.val t.isLt p) k) * V c main_arg11 (ix2 k q)
  rw [actW_apply]
  have hpre : preB (iblk4 V c 0 t) (iblk4 V c 1 t) (iblk4 V c 2 t) (iblk4 V c 3 t) p k = P V c (ix2 (rowAt t.val t.isLt p) k) := by
    unfold preB P
    rw [preW_apply]
    have h0 : ((cfg4.win 0).blk t).view.emb (ix2 p k) = ix2 (rowAt t.val t.isLt p) k := by
      funext a; apply Fin.ext
      match a with
      | ⟨0, _⟩ => show win4_0.index t (0 : Fin 2) * 5000 + 1 * p.val = t.val * 5000 + p.val; omega
      | ⟨1, _⟩ => show win4_0.index t (1 : Fin 2) * 32 + 1 * k.val = k.val; omega
    have h1 : ((cfg4.win 1).blk t).view.emb (ix2 p k) = ix2 (rowAt t.val t.isLt p) k := by
      funext a; apply Fin.ext
      match a with
      | ⟨0, _⟩ => show win4_1.index t (0 : Fin 2) * 5000 + 1 * p.val = t.val * 5000 + p.val; omega
      | ⟨1, _⟩ => show win4_1.index t (1 : Fin 2) * 32 + 1 * k.val = k.val; omega
    have h2 : ((cfg4.win 2).blk t).view.emb (ix2 p (0 : Fin 1)) = ix2 (rowAt t.val t.isLt p) (0 : Fin 1) := by
      funext a; apply Fin.ext
      match a with
      | ⟨0, _⟩ => show win4_2.index t (0 : Fin 2) * 5000 + 1 * p.val = t.val * 5000 + p.val; omega
      | ⟨1, _⟩ => show win4_2.index t (1 : Fin 2) * 1 + 1 * 0 = 0; omega
    have h3 : ((cfg4.win 3).blk t).view.emb (ix2 (0 : Fin 1) k) = ix2 (0 : Fin 1) k := by
      funext a; apply Fin.ext
      match a with
      | ⟨0, _⟩ => show win4_3.index t (0 : Fin 2) * 1 + 1 * 0 = 0; omega
      | ⟨1, _⟩ => show win4_3.index t (1 : Fin 2) * 32 + 1 * k.val = k.val; omega
    have b0 : iblk4 V c 0 t (ix2 p k) = V c main_v81 (ix2 (rowAt t.val t.isLt p) k) := by
      show V c main_v81 (((cfg4.win 0).blk t).view.emb (ix2 p k)) = _; rw [h0]
    have b1 : iblk4 V c 1 t (ix2 p k) = V c main_v68 (ix2 (rowAt t.val t.isLt p) k) := by
      show V c main_v68 (((cfg4.win 1).blk t).view.emb (ix2 p k)) = _; rw [h1]
    have b2 : iblk4 V c 2 t (ix2 p (0 : Fin 1)) = V c main_v42 (ix2 (rowAt t.val t.isLt p) (0 : Fin 1)) := by
      show V c main_v42 (((cfg4.win 2).blk t).view.emb (ix2 p (0 : Fin 1))) = _; rw [h2]
    have b3 : iblk4 V c 3 t (ix2 (0 : Fin 1) k) = V c main_v90 (ix2 (0 : Fin 1) k) := by
      show V c main_v90 (((cfg4.win 3).blk t).view.emb (ix2 (0 : Fin 1) k)) = _; rw [h3]
    rw [b0, b1, b2, b3]
  have h4 : ((cfg4.win 4).blk t).view.emb (ix2 (0 : Fin 1) k) = ix2 (0 : Fin 1) k := by
    funext a; apply Fin.ext
    match a with
    | ⟨0, _⟩ => show win4_4.index t (0 : Fin 2) * 1 + 1 * 0 = 0; omega
    | ⟨1, _⟩ => show win4_4.index t (1 : Fin 2) * 32 + 1 * k.val = k.val; omega
  have h5 : ((cfg4.win 5).blk t).view.emb (ix2 (0 : Fin 1) k) = ix2 (0 : Fin 1) k := by
    funext a; apply Fin.ext
    match a with
    | ⟨0, _⟩ => show win4_5.index t (0 : Fin 2) * 1 + 1 * 0 = 0; omega
    | ⟨1, _⟩ => show win4_5.index t (1 : Fin 2) * 32 + 1 * k.val = k.val; omega
  have h6 : ((cfg4.win 6).blk t).view.emb (ix2 (0 : Fin 1) k) = ix2 (0 : Fin 1) k := by
    funext a; apply Fin.ext
    match a with
    | ⟨0, _⟩ => show win4_6.index t (0 : Fin 2) * 1 + 1 * 0 = 0; omega
    | ⟨1, _⟩ => show win4_6.index t (1 : Fin 2) * 32 + 1 * k.val = k.val; omega
  have h7 : ((cfg4.win 7).blk t).view.emb (ix2 (0 : Fin 1) k) = ix2 (0 : Fin 1) k := by
    funext a; apply Fin.ext
    match a with
    | ⟨0, _⟩ => show win4_7.index t (0 : Fin 2) * 1 + 1 * 0 = 0; omega
    | ⟨1, _⟩ => show win4_7.index t (1 : Fin 2) * 32 + 1 * k.val = k.val; omega
  have b4 : iblk4 V c 4 t (ix2 (0 : Fin 1) k) = V c main_v85 (ix2 (0 : Fin 1) k) := by
    show V c main_v85 (((cfg4.win 4).blk t).view.emb (ix2 (0 : Fin 1) k)) = _; rw [h4]
  have b5 : iblk4 V c 5 t (ix2 (0 : Fin 1) k) = V c main_v89 (ix2 (0 : Fin 1) k) := by
    show V c main_v89 (((cfg4.win 5).blk t).view.emb (ix2 (0 : Fin 1) k)) = _; rw [h5]
  have b6 : iblk4 V c 6 t (ix2 (0 : Fin 1) k) = V c main_v91 (ix2 (0 : Fin 1) k) := by
    show V c main_v91 (((cfg4.win 6).blk t).view.emb (ix2 (0 : Fin 1) k)) = _; rw [h6]
  have b7 : iblk4 V c 7 t (ix2 (0 : Fin 1) k) = V c main_v92 (ix2 (0 : Fin 1) k) := by
    show V c main_v92 (((cfg4.win 7).blk t).view.emb (ix2 (0 : Fin 1) k)) = _; rw [h7]
  have h8 : ((cfg4.win 8).blk t).view.emb (ix2 k q) = ix2 k q := by
    funext a; apply Fin.ext
    match a with
    | ⟨0, _⟩ => show win4_8.index t (0 : Fin 2) * 32 + 1 * k.val = k.val; omega
    | ⟨1, _⟩ => show win4_8.index t (1 : Fin 2) * 32 + 1 * q.val = q.val; omega
  have b8 : iblk4 V c 8 t (ix2 k q) = V c main_arg11 (ix2 k q) := by
    show V c main_arg11 (((cfg4.win 8).blk t).view.emb (ix2 k q)) = _; rw [h8]
  rw [hpre, b4, b5, b6, b7, b8]

theorem mem_blk (t : Fin cfg4.N) (i : S100000x32.Idx) :
    i ∈ ((cfg4.win 9).blk t).view.set ↔ ∀ a : Fin 2, win4_9.index t a * S5000x32.size a ≤ (i a).val ∧ (i a).val < win4_9.index t a * S5000x32.size a + S5000x32.size a := by
  show i ∈ ((View.whole main_v93).slice (win4_9.rect t)).set ↔ _
  rw [View.set_slice_whole, Rect.mem_set_unit]
  exact Iff.rfl

theorem cover (i : S100000x32.Idx) : ∃ t : Fin cfg4.N, (cfg4.win 9).flush t = true ∧ i ∈ ((cfg4.win 9).blk t).view.set := by
  have hi0 : (i 0).val < 100000 := (i 0).isLt
  have hi1 : (i 1).val < 32 := (i 1).isLt
  refine ⟨⟨(i 0).val / 5000, by show (i 0).val / 5000 < 20; omega⟩, flush4_9 _, ?_⟩
  rw [mem_blk]
  obtain ⟨e0, e1, e2, e3, e4, e5, e6, e7, e8, e9, e10, e11, e12, e13, e14, e15, e16, e17, e18, e19⟩ := idx_facts ⟨(i 0).val / 5000, by show (i 0).val / 5000 < 20; omega⟩
  intro a
  match a with
  | ⟨0, _⟩ => show win4_9.index _ (0 : Fin 2) * 5000 ≤ (i 0).val ∧ (i 0).val < win4_9.index _ (0 : Fin 2) * 5000 + 5000; rw [e18]; show (i 0).val / 5000 * 5000 ≤ (i 0).val ∧ (i 0).val < (i 0).val / 5000 * 5000 + 5000; omega
  | ⟨1, _⟩ => show win4_9.index _ (1 : Fin 2) * 32 ≤ (i 1).val ∧ (i 1).val < win4_9.index _ (1 : Fin 2) * 32 + 32; rw [e19]; omega

/-- The result array after the region. -/
theorem final (c : Dev nD) : (dat4 V c).arrAt 9 cfg4.N = G V c :=
  (dat4 V c).arrAt_eq_of_cover 9 _ (fun t _ => flushed_eq V c t) cover

end Cert.KernelIdeal.Reg4

end
-- ==== Proof.Region5.lean ====
/-
  A batch-norm statistics region. At a grid point the body forms the pre-activation of its block of 5000 rows
  and adds the block's column sums, and the column sums of the squares, to two running totals it keeps across the
  grid (zeroed at the first point, written back once after the last): the two result arrays end at the column sums
  over all rows.
-/
import proofs.«104369_j66383014527707_2_alg».proof.Proof.RegShared
import proofs.«104369_j66383014527707_2_alg».proof.Proof.LibMatmul

set_option maxRecDepth 16384

noncomputable section

namespace Cert.KernelIdeal.Reg5

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)
open Cert.KernelIdeal.Reg
open Cert.LibBlockSum Cert.LibMatmul

section Pieces
variable {F : FTy → Type} [FloatOps F]

theorem pieceA4 (c : Dev nD) (i : grid5.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : cond5_0 i)
    (x0 : Vec F S5000x32 .f32) (x1 : Vec F S5000x32 .f32) (x2 : Vec F S5000x1 .f32) (x3 : Vec F S1x32 .f32) :
    out5_A_4 (F := F) c i arg1 harg1 arg2 harg2 arg3 harg3 arg4 harg4 arg5 harg5 arg6 harg6 hc0 x0 x1 x2 x3 = k5_pay4 x0 x1 x2 x3 k5_pay1 := by
  unfold out5_A_4
  rw [View.read_writes_eq_canon _ _ _ (cover5_A_4 c i arg1 harg1 arg2 harg2 arg3 harg3 arg4 harg4 arg5 harg5 arg6 harg6 hc0 x0 x1 x2 x3)]
  unfold kernelRun5_A
  dsimp only
  sl_unfold_words
  rw [View.canon_cons_unit_zero hz]
  simp only [View.readAt_eq_ld, harg1.read_unread, harg2.read_unread, harg3.read_unread, harg4.read_unread, harg5.read_unread,
    View.ld_unit_zero (S := S5000x32) hz, View.ld_unit_zero (S := S5000x1) hz, View.ld_unit_zero (S := S1x32) hz,
    View.readCov_unit_zero (S := S1x32) _ hz]

theorem pieceA5 (c : Dev nD) (i : grid5.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : cond5_0 i)
    (x0 : Vec F S5000x32 .f32) (x1 : Vec F S5000x32 .f32) (x2 : Vec F S5000x1 .f32) (x3 : Vec F S1x32 .f32) :
    out5_A_5 (F := F) c i arg1 harg1 arg2 harg2 arg3 harg3 arg4 harg4 arg5 harg5 arg6 harg6 hc0 x0 x1 x2 x3 = k5_pay5 x0 x1 x2 x3 k5_pay2 := by
  unfold out5_A_5
  rw [View.read_writes_eq_canon _ _ _ (cover5_A_5 c i arg1 harg1 arg2 harg2 arg3 harg3 arg4 harg4 arg5 harg5 arg6 harg6 hc0 x0 x1 x2 x3)]
  unfold kernelRun5_A
  dsimp only
  sl_unfold_words
  rw [View.canon_cons_unit_zero hz]
  simp only [View.readAt_eq_ld, harg1.read_unread, harg2.read_unread, harg3.read_unread, harg4.read_unread, harg6.read_unread,
    View.ld_unit_zero (S := S5000x32) hz, View.ld_unit_zero (S := S5000x1) hz, View.ld_unit_zero (S := S1x32) hz,
    View.readCov_unit_zero (S := S1x32) _ hz]

theorem pieceB4 (c : Dev nD) (i : grid5.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : ¬cond5_0 i)
    (x0 : Vec F S5000x32 .f32) (x1 : Vec F S5000x32 .f32) (x2 : Vec F S5000x1 .f32) (x3 : Vec F S1x32 .f32) (xo4 xo5 : Vec F S1x32 .f32) :
    out5_B_4 (F := F) c i arg1 harg1 arg2 harg2 arg3 harg3 arg4 harg4 arg5 harg5 arg6 harg6 hc0 x0 x1 x2 x3 xo4 xo5 = k5_pay4 x0 x1 x2 x3 xo4 := by
  unfold out5_B_4
  rw [View.read_writes_eq_canon _ _ _ (cover5_B_4 c i arg1 harg1 arg2 harg2 arg3 harg3 arg4 harg4 arg5 harg5 arg6 harg6 hc0 x0 x1 x2 x3 xo4 xo5)]
  unfold kernelRun5_B
  dsimp only
  rw [View.canon_unit_zero hz]
  simp only [View.readAt_eq_ld, harg1.read_unread, harg2.read_unread, harg3.read_unread, harg4.read_unread, harg5.read_unread,
    View.ld_unit_zero (S := S5000x32) hz, View.ld_unit_zero (S := S5000x1) hz, View.ld_unit_zero (S := S1x32) hz]

theorem pieceB5 (c : Dev nD) (i : grid5.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S1x32 .f32) (harg5 : arg5.IsWhole) (arg6 : Memref sig .tc .vmem S1x32 .f32) (harg6 : arg6.IsWhole) (hc0 : ¬cond5_0 i)
    (x0 : Vec F S5000x32 .f32) (x1 : Vec F S5000x32 .f32) (x2 : Vec F S5000x1 .f32) (x3 : Vec F S1x32 .f32) (xo4 xo5 : Vec F S1x32 .f32) :
    out5_B_5 (F := F) c i arg1 harg1 arg2 harg2 arg3 harg3 arg4 harg4 arg5 harg5 arg6 harg6 hc0 x0 x1 x2 x3 xo4 xo5 = k5_pay5 x0 x1 x2 x3 xo5 := by
  unfold out5_B_5
  rw [View.read_writes_eq_canon _ _ _ (cover5_B_5 c i arg1 harg1 arg2 harg2 arg3 harg3 arg4 harg4 arg5 harg5 arg6 harg6 hc0 x0 x1 x2 x3 xo4 xo5)]
  unfold kernelRun5_B
  dsimp only
  rw [View.canon_unit_zero hz]
  simp only [View.readAt_eq_ld, harg1.read_unread, harg2.read_unread, harg3.read_unread, harg4.read_unread, harg6.read_unread,
    View.ld_unit_zero (S := S5000x32) hz, View.ld_unit_zero (S := S5000x1) hz, View.ld_unit_zero (S := S1x32) hz]

end Pieces

theorem pay3_apply (x0 x1 : Vec Ideal S5000x32 .f32) (x2 : Vec Ideal S5000x1 .f32) (x3 : Vec Ideal S1x32 .f32)
    (p : Fin 5000) (q : Fin 32) : k5_pay3 (F := Ideal) x0 x1 x2 x3 (ix2 p q) = preB x0 x1 x2 x3 p q := by
  unfold k5_pay3
  simp only [shapeCast_self, bcRow, bcCol]
  rfl

theorem pay4_apply (x0 x1 : Vec Ideal S5000x32 .f32) (x2 : Vec Ideal S5000x1 .f32) (x3 acc : Vec Ideal S1x32 .f32)
    (u : Fin 1) (q : Fin 32) :
    k5_pay4 (F := Ideal) x0 x1 x2 x3 acc (ix2 u q) = acc (ix2 u q) + ∑ p : Fin 5000, preB x0 x1 x2 x3 p q := by
  unfold k5_pay4
  simp only [shapeCast_self]
  show acc (ix2 u q) + shapeCast S1x32 (multiReduction .add [0] S32 (k5_pay3 x0 x1 x2 x3) 0x00000000#32 reduces_S5000x32_S32 (.inl rfl) rfl) shapeCasts_S32_S1x32 (ix2 u q) = _
  rw [colsum_apply]
  congr 1
  exact Finset.sum_congr rfl fun p _ => pay3_apply x0 x1 x2 x3 p q

theorem pay5_apply (x0 x1 : Vec Ideal S5000x32 .f32) (x2 : Vec Ideal S5000x1 .f32) (x3 acc : Vec Ideal S1x32 .f32)
    (u : Fin 1) (q : Fin 32) :
    k5_pay5 (F := Ideal) x0 x1 x2 x3 acc (ix2 u q)
      = acc (ix2 u q) + ∑ p : Fin 5000, preB x0 x1 x2 x3 p q * preB x0 x1 x2 x3 p q := by
  unfold k5_pay5
  simp only [shapeCast_self]
  show acc (ix2 u q) + shapeCast S1x32 (multiReduction .add [0] S32 (mulf (k5_pay3 x0 x1 x2 x3) (k5_pay3 x0 x1 x2 x3)) 0x00000000#32 reduces_S5000x32_S32 (.inl rfl) rfl) shapeCasts_S32_S1x32 (ix2 u q) = _
  rw [colsum_apply]
  congr 1
  refine Finset.sum_congr rfl fun p _ => ?_
  show k5_pay3 x0 x1 x2 x3 (ix2 p q) * k5_pay3 x0 x1 x2 x3 (ix2 p q) = _
  rw [pay3_apply]

theorem pay1_apply (j : S1x32.Idx) : k5_pay1 (F := Ideal) j = 0 := by
  unfold k5_pay1
  show Ideal.ofBits .f32 0x00000000#32 = 0
  exact Ideal.ofBits_zero_f32

theorem pay2_apply (j : S1x32.Idx) : k5_pay2 (F := Ideal) j = 0 := by
  unfold k5_pay2
  show Ideal.ofBits .f32 0x00000000#32 = 0
  exact Ideal.ofBits_zero_f32

variable (V : (c : Dev nD) → (b : Ref sig .tc) → Buf (Elt Ideal) ((c : Thread nD τ).loc b))

theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The pre-activation of the whole arrays as the region finds them. -/
def P (c : Dev nD) : S100000x32.Idx → EReal :=
  preW (V c main_v106) (V c main_v93) (V c main_v42) (V c main_v107)

theorem preB_blk (c : Dev nD) (t : Fin cfg5.N) (p : Fin 5000) (q : Fin 32) :
    preB (iblk5 V c 0 t) (iblk5 V c 1 t) (iblk5 V c 2 t) (iblk5 V c 3 t) p q = P V c (ix2 (rowAt t.val t.isLt p) q) := by
  obtain ⟨e0, e1, e2, e3, e4, e5, e6, e7, e8, e9, e10, e11⟩ := idx_facts t
  have htN : t.val < 20 := t.isLt
  unfold preB P
  rw [preW_apply]
  have h0 : ((cfg5.win 0).blk t).view.emb (ix2 p q) = ix2 (rowAt t.val t.isLt p) q := by
    funext a; apply Fin.ext
    match a with
    | ⟨0, _⟩ => show win5_0.index t (0 : Fin 2) * 5000 + 1 * p.val = t.val * 5000 + p.val; omega
    | ⟨1, _⟩ => show win5_0.index t (1 : Fin 2) * 32 + 1 * q.val = q.val; omega
  have h1 : ((cfg5.win 1).blk t).view.emb (ix2 p q) = ix2 (rowAt t.val t.isLt p) q := by
    funext a; apply Fin.ext
    match a with
    | ⟨0, _⟩ => show win5_1.index t (0 : Fin 2) * 5000 + 1 * p.val = t.val * 5000 + p.val; omega
    | ⟨1, _⟩ => show win5_1.index t (1 : Fin 2) * 32 + 1 * q.val = q.val; omega
  have h2 : ((cfg5.win 2).blk t).view.emb (ix2 p (0 : Fin 1)) = ix2 (rowAt t.val t.isLt p) (0 : Fin 1) := by
    funext a; apply Fin.ext
    match a with
    | ⟨0, _⟩ => show win5_2.index t (0 : Fin 2) * 5000 + 1 * p.val = t.val * 5000 + p.val; omega
    | ⟨1, _⟩ => show win5_2.index t (1 : Fin 2) * 1 + 1 * 0 = 0; omega
  have h3 : ((cfg5.win 3).blk t).view.emb (ix2 (0 : Fin 1) q) = ix2 (0 : Fin 1) q := by
    funext a; apply Fin.ext
    match a with
    | ⟨0, _⟩ => show win5_3.index t (0 : Fin 2) * 1 + 1 * 0 = 0; omega
    | ⟨1, _⟩ => show win5_3.index t (1 : Fin 2) * 32 + 1 * q.val = q.val; omega
  have b0 : iblk5 V c 0 t (ix2 p q) = V c main_v106 (ix2 (rowAt t.val t.isLt p) q) := by
    show V c main_v106 (((cfg5.win 0).blk t).view.emb (ix2 p q)) = _; rw [h0]
  have b1 : iblk5 V c 1 t (ix2 p q) = V c main_v93 (ix2 (rowAt t.val t.isLt p) q) := by
    show V c main_v93 (((cfg5.win 1).blk t).view.emb (ix2 p q)) = _; rw [h1]
  have b2 : iblk5 V c 2 t (ix2 p (0 : Fin 1)) = V c main_v42 (ix2 (rowAt t.val t.isLt p) (0 : Fin 1)) := by
    show V c main_v42 (((cfg5.win 2).blk t).view.emb (ix2 p (0 : Fin 1))) = _; rw [h2]
  have b3 : iblk5 V c 3 t (ix2 (0 : Fin 1) q) = V c main_v107 (ix2 (0 : Fin 1) q) := by
    show V c main_v107 (((cfg5.win 3).blk t).view.emb (ix2 (0 : Fin 1) q)) = _; rw [h3]
  rw [b0, b1, b2, b3]

/-- Block `k`'s contribution to column `q`'s sum, and to its sum of squares. -/
def g (c : Dev nD) (q : Fin 32) (k : ℕ) : EReal :=
  if hk : k < 20 then ∑ p : Fin 5000, P V c (ix2 (rowAt k hk p) q) else 0
def g2 (c : Dev nD) (q : Fin 32) (k : ℕ) : EReal :=
  if hk : k < 20 then ∑ p : Fin 5000, P V c (ix2 (rowAt k hk p) q) * P V c (ix2 (rowAt k hk p) q) else 0

theorem outsAt_cast (c : Dev nD) (k n : ℕ) (hk : k < cfg5.N) (hn : n < cfg5.N) (h : k = n) :
    outsAt5 V c k hk = outsAt5 V c n hn := by subst h; rfl

/-- THE INVARIANT: after point `n` the totals are the running sums of the first `n + 1` blocks' contributions. -/
theorem inv (c : Dev nD) (q : Fin 32) (u : Fin 1) : ∀ (n : ℕ) (hn : n < cfg5.N),
    (outsAt5 V c n hn).1 (ix2 u q) = running (g V c q) (n + 1)
    ∧ (outsAt5 V c n hn).2 (ix2 u q) = running (g2 V c q) (n + 1) := by
  intro n
  induction n with
  | zero =>
    intro hn
    have hA := outsAt5_A V c ⟨0, hn⟩ (Nat.zero_mod _)
    have hk : (0 : ℕ) < 20 := by omega
    constructor
    · rw [show outsAt5 V c 0 hn = _ from hA]
      dsimp only
      rw [pieceA4, pay4_apply, pay1_apply, zero_add, running_succ, running_zero, zero_add]
      unfold g
      rw [dif_pos hk]
      exact Finset.sum_congr rfl fun p _ => preB_blk V c ⟨0, hn⟩ p q
    · rw [show outsAt5 V c 0 hn = _ from hA]
      dsimp only
      rw [pieceA5, pay5_apply, pay2_apply, zero_add, running_succ, running_zero, zero_add]
      unfold g2
      rw [dif_pos hk]
      exact Finset.sum_congr rfl fun p _ => by rw [preB_blk V c ⟨0, hn⟩ p q]
  | succ n ih =>
    intro hn
    have hn20 : n + 1 < 20 := hn
    have h0 : ¬ (n + 1) % 20 = 0 := by omega
    have hB := outsAt5_B V c ⟨n + 1, hn⟩ h0
    have hprev : n < cfg5.N := by show n < 20; omega
    have hcast := outsAt_cast V c (n + 1 - 1) n (Nat.lt_of_le_of_lt (Nat.sub_le _ _) hn) hprev (by omega)
    obtain ⟨ih1, ih2⟩ := ih hprev
    constructor
    · rw [show outsAt5 V c (n + 1) hn = _ from hB]
      dsimp only
      rw [pieceB4, pay4_apply]
      rw [show (outsAt5 V c (n + 1 - 1) (Nat.lt_of_le_of_lt (Nat.sub_le _ _) hn)) = _ from hcast, ih1, running_succ (g V c q) (n + 1)]
      congr 1
      unfold g
      rw [dif_pos hn20]
      exact Finset.sum_congr rfl fun p _ => preB_blk V c ⟨n + 1, hn⟩ p q
    · rw [show outsAt5 V c (n + 1) hn = _ from hB]
      dsimp only
      rw [pieceB5, pay5_apply]
      rw [show (outsAt5 V c (n + 1 - 1) (Nat.lt_of_le_of_lt (Nat.sub_le _ _) hn)) = _ from hcast, ih2, running_succ (g2 V c q) (n + 1)]
      congr 1
      unfold g2
      rw [dif_pos hn20]
      exact Finset.sum_congr rfl fun p _ => by rw [preB_blk V c ⟨n + 1, hn⟩ p q]

theorem last1 (c : Dev nD) (t : Fin cfg5.N) (ht : t.val = 19) (u : Fin 1) (q : Fin 32) :
    (outsAt5 V c t.val t.isLt).1 (ix2 u q) = ∑ r : Fin 100000, P V c (ix2 r q) := by
  rw [outsAt_cast V c t.val 19 t.isLt (by show 19 < 20; omega) ht, (inv V c q u 19 _).1]
  exact running_all (fun r => P V c (ix2 r q)) _ fun k hk => by unfold g; rw [dif_pos hk]

theorem last2 (c : Dev nD) (t : Fin cfg5.N) (ht : t.val = 19) (u : Fin 1) (q : Fin 32) :
    (outsAt5 V c t.val t.isLt).2 (ix2 u q) = ∑ r : Fin 100000, P V c (ix2 r q) * P V c (ix2 r q) := by
  rw [outsAt_cast V c t.val 19 t.isLt (by show 19 < 20; omega) ht, (inv V c q u 19 _).2]
  exact running_all (fun r => P V c (ix2 r q) * P V c (ix2 r q)) _ fun k hk => by unfold g2; rw [dif_pos hk]

theorem mem_blk4 (t : Fin cfg5.N) (i : S1x32.Idx) :
    i ∈ ((cfg5.win 4).blk t).view.set ↔ ∀ a : Fin 2, win5_4.index t a * S1x32.size a ≤ (i a).val ∧ (i a).val < win5_4.index t a * S1x32.size a + S1x32.size a := by
  show i ∈ ((View.whole main_v108_0).slice (win5_4.rect t)).set ↔ _
  rw [View.set_slice_whole, Rect.mem_set_unit]
  exact Iff.rfl

theorem mem_blk5 (t : Fin cfg5.N) (i : S1x32.Idx) :
    i ∈ ((cfg5.win 5).blk t).view.set ↔ ∀ a : Fin 2, win5_5.index t a * S1x32.size a ≤ (i a).val ∧ (i a).val < win5_5.index t a * S1x32.size a + S1x32.size a := by
  show i ∈ ((View.whole main_v108_1).slice (win5_5.rect t)).set ↔ _
  rw [View.set_slice_whole, Rect.mem_set_unit]
  exact Iff.rfl

set_option maxRecDepth 200000 in
theorem flushed4_eq (c : Dev nD) (t : Fin cfg5.N) (hf : (cfg5.win 4).flush t = true) :
    (dat5 V c).flushed 4 t = ((cfg5.win 4).blk t).view.read (Elt Ideal) (colSum (P V c)) := by
  have ht : t.val = 19 := by have := (flush5_4 t).mp hf; have h20 : t.val < 20 := t.isLt; omega
  obtain ⟨e0, e1, e2, e3, e4, e5, e6, e7, e8, e9, e10, e11⟩ := idx_facts t
  show (cfg5.win 4).cut (grid5.coords t) ((dat5 V c).after 4 t) = _
  rw [after5_4]
  funext j
  obtain ⟨u, q, rfl⟩ : ∃ (u : Fin 1) (q : Fin 32), j = ix2 u q := ⟨j 0, j 1, eq_ix2 j⟩
  show (outsAt5 V c t.val t.isLt).1 (ix2 u q) = colSum (P V c) (((cfg5.win 4).blk t).view.emb (ix2 u q))
  rw [last1 V c t ht u q]
  unfold colSum
  have hq : ((((cfg5.win 4).blk t).view.emb (ix2 u q)) 1) = q := by
    apply Fin.ext
    show win5_4.index t (1 : Fin 2) * 32 + 1 * q.val = q.val; omega
  rw [hq]

set_option maxRecDepth 200000 in
theorem flushed5_eq (c : Dev nD) (t : Fin cfg5.N) (hf : (cfg5.win 5).flush t = true) :
    (dat5 V c).flushed 5 t = ((cfg5.win 5).blk t).view.read (Elt Ideal) (colSumSq (P V c)) := by
  have ht : t.val = 19 := by have := (flush5_5 t).mp hf; have h20 : t.val < 20 := t.isLt; omega
  obtain ⟨e0, e1, e2, e3, e4, e5, e6, e7, e8, e9, e10, e11⟩ := idx_facts t
  show (cfg5.win 5).cut (grid5.coords t) ((dat5 V c).after 5 t) = _
  rw [after5_5]
  funext j
  obtain ⟨u, q, rfl⟩ : ∃ (u : Fin 1) (q : Fin 32), j = ix2 u q := ⟨j 0, j 1, eq_ix2 j⟩
  show (outsAt5 V c t.val t.isLt).2 (ix2 u q) = colSumSq (P V c) (((cfg5.win 5).blk t).view.emb (ix2 u q))
  rw [last2 V c t ht u q]
  unfold colSumSq
  have hq : ((((cfg5.win 5).blk t).view.emb (ix2 u q)) 1) = q := by
    apply Fin.ext
    show win5_5.index t (1 : Fin 2) * 32 + 1 * q.val = q.val; omega
  rw [hq]

theorem cover4 (i : S1x32.Idx) : ∃ t : Fin cfg5.N, (cfg5.win 4).flush t = true ∧ i ∈ ((cfg5.win 4).blk t).view.set := by
  have hi0 : (i 0).val < 1 := (i 0).isLt
  have hi1 : (i 1).val < 32 := (i 1).isLt
  refine ⟨⟨19, by show 19 < 20; omega⟩, (flush5_4 _).mpr (by rfl), ?_⟩
  rw [mem_blk4]
  obtain ⟨e0, e1, e2, e3, e4, e5, e6, e7, e8, e9, e10, e11⟩ := idx_facts ⟨19, by show 19 < 20; omega⟩
  intro a
  match a with
  | ⟨0, _⟩ => show win5_4.index _ (0 : Fin 2) * 1 ≤ (i 0).val ∧ (i 0).val < win5_4.index _ (0 : Fin 2) * 1 + 1; rw [e8]; omega
  | ⟨1, _⟩ => show win5_4.index _ (1 : Fin 2) * 32 ≤ (i 1).val ∧ (i 1).val < win5_4.index _ (1 : Fin 2) * 32 + 32; rw [e9]; omega

theorem cover5 (i : S1x32.Idx) : ∃ t : Fin cfg5.N, (cfg5.win 5).flush t = true ∧ i ∈ ((cfg5.win 5).blk t).view.set := by
  have hi0 : (i 0).val < 1 := (i 0).isLt
  have hi1 : (i 1).val < 32 := (i 1).isLt
  refine ⟨⟨19, by show 19 < 20; omega⟩, (flush5_5 _).mpr (by rfl), ?_⟩
  rw [mem_blk5]
  obtain ⟨e0, e1, e2, e3, e4, e5, e6, e7, e8, e9, e10, e11⟩ := idx_facts ⟨19, by show 19 < 20; omega⟩
  intro a
  match a with
  | ⟨0, _⟩ => show win5_5.index _ (0 : Fin 2) * 1 ≤ (i 0).val ∧ (i 0).val < win5_5.index _ (0 : Fin 2) * 1 + 1; rw [e10]; omega
  | ⟨1, _⟩ => show win5_5.index _ (1 : Fin 2) * 32 ≤ (i 1).val ∧ (i 1).val < win5_5.index _ (1 : Fin 2) * 32 + 32; rw [e11]; omega

/-- The two result arrays after the region: the column sums of the pre-activation and of its square. -/
theorem final4 (c : Dev nD) : (dat5 V c).arrAt 4 cfg5.N = colSum (P V c) :=
  (dat5 V c).arrAt_eq_of_cover 4 _ (fun t hf => flushed4_eq V c t hf) cover4

theorem final5 (c : Dev nD) : (dat5 V c).arrAt 5 cfg5.N = colSumSq (P V c) :=
  (dat5 V c).arrAt_eq_of_cover 5 _ (fun t hf => flushed5_eq V c t hf) cover5

end Cert.KernelIdeal.Reg5

end
-- ==== Proof.Region6.lean ====
/-
  The fused region of a hidden layer: batch norm, rectifier, and the next layer's dense projection. Each grid
  point forms its block's pre-activation, normalises it with the layer's mean and variance, scales, shifts, rectifies,
  and multiplies by the whole next weight matrix; the result array ends holding the product of the activated
  pre-activation of the whole arrays with that matrix.
-/
import proofs.«104369_j66383014527707_2_alg».proof.Proof.RegShared
import proofs.«104369_j66383014527707_2_alg».proof.Proof.LibMatmul

set_option maxRecDepth 16384

noncomputable section

namespace Cert.KernelIdeal.Reg6

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)
open Cert.KernelIdeal.Reg
open Cert.LibBlockSum Cert.LibMatmul

variable (V : (c : Dev nD) → (b : Ref sig .tc) → Buf (Elt Ideal) ((c : Thread nD τ).loc b))

/-- The body's payload: the block's activated pre-activation times the weight matrix. -/
theorem pay_eq (x0 x1 : Vec Ideal S5000x32 .f32) (x2 : Vec Ideal S5000x1 .f32) (x3 x4 x5 x6 x7 : Vec Ideal S1x32 .f32)
    (x8 : Vec Ideal S32x32 .f32) :
    k6_pay1 (F := Ideal) x0 x1 x2 x3 x4 x5 x6 x7 x8
      = MM (A := 5000) (K := 32) (B := 32)
          (fun i => act (preB x0 x1 x2 x3 (i 0) (i 1)) (x4 (ix2 (0 : Fin 1) (i 1))) (x5 (ix2 (0 : Fin 1) (i 1)))
            (x6 (ix2 (0 : Fin 1) (i 1))) (x7 (ix2 (0 : Fin 1) (i 1)))) x8 := by
  unfold k6_pay1
  simp only [shapeCast_self, bcRow, bcCol]
  refine (matmul_zero_eq dot_S5000x32_S32x32_S5000x32_1_0_0_1_n_n rfl rfl rfl rfl rfl rfl none _ _).trans ?_
  refine congrArg₂ (MM (A := 5000) (K := 32) (B := 32)) ?_ rfl
  funext i
  obtain ⟨p, k, rfl⟩ : ∃ (p : Fin 5000) (k : Fin 32), i = ix2 p k := ⟨i 0, i 1, eq_ix2 i⟩
  rfl

theorem idx_facts : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = t.val ∧ win6_9.index t (1 : Fin 2) = 0 :=
  (by decide +kernel : ∀ t : Fin grid6.N, _)

/-- The layer's pre-activation, and the region's result, as functions of the arrays the region finds. -/
def P (c : Dev nD) : S100000x32.Idx → EReal :=
  preW (V c main_v106) (V c main_v93) (V c main_v42) (V c main_v115)
def G (c : Dev nD) : S100000x32.Idx → EReal :=
  MM (A := 100000) (K := 32) (B := 32) (actW (P V c) (V c main_v110) (V c main_v114) (V c main_v116) (V c main_v117)) (V c main_arg15)

set_option maxHeartbeats 2000000 in
/-- What point `t` writes back is block `t` of that product. -/
theorem flushed_eq (c : Dev nD) (t : Fin cfg6.N) :
    (dat6 V c).flushed 9 t = ((cfg6.win 9).blk t).view.read (Elt Ideal) (G V c) := by
  show (cfg6.win 9).cut (grid6.coords t) ((dat6 V c).after 9 t) = _
  rw [after6_9]
  unfold out6_9
  rw [View.canon_unit_zero hz]
  simp only [View.ld_unit_zero (S := S5000x32) hz, View.ld_unit_zero (S := S5000x1) hz, View.ld_unit_zero (S := S1x32) hz,
    View.ld_unit_zero (S := S32x32) hz]
  rw [pay_eq]
  obtain ⟨e0, e1, e2, e3, e4, e5, e6, e7, e8, e9, e10, e11, e12, e13, e14, e15, e16, e17, e18, e19⟩ := idx_facts t
  funext j
  obtain ⟨p, q, rfl⟩ : ∃ (p : Fin 5000) (q : Fin 32), j = ix2 p q := ⟨j 0, j 1, eq_ix2 j⟩
  have htN : t.val < 20 := t.isLt
  have hemb : ((cfg6.win 9).blk t).view.emb (ix2 p q) = ix2 (rowAt t.val t.isLt p) q := by
    funext a; apply Fin.ext
    match a with
    | ⟨0, _⟩ => show win6_9.index t (0 : Fin 2) * 5000 + 1 * p.val = t.val * 5000 + p.val; omega
    | ⟨1, _⟩ => show win6_9.index t (1 : Fin 2) * 32 + 1 * q.val = q.val; omega
  show MM (A := 5000) (K := 32) (B := 32) _ (iblk6 V c 8 t) (ix2 p q) = G V c (((cfg6.win 9).blk t).view.emb (ix2 p q))
  rw [hemb]
  unfold G
  rw [MM_apply, MM_apply]
  refine Finset.sum_congr rfl fun k _ => ?_
  show act (preB (iblk6 V c 0 t) (iblk6 V c 1 t) (iblk6 V c 2 t) (iblk6 V c 3 t) p k)
      (iblk6 V c 4 t (ix2 (0 : Fin 1) k)) (iblk6 V c 5 t (ix2 (0 : Fin 1) k)) (iblk6 V c 6 t (ix2 (0 : Fin 1) k))
      (iblk6 V c 7 t (ix2 (0 : Fin 1) k)) * iblk6 V c 8 t (ix2 k q)
    = actW (P V c) (V c main_v110) (V c main_v114) (V c main_v116) (V c main_v117) (ix2 (rowAt t.val t.isLt p) k) * V c main_arg15 (ix2 k q)
  rw [actW_apply]
  have hpre : preB (iblk6 V c 0 t) (iblk6 V c 1 t) (iblk6 V c 2 t) (iblk6 V c 3 t) p k = P V c (ix2 (rowAt t.val t.isLt p) k) := by
    unfold preB P
    rw [preW_apply]
    have h0 : ((cfg6.win 0).blk t).view.emb (ix2 p k) = ix2 (rowAt t.val t.isLt p) k := by
      funext a; apply Fin.ext
      match a with
      | ⟨0, _⟩ => show win6_0.index t (0 : Fin 2) * 5000 + 1 * p.val = t.val * 5000 + p.val; omega
      | ⟨1, _⟩ => show win6_0.index t (1 : Fin 2) * 32 + 1 * k.val = k.val; omega
    have h1 : ((cfg6.win 1).blk t).view.emb (ix2 p k) = ix2 (rowAt t.val t.isLt p) k := by
      funext a; apply Fin.ext
      match a with
      | ⟨0, _⟩ => show win6_1.index t (0 : Fin 2) * 5000 + 1 * p.val = t.val * 5000 + p.val; omega
      | ⟨1, _⟩ => show win6_1.index t (1 : Fin 2) * 32 + 1 * k.val = k.val; omega
    have h2 : ((cfg6.win 2).blk t).view.emb (ix2 p (0 : Fin 1)) = ix2 (rowAt t.val t.isLt p) (0 : Fin 1) := by
      funext a; apply Fin.ext
      match a with
      | ⟨0, _⟩ => show win6_2.index t (0 : Fin 2) * 5000 + 1 * p.val = t.val * 5000 + p.val; omega
      | ⟨1, _⟩ => show win6_2.index t (1 : Fin 2) * 1 + 1 * 0 = 0; omega
    have h3 : ((cfg6.win 3).blk t).view.emb (ix2 (0 : Fin 1) k) = ix2 (0 : Fin 1) k := by
      funext a; apply Fin.ext
      match a with
      | ⟨0, _⟩ => show win6_3.index t (0 : Fin 2) * 1 + 1 * 0 = 0; omega
      | ⟨1, _⟩ => show win6_3.index t (1 : Fin 2) * 32 + 1 * k.val = k.val; omega
    have b0 : iblk6 V c 0 t (ix2 p k) = V c main_v106 (ix2 (rowAt t.val t.isLt p) k) := by
      show V c main_v106 (((cfg6.win 0).blk t).view.emb (ix2 p k)) = _; rw [h0]
    have b1 : iblk6 V c 1 t (ix2 p k) = V c main_v93 (ix2 (rowAt t.val t.isLt p) k) := by
      show V c main_v93 (((cfg6.win 1).blk t).view.emb (ix2 p k)) = _; rw [h1]
    have b2 : iblk6 V c 2 t (ix2 p (0 : Fin 1)) = V c main_v42 (ix2 (rowAt t.val t.isLt p) (0 : Fin 1)) := by
      show V c main_v42 (((cfg6.win 2).blk t).view.emb (ix2 p (0 : Fin 1))) = _; rw [h2]
    have b3 : iblk6 V c 3 t (ix2 (0 : Fin 1) k) = V c main_v115 (ix2 (0 : Fin 1) k) := by
      show V c main_v115 (((cfg6.win 3).blk t).view.emb (ix2 (0 : Fin 1) k)) = _; rw [h3]
    rw [b0, b1, b2, b3]
  have h4 : ((cfg6.win 4).blk t).view.emb (ix2 (0 : Fin 1) k) = ix2 (0 : Fin 1) k := by
    funext a; apply Fin.ext
    match a with
    | ⟨0, _⟩ => show win6_4.index t (0 : Fin 2) * 1 + 1 * 0 = 0; omega
    | ⟨1, _⟩ => show win6_4.index t (1 : Fin 2) * 32 + 1 * k.val = k.val; omega
  have h5 : ((cfg6.win 5).blk t).view.emb (ix2 (0 : Fin 1) k) = ix2 (0 : Fin 1) k := by
    funext a; apply Fin.ext
    match a with
    | ⟨0, _⟩ => show win6_5.index t (0 : Fin 2) * 1 + 1 * 0 = 0; omega
    | ⟨1, _⟩ => show win6_5.index t (1 : Fin 2) * 32 + 1 * k.val = k.val; omega
  have h6 : ((cfg6.win 6).blk t).view.emb (ix2 (0 : Fin 1) k) = ix2 (0 : Fin 1) k := by
    funext a; apply Fin.ext
    match a with
    | ⟨0, _⟩ => show win6_6.index t (0 : Fin 2) * 1 + 1 * 0 = 0; omega
    | ⟨1, _⟩ => show win6_6.index t (1 : Fin 2) * 32 + 1 * k.val = k.val; omega
  have h7 : ((cfg6.win 7).blk t).view.emb (ix2 (0 : Fin 1) k) = ix2 (0 : Fin 1) k := by
    funext a; apply Fin.ext
    match a with
    | ⟨0, _⟩ => show win6_7.index t (0 : Fin 2) * 1 + 1 * 0 = 0; omega
    | ⟨1, _⟩ => show win6_7.index t (1 : Fin 2) * 32 + 1 * k.val = k.val; omega
  have b4 : iblk6 V c 4 t (ix2 (0 : Fin 1) k) = V c main_v110 (ix2 (0 : Fin 1) k) := by
    show V c main_v110 (((cfg6.win 4).blk t).view.emb (ix2 (0 : Fin 1) k)) = _; rw [h4]
  have b5 : iblk6 V c 5 t (ix2 (0 : Fin 1) k) = V c main_v114 (ix2 (0 : Fin 1) k) := by
    show V c main_v114 (((cfg6.win 5).blk t).view.emb (ix2 (0 : Fin 1) k)) = _; rw [h5]
  have b6 : iblk6 V c 6 t (ix2 (0 : Fin 1) k) = V c main_v116 (ix2 (0 : Fin 1) k) := by
    show V c main_v116 (((cfg6.win 6).blk t).view.emb (ix2 (0 : Fin 1) k)) = _; rw [h6]
  have b7 : iblk6 V c 7 t (ix2 (0 : Fin 1) k) = V c main_v117 (ix2 (0 : Fin 1) k) := by
    show V c main_v117 (((cfg6.win 7).blk t).view.emb (ix2 (0 : Fin 1) k)) = _; rw [h7]
  have h8 : ((cfg6.win 8).blk t).view.emb (ix2 k q) = ix2 k q := by
    funext a; apply Fin.ext
    match a with
    | ⟨0, _⟩ => show win6_8.index t (0 : Fin 2) * 32 + 1 * k.val = k.val; omega
    | ⟨1, _⟩ => show win6_8.index t (1 : Fin 2) * 32 + 1 * q.val = q.val; omega
  have b8 : iblk6 V c 8 t (ix2 k q) = V c main_arg15 (ix2 k q) := by
    show V c main_arg15 (((cfg6.win 8).blk t).view.emb (ix2 k q)) = _; rw [h8]
  rw [hpre, b4, b5, b6, b7, b8]

theorem mem_blk (t : Fin cfg6.N) (i : S100000x32.Idx) :
    i ∈ ((cfg6.win 9).blk t).view.set ↔ ∀ a : Fin 2, win6_9.index t a * S5000x32.size a ≤ (i a).val ∧ (i a).val < win6_9.index t a * S5000x32.size a + S5000x32.size a := by
  show i ∈ ((View.whole main_v118).slice (win6_9.rect t)).set ↔ _
  rw [View.set_slice_whole, Rect.mem_set_unit]
  exact Iff.rfl

theorem cover (i : S100000x32.Idx) : ∃ t : Fin cfg6.N, (cfg6.win 9).flush t = true ∧ i ∈ ((cfg6.win 9).blk t).view.set := by
  have hi0 : (i 0).val < 100000 := (i 0).isLt
  have hi1 : (i 1).val < 32 := (i 1).isLt
  refine ⟨⟨(i 0).val / 5000, by show (i 0).val / 5000 < 20; omega⟩, flush6_9 _, ?_⟩
  rw [mem_blk]
  obtain ⟨e0, e1, e2, e3, e4, e5, e6, e7, e8, e9, e10, e11, e12, e13, e14, e15, e16, e17, e18, e19⟩ := idx_facts ⟨(i 0).val / 5000, by show (i 0).val / 5000 < 20; omega⟩
  intro a
  match a with
  | ⟨0, _⟩ => show win6_9.index _ (0 : Fin 2) * 5000 ≤ (i 0).val ∧ (i 0).val < win6_9.index _ (0 : Fin 2) * 5000 + 5000; rw [e18]; show (i 0).val / 5000 * 5000 ≤ (i 0).val ∧ (i 0).val < (i 0).val / 5000 * 5000 + 5000; omega
  | ⟨1, _⟩ => show win6_9.index _ (1 : Fin 2) * 32 ≤ (i 1).val ∧ (i 1).val < win6_9.index _ (1 : Fin 2) * 32 + 32; rw [e19]; omega

/-- The result array after the region. -/
theorem final (c : Dev nD) : (dat6 V c).arrAt 9 cfg6.N = G V c :=
  (dat6 V c).arrAt_eq_of_cover 9 _ (fun t _ => flushed_eq V c t) cover

end Cert.KernelIdeal.Reg6

end
-- ==== Proof.Region7.lean ====
/-
  The last tiled region: the final layer's output. Each grid point forms, for its block of 5000 rows, the
  aggregate plus the self-loop term plus the bias, and writes the block back: the result array is that expression
  of the whole arrays, row by row.
-/
import proofs.«104369_j66383014527707_2_alg».proof.Proof.RegShared

set_option maxRecDepth 16384

noncomputable section

namespace Cert.KernelIdeal.Reg7

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.KernelIdeal.Reg

variable (V : (c : Dev nD) → (b : Ref sig .tc) → Buf (Elt Ideal) ((c : Thread nD τ).loc b))

theorem pay_apply (x0 x1 : Vec Ideal S5000x32 .f32) (x2 : Vec Ideal S5000x1 .f32) (x3 : Vec Ideal S1x32 .f32)
    (p : Fin 5000) (q : Fin 32) : k7_pay1 (F := Ideal) x0 x1 x2 x3 (ix2 p q) = preB x0 x1 x2 x3 p q := by
  unfold k7_pay1
  simp only [shapeCast_self, bcRow, bcCol]
  rfl

theorem idx_facts : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- What point `t` writes back is block `t` of the pre-activation of the whole arrays. -/
theorem flushed_eq (c : Dev nD) (t : Fin cfg7.N) :
    (dat7 V c).flushed 4 t = ((cfg7.win 4).blk t).view.read (Elt Ideal)
      (preW (V c main_v131) (V c main_v118) (V c main_v42) (V c main_v132)) := by
  show (cfg7.win 4).cut (grid7.coords t) ((dat7 V c).after 4 t) = _
  rw [after7_4]
  unfold out7_4
  rw [View.canon_unit_zero hz]
  simp only [View.ld_unit_zero (S := S5000x32) hz, View.ld_unit_zero (S := S5000x1) hz, View.ld_unit_zero (S := S1x32) hz]
  obtain ⟨e0, e1, e2, e3, e4, e5, e6, e7, e8, e9⟩ := idx_facts t
  funext j
  obtain ⟨p, q, rfl⟩ : ∃ (p : Fin 5000) (q : Fin 32), j = ix2 p q := ⟨j 0, j 1, eq_ix2 j⟩
  have htN : t.val < 20 := t.isLt
  let r : Fin 100000 := ⟨t.val * 5000 + p.val, by have := p.isLt; omega⟩
  have hemb : ((cfg7.win 4).blk t).view.emb (ix2 p q) = ix2 r q := by
    funext a; apply Fin.ext
    match a with
    | ⟨0, _⟩ => show win7_4.index t (0 : Fin 2) * 5000 + 1 * p.val = t.val * 5000 + p.val; omega
    | ⟨1, _⟩ => show win7_4.index t (1 : Fin 2) * 32 + 1 * q.val = q.val; omega
  show k7_pay1 (F := Ideal) (iblk7 V c 0 t) (iblk7 V c 1 t) (iblk7 V c 2 t) (iblk7 V c 3 t) (ix2 p q)
    = preW (V c main_v131) (V c main_v118) (V c main_v42) (V c main_v132) (((cfg7.win 4).blk t).view.emb (ix2 p q))
  rw [hemb, pay_apply, preW_apply]
  unfold preB
  have h0 : ((cfg7.win 0).blk t).view.emb (ix2 p q) = ix2 r q := by
    funext a; apply Fin.ext
    match a with
    | ⟨0, _⟩ => show win7_0.index t (0 : Fin 2) * 5000 + 1 * p.val = t.val * 5000 + p.val; omega
    | ⟨1, _⟩ => show win7_0.index t (1 : Fin 2) * 32 + 1 * q.val = q.val; omega
  have h1 : ((cfg7.win 1).blk t).view.emb (ix2 p q) = ix2 r q := by
    funext a; apply Fin.ext
    match a with
    | ⟨0, _⟩ => show win7_1.index t (0 : Fin 2) * 5000 + 1 * p.val = t.val * 5000 + p.val; omega
    | ⟨1, _⟩ => show win7_1.index t (1 : Fin 2) * 32 + 1 * q.val = q.val; omega
  have h2 : ((cfg7.win 2).blk t).view.emb (ix2 p (0 : Fin 1)) = ix2 r (0 : Fin 1) := by
    funext a; apply Fin.ext
    match a with
    | ⟨0, _⟩ => show win7_2.index t (0 : Fin 2) * 5000 + 1 * p.val = t.val * 5000 + p.val; omega
    | ⟨1, _⟩ => show win7_2.index t (1 : Fin 2) * 1 + 1 * 0 = 0; omega
  have h3 : ((cfg7.win 3).blk t).view.emb (ix2 (0 : Fin 1) q) = ix2 (0 : Fin 1) q := by
    funext a; apply Fin.ext
    match a with
    | ⟨0, _⟩ => show win7_3.index t (0 : Fin 2) * 1 + 1 * 0 = 0; omega
    | ⟨1, _⟩ => show win7_3.index t (1 : Fin 2) * 32 + 1 * q.val = q.val; omega
  have b0 : iblk7 V c 0 t (ix2 p q) = V c main_v131 (ix2 r q) := by
    show V c main_v131 (((cfg7.win 0).blk t).view.emb (ix2 p q)) = _; rw [h0]
  have b1 : iblk7 V c 1 t (ix2 p q) = V c main_v118 (ix2 r q) := by
    show V c main_v118 (((cfg7.win 1).blk t).view.emb (ix2 p q)) = _; rw [h1]
  have b2 : iblk7 V c 2 t (ix2 p (0 : Fin 1)) = V c main_v42 (ix2 r (0 : Fin 1)) := by
    show V c main_v42 (((cfg7.win 2).blk t).view.emb (ix2 p (0 : Fin 1))) = _; rw [h2]
  have b3 : iblk7 V c 3 t (ix2 (0 : Fin 1) q) = V c main_v132 (ix2 (0 : Fin 1) q) := by
    show V c main_v132 (((cfg7.win 3).blk t).view.emb (ix2 (0 : Fin 1) q)) = _; rw [h3]
  rw [b0, b1, b2, b3]

theorem mem_blk (t : Fin cfg7.N) (i : S100000x32.Idx) :
    i ∈ ((cfg7.win 4).blk t).view.set ↔ ∀ a : Fin 2, win7_4.index t a * S5000x32.size a ≤ (i a).val ∧ (i a).val < win7_4.index t a * S5000x32.size a + S5000x32.size a := by
  show i ∈ ((View.whole main_v133).slice (win7_4.rect t)).set ↔ _
  rw [View.set_slice_whole, Rect.mem_set_unit]
  exact Iff.rfl

theorem cover (i : S100000x32.Idx) : ∃ t : Fin cfg7.N, (cfg7.win 4).flush t = true ∧ i ∈ ((cfg7.win 4).blk t).view.set := by
  have hi0 : (i 0).val < 100000 := (i 0).isLt
  have hi1 : (i 1).val < 32 := (i 1).isLt
  refine ⟨⟨(i 0).val / 5000, by show (i 0).val / 5000 < 20; omega⟩, flush7_4 _, ?_⟩
  rw [mem_blk]
  obtain ⟨e0, e1, e2, e3, e4, e5, e6, e7, e8, e9⟩ := idx_facts ⟨(i 0).val / 5000, by show (i 0).val / 5000 < 20; omega⟩
  intro a
  match a with
  | ⟨0, _⟩ => show win7_4.index _ (0 : Fin 2) * 5000 ≤ (i 0).val ∧ (i 0).val < win7_4.index _ (0 : Fin 2) * 5000 + 5000; rw [e8]; show (i 0).val / 5000 * 5000 ≤ (i 0).val ∧ (i 0).val < (i 0).val / 5000 * 5000 + 5000; omega
  | ⟨1, _⟩ => show win7_4.index _ (1 : Fin 2) * 32 ≤ (i 1).val ∧ (i 1).val < win7_4.index _ (1 : Fin 2) * 32 + 32; rw [e9]; omega

/-- The output array after the region: the pre-activation of the arrays as the region finds them. -/
theorem final (c : Dev nD) :
    (dat7 V c).arrAt 4 cfg7.N = preW (V c main_v131) (V c main_v118) (V c main_v42) (V c main_v132) :=
  (dat7 V c).arrAt_eq_of_cover 4 _ (fun t _ => flushed_eq V c t) cover

end Cert.KernelIdeal.Reg7

end
-- ==== Proof.KValue.lean ====
/-
  The kernel program's result as a function of its arguments: the fold of its nineteen segments read at the result
  buffer, boundary by boundary — each stretch of host operations by what it computes, each tiled region by the
  array it leaves.
-/
import proofs.«104369_j66383014527707_2_alg».proof.Proof.KHost
import proofs.«104369_j66383014527707_2_alg».proof.Proof.Keep
import proofs.«104369_j66383014527707_2_alg».proof.Proof.Region0
import proofs.«104369_j66383014527707_2_alg».proof.Proof.Region1
import proofs.«104369_j66383014527707_2_alg».proof.Proof.Region2
import proofs.«104369_j66383014527707_2_alg».proof.Proof.Region3
import proofs.«104369_j66383014527707_2_alg».proof.Proof.Region4
import proofs.«104369_j66383014527707_2_alg».proof.Proof.Region5
import proofs.«104369_j66383014527707_2_alg».proof.Proof.Region6
import proofs.«104369_j66383014527707_2_alg».proof.Proof.Region7

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Cert.KernelIdeal.Chain Cert.KernelIdeal.Spec Cert.KernelIdeal.KHost Cert.KernelIdeal.Reg Cert.LibMatmul

variable (m : (ℓ : Loc nD τ sig) → Buf (Elt Ideal) ℓ) (ρ : Dev nD → PrngReg)

set_option maxHeartbeats 4000000 in
/-- The result buffer at the last boundary is the network of the argument arrays as launched. -/
theorem kernel_value (c : Dev nD) :
    W19 m ρ c (Proc.devRef .tc main_v145) = kNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have e1_v1 : W1 m ρ c (Proc.devRef .tc main_v1) = srcOf (m ((c : Thread nD τ).loc main_arg1)) :=
    h0_src (W0 m ρ c)
  have e1_v3 : W1 m ρ c (Proc.devRef .tc main_v3) = dstOf (m ((c : Thread nD τ).loc main_arg1)) :=
    h0_dst (W0 m ρ c)
  have e2_v1 : W2 m ρ c (Proc.devRef .tc main_v1) = srcOf (m ((c : Thread nD τ).loc main_arg1)) :=
    (Keep.keep_hostOps0_1 (W1 m ρ c) main_v1 (by decide)).trans e1_v1
  have e2_v3 : W2 m ρ c (Proc.devRef .tc main_v3) = dstOf (m ((c : Thread nD τ).loc main_arg1)) :=
    (Keep.keep_hostOps0_1 (W1 m ρ c) main_v3 (by decide)).trans e1_v3
  have e2_v4 : W2 m ρ c (Proc.devRef .tc main_v4) = sortIdx (dstOf (m ((c : Thread nD τ).loc main_arg1))) :=
    (h01_sort (W1 m ρ c)).trans (congrArg sortIdx e1_v3)
  have e3_v11 : W3 m ρ c (Proc.devRef .tc main_v11) = srcS (m ((c : Thread nD τ).loc main_arg1)) :=
    (h02_srcS (W2 m ρ c)).trans (by rw [e2_v1, e2_v4]; rfl)
  have e3_v18 : W3 m ρ c (Proc.devRef .tc main_v18) = dstS (m ((c : Thread nD τ).loc main_arg1)) :=
    (h02_dstS (W2 m ρ c)).trans (by rw [e2_v3, e2_v4]; rfl)
  have e3_v40 : W3 m ρ c (Proc.devRef .tc main_v40) = normOf (dinvK (m ((c : Thread nD τ).loc main_arg1))) (srcS (m ((c : Thread nD τ).loc main_arg1))) (dstS (m ((c : Thread nD τ).loc main_arg1))) :=
    (h02_nrm (W2 m ρ c)).trans (by rw [e2_v1, e2_v3, e2_v4]; rfl)
  have e3_v42 : W3 m ρ c (Proc.devRef .tc main_v42) = ssOf (dinvK (m ((c : Thread nD τ).loc main_arg1))) :=
    (h02_ss (W2 m ρ c)).trans (by rw [e2_v3, e2_v4]; rfl)
  have e4_h : W4 m ρ c (Proc.devRef .tc main_v43) = (MM (A := 100000) (K := 128) (B := 32) (m ((c : Thread nD τ).loc main_arg0)) (m ((c : Thread nD τ).loc main_arg3))) :=
    (W4_arr m ρ c 2).trans ((Reg0.final (V3 m ρ) c).trans (by
      rw [show V3 m ρ c main_arg0 = (m ((c : Thread nD τ).loc main_arg0)) from ((Keep.keep_hostOps0_2 (W2 m ρ c) main_arg0 (by decide)).trans ((Keep.keep_hostOps0_1 (W1 m ρ c) main_arg0 (by decide)).trans (Keep.keep_hostOps0 (W0 m ρ c) main_arg0 (by decide)))), show V3 m ρ c main_arg3 = (m ((c : Thread nD τ).loc main_arg3)) from ((Keep.keep_hostOps0_2 (W2 m ρ c) main_arg3 (by decide)).trans ((Keep.keep_hostOps0_1 (W1 m ρ c) main_arg3 (by decide)).trans (Keep.keep_hostOps0 (W0 m ρ c) main_arg3 (by decide))))]))
  have e5_agg : W5 m ρ c (Proc.devRef .tc main_v56) = (aggOf (F := Ideal) (MM (A := 100000) (K := 128) (B := 32) (m ((c : Thread nD τ).loc main_arg0)) (m ((c : Thread nD τ).loc main_arg3))) (normOf (dinvK (m ((c : Thread nD τ).loc main_arg1))) (srcS (m ((c : Thread nD τ).loc main_arg1))) (dstS (m ((c : Thread nD τ).loc main_arg1)))) (srcS (m ((c : Thread nD τ).loc main_arg1))) (dstS (m ((c : Thread nD τ).loc main_arg1)))) :=
    (h1_agg (W4 m ρ c)).trans (by
      rw [show W4 m ρ c (Proc.devRef .tc main_v43) = _ from e4_h, show W4 m ρ c (Proc.devRef .tc main_v40) = _ from (W4_of_ne m ρ c main_v40 (by decide)).trans e3_v40, show W4 m ρ c (Proc.devRef .tc main_v11) = _ from (W4_of_ne m ρ c main_v11 (by decide)).trans e3_v11, show W4 m ρ c (Proc.devRef .tc main_v18) = _ from (W4_of_ne m ρ c main_v18 (by decide)).trans e3_v18])
  have e5_b : W5 m ρ c (Proc.devRef .tc main_v57) = rowV (m ((c : Thread nD τ).loc main_arg4)) :=
    (h1_b (W4 m ρ c)).trans (congrArg rowV ((W4_of_ne m ρ c main_arg4 (by decide)).trans ((Keep.keep_hostOps0_2 (W2 m ρ c) main_arg4 (by decide)).trans ((Keep.keep_hostOps0_1 (W1 m ρ c) main_arg4 (by decide)).trans (Keep.keep_hostOps0 (W0 m ρ c) main_arg4 (by decide))))))
  have e5_P : Reg1.P (V5 m ρ) c = (preK (m ((c : Thread nD τ).loc main_arg1)) (MM (A := 100000) (K := 128) (B := 32) (m ((c : Thread nD τ).loc main_arg0)) (m ((c : Thread nD τ).loc main_arg3))) (m ((c : Thread nD τ).loc main_arg4))) :=
    by
      show preW (V5 m ρ c main_v56) (V5 m ρ c main_v43) (V5 m ρ c main_v42) (V5 m ρ c main_v57) = (preW (aggOf (F := Ideal) (MM (A := 100000) (K := 128) (B := 32) (m ((c : Thread nD τ).loc main_arg0)) (m ((c : Thread nD τ).loc main_arg3))) (normOf (dinvK (m ((c : Thread nD τ).loc main_arg1))) (srcS (m ((c : Thread nD τ).loc main_arg1))) (dstS (m ((c : Thread nD τ).loc main_arg1)))) (srcS (m ((c : Thread nD τ).loc main_arg1))) (dstS (m ((c : Thread nD τ).loc main_arg1)))) (MM (A := 100000) (K := 128) (B := 32) (m ((c : Thread nD τ).loc main_arg0)) (m ((c : Thread nD τ).loc main_arg3))) (ssOf (dinvK (m ((c : Thread nD τ).loc main_arg1)))) (rowV (m ((c : Thread nD τ).loc main_arg4))))
      rw [show V5 m ρ c main_v56 = _ from e5_agg, show V5 m ρ c main_v43 = _ from (Keep.keep_hostOps1 (W4 m ρ c) main_v43 (by decide)).trans e4_h, show V5 m ρ c main_v42 = _ from ((Keep.keep_hostOps1 (W4 m ρ c) main_v42 (by decide)).trans (W4_of_ne m ρ c main_v42 (by decide))).trans e3_v42, show V5 m ρ c main_v57 = _ from e5_b]
  have e6_s : W6 m ρ c (Proc.devRef .tc main_v58_0) = colSum (preK (m ((c : Thread nD τ).loc main_arg1)) (MM (A := 100000) (K := 128) (B := 32) (m ((c : Thread nD τ).loc main_arg0)) (m ((c : Thread nD τ).loc main_arg3))) (m ((c : Thread nD τ).loc main_arg4))) :=
    (W6_arr m ρ c 4).trans ((Reg1.final4 (V5 m ρ) c).trans (congrArg colSum e5_P))
  have e6_s2 : W6 m ρ c (Proc.devRef .tc main_v58_1) = colSumSq (preK (m ((c : Thread nD τ).loc main_arg1)) (MM (A := 100000) (K := 128) (B := 32) (m ((c : Thread nD τ).loc main_arg0)) (m ((c : Thread nD τ).loc main_arg3))) (m ((c : Thread nD τ).loc main_arg4))) :=
    (W6_arr m ρ c 5).trans ((Reg1.final5 (V5 m ρ) c).trans (congrArg colSumSq e5_P))
  have e7_mean : W7 m ρ c (Proc.devRef .tc main_v60) = meanK (colSum (preK (m ((c : Thread nD τ).loc main_arg1)) (MM (A := 100000) (K := 128) (B := 32) (m ((c : Thread nD τ).loc main_arg0)) (m ((c : Thread nD τ).loc main_arg3))) (m ((c : Thread nD τ).loc main_arg4)))) :=
    (h2_mean (W6 m ρ c)).trans (congrArg meanK e6_s)
  have e7_var : W7 m ρ c (Proc.devRef .tc main_v64) = varK (colSum (preK (m ((c : Thread nD τ).loc main_arg1)) (MM (A := 100000) (K := 128) (B := 32) (m ((c : Thread nD τ).loc main_arg0)) (m ((c : Thread nD τ).loc main_arg3))) (m ((c : Thread nD τ).loc main_arg4)))) (colSumSq (preK (m ((c : Thread nD τ).loc main_arg1)) (MM (A := 100000) (K := 128) (B := 32) (m ((c : Thread nD τ).loc main_arg0)) (m ((c : Thread nD τ).loc main_arg3))) (m ((c : Thread nD τ).loc main_arg4)))) :=
    (h2_var (W6 m ρ c)).trans (by rw [e6_s, e6_s2])
  have e7_r0 : W7 m ρ c (Proc.devRef .tc main_v65) = rowV (m ((c : Thread nD τ).loc main_arg4)) :=
    (h2_r0 (W6 m ρ c)).trans (congrArg rowV ((W6_of_ne m ρ c main_arg4 (by decide)).trans ((Keep.keep_hostOps1 (W4 m ρ c) main_arg4 (by decide)).trans ((W4_of_ne m ρ c main_arg4 (by decide)).trans ((Keep.keep_hostOps0_2 (W2 m ρ c) main_arg4 (by decide)).trans ((Keep.keep_hostOps0_1 (W1 m ρ c) main_arg4 (by decide)).trans (Keep.keep_hostOps0 (W0 m ρ c) main_arg4 (by decide))))))))
  have e7_r1 : W7 m ρ c (Proc.devRef .tc main_v66) = rowV (m ((c : Thread nD τ).loc main_arg5)) :=
    (h2_r1 (W6 m ρ c)).trans (congrArg rowV ((W6_of_ne m ρ c main_arg5 (by decide)).trans ((Keep.keep_hostOps1 (W4 m ρ c) main_arg5 (by decide)).trans ((W4_of_ne m ρ c main_arg5 (by decide)).trans ((Keep.keep_hostOps0_2 (W2 m ρ c) main_arg5 (by decide)).trans ((Keep.keep_hostOps0_1 (W1 m ρ c) main_arg5 (by decide)).trans (Keep.keep_hostOps0 (W0 m ρ c) main_arg5 (by decide))))))))
  have e7_r2 : W7 m ρ c (Proc.devRef .tc main_v67) = rowV (m ((c : Thread nD τ).loc main_arg6)) :=
    (h2_r2 (W6 m ρ c)).trans (congrArg rowV ((W6_of_ne m ρ c main_arg6 (by decide)).trans ((Keep.keep_hostOps1 (W4 m ρ c) main_arg6 (by decide)).trans ((W4_of_ne m ρ c main_arg6 (by decide)).trans ((Keep.keep_hostOps0_2 (W2 m ρ c) main_arg6 (by decide)).trans ((Keep.keep_hostOps0_1 (W1 m ρ c) main_arg6 (by decide)).trans (Keep.keep_hostOps0 (W0 m ρ c) main_arg6 (by decide))))))))
  have e8_h : W8 m ρ c (Proc.devRef .tc main_v68) = (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) :=
    (W8_arr m ρ c 9).trans ((Reg2.final (V7 m ρ) c).trans (by
      show MM (A := 100000) (K := 32) (B := 32) (actW (preW (V7 m ρ c main_v56) (V7 m ρ c main_v43) (V7 m ρ c main_v42) (V7 m ρ c main_v65)) (V7 m ρ c main_v60) (V7 m ρ c main_v64) (V7 m ρ c main_v66) (V7 m ρ c main_v67)) (V7 m ρ c main_arg7) = _
      rw [show V7 m ρ c main_v56 = _ from ((Keep.keep_hostOps2 (W6 m ρ c) main_v56 (by decide)).trans ((W6_arr m ρ c 0).trans (((dat1 (V5 m ρ) c).arrAt_in 0 rfl _).trans (A_eq1 (V5 m ρ) c 0)))).trans e5_agg, show V7 m ρ c main_v43 = _ from ((Keep.keep_hostOps2 (W6 m ρ c) main_v43 (by decide)).trans (((W6_arr m ρ c 1).trans (((dat1 (V5 m ρ) c).arrAt_in 1 rfl _).trans (A_eq1 (V5 m ρ) c 1))).trans (Keep.keep_hostOps1 (W4 m ρ c) main_v43 (by decide)))).trans e4_h, show V7 m ρ c main_v42 = _ from ((Keep.keep_hostOps2 (W6 m ρ c) main_v42 (by decide)).trans (((W6_arr m ρ c 2).trans (((dat1 (V5 m ρ) c).arrAt_in 2 rfl _).trans (A_eq1 (V5 m ρ) c 2))).trans ((Keep.keep_hostOps1 (W4 m ρ c) main_v42 (by decide)).trans (W4_of_ne m ρ c main_v42 (by decide))))).trans e3_v42,
        show V7 m ρ c main_v65 = _ from e7_r0, show V7 m ρ c main_v60 = _ from e7_mean, show V7 m ρ c main_v64 = _ from e7_var, show V7 m ρ c main_v66 = _ from e7_r1, show V7 m ρ c main_v67 = _ from e7_r2,
        show V7 m ρ c main_arg7 = _ from ((Keep.keep_hostOps2 (W6 m ρ c) main_arg7 (by decide)).trans ((W6_of_ne m ρ c main_arg7 (by decide)).trans ((Keep.keep_hostOps1 (W4 m ρ c) main_arg7 (by decide)).trans ((W4_of_ne m ρ c main_arg7 (by decide)).trans ((Keep.keep_hostOps0_2 (W2 m ρ c) main_arg7 (by decide)).trans ((Keep.keep_hostOps0_1 (W1 m ρ c) main_arg7 (by decide)).trans (Keep.keep_hostOps0 (W0 m ρ c) main_arg7 (by decide))))))))]
      rfl))
  have e9_agg : W9 m ρ c (Proc.devRef .tc main_v81) = (aggOf (F := Ideal) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (normOf (dinvK (m ((c : Thread nD τ).loc main_arg1))) (srcS (m ((c : Thread nD τ).loc main_arg1))) (dstS (m ((c : Thread nD τ).loc main_arg1)))) (srcS (m ((c : Thread nD τ).loc main_arg1))) (dstS (m ((c : Thread nD τ).loc main_arg1)))) :=
    (h3_agg (W8 m ρ c)).trans (by
      rw [show W8 m ρ c (Proc.devRef .tc main_v68) = _ from e8_h, show W8 m ρ c (Proc.devRef .tc main_v40) = _ from ((W8_of_ne m ρ c main_v40 (by decide)).trans ((Keep.keep_hostOps2 (W6 m ρ c) main_v40 (by decide)).trans ((W6_of_ne m ρ c main_v40 (by decide)).trans ((Keep.keep_hostOps1 (W4 m ρ c) main_v40 (by decide)).trans (W4_of_ne m ρ c main_v40 (by decide)))))).trans e3_v40, show W8 m ρ c (Proc.devRef .tc main_v11) = _ from ((W8_of_ne m ρ c main_v11 (by decide)).trans ((Keep.keep_hostOps2 (W6 m ρ c) main_v11 (by decide)).trans ((W6_of_ne m ρ c main_v11 (by decide)).trans ((Keep.keep_hostOps1 (W4 m ρ c) main_v11 (by decide)).trans (W4_of_ne m ρ c main_v11 (by decide)))))).trans e3_v11, show W8 m ρ c (Proc.devRef .tc main_v18) = _ from ((W8_of_ne m ρ c main_v18 (by decide)).trans ((Keep.keep_hostOps2 (W6 m ρ c) main_v18 (by decide)).trans ((W6_of_ne m ρ c main_v18 (by decide)).trans ((Keep.keep_hostOps1 (W4 m ρ c) main_v18 (by decide)).trans (W4_of_ne m ρ c main_v18 (by decide)))))).trans e3_v18])
  have e9_b : W9 m ρ c (Proc.devRef .tc main_v82) = rowV (m ((c : Thread nD τ).loc main_arg8)) :=
    (h3_b (W8 m ρ c)).trans (congrArg rowV ((W8_of_ne m ρ c main_arg8 (by decide)).trans ((Keep.keep_hostOps2 (W6 m ρ c) main_arg8 (by decide)).trans ((W6_of_ne m ρ c main_arg8 (by decide)).trans ((Keep.keep_hostOps1 (W4 m ρ c) main_arg8 (by decide)).trans ((W4_of_ne m ρ c main_arg8 (by decide)).trans ((Keep.keep_hostOps0_2 (W2 m ρ c) main_arg8 (by decide)).trans ((Keep.keep_hostOps0_1 (W1 m ρ c) main_arg8 (by decide)).trans (Keep.keep_hostOps0 (W0 m ρ c) main_arg8 (by decide))))))))))
  have e9_P : Reg3.P (V9 m ρ) c = (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) :=
    by
      show preW (V9 m ρ c main_v81) (V9 m ρ c main_v68) (V9 m ρ c main_v42) (V9 m ρ c main_v82) = (preW (aggOf (F := Ideal) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (normOf (dinvK (m ((c : Thread nD τ).loc main_arg1))) (srcS (m ((c : Thread nD τ).loc main_arg1))) (dstS (m ((c : Thread nD τ).loc main_arg1)))) (srcS (m ((c : Thread nD τ).loc main_arg1))) (dstS (m ((c : Thread nD τ).loc main_arg1)))) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (ssOf (dinvK (m ((c : Thread nD τ).loc main_arg1)))) (rowV (m ((c : Thread nD τ).loc main_arg8))))
      rw [show V9 m ρ c main_v81 = _ from e9_agg, show V9 m ρ c main_v68 = _ from (Keep.keep_hostOps3 (W8 m ρ c) main_v68 (by decide)).trans e8_h, show V9 m ρ c main_v42 = _ from ((Keep.keep_hostOps3 (W8 m ρ c) main_v42 (by decide)).trans (((W8_arr m ρ c 2).trans (((dat2 (V7 m ρ) c).arrAt_in 2 rfl _).trans (A_eq2 (V7 m ρ) c 2))).trans ((Keep.keep_hostOps2 (W6 m ρ c) main_v42 (by decide)).trans (((W6_arr m ρ c 2).trans (((dat1 (V5 m ρ) c).arrAt_in 2 rfl _).trans (A_eq1 (V5 m ρ) c 2))).trans ((Keep.keep_hostOps1 (W4 m ρ c) main_v42 (by decide)).trans (W4_of_ne m ρ c main_v42 (by decide))))))).trans e3_v42, show V9 m ρ c main_v82 = _ from e9_b]
  have e10_s : W10 m ρ c (Proc.devRef .tc main_v83_0) = colSum (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) :=
    (W10_arr m ρ c 4).trans ((Reg3.final4 (V9 m ρ) c).trans (congrArg colSum e9_P))
  have e10_s2 : W10 m ρ c (Proc.devRef .tc main_v83_1) = colSumSq (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) :=
    (W10_arr m ρ c 5).trans ((Reg3.final5 (V9 m ρ) c).trans (congrArg colSumSq e9_P))
  have e11_mean : W11 m ρ c (Proc.devRef .tc main_v85) = meanK (colSum (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8)))) :=
    (h4_mean (W10 m ρ c)).trans (congrArg meanK e10_s)
  have e11_var : W11 m ρ c (Proc.devRef .tc main_v89) = varK (colSum (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8)))) (colSumSq (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8)))) :=
    (h4_var (W10 m ρ c)).trans (by rw [e10_s, e10_s2])
  have e11_r0 : W11 m ρ c (Proc.devRef .tc main_v90) = rowV (m ((c : Thread nD τ).loc main_arg8)) :=
    (h4_r0 (W10 m ρ c)).trans (congrArg rowV ((W10_of_ne m ρ c main_arg8 (by decide)).trans ((Keep.keep_hostOps3 (W8 m ρ c) main_arg8 (by decide)).trans ((W8_of_ne m ρ c main_arg8 (by decide)).trans ((Keep.keep_hostOps2 (W6 m ρ c) main_arg8 (by decide)).trans ((W6_of_ne m ρ c main_arg8 (by decide)).trans ((Keep.keep_hostOps1 (W4 m ρ c) main_arg8 (by decide)).trans ((W4_of_ne m ρ c main_arg8 (by decide)).trans ((Keep.keep_hostOps0_2 (W2 m ρ c) main_arg8 (by decide)).trans ((Keep.keep_hostOps0_1 (W1 m ρ c) main_arg8 (by decide)).trans (Keep.keep_hostOps0 (W0 m ρ c) main_arg8 (by decide))))))))))))
  have e11_r1 : W11 m ρ c (Proc.devRef .tc main_v91) = rowV (m ((c : Thread nD τ).loc main_arg9)) :=
    (h4_r1 (W10 m ρ c)).trans (congrArg rowV ((W10_of_ne m ρ c main_arg9 (by decide)).trans ((Keep.keep_hostOps3 (W8 m ρ c) main_arg9 (by decide)).trans ((W8_of_ne m ρ c main_arg9 (by decide)).trans ((Keep.keep_hostOps2 (W6 m ρ c) main_arg9 (by decide)).trans ((W6_of_ne m ρ c main_arg9 (by decide)).trans ((Keep.keep_hostOps1 (W4 m ρ c) main_arg9 (by decide)).trans ((W4_of_ne m ρ c main_arg9 (by decide)).trans ((Keep.keep_hostOps0_2 (W2 m ρ c) main_arg9 (by decide)).trans ((Keep.keep_hostOps0_1 (W1 m ρ c) main_arg9 (by decide)).trans (Keep.keep_hostOps0 (W0 m ρ c) main_arg9 (by decide))))))))))))
  have e11_r2 : W11 m ρ c (Proc.devRef .tc main_v92) = rowV (m ((c : Thread nD τ).loc main_arg10)) :=
    (h4_r2 (W10 m ρ c)).trans (congrArg rowV ((W10_of_ne m ρ c main_arg10 (by decide)).trans ((Keep.keep_hostOps3 (W8 m ρ c) main_arg10 (by decide)).trans ((W8_of_ne m ρ c main_arg10 (by decide)).trans ((Keep.keep_hostOps2 (W6 m ρ c) main_arg10 (by decide)).trans ((W6_of_ne m ρ c main_arg10 (by decide)).trans ((Keep.keep_hostOps1 (W4 m ρ c) main_arg10 (by decide)).trans ((W4_of_ne m ρ c main_arg10 (by decide)).trans ((Keep.keep_hostOps0_2 (W2 m ρ c) main_arg10 (by decide)).trans ((Keep.keep_hostOps0_1 (W1 m ρ c) main_arg10 (by decide)).trans (Keep.keep_hostOps0 (W0 m ρ c) main_arg10 (by decide))))))))))))
  have e12_h : W12 m ρ c (Proc.devRef .tc main_v93) = (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) :=
    (W12_arr m ρ c 9).trans ((Reg4.final (V11 m ρ) c).trans (by
      show MM (A := 100000) (K := 32) (B := 32) (actW (preW (V11 m ρ c main_v81) (V11 m ρ c main_v68) (V11 m ρ c main_v42) (V11 m ρ c main_v90)) (V11 m ρ c main_v85) (V11 m ρ c main_v89) (V11 m ρ c main_v91) (V11 m ρ c main_v92)) (V11 m ρ c main_arg11) = _
      rw [show V11 m ρ c main_v81 = _ from ((Keep.keep_hostOps4 (W10 m ρ c) main_v81 (by decide)).trans ((W10_arr m ρ c 0).trans (((dat3 (V9 m ρ) c).arrAt_in 0 rfl _).trans (A_eq3 (V9 m ρ) c 0)))).trans e9_agg, show V11 m ρ c main_v68 = _ from ((Keep.keep_hostOps4 (W10 m ρ c) main_v68 (by decide)).trans (((W10_arr m ρ c 1).trans (((dat3 (V9 m ρ) c).arrAt_in 1 rfl _).trans (A_eq3 (V9 m ρ) c 1))).trans (Keep.keep_hostOps3 (W8 m ρ c) main_v68 (by decide)))).trans e8_h, show V11 m ρ c main_v42 = _ from ((Keep.keep_hostOps4 (W10 m ρ c) main_v42 (by decide)).trans (((W10_arr m ρ c 2).trans (((dat3 (V9 m ρ) c).arrAt_in 2 rfl _).trans (A_eq3 (V9 m ρ) c 2))).trans ((Keep.keep_hostOps3 (W8 m ρ c) main_v42 (by decide)).trans (((W8_arr m ρ c 2).trans (((dat2 (V7 m ρ) c).arrAt_in 2 rfl _).trans (A_eq2 (V7 m ρ) c 2))).trans ((Keep.keep_hostOps2 (W6 m ρ c) main_v42 (by decide)).trans (((W6_arr m ρ c 2).trans (((dat1 (V5 m ρ) c).arrAt_in 2 rfl _).trans (A_eq1 (V5 m ρ) c 2))).trans ((Keep.keep_hostOps1 (W4 m ρ c) main_v42 (by decide)).trans (W4_of_ne m ρ c main_v42 (by decide))))))))).trans e3_v42,
        show V11 m ρ c main_v90 = _ from e11_r0, show V11 m ρ c main_v85 = _ from e11_mean, show V11 m ρ c main_v89 = _ from e11_var, show V11 m ρ c main_v91 = _ from e11_r1, show V11 m ρ c main_v92 = _ from e11_r2,
        show V11 m ρ c main_arg11 = _ from ((Keep.keep_hostOps4 (W10 m ρ c) main_arg11 (by decide)).trans ((W10_of_ne m ρ c main_arg11 (by decide)).trans ((Keep.keep_hostOps3 (W8 m ρ c) main_arg11 (by decide)).trans ((W8_of_ne m ρ c main_arg11 (by decide)).trans ((Keep.keep_hostOps2 (W6 m ρ c) main_arg11 (by decide)).trans ((W6_of_ne m ρ c main_arg11 (by decide)).trans ((Keep.keep_hostOps1 (W4 m ρ c) main_arg11 (by decide)).trans ((W4_of_ne m ρ c main_arg11 (by decide)).trans ((Keep.keep_hostOps0_2 (W2 m ρ c) main_arg11 (by decide)).trans ((Keep.keep_hostOps0_1 (W1 m ρ c) main_arg11 (by decide)).trans (Keep.keep_hostOps0 (W0 m ρ c) main_arg11 (by decide))))))))))))]
      rfl))
  have e13_agg : W13 m ρ c (Proc.devRef .tc main_v106) = (aggOf (F := Ideal) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (normOf (dinvK (m ((c : Thread nD τ).loc main_arg1))) (srcS (m ((c : Thread nD τ).loc main_arg1))) (dstS (m ((c : Thread nD τ).loc main_arg1)))) (srcS (m ((c : Thread nD τ).loc main_arg1))) (dstS (m ((c : Thread nD τ).loc main_arg1)))) :=
    (h5_agg (W12 m ρ c)).trans (by
      rw [show W12 m ρ c (Proc.devRef .tc main_v93) = _ from e12_h, show W12 m ρ c (Proc.devRef .tc main_v40) = _ from ((W12_of_ne m ρ c main_v40 (by decide)).trans ((Keep.keep_hostOps4 (W10 m ρ c) main_v40 (by decide)).trans ((W10_of_ne m ρ c main_v40 (by decide)).trans ((Keep.keep_hostOps3 (W8 m ρ c) main_v40 (by decide)).trans ((W8_of_ne m ρ c main_v40 (by decide)).trans ((Keep.keep_hostOps2 (W6 m ρ c) main_v40 (by decide)).trans ((W6_of_ne m ρ c main_v40 (by decide)).trans ((Keep.keep_hostOps1 (W4 m ρ c) main_v40 (by decide)).trans (W4_of_ne m ρ c main_v40 (by decide)))))))))).trans e3_v40, show W12 m ρ c (Proc.devRef .tc main_v11) = _ from ((W12_of_ne m ρ c main_v11 (by decide)).trans ((Keep.keep_hostOps4 (W10 m ρ c) main_v11 (by decide)).trans ((W10_of_ne m ρ c main_v11 (by decide)).trans ((Keep.keep_hostOps3 (W8 m ρ c) main_v11 (by decide)).trans ((W8_of_ne m ρ c main_v11 (by decide)).trans ((Keep.keep_hostOps2 (W6 m ρ c) main_v11 (by decide)).trans ((W6_of_ne m ρ c main_v11 (by decide)).trans ((Keep.keep_hostOps1 (W4 m ρ c) main_v11 (by decide)).trans (W4_of_ne m ρ c main_v11 (by decide)))))))))).trans e3_v11, show W12 m ρ c (Proc.devRef .tc main_v18) = _ from ((W12_of_ne m ρ c main_v18 (by decide)).trans ((Keep.keep_hostOps4 (W10 m ρ c) main_v18 (by decide)).trans ((W10_of_ne m ρ c main_v18 (by decide)).trans ((Keep.keep_hostOps3 (W8 m ρ c) main_v18 (by decide)).trans ((W8_of_ne m ρ c main_v18 (by decide)).trans ((Keep.keep_hostOps2 (W6 m ρ c) main_v18 (by decide)).trans ((W6_of_ne m ρ c main_v18 (by decide)).trans ((Keep.keep_hostOps1 (W4 m ρ c) main_v18 (by decide)).trans (W4_of_ne m ρ c main_v18 (by decide)))))))))).trans e3_v18])
  have e13_b : W13 m ρ c (Proc.devRef .tc main_v107) = rowV (m ((c : Thread nD τ).loc main_arg12)) :=
    (h5_b (W12 m ρ c)).trans (congrArg rowV ((W12_of_ne m ρ c main_arg12 (by decide)).trans ((Keep.keep_hostOps4 (W10 m ρ c) main_arg12 (by decide)).trans ((W10_of_ne m ρ c main_arg12 (by decide)).trans ((Keep.keep_hostOps3 (W8 m ρ c) main_arg12 (by decide)).trans ((W8_of_ne m ρ c main_arg12 (by decide)).trans ((Keep.keep_hostOps2 (W6 m ρ c) main_arg12 (by decide)).trans ((W6_of_ne m ρ c main_arg12 (by decide)).trans ((Keep.keep_hostOps1 (W4 m ρ c) main_arg12 (by decide)).trans ((W4_of_ne m ρ c main_arg12 (by decide)).trans ((Keep.keep_hostOps0_2 (W2 m ρ c) main_arg12 (by decide)).trans ((Keep.keep_hostOps0_1 (W1 m ρ c) main_arg12 (by decide)).trans (Keep.keep_hostOps0 (W0 m ρ c) main_arg12 (by decide))))))))))))))
  have e13_P : Reg5.P (V13 m ρ) c = (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12))) :=
    by
      show preW (V13 m ρ c main_v106) (V13 m ρ c main_v93) (V13 m ρ c main_v42) (V13 m ρ c main_v107) = (preW (aggOf (F := Ideal) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (normOf (dinvK (m ((c : Thread nD τ).loc main_arg1))) (srcS (m ((c : Thread nD τ).loc main_arg1))) (dstS (m ((c : Thread nD τ).loc main_arg1)))) (srcS (m ((c : Thread nD τ).loc main_arg1))) (dstS (m ((c : Thread nD τ).loc main_arg1)))) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (ssOf (dinvK (m ((c : Thread nD τ).loc main_arg1)))) (rowV (m ((c : Thread nD τ).loc main_arg12))))
      rw [show V13 m ρ c main_v106 = _ from e13_agg, show V13 m ρ c main_v93 = _ from (Keep.keep_hostOps5 (W12 m ρ c) main_v93 (by decide)).trans e12_h, show V13 m ρ c main_v42 = _ from ((Keep.keep_hostOps5 (W12 m ρ c) main_v42 (by decide)).trans (((W12_arr m ρ c 2).trans (((dat4 (V11 m ρ) c).arrAt_in 2 rfl _).trans (A_eq4 (V11 m ρ) c 2))).trans ((Keep.keep_hostOps4 (W10 m ρ c) main_v42 (by decide)).trans (((W10_arr m ρ c 2).trans (((dat3 (V9 m ρ) c).arrAt_in 2 rfl _).trans (A_eq3 (V9 m ρ) c 2))).trans ((Keep.keep_hostOps3 (W8 m ρ c) main_v42 (by decide)).trans (((W8_arr m ρ c 2).trans (((dat2 (V7 m ρ) c).arrAt_in 2 rfl _).trans (A_eq2 (V7 m ρ) c 2))).trans ((Keep.keep_hostOps2 (W6 m ρ c) main_v42 (by decide)).trans (((W6_arr m ρ c 2).trans (((dat1 (V5 m ρ) c).arrAt_in 2 rfl _).trans (A_eq1 (V5 m ρ) c 2))).trans ((Keep.keep_hostOps1 (W4 m ρ c) main_v42 (by decide)).trans (W4_of_ne m ρ c main_v42 (by decide))))))))))).trans e3_v42, show V13 m ρ c main_v107 = _ from e13_b]
  have e14_s : W14 m ρ c (Proc.devRef .tc main_v108_0) = colSum (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12))) :=
    (W14_arr m ρ c 4).trans ((Reg5.final4 (V13 m ρ) c).trans (congrArg colSum e13_P))
  have e14_s2 : W14 m ρ c (Proc.devRef .tc main_v108_1) = colSumSq (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12))) :=
    (W14_arr m ρ c 5).trans ((Reg5.final5 (V13 m ρ) c).trans (congrArg colSumSq e13_P))
  have e15_mean : W15 m ρ c (Proc.devRef .tc main_v110) = meanK (colSum (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12)))) :=
    (h6_mean (W14 m ρ c)).trans (congrArg meanK e14_s)
  have e15_var : W15 m ρ c (Proc.devRef .tc main_v114) = varK (colSum (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12)))) (colSumSq (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12)))) :=
    (h6_var (W14 m ρ c)).trans (by rw [e14_s, e14_s2])
  have e15_r0 : W15 m ρ c (Proc.devRef .tc main_v115) = rowV (m ((c : Thread nD τ).loc main_arg12)) :=
    (h6_r0 (W14 m ρ c)).trans (congrArg rowV ((W14_of_ne m ρ c main_arg12 (by decide)).trans ((Keep.keep_hostOps5 (W12 m ρ c) main_arg12 (by decide)).trans ((W12_of_ne m ρ c main_arg12 (by decide)).trans ((Keep.keep_hostOps4 (W10 m ρ c) main_arg12 (by decide)).trans ((W10_of_ne m ρ c main_arg12 (by decide)).trans ((Keep.keep_hostOps3 (W8 m ρ c) main_arg12 (by decide)).trans ((W8_of_ne m ρ c main_arg12 (by decide)).trans ((Keep.keep_hostOps2 (W6 m ρ c) main_arg12 (by decide)).trans ((W6_of_ne m ρ c main_arg12 (by decide)).trans ((Keep.keep_hostOps1 (W4 m ρ c) main_arg12 (by decide)).trans ((W4_of_ne m ρ c main_arg12 (by decide)).trans ((Keep.keep_hostOps0_2 (W2 m ρ c) main_arg12 (by decide)).trans ((Keep.keep_hostOps0_1 (W1 m ρ c) main_arg12 (by decide)).trans (Keep.keep_hostOps0 (W0 m ρ c) main_arg12 (by decide))))))))))))))))
  have e15_r1 : W15 m ρ c (Proc.devRef .tc main_v116) = rowV (m ((c : Thread nD τ).loc main_arg13)) :=
    (h6_r1 (W14 m ρ c)).trans (congrArg rowV ((W14_of_ne m ρ c main_arg13 (by decide)).trans ((Keep.keep_hostOps5 (W12 m ρ c) main_arg13 (by decide)).trans ((W12_of_ne m ρ c main_arg13 (by decide)).trans ((Keep.keep_hostOps4 (W10 m ρ c) main_arg13 (by decide)).trans ((W10_of_ne m ρ c main_arg13 (by decide)).trans ((Keep.keep_hostOps3 (W8 m ρ c) main_arg13 (by decide)).trans ((W8_of_ne m ρ c main_arg13 (by decide)).trans ((Keep.keep_hostOps2 (W6 m ρ c) main_arg13 (by decide)).trans ((W6_of_ne m ρ c main_arg13 (by decide)).trans ((Keep.keep_hostOps1 (W4 m ρ c) main_arg13 (by decide)).trans ((W4_of_ne m ρ c main_arg13 (by decide)).trans ((Keep.keep_hostOps0_2 (W2 m ρ c) main_arg13 (by decide)).trans ((Keep.keep_hostOps0_1 (W1 m ρ c) main_arg13 (by decide)).trans (Keep.keep_hostOps0 (W0 m ρ c) main_arg13 (by decide))))))))))))))))
  have e15_r2 : W15 m ρ c (Proc.devRef .tc main_v117) = rowV (m ((c : Thread nD τ).loc main_arg14)) :=
    (h6_r2 (W14 m ρ c)).trans (congrArg rowV ((W14_of_ne m ρ c main_arg14 (by decide)).trans ((Keep.keep_hostOps5 (W12 m ρ c) main_arg14 (by decide)).trans ((W12_of_ne m ρ c main_arg14 (by decide)).trans ((Keep.keep_hostOps4 (W10 m ρ c) main_arg14 (by decide)).trans ((W10_of_ne m ρ c main_arg14 (by decide)).trans ((Keep.keep_hostOps3 (W8 m ρ c) main_arg14 (by decide)).trans ((W8_of_ne m ρ c main_arg14 (by decide)).trans ((Keep.keep_hostOps2 (W6 m ρ c) main_arg14 (by decide)).trans ((W6_of_ne m ρ c main_arg14 (by decide)).trans ((Keep.keep_hostOps1 (W4 m ρ c) main_arg14 (by decide)).trans ((W4_of_ne m ρ c main_arg14 (by decide)).trans ((Keep.keep_hostOps0_2 (W2 m ρ c) main_arg14 (by decide)).trans ((Keep.keep_hostOps0_1 (W1 m ρ c) main_arg14 (by decide)).trans (Keep.keep_hostOps0 (W0 m ρ c) main_arg14 (by decide))))))))))))))))
  have e16_h : W16 m ρ c (Proc.devRef .tc main_v118) = (nextH (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12))) (m ((c : Thread nD τ).loc main_arg13)) (m ((c : Thread nD τ).loc main_arg14)) (m ((c : Thread nD τ).loc main_arg15))) :=
    (W16_arr m ρ c 9).trans ((Reg6.final (V15 m ρ) c).trans (by
      show MM (A := 100000) (K := 32) (B := 32) (actW (preW (V15 m ρ c main_v106) (V15 m ρ c main_v93) (V15 m ρ c main_v42) (V15 m ρ c main_v115)) (V15 m ρ c main_v110) (V15 m ρ c main_v114) (V15 m ρ c main_v116) (V15 m ρ c main_v117)) (V15 m ρ c main_arg15) = _
      rw [show V15 m ρ c main_v106 = _ from ((Keep.keep_hostOps6 (W14 m ρ c) main_v106 (by decide)).trans ((W14_arr m ρ c 0).trans (((dat5 (V13 m ρ) c).arrAt_in 0 rfl _).trans (A_eq5 (V13 m ρ) c 0)))).trans e13_agg, show V15 m ρ c main_v93 = _ from ((Keep.keep_hostOps6 (W14 m ρ c) main_v93 (by decide)).trans (((W14_arr m ρ c 1).trans (((dat5 (V13 m ρ) c).arrAt_in 1 rfl _).trans (A_eq5 (V13 m ρ) c 1))).trans (Keep.keep_hostOps5 (W12 m ρ c) main_v93 (by decide)))).trans e12_h, show V15 m ρ c main_v42 = _ from ((Keep.keep_hostOps6 (W14 m ρ c) main_v42 (by decide)).trans (((W14_arr m ρ c 2).trans (((dat5 (V13 m ρ) c).arrAt_in 2 rfl _).trans (A_eq5 (V13 m ρ) c 2))).trans ((Keep.keep_hostOps5 (W12 m ρ c) main_v42 (by decide)).trans (((W12_arr m ρ c 2).trans (((dat4 (V11 m ρ) c).arrAt_in 2 rfl _).trans (A_eq4 (V11 m ρ) c 2))).trans ((Keep.keep_hostOps4 (W10 m ρ c) main_v42 (by decide)).trans (((W10_arr m ρ c 2).trans (((dat3 (V9 m ρ) c).arrAt_in 2 rfl _).trans (A_eq3 (V9 m ρ) c 2))).trans ((Keep.keep_hostOps3 (W8 m ρ c) main_v42 (by decide)).trans (((W8_arr m ρ c 2).trans (((dat2 (V7 m ρ) c).arrAt_in 2 rfl _).trans (A_eq2 (V7 m ρ) c 2))).trans ((Keep.keep_hostOps2 (W6 m ρ c) main_v42 (by decide)).trans (((W6_arr m ρ c 2).trans (((dat1 (V5 m ρ) c).arrAt_in 2 rfl _).trans (A_eq1 (V5 m ρ) c 2))).trans ((Keep.keep_hostOps1 (W4 m ρ c) main_v42 (by decide)).trans (W4_of_ne m ρ c main_v42 (by decide))))))))))))).trans e3_v42,
        show V15 m ρ c main_v115 = _ from e15_r0, show V15 m ρ c main_v110 = _ from e15_mean, show V15 m ρ c main_v114 = _ from e15_var, show V15 m ρ c main_v116 = _ from e15_r1, show V15 m ρ c main_v117 = _ from e15_r2,
        show V15 m ρ c main_arg15 = _ from ((Keep.keep_hostOps6 (W14 m ρ c) main_arg15 (by decide)).trans ((W14_of_ne m ρ c main_arg15 (by decide)).trans ((Keep.keep_hostOps5 (W12 m ρ c) main_arg15 (by decide)).trans ((W12_of_ne m ρ c main_arg15 (by decide)).trans ((Keep.keep_hostOps4 (W10 m ρ c) main_arg15 (by decide)).trans ((W10_of_ne m ρ c main_arg15 (by decide)).trans ((Keep.keep_hostOps3 (W8 m ρ c) main_arg15 (by decide)).trans ((W8_of_ne m ρ c main_arg15 (by decide)).trans ((Keep.keep_hostOps2 (W6 m ρ c) main_arg15 (by decide)).trans ((W6_of_ne m ρ c main_arg15 (by decide)).trans ((Keep.keep_hostOps1 (W4 m ρ c) main_arg15 (by decide)).trans ((W4_of_ne m ρ c main_arg15 (by decide)).trans ((Keep.keep_hostOps0_2 (W2 m ρ c) main_arg15 (by decide)).trans ((Keep.keep_hostOps0_1 (W1 m ρ c) main_arg15 (by decide)).trans (Keep.keep_hostOps0 (W0 m ρ c) main_arg15 (by decide))))))))))))))))]
      rfl))
  have e17_agg : W17 m ρ c (Proc.devRef .tc main_v131) = (aggOf (F := Ideal) (nextH (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12))) (m ((c : Thread nD τ).loc main_arg13)) (m ((c : Thread nD τ).loc main_arg14)) (m ((c : Thread nD τ).loc main_arg15))) (normOf (dinvK (m ((c : Thread nD τ).loc main_arg1))) (srcS (m ((c : Thread nD τ).loc main_arg1))) (dstS (m ((c : Thread nD τ).loc main_arg1)))) (srcS (m ((c : Thread nD τ).loc main_arg1))) (dstS (m ((c : Thread nD τ).loc main_arg1)))) :=
    (h7_agg (W16 m ρ c)).trans (by
      rw [show W16 m ρ c (Proc.devRef .tc main_v118) = _ from e16_h, show W16 m ρ c (Proc.devRef .tc main_v40) = _ from ((W16_of_ne m ρ c main_v40 (by decide)).trans ((Keep.keep_hostOps6 (W14 m ρ c) main_v40 (by decide)).trans ((W14_of_ne m ρ c main_v40 (by decide)).trans ((Keep.keep_hostOps5 (W12 m ρ c) main_v40 (by decide)).trans ((W12_of_ne m ρ c main_v40 (by decide)).trans ((Keep.keep_hostOps4 (W10 m ρ c) main_v40 (by decide)).trans ((W10_of_ne m ρ c main_v40 (by decide)).trans ((Keep.keep_hostOps3 (W8 m ρ c) main_v40 (by decide)).trans ((W8_of_ne m ρ c main_v40 (by decide)).trans ((Keep.keep_hostOps2 (W6 m ρ c) main_v40 (by decide)).trans ((W6_of_ne m ρ c main_v40 (by decide)).trans ((Keep.keep_hostOps1 (W4 m ρ c) main_v40 (by decide)).trans (W4_of_ne m ρ c main_v40 (by decide)))))))))))))).trans e3_v40, show W16 m ρ c (Proc.devRef .tc main_v11) = _ from ((W16_of_ne m ρ c main_v11 (by decide)).trans ((Keep.keep_hostOps6 (W14 m ρ c) main_v11 (by decide)).trans ((W14_of_ne m ρ c main_v11 (by decide)).trans ((Keep.keep_hostOps5 (W12 m ρ c) main_v11 (by decide)).trans ((W12_of_ne m ρ c main_v11 (by decide)).trans ((Keep.keep_hostOps4 (W10 m ρ c) main_v11 (by decide)).trans ((W10_of_ne m ρ c main_v11 (by decide)).trans ((Keep.keep_hostOps3 (W8 m ρ c) main_v11 (by decide)).trans ((W8_of_ne m ρ c main_v11 (by decide)).trans ((Keep.keep_hostOps2 (W6 m ρ c) main_v11 (by decide)).trans ((W6_of_ne m ρ c main_v11 (by decide)).trans ((Keep.keep_hostOps1 (W4 m ρ c) main_v11 (by decide)).trans (W4_of_ne m ρ c main_v11 (by decide)))))))))))))).trans e3_v11, show W16 m ρ c (Proc.devRef .tc main_v18) = _ from ((W16_of_ne m ρ c main_v18 (by decide)).trans ((Keep.keep_hostOps6 (W14 m ρ c) main_v18 (by decide)).trans ((W14_of_ne m ρ c main_v18 (by decide)).trans ((Keep.keep_hostOps5 (W12 m ρ c) main_v18 (by decide)).trans ((W12_of_ne m ρ c main_v18 (by decide)).trans ((Keep.keep_hostOps4 (W10 m ρ c) main_v18 (by decide)).trans ((W10_of_ne m ρ c main_v18 (by decide)).trans ((Keep.keep_hostOps3 (W8 m ρ c) main_v18 (by decide)).trans ((W8_of_ne m ρ c main_v18 (by decide)).trans ((Keep.keep_hostOps2 (W6 m ρ c) main_v18 (by decide)).trans ((W6_of_ne m ρ c main_v18 (by decide)).trans ((Keep.keep_hostOps1 (W4 m ρ c) main_v18 (by decide)).trans (W4_of_ne m ρ c main_v18 (by decide)))))))))))))).trans e3_v18])
  have e17_b : W17 m ρ c (Proc.devRef .tc main_v132) = rowV (m ((c : Thread nD τ).loc main_arg16)) :=
    (h7_b (W16 m ρ c)).trans (congrArg rowV ((W16_of_ne m ρ c main_arg16 (by decide)).trans ((Keep.keep_hostOps6 (W14 m ρ c) main_arg16 (by decide)).trans ((W14_of_ne m ρ c main_arg16 (by decide)).trans ((Keep.keep_hostOps5 (W12 m ρ c) main_arg16 (by decide)).trans ((W12_of_ne m ρ c main_arg16 (by decide)).trans ((Keep.keep_hostOps4 (W10 m ρ c) main_arg16 (by decide)).trans ((W10_of_ne m ρ c main_arg16 (by decide)).trans ((Keep.keep_hostOps3 (W8 m ρ c) main_arg16 (by decide)).trans ((W8_of_ne m ρ c main_arg16 (by decide)).trans ((Keep.keep_hostOps2 (W6 m ρ c) main_arg16 (by decide)).trans ((W6_of_ne m ρ c main_arg16 (by decide)).trans ((Keep.keep_hostOps1 (W4 m ρ c) main_arg16 (by decide)).trans ((W4_of_ne m ρ c main_arg16 (by decide)).trans ((Keep.keep_hostOps0_2 (W2 m ρ c) main_arg16 (by decide)).trans ((Keep.keep_hostOps0_1 (W1 m ρ c) main_arg16 (by decide)).trans (Keep.keep_hostOps0 (W0 m ρ c) main_arg16 (by decide))))))))))))))))))
  have e18_out : W18 m ρ c (Proc.devRef .tc main_v133) = (preK (m ((c : Thread nD τ).loc main_arg1)) (nextH (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12))) (m ((c : Thread nD τ).loc main_arg13)) (m ((c : Thread nD τ).loc main_arg14)) (m ((c : Thread nD τ).loc main_arg15))) (m ((c : Thread nD τ).loc main_arg16))) :=
    (W18_arr m ρ c 4).trans ((Reg7.final (V17 m ρ) c).trans (by
      show preW (V17 m ρ c main_v131) (V17 m ρ c main_v118) (V17 m ρ c main_v42) (V17 m ρ c main_v132) = (preW (aggOf (F := Ideal) (nextH (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12))) (m ((c : Thread nD τ).loc main_arg13)) (m ((c : Thread nD τ).loc main_arg14)) (m ((c : Thread nD τ).loc main_arg15))) (normOf (dinvK (m ((c : Thread nD τ).loc main_arg1))) (srcS (m ((c : Thread nD τ).loc main_arg1))) (dstS (m ((c : Thread nD τ).loc main_arg1)))) (srcS (m ((c : Thread nD τ).loc main_arg1))) (dstS (m ((c : Thread nD τ).loc main_arg1)))) (nextH (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12))) (m ((c : Thread nD τ).loc main_arg13)) (m ((c : Thread nD τ).loc main_arg14)) (m ((c : Thread nD τ).loc main_arg15))) (ssOf (dinvK (m ((c : Thread nD τ).loc main_arg1)))) (rowV (m ((c : Thread nD τ).loc main_arg16))))
      rw [show V17 m ρ c main_v131 = _ from e17_agg, show V17 m ρ c main_v118 = _ from (Keep.keep_hostOps7 (W16 m ρ c) main_v118 (by decide)).trans e16_h, show V17 m ρ c main_v42 = _ from ((Keep.keep_hostOps7 (W16 m ρ c) main_v42 (by decide)).trans (((W16_arr m ρ c 2).trans (((dat6 (V15 m ρ) c).arrAt_in 2 rfl _).trans (A_eq6 (V15 m ρ) c 2))).trans ((Keep.keep_hostOps6 (W14 m ρ c) main_v42 (by decide)).trans (((W14_arr m ρ c 2).trans (((dat5 (V13 m ρ) c).arrAt_in 2 rfl _).trans (A_eq5 (V13 m ρ) c 2))).trans ((Keep.keep_hostOps5 (W12 m ρ c) main_v42 (by decide)).trans (((W12_arr m ρ c 2).trans (((dat4 (V11 m ρ) c).arrAt_in 2 rfl _).trans (A_eq4 (V11 m ρ) c 2))).trans ((Keep.keep_hostOps4 (W10 m ρ c) main_v42 (by decide)).trans (((W10_arr m ρ c 2).trans (((dat3 (V9 m ρ) c).arrAt_in 2 rfl _).trans (A_eq3 (V9 m ρ) c 2))).trans ((Keep.keep_hostOps3 (W8 m ρ c) main_v42 (by decide)).trans (((W8_arr m ρ c 2).trans (((dat2 (V7 m ρ) c).arrAt_in 2 rfl _).trans (A_eq2 (V7 m ρ) c 2))).trans ((Keep.keep_hostOps2 (W6 m ρ c) main_v42 (by decide)).trans (((W6_arr m ρ c 2).trans (((dat1 (V5 m ρ) c).arrAt_in 2 rfl _).trans (A_eq1 (V5 m ρ) c 2))).trans ((Keep.keep_hostOps1 (W4 m ρ c) main_v42 (by decide)).trans (W4_of_ne m ρ c main_v42 (by decide))))))))))))))).trans e3_v42, show V17 m ρ c main_v132 = _ from e17_b]))
  have e19 : W19 m ρ c (Proc.devRef .tc main_v145) = tailOf (preK (m ((c : Thread nD τ).loc main_arg1)) (nextH (preK (m ((c : Thread nD τ).loc main_arg1)) (nextH (preK (m ((c : Thread nD τ).loc main_arg1)) (nextH (preK (m ((c : Thread nD τ).loc main_arg1)) (MM (A := 100000) (K := 128) (B := 32) (m ((c : Thread nD τ).loc main_arg0)) (m ((c : Thread nD τ).loc main_arg3))) (m ((c : Thread nD τ).loc main_arg4))) (m ((c : Thread nD τ).loc main_arg5)) (m ((c : Thread nD τ).loc main_arg6)) (m ((c : Thread nD τ).loc main_arg7))) (m ((c : Thread nD τ).loc main_arg8))) (m ((c : Thread nD τ).loc main_arg9)) (m ((c : Thread nD τ).loc main_arg10)) (m ((c : Thread nD τ).loc main_arg11))) (m ((c : Thread nD τ).loc main_arg12))) (m ((c : Thread nD τ).loc main_arg13)) (m ((c : Thread nD τ).loc main_arg14)) (m ((c : Thread nD τ).loc main_arg15))) (m ((c : Thread nD τ).loc main_arg16))) (m ((c : Thread nD τ).loc main_arg2)) :=
    (h8_out (W18 m ρ c)).trans (by rw [e18_out, show W18 m ρ c (Proc.devRef .tc main_arg2) = _ from ((W18_of_ne m ρ c main_arg2 (by decide)).trans ((Keep.keep_hostOps7 (W16 m ρ c) main_arg2 (by decide)).trans ((W16_of_ne m ρ c main_arg2 (by decide)).trans ((Keep.keep_hostOps6 (W14 m ρ c) main_arg2 (by decide)).trans ((W14_of_ne m ρ c main_arg2 (by decide)).trans ((Keep.keep_hostOps5 (W12 m ρ c) main_arg2 (by decide)).trans ((W12_of_ne m ρ c main_arg2 (by decide)).trans ((Keep.keep_hostOps4 (W10 m ρ c) main_arg2 (by decide)).trans ((W10_of_ne m ρ c main_arg2 (by decide)).trans ((Keep.keep_hostOps3 (W8 m ρ c) main_arg2 (by decide)).trans ((W8_of_ne m ρ c main_arg2 (by decide)).trans ((Keep.keep_hostOps2 (W6 m ρ c) main_arg2 (by decide)).trans ((W6_of_ne m ρ c main_arg2 (by decide)).trans ((Keep.keep_hostOps1 (W4 m ρ c) main_arg2 (by decide)).trans ((W4_of_ne m ρ c main_arg2 (by decide)).trans ((Keep.keep_hostOps0_2 (W2 m ρ c) main_arg2 (by decide)).trans ((Keep.keep_hostOps0_1 (W1 m ρ c) main_arg2 (by decide)).trans (Keep.keep_hostOps0 (W0 m ρ c) main_arg2 (by decide)))))))))))))))))))])
  exact e19

end Cert.KernelIdeal.KValue

end
-- ==== Proof.LibReal.lean ====
/-
  General lemmas: arrays of extended reals all of whose entries are real numbers, and the operations that keep
  them so — sums, products, differences, finite sums, maxima, quotients by a nonzero real, and the inverse square
  root of a positive real.
-/
import Idealize.ShloMosaic.PureOps.Ideal

noncomputable section

namespace Cert.LibReal

open Idealize.ShloMosaic

/-- An extended real that is a real number. -/
def IsR (x : EReal) : Prop := ∃ r : ℝ, x = (r : EReal)

/-- Every entry of an array is a real number. -/
def AllR {ι : Type} (v : ι → EReal) : Prop := ∀ i, IsR (v i)

theorem isR_coe (r : ℝ) : IsR (r : EReal) := ⟨r, rfl⟩
theorem isR_zero : IsR (0 : EReal) := ⟨0, rfl⟩
theorem isR_one : IsR (1 : EReal) := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

theorem IsR.sum {ι : Type} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact (h i (Finset.mem_insert_self i s)).add (ih fun j hj => h j (Finset.mem_insert_of_mem hj))

/-- A quotient by a nonzero real. -/
theorem IsR.div {x : EReal} (hx : IsR x) {n : ℝ} (hn : n ≠ 0) : IsR (Ideal.div x (n : EReal)) := by
  obtain ⟨a, rfl⟩ := hx
  rw [Ideal.div_coe hn]
  exact (isR_coe a).mul (isR_coe _)

/-- The inverse square root of a positive real is a real. -/
theorem isR_rsqrt {r : ℝ} (hr : 0 < r) : IsR (Ideal.rsqrt (r : EReal)) := by
  rw [Ideal.rsqrt_coe, if_neg (not_lt.mpr hr.le), if_neg hr.ne']
  exact isR_coe _

/-- A sum of ones over a finite set is a nonnegative real. -/
theorem sum_ones {ι : Type} (s : Finset ι) : ∃ r : ℝ, 0 ≤ r ∧ (∑ _i ∈ s, ((1 : ℝ) : EReal)) = (r : EReal) := by
  classical
  induction s using Finset.induction_on with
  | empty => exact ⟨0, le_refl _, by simp⟩
  | insert i s hi ih =>
    obtain ⟨r, hr, e⟩ := ih
    refine ⟨1 + r, by linarith, ?_⟩
    rw [Finset.sum_insert hi, e, EReal.coe_add]

end Cert.LibReal

end
-- ==== Proof.PreReal.lean ====
/-
  The precondition read: every float argument array has only real entries. The predicate takes, array by array,
  the conjunction over all entries of |x| < +∞ and joins the fifteen results; an extended real whose absolute value is
  below +∞ is a real number.
-/
import proofs.«104369_j66383014527707_2_alg».proof.Pre_finite_inputs
import proofs.«104369_j66383014527707_2_alg».proof.Proof.Gen.Pre_finite_inputs
import proofs.«104369_j66383014527707_2_alg».proof.Proof.LibReal
import Idealize.ShloMosaic.Lib.ReduceAll
import Idealize.ShloMosaic.Lib.Affine
import Idealize.ShloMosaic.Lib.ValueIdx

set_option maxRecDepth 16384

noncomputable section

namespace Cert.PreReal

open Idealize.ShloMosaic Idealize.ShloMosaic.ValueIdx
open Cert.Pre_finite_inputs Cert.Pre_finite_inputs.Gen Cert.LibReal

instance : Subsingleton S_.Idx := ⟨fun a b => funext fun d => d.elim0⟩

/-- An extended real whose absolute value is below the word for +∞ is a real number. -/
theorem isR_of_lt_inf (x : EReal)
    (h : Ideal.cmp .olt (max x (-x)) (Ideal.ofBits .f32 0x7F800000#32) = 1#1) : IsR x := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- One array's test: all entries pass, so all entries are real. -/
theorem allR_of_reduce {s : Shape} {axes : List (Fin s.rank)} (x : FVec Ideal s .f32)
    (hbc : S_.BroadcastsInDim s (![] : Fin 0 → Fin s.rank)) (h : s.ReducesTo axes S_) (hu : 0 < S_.numel)
    (e : Host.reduce IntOp.andi (cmpf .olt (Host.absf x) (broadcastInDim s ![] hbc (constant (F := Ideal) S_ .f32 0x7F800000#32)))
      (constantI S_ 1 1#1) h hu ix0 = 1#1) : AllR x := by
  intro i
  have hi := Host.reduce_andi_all _ _ h hu ix0 e i
  exact isR_of_lt_inf (x i) hi

/-- THE PRECONDITION READ: under it every float argument array has only real entries. -/
theorem pre_real (a0 : FVec Ideal S100000x128 .f32) (a1 : IVec S2x1600000 32) (a2 : IVec S100000 32) (a3 : FVec Ideal S128x32 .f32) (a4 : FVec Ideal S32 .f32) (a5 : FVec Ideal S32 .f32) (a6 : FVec Ideal S32 .f32) (a7 : FVec Ideal S32x32 .f32) (a8 : FVec Ideal S32 .f32) (a9 : FVec Ideal S32 .f32) (a10 : FVec Ideal S32 .f32) (a11 : FVec Ideal S32x32 .f32) (a12 : FVec Ideal S32 .f32) (a13 : FVec Ideal S32 .f32) (a14 : FVec Ideal S32 .f32) (a15 : FVec Ideal S32x32 .f32) (a16 : FVec Ideal S32 .f32)
    (h : Cert.Pre_finite_inputs.fn (F := Ideal) a0 a1 a2 a3 a4 a5 a6 a7 a8 a9 a10 a11 a12 a13 a14 a15 a16 = fun _ => 1#1) :
    AllR a0 ∧ AllR a3 ∧ AllR a4 ∧ AllR a5 ∧ AllR a6 ∧ AllR a7 ∧ AllR a8 ∧ AllR a9 ∧ AllR a10 ∧ AllR a11 ∧ AllR a12 ∧ AllR a13 ∧ AllR a14 ∧ AllR a15 ∧ AllR a16 := by
  have h0 := congrFun h ix0
  unfold Cert.Pre_finite_inputs.fn Cert.Pre_finite_inputs.fn_part1 Cert.Pre_finite_inputs.fn_part2
    Cert.Pre_finite_inputs.fn_part3 Cert.Pre_finite_inputs.fn_part4 at h0
  dsimp only at h0
  simp only [andi, IntOp.andi_eq_one] at h0
  obtain ⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩ := h0
  exact ⟨allR_of_reduce _ _ _ _ e0, allR_of_reduce _ _ _ _ e3, allR_of_reduce _ _ _ _ e4, allR_of_reduce _ _ _ _ e5, allR_of_reduce _ _ _ _ e6, allR_of_reduce _ _ _ _ e7, allR_of_reduce _ _ _ _ e8, allR_of_reduce _ _ _ _ e9, allR_of_reduce _ _ _ _ e10, allR_of_reduce _ _ _ _ e11, allR_of_reduce _ _ _ _ e12, allR_of_reduce _ _ _ _ e13, allR_of_reduce _ _ _ _ e14, allR_of_reduce _ _ _ _ e15, allR_of_reduce _ _ _ _ e16⟩

end Cert.PreReal

end
-- ==== Proof.LibScatterPerm.lean ====
/-
  General lemma: at the ideal values the host's accumulating scatter (a float scatter with an add body) is a sum
  over the updates that land on an element, so it does not depend on the order of the updates.
-/
import Idealize.ShloMosaic.PureOps.Ideal
import Idealize.ShloMosaic.PureOps.Contract
import Idealize.ShloMosaic.Lib.ValueIdx

noncomputable section

namespace Cert.LibScatterPerm

open Idealize.ShloMosaic Idealize.ShloMosaic.ValueIdx

/-- If `π` permutes the update indices so that update `π j` of the first scatter lands where update `j` of the
    second lands (or both are dropped) and carries the same value, the two scatters of one operand agree: each
    element receives the same finite sum, reindexed along `π`. No finiteness is needed: a sum over a finite set
    of extended reals is invariant under reindexing. -/
theorem hostScatterAdd_perm {s si su : Shape} (d : ScatterDims s si su) {w : Nat} (x : s.Idx → EReal)
    (idx idx' : IVec si w) (upd upd' : su.Idx → EReal) (π : su.Idx ≃ su.Idx)
    (hidx : ∀ j, d.resultIdx? (π j) idx = d.resultIdx? j idx')
    (hupd : ∀ j, upd (π j) = upd' j) :
    Ideal.hostScatterAdd d x idx upd = Ideal.hostScatterAdd d x idx' upd' := by
  funext i
  unfold Ideal.hostScatterAdd
  congr 1
  symm
  refine Finset.sum_equiv π ?_ ?_
  · intro j
    simp only [Finset.mem_filter, Finset.mem_univ, true_and]
    rw [hidx]
  · intro j _
    exact (hupd j).symm

/-- Where an update lands depends on the scatter indices only through the window's start on each axis, and on
    the update's index only through that and its window coordinates. -/
theorem resultIdx?_congr {s si su : Shape} (d : ScatterDims s si su) {w : Nat} (j j' : su.Idx) (idx idx' : IVec si w)
    (hs : ∀ a, d.start j idx a = d.start j' idx' a) (hw : ∀ a, d.window j a = d.window j' a) :
    d.resultIdx? j idx = d.resultIdx? j' idx' := by
  unfold ScatterDims.resultIdx?
  simp only [hs, hw]

/-! ## A segment sum: updates scattered by rows -/

/-- The dimension numbers of a segment sum of a vector of `E` entries into `N` segments (scatter indices a column). -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

/-- The dimension numbers of a segment sum of the `E` rows of a matrix into `N` segments. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- A permutation of the entries of a vector, as a permutation of its indices. -/
def vecPerm {E : Nat} (σ : Equiv.Perm (Fin E)) : (⟨1, ![E]⟩ : Shape).Idx ≃ (⟨1, ![E]⟩ : Shape).Idx where
  toFun j := ix1 (σ (j 0))
  invFun j := ix1 (σ.symm (j 0))
  left_inv j := by
    have h : σ.symm (σ (j 0)) = (j 0 : Fin E) := Equiv.symm_apply_apply σ _
    exact (congrArg ix1 h).trans (eq_ix1 j).symm
  right_inv j := by
    have h : σ (σ.symm (j 0)) = (j 0 : Fin E) := Equiv.apply_symm_apply σ _
    exact (congrArg ix1 h).trans (eq_ix1 j).symm

/-- A permutation of the rows of a matrix, as a permutation of its indices. -/
def rowPerm {E C : Nat} (σ : Equiv.Perm (Fin E)) : (⟨2, ![E, C]⟩ : Shape).Idx ≃ (⟨2, ![E, C]⟩ : Shape).Idx where
  toFun j := ix2 (σ (j 0)) (j 1)
  invFun j := ix2 (σ.symm (j 0)) (j 1)
  left_inv j := by
    have h : σ.symm (σ (j 0)) = (j 0 : Fin E) := Equiv.symm_apply_apply σ _
    exact (congrArg (fun k => ix2 k (j 1)) h).trans (eq_ix2 j).symm
  right_inv j := by
    have h : σ (σ.symm (j 0)) = (j 0 : Fin E) := Equiv.apply_symm_apply σ _
    exact (congrArg (fun k => ix2 k (j 1)) h).trans (eq_ix2 j).symm

theorem vecScatter_start {N E w : Nat} (wf) (j : (⟨1, ![E]⟩ : Shape).Idx) (idx : IVec ⟨2, ![E, 1]⟩ w) (a : Fin 1) :
    (vecScatter N E wf).start j idx a = (idx (ix2 (j 0) (⟨0, Nat.one_pos⟩ : Fin 1))).toInt := by
  obtain rfl : a = 0 := Subsingleton.elim _ _
  unfold ScatterDims.start
  rw [dif_pos (show (0 : Fin 1) ∈ (vecScatter N E wf).scatterDimsToOperandDims from List.mem_singleton.mpr rfl)]
  congr 2
  funext b; refine Fin.ext ?_
  match b with
  | ⟨0, _⟩ => rfl
  | ⟨1, _⟩ => rfl

theorem vecScatter_window {N E : Nat} (wf) (j : (⟨1, ![E]⟩ : Shape).Idx) (a : Fin 1) :
    (vecScatter N E wf).window j a = 0 := by
  obtain rfl : a = 0 := Subsingleton.elim _ _
  unfold ScatterDims.window
  rw [dif_neg (show ¬ ((0 : Fin 1) ∈ (vecScatter N E wf).sKept) from by
    simp [ScatterDims.sKept, Shape.kept])]

/-- A segment sum of a vector does not depend on the order of the entries: permuting the entries and their
    segment numbers alike leaves every segment's sum. -/
theorem vecScatter_perm {N E w : Nat} (wf) (σ : Equiv.Perm (Fin E)) (x : (⟨1, ![N]⟩ : Shape).Idx → EReal)
    (idx : IVec ⟨2, ![E, 1]⟩ w) (upd : (⟨1, ![E]⟩ : Shape).Idx → EReal) :
    Ideal.hostScatterAdd (vecScatter N E wf) x (fun i => idx (ix2 (σ (i 0)) (i 1))) (fun j => upd (ix1 (σ (j 0))))
      = Ideal.hostScatterAdd (vecScatter N E wf) x idx upd := by
  symm
  refine hostScatterAdd_perm _ x idx _ upd _ (vecPerm σ) (fun j => ?_) (fun j => rfl)
  refine resultIdx?_congr _ _ _ _ _ (fun a => ?_) (fun a => ?_)
  · rw [vecScatter_start, vecScatter_start]; rfl
  · rw [vecScatter_window, vecScatter_window]

theorem rowScatter_start0 {N C E w : Nat} (wf) (j : (⟨2, ![E, C]⟩ : Shape).Idx) (idx : IVec ⟨2, ![E, 1]⟩ w) :
    (rowScatter N C E wf).start j idx (0 : Fin 2) = (idx (ix2 (j 0) (⟨0, Nat.one_pos⟩ : Fin 1))).toInt := by
  unfold ScatterDims.start
  rw [dif_pos (show (0 : Fin 2) ∈ (rowScatter N C E wf).scatterDimsToOperandDims from List.mem_singleton.mpr rfl)]
  congr 2
  funext b; refine Fin.ext ?_
  match b with
  | ⟨0, _⟩ => rfl
  | ⟨1, _⟩ => rfl

theorem rowScatter_start1 {N C E w : Nat} (wf) (j : (⟨2, ![E, C]⟩ : Shape).Idx) (idx : IVec ⟨2, ![E, 1]⟩ w) :
    (rowScatter N C E wf).start j idx (1 : Fin 2) = 0 := by
  unfold ScatterDims.start
  rw [dif_neg (show ¬ ((1 : Fin 2) ∈ ([0] : List (Fin 2))) from by decide)]

theorem rowScatter_window0 {N C E : Nat} (wf) (j : (⟨2, ![E, C]⟩ : Shape).Idx) :
    (rowScatter N C E wf).window j (0 : Fin 2) = 0 := by
  unfold ScatterDims.window
  rw [dif_neg (show ¬ ((0 : Fin 2) ∈ (rowScatter N C E wf).sKept) from by
    simp [ScatterDims.sKept, Shape.kept])]

theorem rowScatter_window1 {N C E : Nat} (wf) (j : (⟨2, ![E, C]⟩ : Shape).Idx) :
    (rowScatter N C E wf).window j (1 : Fin 2) = (j 1).val := by
  unfold ScatterDims.window
  rw [dif_pos (show (1 : Fin 2) ∈ (rowScatter N C E wf).sKept from by
    simp [ScatterDims.sKept, Shape.kept])]
  rfl

/-- A segment sum of the rows of a matrix does not depend on the order of the rows. -/
theorem rowScatter_perm {N C E w : Nat} (wf) (σ : Equiv.Perm (Fin E)) (x : (⟨2, ![N, C]⟩ : Shape).Idx → EReal)
    (idx : IVec ⟨2, ![E, 1]⟩ w) (upd : (⟨2, ![E, C]⟩ : Shape).Idx → EReal) :
    Ideal.hostScatterAdd (rowScatter N C E wf) x (fun i => idx (ix2 (σ (i 0)) (i 1))) (fun j => upd (ix2 (σ (j 0)) (j 1)))
      = Ideal.hostScatterAdd (rowScatter N C E wf) x idx upd := by
  symm
  refine hostScatterAdd_perm _ x idx _ upd _ (rowPerm σ) (fun j => ?_) (fun j => rfl)
  refine resultIdx?_congr _ _ _ _ _ (fun a => ?_) (fun a => ?_)
  · match a with
    | ⟨0, _⟩ =>
      show (rowScatter N C E wf).start _ idx (0 : Fin 2) = (rowScatter N C E wf).start j _ (0 : Fin 2)
      rw [rowScatter_start0, rowScatter_start0]; rfl
    | ⟨1, _⟩ =>
      show (rowScatter N C E wf).start _ idx (1 : Fin 2) = (rowScatter N C E wf).start j _ (1 : Fin 2)
      rw [rowScatter_start1, rowScatter_start1]
  · match a with
    | ⟨0, _⟩ =>
      show (rowScatter N C E wf).window _ (0 : Fin 2) = (rowScatter N C E wf).window j (0 : Fin 2)
      rw [rowScatter_window0, rowScatter_window0]
    | ⟨1, _⟩ =>
      show (rowScatter N C E wf).window _ (1 : Fin 2) = (rowScatter N C E wf).window j (1 : Fin 2)
      rw [rowScatter_window1, rowScatter_window1]; rfl

/-- The same for the printed operation at the ideal instance. -/
theorem scatterAdd_perm {φ : FTy} {s si su : Shape} (d : ScatterDims s si su) {w : Nat} (x : FVec Ideal s φ)
    (idx idx' : IVec si w) (upd upd' : FVec Ideal su φ) (π : su.Idx ≃ su.Idx)
    (hidx : ∀ j, d.resultIdx? (π j) idx = d.resultIdx? j idx')
    (hupd : ∀ j, upd (π j) = upd' j) :
    Host.scatterAdd (F := Ideal) d x idx upd = Host.scatterAdd (F := Ideal) d x idx' upd' :=
  hostScatterAdd_perm d x idx idx' upd upd' π hidx hupd

end Cert.LibScatterPerm

end
-- ==== Proof.LibArgsort.lean ====
/-
  General lemma: an argsort of a vector — a two-operand sort along the one axis carrying the positions 0, 1, …
  beside the keys — reads both operands through ONE permutation of the positions, whatever the comparator and
  whatever ties it breaks: the stable sort's position map is a bijection of the positions.
-/
import Idealize.ShloMosaic.Lib.SortFacts

noncomputable section

namespace Cert.LibArgsort

open Idealize.ShloMosaic

/-- The order the sort applies to the positions of a vector of keys carried with any second operand. -/
def before {n : Nat} {α β : Type} (cmp : α × β → α × β → BitVec 1) (x : (⟨1, ![n]⟩ : Shape).Idx → α)
    (y : (⟨1, ![n]⟩ : Shape).Idx → β) (k k' : Fin n) : Bool :=
  cmp (x (Shape.Idx.ofFin k), y (Shape.Idx.ofFin k)) (x (Shape.Idx.ofFin k'), y (Shape.Idx.ofFin k')) == 1#1

/-- The permutation of the positions a two-operand sort of vectors applies. -/
def sortPerm {n : Nat} {α β : Type} (cmp : α × β → α × β → BitVec 1) (x : (⟨1, ![n]⟩ : Shape).Idx → α)
    (y : (⟨1, ![n]⟩ : Shape).Idx → β) : Equiv.Perm (Fin n) :=
  Equiv.ofBijective (sortedFrom (before cmp x y)) ⟨sortedFrom_injective _, sortedFrom_surjective _⟩

theorem sortPerm_apply {n : Nat} {α β : Type} (cmp : α × β → α × β → BitVec 1) (x : (⟨1, ![n]⟩ : Shape).Idx → α)
    (y : (⟨1, ![n]⟩ : Shape).Idx → β) (k : Fin n) : sortPerm cmp x y k = sortedFrom (before cmp x y) k := rfl

/-- Both results of a two-operand sort of vectors, read at a position: the operands at the permuted position. -/
theorem sort2_rank1 {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).1 j = x (Shape.Idx.ofFin (sortPerm cmp x y (j 0)))
    ∧ (Host.sort2 ⟨1, ![n]⟩ 0 cmp x y).2 j = y (Shape.Idx.ofFin (sortPerm cmp x y (j 0))) := by
  unfold Host.sort2
  have hal : ∀ k, j.along (⟨0, Nat.one_pos⟩ : Fin (⟨1, ![n]⟩ : Shape).rank) k = Shape.Idx.ofFin k :=
    fun k => Shape.Idx.along_rank1 j k
  simp only [show (0 : Nat) < (⟨1, ![n]⟩ : Shape).rank from Nat.one_pos, dite_true, hal]
  exact ⟨rfl, rfl⟩

/-- The argsort proper: the second operand the positions themselves, as words of any width. -/
theorem argsort_rank1 {n w : Nat} {α : Type} (cmp : α × BitVec w → α × BitVec w → BitVec 1)
    (x : (⟨1, ![n]⟩ : Shape).Idx → α) (j : (⟨1, ![n]⟩ : Shape).Idx) :
    (Host.sort2 ⟨1, ![n]⟩ 0 cmp x (iotaInDim ⟨1, ![n]⟩ w 0)).2 j
      = BitVec.ofNat w (sortPerm cmp x (iotaInDim ⟨1, ![n]⟩ w 0) (j 0)).val := by
  rw [(sort2_rank1 cmp x _ j).2]
  simp [iotaInDim]

end Cert.LibArgsort

end
-- ==== Proof.LibTake.lean ====
/-
  General lemmas: what `x[idx]` lowers to, read at an index. A gather of a vector, or of the rows of a matrix, at a
  column of start indices [E, 1] is the operand at the start index read signed and clamped into the operand's
  rows; and the two broadcasts that carry a per-row vector to a column and a column across the columns.
-/
import Idealize.ShloMosaic.Lib.ValueIdx
import Idealize.ShloMosaic.Lib.Pipeline.Value

noncomputable section

namespace Cert.LibTake

open Idealize.ShloMosaic Idealize.ShloMosaic.ValueIdx

variable {α : Type}

/-- The dimension numbers of `x[idx]` for a vector `x` of `N` entries and a column of `E` start indices. -/
abbrev vecTake (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Entry `e` of the gather is the vector at start index `idx[e, 0]`, read signed and clamped into `[0, N − 1]`. -/
theorem vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecTake N E wf) x idx y
      = x (ix1 ⟨min (idx (ix2 (y 0) (⟨0, Nat.one_pos⟩ : Fin 1))).toInt.toNat (N - 1), by omega⟩) := by
  unfold Host.gather
  congr 1
  funext a
  obtain rfl : a = 0 := Subsingleton.elim _ _
  refine Fin.ext ?_
  show (vecTake N E wf).start y idx 0 + (vecTake N E wf).batchCoord y 0 + (vecTake N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake N E wf).startIndexMap from List.mem_singleton.mpr rfl)]
  have hsi : (vecTake N E wf).siIdx y ⟨List.idxOf (0 : Fin 1) (vecTake N E wf).startIndexMap,
      List.idxOf_lt_length_iff.2 (List.mem_singleton.mpr rfl)⟩ = ix2 (y 0) (⟨0, Nat.one_pos⟩ : Fin 1) := by
    funext b; refine Fin.ext ?_
    match b with
    | ⟨0, _⟩ => rfl
    | ⟨1, _⟩ => rfl
  rw [hsi]
  rfl

/-- The dimension numbers of `x[idx]` for a matrix `x` of `N` rows of `C` entries and a column of `E` start indices:
    whole rows are taken. -/
abbrev rowTake (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- Entry `(e, c)` of the gather is the matrix at row `idx[e, 0]` (read signed and clamped into `[0, N − 1]`),
    column `c`. -/
theorem rowTake_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowTake N C E wf) x idx y
      = x (ix2 ⟨min (idx (ix2 (y 0) (⟨0, Nat.one_pos⟩ : Fin 1))).toInt.toNat (N - 1), by omega⟩ (y 1)) := by
  unfold Host.gather
  congr 1
  funext a
  refine Fin.ext ?_
  match a with
  | ⟨0, _⟩ =>
    show (rowTake N C E wf).start y idx (0 : Fin 2) + (rowTake N C E wf).batchCoord y (0 : Fin 2)
      + (rowTake N C E wf).offCoord y (0 : Fin 2) = min (idx (ix2 (y 0) (⟨0, Nat.one_pos⟩ : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N C E wf).startIndexMap from List.mem_singleton.mpr rfl)]
    have hsi : (rowTake N C E wf).siIdx y ⟨List.idxOf (0 : Fin 2) (rowTake N C E wf).startIndexMap,
        List.idxOf_lt_length_iff.2 (List.mem_singleton.mpr rfl)⟩ = ix2 (y 0) (⟨0, Nat.one_pos⟩ : Fin 1) := by
      funext b; refine Fin.ext ?_
      match b with
      | ⟨0, _⟩ => rfl
      | ⟨1, _⟩ => rfl
    rw [hsi]
    rfl
  | ⟨1, _⟩ =>
    show (rowTake N C E wf).start y idx (1 : Fin 2) + (rowTake N C E wf).batchCoord y (1 : Fin 2)
      + (rowTake N C E wf).offCoord y (1 : Fin 2) = (y 1).val
    have hs : (rowTake N C E wf).start y idx (1 : Fin 2) = 0 := by
      unfold GatherDims.start
      rw [dif_neg (show ¬ ((1 : Fin 2) ∈ ([0] : List (Fin 2))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((1 : Fin 2) ∈ ([0] : List (Fin 2))) from by decide), List.not_mem_nil⟩)]
    rfl

/-- A per-row vector carried to a column: entry `(e, u)` is the vector's entry `e`. -/
theorem bcastCol_apply {E : Nat} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) := by
  unfold broadcastInDim
  congr 1
  funext a
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-- A column carried across `C` columns: entry `(e, c)` is the column's entry `e`. -/
theorem bcastAcross_apply {E C : Nat} (h : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] h v (ix2 e c) = v (ix2 e (⟨0, Nat.one_pos⟩ : Fin 1)) := by
  unfold broadcastInDim
  congr 1
  funext a
  refine Fin.ext ?_
  match a with
  | ⟨0, _⟩ =>
    split
    · rename_i h1
      have hE : E = 1 := h1
      have := e.isLt
      show 0 = e.val
      omega
    · rfl
  | ⟨1, _⟩ =>
    split
    · rfl
    · rename_i h1
      exact absurd rfl h1

/-- A vector of `C` entries as one row: entry `(u, q)` is the vector's entry `q`. -/
theorem bcastRow_apply {C : Nat} (h : (⟨1, ![C]⟩ : Shape).BroadcastsInDim ⟨2, ![1, C]⟩ ![1])
    (v : (⟨1, ![C]⟩ : Shape).Idx → α) (u : Fin 1) (q : Fin C) :
    broadcastInDim ⟨2, ![1, C]⟩ ![1] h v (ix2 u q) = v (ix1 q) := by
  unfold broadcastInDim
  congr 1
  funext a
  obtain rfl : a = 0 := Subsingleton.elim _ _
  refine Fin.ext ?_
  split
  · rename_i h1
    have hC : C = 1 := h1
    have := q.isLt
    show 0 = q.val
    omega
  · rfl

/-- A row carried down `N` rows: entry `(r, q)` is the row's entry `q`. -/
theorem bcastDown_apply {N C : Nat} (h : (⟨2, ![1, C]⟩ : Shape).BroadcastsInDim ⟨2, ![N, C]⟩ ![0, 1])
    (v : (⟨2, ![1, C]⟩ : Shape).Idx → α) (r : Fin N) (q : Fin C) :
    broadcastInDim ⟨2, ![N, C]⟩ ![0, 1] h v (ix2 r q) = v (ix2 (⟨0, Nat.one_pos⟩ : Fin 1) q) := by
  unfold broadcastInDim
  congr 1
  funext a
  refine Fin.ext ?_
  match a with
  | ⟨0, _⟩ =>
    split
    · rfl
    · rename_i h1
      exact absurd rfl h1
  | ⟨1, _⟩ =>
    split
    · rename_i h1
      have hC : C = 1 := h1
      have := q.isLt
      show 0 = q.val
      omega
    · rfl

/-- A vector of `N` entries recast as a column: entry `(r, u)` is the vector's entry `r`. -/
theorem castCol_apply {N : Nat} (h : (⟨1, ![N]⟩ : Shape).ShapeCasts ⟨2, ![N, 1]⟩)
    (v : (⟨1, ![N]⟩ : Shape).Idx → α) (r : Fin N) (u : Fin 1) :
    shapeCast ⟨2, ![N, 1]⟩ v h (ix2 r u) = v (ix1 r) := by
  refine shapeCast_apply v h (ix2 r u) (ix1 r) ?_
  rw [Shape.rowMajor_val_two, Shape.rowMajor_val_one]
  show r.val = r.val * 1 + u.val
  have := u.isLt
  omega

/-- A vector of `C` entries recast as a row: entry `(u, q)` is the vector's entry `q`. -/
theorem castRow_apply {C : Nat} (h : (⟨1, ![C]⟩ : Shape).ShapeCasts ⟨2, ![1, C]⟩)
    (v : (⟨1, ![C]⟩ : Shape).Idx → α) (u : Fin 1) (q : Fin C) :
    shapeCast ⟨2, ![1, C]⟩ v h (ix2 u q) = v (ix1 q) := by
  refine shapeCast_apply v h (ix2 u q) (ix1 q) ?_
  rw [Shape.rowMajor_val_two, Shape.rowMajor_val_one]
  show q.val = u.val * C + q.val
  have := u.isLt
  have hu : u.val = 0 := by omega
  rw [hu]; omega

end Cert.LibTake

end
-- ==== Proof.ChainPerm.lean ====
/-
  The edge list may be sorted: with the edges permuted by the positions an argsort of the destinations gives, the
  in-degrees, and every layer's aggregation, are what they are on the unsorted list — each is a finite sum over
  the edges that end in a node, and the sort only reorders its terms.
-/
import proofs.«104369_j66383014527707_2_alg».proof.Proof.Chain
import proofs.«104369_j66383014527707_2_alg».proof.Proof.LibScatterPerm
import proofs.«104369_j66383014527707_2_alg».proof.Proof.LibArgsort
import proofs.«104369_j66383014527707_2_alg».proof.Proof.LibTake

noncomputable section

namespace Cert.KernelIdeal.Chain

open Cert.KernelIdeal Cert.KernelIdeal.Gen Idealize.ShloMosaic Idealize.ShloMosaic.ValueIdx
open Cert.LibTake Cert.LibScatterPerm Cert.LibArgsort

/-- A position among fewer than 2³¹ entries, as a 32-bit word, reads back signed as itself. -/
theorem toInt_ofNat_small (k : Nat) (hk : k < 2 ^ 31) : (BitVec.ofNat 32 k).toInt = (k : Int) := by
  rw [BitVec.toInt_eq_toNat_cond, BitVec.toNat_ofNat]
  have : k % 2 ^ 32 = k := Nat.mod_eq_of_lt (by omega)
  rw [this]; split <;> omega

/-- jnp's normalisation leaves a position that is not negative. -/
theorem wrap_small (K : BitVec 32) (k : Nat) (hk : k < 2 ^ 31) :
    Scalar.select (IntOp.cmpi .slt (BitVec.ofNat 32 k) 0#32) (IntOp.addi (BitVec.ofNat 32 k) K) (BitVec.ofNat 32 k)
      = BitVec.ofNat 32 k := by
  have h : IntOp.cmpi .slt (BitVec.ofNat 32 k) 0#32 = 0#1 := by
    have hn : ¬ ((k : Int) < 0) := by omega
    simp [IntOp.cmpi, BitVec.slt, toInt_ofNat_small k hk, hn]
  rw [h, select_zero]

/-- The permutation of the edges the argsort of the destinations applies. -/
def σ (dst : IVec S1600000 32) : Equiv.Perm (Fin 1600000) :=
  sortPerm comparator_i32_i32_d0 dst (iotaInDim S1600000 32 0)

/-- Reading a vector over the edges at the sorted positions reads it through that permutation. -/
theorem takeI_sort (x dst : IVec S1600000 32) (e : Fin 1600000) :
    takeI x (sortIdx dst) (ix1 e) = x (ix1 (σ dst e)) := by
  unfold takeI
  refine (vecTake_apply (N := 1600000) (E := 1600000) (by omega)
    gather_S1600000_S1600000x1_S1600000_n_0_n_n_0_1_1_wf x _ (ix1 e)).trans ?_
  refine congrArg x (congrArg ix1 (Fin.ext ?_))
  show min (colE (wrapE 1600000#32 (sortIdx dst)) (ix2 e (⟨0, Nat.one_pos⟩ : Fin 1))).toInt.toNat (1600000 - 1) = (σ dst e).val
  have hb : colE (wrapE 1600000#32 (sortIdx dst)) (ix2 e (⟨0, Nat.one_pos⟩ : Fin 1))
      = wrapE 1600000#32 (sortIdx dst) (ix1 e) :=
    bcastCol_apply (E := 1600000) bcast_S1600000_S1600000x1_0 _ e ⟨0, Nat.one_pos⟩
  have hs : sortIdx dst (ix1 e) = BitVec.ofNat 32 (σ dst e).val :=
    argsort_rank1 comparator_i32_i32_d0 dst (ix1 e)
  have hw : wrapE 1600000#32 (sortIdx dst) (ix1 e) = Scalar.select (IntOp.cmpi .slt (sortIdx dst (ix1 e)) 0#32)
      (IntOp.addi (sortIdx dst (ix1 e)) 1600000#32) (sortIdx dst (ix1 e)) := rfl
  have hlt := (σ dst e).isLt
  have h31 : (σ dst e).val < 2 ^ 31 := by omega
  rw [hb, hw, hs, wrap_small _ _ h31, toInt_ofNat_small _ h31]
  clear hb hw hs
  rw [Int.toNat_natCast]
  exact Nat.min_eq_left (by omega)

/-- The node an index word names, as jnp reads it: a negative word counts from the end once, and the result is
    clamped into the nodes. -/
def rowOf (v : BitVec 32) : Fin 100000 :=
  ⟨min (Scalar.select (IntOp.cmpi .slt v 0#32) (IntOp.addi v 100000#32) v).toInt.toNat (100000 - 1), by omega⟩

variable {F : FTy → Type} [FloatOps F]

/-- `x[i]` at an edge: the vector at the node the edge's index word names. -/
theorem takeV_apply (x : FVec F S100000 .f32) (i : IVec S1600000 32) (e : Fin 1600000) :
    takeV x i (ix1 e) = x (ix1 (rowOf (i (ix1 e)))) := by
  unfold takeV
  refine (vecTake_apply (N := 100000) (E := 1600000) (by omega)
    gather_S100000_S1600000x1_S1600000_n_0_n_n_0_1_1_wf x _ (ix1 e)).trans ?_
  refine congrArg x (congrArg ix1 (Fin.ext ?_))
  show min (colE (wrapE 100000#32 i) (ix2 e (⟨0, Nat.one_pos⟩ : Fin 1))).toInt.toNat (100000 - 1) = (rowOf (i (ix1 e))).val
  have hb : colE (wrapE 100000#32 i) (ix2 e (⟨0, Nat.one_pos⟩ : Fin 1)) = wrapE 100000#32 i (ix1 e) :=
    bcastCol_apply (E := 1600000) bcast_S1600000_S1600000x1_0 _ e ⟨0, Nat.one_pos⟩
  rw [hb]
  rfl

/-- `h[i]` at an edge and a column: the matrix at the row the edge's index word names. -/
theorem takeRows_apply (h : FVec F S100000x32 .f32) (i : IVec S1600000 32) (e : Fin 1600000) (c : Fin 32) :
    takeRows h i (ix2 e c) = h (ix2 (rowOf (i (ix1 e))) c) := by
  unfold takeRows
  refine (rowTake_apply (N := 100000) (C := 32) (E := 1600000) (by omega)
    gather_S100000x32_S1600000x1_S1600000x32_1_0_n_n_0_1_132_wf h _ (ix2 e c)).trans ?_
  refine congrArg h (congrArg (fun r => ix2 r c) (Fin.ext ?_))
  show min (colE (wrapE 100000#32 i) (ix2 e (⟨0, Nat.one_pos⟩ : Fin 1))).toInt.toNat (100000 - 1) = (rowOf (i (ix1 e))).val
  have hb : colE (wrapE 100000#32 i) (ix2 e (⟨0, Nat.one_pos⟩ : Fin 1)) = wrapE 100000#32 i (ix1 e) :=
    bcastCol_apply (E := 1600000) bcast_S1600000_S1600000x1_0 _ e ⟨0, Nat.one_pos⟩
  rw [hb]
  rfl

/-- A column made of a vector read at the sorted positions is the vector's column with its rows permuted. -/
theorem colE_takeI_sort (x dst : IVec S1600000 32) :
    colE (takeI x (sortIdx dst)) = fun i => colE x (ix2 (σ dst (i 0)) (i 1)) := by
  funext i
  obtain ⟨e, u, rfl⟩ : ∃ (e : Fin 1600000) (u : Fin 1), i = ix2 e u := ⟨i 0, i 1, eq_ix2 i⟩
  show colE (takeI x (sortIdx dst)) (ix2 e u) = colE x (ix2 (σ dst e) u)
  have h1 : colE (takeI x (sortIdx dst)) (ix2 e u) = takeI x (sortIdx dst) (ix1 e) :=
    bcastCol_apply (E := 1600000) bcast_S1600000_S1600000x1_0 _ e u
  have h2 : colE x (ix2 (σ dst e) u) = x (ix1 (σ dst e)) :=
    bcastCol_apply (E := 1600000) bcast_S1600000_S1600000x1_0 _ (σ dst e) u
  rw [h1, h2, takeI_sort]

/-- The in-degrees do not see the sort. -/
theorem dinvOf_sort (dst : IVec S1600000 32) :
    dinvOf (F := Ideal) (takeI dst (sortIdx dst)) = dinvOf (F := Ideal) dst := by
  unfold dinvOf
  refine congrArg Host.rsqrt (congrArg (fun t => addf t _) ?_)
  rw [colE_takeI_sort]
  exact vecScatter_perm (N := 100000) (E := 1600000) scatter_S100000_S1600000x1_S1600000_n_0_0_1_wf (σ dst) _ (colE dst)
    (broadcastInDim S1600000 ![] bcast_S_S1600000 (constant (F := Ideal) S_ .f32 0x3F800000#32))

/-- A layer's aggregation does not see the sort: the sorted edge list gives every node the same finite sum of
    scaled source rows, its terms reordered. -/
theorem aggOf_sort (h : FVec Ideal S100000x32 .f32) (dinv : FVec Ideal S100000 .f32) (src dst : IVec S1600000 32) :
    aggOf h (normOf dinv (takeI src (sortIdx dst)) (takeI dst (sortIdx dst)))
        (takeI src (sortIdx dst)) (takeI dst (sortIdx dst))
      = aggOf h (normOf dinv src dst) src dst := by
  unfold aggOf
  rw [colE_takeI_sort]
  have hupd : (mulf (takeRows h (takeI src (sortIdx dst)))
        (broadcastInDim S1600000x32 ![0, 1] bcast_S1600000x1_S1600000x32_0_1
          (colE (normOf dinv (takeI src (sortIdx dst)) (takeI dst (sortIdx dst))))))
      = fun j => (mulf (takeRows h src)
        (broadcastInDim S1600000x32 ![0, 1] bcast_S1600000x1_S1600000x32_0_1 (colE (normOf dinv src dst))))
          (ix2 (σ dst (j 0)) (j 1)) := by
    funext j
    obtain ⟨e, c, rfl⟩ : ∃ (e : Fin 1600000) (c : Fin 32), j = ix2 e c := ⟨j 0, j 1, eq_ix2 j⟩
    show FloatOps.mulf (takeRows h (takeI src (sortIdx dst)) (ix2 e c))
        (broadcastInDim S1600000x32 ![0, 1] bcast_S1600000x1_S1600000x32_0_1
          (colE (normOf dinv (takeI src (sortIdx dst)) (takeI dst (sortIdx dst)))) (ix2 e c))
      = FloatOps.mulf (takeRows h src (ix2 (σ dst e) c))
        (broadcastInDim S1600000x32 ![0, 1] bcast_S1600000x1_S1600000x32_0_1 (colE (normOf dinv src dst)) (ix2 (σ dst e) c))
    have b1 : ∀ (v : FVec Ideal S1600000 .f32) (e' : Fin 1600000),
        broadcastInDim S1600000x32 ![0, 1] bcast_S1600000x1_S1600000x32_0_1 (colE v) (ix2 e' c) = v (ix1 e') := fun v e' =>
      (bcastAcross_apply (E := 1600000) (C := 32) bcast_S1600000x1_S1600000x32_0_1 (colE v) e' c).trans
        (bcastCol_apply (E := 1600000) bcast_S1600000_S1600000x1_0 v e' ⟨0, Nat.one_pos⟩)
    rw [b1, b1, takeRows_apply, takeRows_apply, takeI_sort]
    show FloatOps.mulf _ (FloatOps.mulf (takeV dinv (takeI src (sortIdx dst)) (ix1 e)) (takeV dinv (takeI dst (sortIdx dst)) (ix1 e)))
      = FloatOps.mulf _ (FloatOps.mulf (takeV dinv src (ix1 (σ dst e))) (takeV dinv dst (ix1 (σ dst e))))
    rw [takeV_apply, takeV_apply, takeV_apply, takeV_apply, takeI_sort, takeI_sort]
  rw [hupd]
  exact rowScatter_perm (N := 100000) (C := 32) (E := 1600000) scatter_S100000x32_S1600000x1_S1600000x32_1_0_0_1_wf (σ dst) _
    (colE dst) _

end Cert.KernelIdeal.Chain

end
-- ==== Proof.BridgeLayout.lean ====
/-
  The two programs' layers agree in shape: a layer's pre-activation as the kernel program forms it — over the edge
  list sorted by destination, the self-loop weights as a column, the bias as a row — is the reference's, entry by
  entry. The sort drops out (a segment sum does not see the order of the edges); the rest is layout.
-/
import proofs.«104369_j66383014527707_2_alg».proof.Proof.Spec
import proofs.«104369_j66383014527707_2_alg».proof.Proof.RefSpec
import proofs.«104369_j66383014527707_2_alg».proof.Proof.ChainPerm
import proofs.«104369_j66383014527707_2_alg».proof.Proof.LibTake

set_option maxRecDepth 16384
set_option maxHeartbeats 400000

noncomputable section

namespace Cert.Bridge

open Idealize.ShloMosaic Idealize.ShloMosaic.ValueIdx
open Cert.LibTake
open Cert.KernelIdeal.Chain Cert.KernelIdeal.Spec Cert.KernelIdeal.Reg
open Cert.ReferenceIdeal.RSpec

abbrev EI := IVec (⟨2, ![2, 1600000]⟩ : Shape) 32
abbrev NC := (⟨2, ![100000, 32]⟩ : Shape).Idx → EReal
abbrev V32 := (⟨1, ![32]⟩ : Shape).Idx → EReal

theorem src_eq (ei : EI) : srcOf ei = rSrc ei := rfl
theorem dst_eq (ei : EI) : dstOf ei = rDst ei := rfl

/-! The two programs print one set of dimension numbers each; they are the same records. -/

theorem sc1_eq : Cert.KernelIdeal.scatter_S100000_S1600000x1_S1600000_n_0_0_1
    = Cert.ReferenceIdeal.scatter_S100000_S1600000x1_S1600000_n_0_0_1 := rfl
theorem sc2_eq : Cert.KernelIdeal.scatter_S100000x32_S1600000x1_S1600000x32_1_0_0_1
    = Cert.ReferenceIdeal.scatter_S100000x32_S1600000x1_S1600000x32_1_0_0_1 := rfl
theorem g1_eq : Cert.KernelIdeal.gather_S100000_S1600000x1_S1600000_n_0_n_n_0_1_1
    = Cert.ReferenceIdeal.gather_S100000_S1600000x1_S1600000_n_0_n_n_0_1_1 := rfl
theorem g2_eq : Cert.KernelIdeal.gather_S100000x32_S1600000x1_S1600000x32_1_0_n_n_0_1_132
    = Cert.ReferenceIdeal.gather_S100000x32_S1600000x1_S1600000x32_1_0_n_n_0_1_132 := rfl

theorem dinv_eq (dst : IVec (⟨1, ![1600000]⟩ : Shape) 32) : dinvOf (F := Ideal) dst = rDinv dst := by
  unfold dinvOf rDinv Cert.KernelIdeal.Chain.colE Cert.ReferenceIdeal.RSpec.colE
  rw [sc1_eq]

theorem norm_eq (dinv : (⟨1, ![100000]⟩ : Shape).Idx → EReal) (src dst : IVec (⟨1, ![1600000]⟩ : Shape) 32) :
    normOf (F := Ideal) dinv src dst = rNorm dinv src dst := by
  unfold normOf rNorm takeV Cert.KernelIdeal.Chain.colE Cert.ReferenceIdeal.RSpec.colE wrapE wrapN
  rw [g1_eq]

theorem agg_eq (h : NC) (nrm : (⟨1, ![1600000]⟩ : Shape).Idx → EReal) (src dst : IVec (⟨1, ![1600000]⟩ : Shape) 32) :
    aggOf (F := Ideal) h nrm src dst = rAgg h nrm src dst := by
  unfold aggOf rAgg takeRows Cert.KernelIdeal.Chain.colE Cert.ReferenceIdeal.RSpec.colE wrapE wrapN
  rw [sc2_eq, g2_eq]

/-- The self-loop weights as a column, at a node. -/
theorem ssOf_apply (dinv : (⟨1, ![100000]⟩ : Shape).Idx → EReal) (r : Fin 100000) (u : Fin 1) :
    ssOf dinv (ix2 r u) = dinv (ix1 r) * dinv (ix1 r) :=
  castCol_apply (N := 100000) Cert.KernelIdeal.Gen.shapeCasts_S100000_S100000x1 (mulf (F := Ideal) dinv dinv) r u

theorem rowV_apply (b : V32) (u : Fin 1) (q : Fin 32) : rowV b (ix2 u q) = b (ix1 q) :=
  castRow_apply (C := 32) Cert.KernelIdeal.Gen.shapeCasts_S32_S1x32 b u q

theorem bcNode_apply (v : (⟨1, ![100000]⟩ : Shape).Idx → EReal) (r : Fin 100000) (q : Fin 32) :
    bcNode v (ix2 r q) = v (ix1 r) :=
  (bcastAcross_apply (E := 100000) (C := 32) Cert.ReferenceIdeal.Gen.bcast_S100000x1_S100000x32_0_1 _ r q).trans
    (bcastCol_apply (E := 100000) Cert.ReferenceIdeal.Gen.bcast_S100000_S100000x1_0 v r ⟨0, Nat.one_pos⟩)

theorem bcChan_apply (b : V32) (r : Fin 100000) (q : Fin 32) : bcChan b (ix2 r q) = b (ix1 q) :=
  (bcastDown_apply (N := 100000) (C := 32) Cert.ReferenceIdeal.Gen.bcast_S1x32_S100000x32_0_1 _ r q).trans
    (bcastRow_apply (C := 32) Cert.ReferenceIdeal.Gen.bcast_S32_S1x32_1 b ⟨0, Nat.one_pos⟩ q)

/-- On the edge list as given, the kernel program's layout of a pre-activation is the reference's. -/
theorem preR_eq (ei : EI) (h : NC) (b : V32) : preR ei h b = rPre h (rSrc ei) (rDst ei) b := by
  funext i
  obtain ⟨r, q, rfl⟩ : ∃ (r : Fin 100000) (q : Fin 32), i = ix2 r q := ⟨i 0, i 1, eq_ix2 i⟩
  unfold preR
  rw [preW_apply, ssOf_apply, rowV_apply, agg_eq, norm_eq, dinv_eq, src_eq, dst_eq]
  unfold rPre
  generalize rAgg h (rNorm (rDinv (rDst ei)) (rSrc ei) (rDst ei)) (rSrc ei) (rDst ei) = A
  generalize rDinv (rDst ei) = D
  rw [addf_apply, addf_apply, mulf_apply, bcNode_apply, bcChan_apply, mulf_apply]

/-- The sort drops out of a layer's pre-activation. -/
theorem preK_eq (ei : EI) (h : NC) (b : V32) : preK ei h b = rPre h (rSrc ei) (rDst ei) b := by
  rw [← preR_eq]
  unfold preK preR dinvK srcS dstS
  rw [dinvOf_sort, aggOf_sort]

end Cert.Bridge

end
-- ==== Proof.LibVariance.lean ====
/-
  The two ways of computing a variance agree on finite data, over the extended reals.

  Batch normalisation needs, per column, the mean `m = (∑ a) / n` and the variance of `n` numbers.  One program takes the
  mean of the squared deviations, `(∑ (a - m)²) / n`; another keeps two running sums and takes `(∑ a²) / n - m²`.  Over the
  reals these are one number when `n` is the number of terms (expand the square and use `∑ a = n · m`).  Over the extended
  reals the identity is FALSE at infinities (`⊤ - ⊤ = ⊥`), so it is stated for data that are real numbers, with the
  division being the extended reals' `Ideal.div` by a nonzero real.  The variance so computed is a nonnegative real, so
  adding a positive `ε` gives a positive real: the reciprocal square root after it is finite.
-/
import Idealize.ShloMosaic.PureOps.Ideal

namespace Cert.LibVariance

open Idealize.ShloMosaic Finset

variable {ι : Type*} [Fintype ι]

/-- A finite sum of real numbers, read in the extended reals, is the sum of the numbers read there. -/
theorem coe_sum (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- Dividing a real by a nonzero real in the extended reals is the real quotient. -/
theorem div_coe_coe (x : ℝ) {n : ℝ} (hn : n ≠ 0) : Ideal.div (x : EReal) (n : EReal) = ((x / n : ℝ) : EReal) := by
  rw [Ideal.div_coe hn, ← EReal.coe_mul, mul_one_div]

/-- Over the reals: the mean of the squared deviations from the mean is the mean of the squares minus the squared mean,
    when `n` is the number of terms. -/
theorem real_var (a : ι → ℝ) {n : ℝ} (hn : n ≠ 0) (hcard : (Fintype.card ι : ℝ) = n) :
    (∑ i, (a i - (∑ k, a k) / n) * (a i - (∑ k, a k) / n)) / n
      = (∑ i, a i * a i) / n - ((∑ k, a k) / n) * ((∑ k, a k) / n) := by
  set S := ∑ k, a k with hS
  have hexp : ∑ i, (a i - S / n) * (a i - S / n)
      = (∑ i, a i * a i) - 2 * (S / n) * S + n * ((S / n) * (S / n)) := by
    have : ∀ i, (a i - S / n) * (a i - S / n) = a i * a i - 2 * (S / n) * a i + (S / n) * (S / n) := fun i => by ring
    rw [Finset.sum_congr rfl fun i _ => this i, Finset.sum_add_distrib, Finset.sum_sub_distrib, ← Finset.mul_sum,
      Finset.sum_const, Finset.card_univ, nsmul_eq_mul, hcard]
  rw [hexp]
  field_simp
  ring

/-- Over the reals the mean of squared deviations is nonnegative when `n` is positive. -/
theorem real_var_nonneg (a : ι → ℝ) (m : ℝ) {n : ℝ} (hn : 0 < n) : 0 ≤ (∑ i, (a i - m) * (a i - m)) / n :=
  div_nonneg (Finset.sum_nonneg fun i _ => mul_self_nonneg _) hn.le

/-- The mean of real data, computed in the extended reals, is the real mean. -/
theorem mean_coe (a : ι → ℝ) {n : ℝ} (hn : n ≠ 0) :
    Ideal.div (∑ i, (a i : EReal)) (n : EReal) = (((∑ i, a i) / n : ℝ) : EReal) := by
  rw [← coe_sum, div_coe_coe _ hn]

/-- The mean of squared deviations of real data from a real centre, computed in the extended reals, is the real one. -/
theorem centred_coe (a : ι → ℝ) (m : ℝ) {n : ℝ} (hn : n ≠ 0) :
    Ideal.div (∑ i, ((a i : EReal) - (m : EReal)) * ((a i : EReal) - (m : EReal))) (n : EReal)
      = (((∑ i, (a i - m) * (a i - m)) / n : ℝ) : EReal) := by
  have : ∀ i, ((a i : EReal) - (m : EReal)) * ((a i : EReal) - (m : EReal)) = (((a i - m) * (a i - m) : ℝ) : EReal) :=
    fun i => by rw [← EReal.coe_sub, ← EReal.coe_mul]
  rw [Finset.sum_congr rfl fun i _ => this i, ← coe_sum, div_coe_coe _ hn]

/-- The mean of the squares of real data, computed in the extended reals, is the real one. -/
theorem squares_coe (a : ι → ℝ) {n : ℝ} (hn : n ≠ 0) :
    Ideal.div (∑ i, (a i : EReal) * (a i : EReal)) (n : EReal) = (((∑ i, a i * a i) / n : ℝ) : EReal) := by
  have : ∀ i, (a i : EReal) * (a i : EReal) = ((a i * a i : ℝ) : EReal) := fun i => by rw [← EReal.coe_mul]
  rw [Finset.sum_congr rfl fun i _ => this i, ← coe_sum, div_coe_coe _ hn]

/-- THE IDENTITY over the extended reals, for real data: with `m` the mean, the mean of the squared deviations from `m` is the
    mean of the squares minus `m · m`. -/
theorem var_two_forms (a : ι → ℝ) {n : ℝ} (hn : n ≠ 0) (hcard : (Fintype.card ι : ℝ) = n) :
    Ideal.div (∑ i, ((a i : EReal) - Ideal.div (∑ k, (a k : EReal)) (n : EReal))
                  * ((a i : EReal) - Ideal.div (∑ k, (a k : EReal)) (n : EReal))) (n : EReal)
      = Ideal.div (∑ i, (a i : EReal) * (a i : EReal)) (n : EReal)
          - Ideal.div (∑ k, (a k : EReal)) (n : EReal) * Ideal.div (∑ k, (a k : EReal)) (n : EReal) := by
  rw [mean_coe a hn, centred_coe a _ hn, squares_coe a hn, ← EReal.coe_mul, ← EReal.coe_sub, real_var a hn hcard]

/-- The variance of real data is a nonnegative real, so a positive `ε` added to it gives a positive real. -/
theorem var_add_eps_pos (a : ι → ℝ) {n ε : ℝ} (hn : 0 < n) (hε : 0 < ε) :
    ∃ r : ℝ, 0 < r ∧
      Ideal.div (∑ i, ((a i : EReal) - Ideal.div (∑ k, (a k : EReal)) (n : EReal))
                  * ((a i : EReal) - Ideal.div (∑ k, (a k : EReal)) (n : EReal))) (n : EReal) + (ε : EReal) = (r : EReal) := by
  refine ⟨(∑ i, (a i - (∑ k, a k) / n) * (a i - (∑ k, a k) / n)) / n + ε, ?_, ?_⟩
  · have := real_var_nonneg a ((∑ k, a k) / n) hn
    linarith
  · rw [mean_coe a hn.ne', centred_coe a _ hn.ne', ← EReal.coe_add]

end Cert.LibVariance
-- ==== Proof.Consts.lean ====
/-
  The float words the two programs carry, read at the ideal values: zero, one, the number of nodes, and the
  batch-norm epsilon as a positive real.
-/
import Idealize.ShloMosaic.PureOps.Ideal
import Idealize.ShloMosaic.PureOps.Ideal.Laws

noncomputable section

namespace Cert.Consts

open Idealize.ShloMosaic

theorem one_f32 : Ideal.ofBits .f32 0x3F800000#32 = ((1 : ℝ) : EReal) := by
  simp [Ideal.ofBits, Ideal.ieee]
  norm_cast
  norm_num

theorem nodes_f32 : Ideal.ofBits .f32 0x47C35000#32 = ((100000 : ℝ) : EReal) := by
  simp [Ideal.ofBits, Ideal.ieee]
  norm_cast
  norm_num

theorem eps_f32 : ∃ e : ℝ, 0 < e ∧ Ideal.ofBits .f32 0x3727C5AC#32 = (e : EReal) := by
  refine ⟨_, ?_, by simp [Ideal.ofBits, Ideal.ieee]; rfl⟩
  positivity

end Cert.Consts

end
-- ==== Proof.BridgeStats.lean ====
/-
  Batch norm agrees: the kernel program's statistics — the mean from the column sums, the variance as the mean of
  the squares minus the squared mean — are the reference's mean and mean squared deviation whenever the
  pre-activation's entries are real numbers, and then the activated pre-activations and the next projections agree.
-/
import proofs.«104369_j66383014527707_2_alg».proof.Proof.BridgeLayout
import proofs.«104369_j66383014527707_2_alg».proof.Proof.LibVariance
import proofs.«104369_j66383014527707_2_alg».proof.Proof.LibReal
import proofs.«104369_j66383014527707_2_alg».proof.Proof.Consts
import proofs.«104369_j66383014527707_2_alg».proof.Proof.LibMatmul
import Idealize.ShloMosaic.PureOps.Ideal.Laws

set_option maxRecDepth 16384

noncomputable section

namespace Cert.Bridge

open Idealize.ShloMosaic Idealize.ShloMosaic.ValueIdx
open Cert.LibTake Cert.LibReal Cert.LibMatmul
open Cert.KernelIdeal.Chain Cert.KernelIdeal.Spec Cert.KernelIdeal.Reg
open Cert.ReferenceIdeal.RSpec

/-- The number of nodes, as the programs' word read at the ideal values. -/
abbrev N5 : EReal := Ideal.ofBits .f32 0x47C35000#32

/-- Column `q`'s sum of an array over the nodes. -/
def S (P : NC) (q : Fin 32) : EReal := ∑ r : Fin 100000, P (ix2 r q)
def S2 (P : NC) (q : Fin 32) : EReal := ∑ r : Fin 100000, P (ix2 r q) * P (ix2 r q)

theorem meanK_apply (P : NC) (u : Fin 1) (q : Fin 32) : meanK (colSum P) (ix2 u q) = Ideal.div (S P q) N5 := rfl

theorem varK_apply (P : NC) (u : Fin 1) (q : Fin 32) :
    varK (colSum P) (colSumSq P) (ix2 u q) = Ideal.div (S2 P q) N5 - Ideal.div (S P q) N5 * Ideal.div (S P q) N5 := rfl

theorem redN : (⟨2, ![100000, 32]⟩ : Shape).Reduces [0] ⟨1, ![32]⟩ := by decide

theorem lift_colN (h : (⟨2, ![100000, 32]⟩ : Shape).Reduces [0] ⟨1, ![32]⟩) (j : (⟨1, ![32]⟩ : Shape).Idx) (k : Fin 100000) :
    h.lift j k = ix2 k (j 0) := by
  funext c
  apply Fin.ext
  show h.liftVal j k.val c = (ix2 k (j 0) c).val
  match c with
  | ⟨0, _⟩ => simp [Shape.Reduces.liftVal]
  | ⟨1, _⟩ => simp [Shape.Reduces.liftVal]

/-- The host's sum over the nodes from the zero word, at a channel. -/
theorem hostSum_apply (P : NC) (q : Fin 32) :
    Host.reduceAdd (F := Ideal) P (constant Cert.ReferenceIdeal.S_ .f32 0x00000000#32) Cert.ReferenceIdeal.Gen.reducesTo_S100000x32_S32_d0 Cert.ReferenceIdeal.Gen.h_S_ (ix1 q)
      = ∑ r : Fin 100000, P (ix2 r q) := by
  show Ideal.hostReduceAdd Cert.ReferenceIdeal.Gen.reducesTo_S100000x32_S32_d0 P (Ideal.ofBits .f32 0x00000000#32) (ix1 q) = _
  rw [Ideal.hostReduceAdd_single _ redN, Ideal.ofBits_zero_f32, zero_add]
  refine Finset.sum_congr rfl fun r _ => ?_
  exact congrArg P (lift_colN redN (ix1 q) r)

theorem rSum_apply (P : NC) (q : Fin 32) : rSum P (ix1 q) = S P q := hostSum_apply P q

theorem rMean_apply (P : NC) (q : Fin 32) : rMean P (ix1 q) = Ideal.div (S P q) N5 := by
  show Ideal.div (rSum P (ix1 q)) N5 = _
  rw [rSum_apply]

theorem rDev_apply (P : NC) (r : Fin 100000) (q : Fin 32) : rDev P (ix2 r q) = P (ix2 r q) - Ideal.div (S P q) N5 := by
  show P (ix2 r q) - broadcastInDim Cert.ReferenceIdeal.S100000x32 ![0, 1] Cert.ReferenceIdeal.Gen.bcast_S1x32_S100000x32_0_1
    (Host.divf (F := Ideal) (broadcastInDim Cert.ReferenceIdeal.S1x32 ![1] Cert.ReferenceIdeal.Gen.bcast_S32_S1x32_1 (rSum P))
      (broadcastInDim Cert.ReferenceIdeal.S1x32 ![] Cert.ReferenceIdeal.Gen.bcast_S_S1x32 (constant Cert.ReferenceIdeal.S_ .f32 0x47C35000#32))) (ix2 r q) = _
  rw [bcastDown_apply (N := 100000) (C := 32)]
  show P (ix2 r q) - Ideal.div (broadcastInDim Cert.ReferenceIdeal.S1x32 ![1] Cert.ReferenceIdeal.Gen.bcast_S32_S1x32_1 (rSum P) (ix2 (⟨0, Nat.one_pos⟩ : Fin 1) q)) N5 = _
  rw [bcastRow_apply (C := 32), rSum_apply]

/-- The divisor of the reference's variance is the number of nodes. -/
theorem rDof_apply (j : (⟨0, ![]⟩ : Shape).Idx) : rDof j = ((100000 : ℝ) : EReal) := by
  show Ideal.ofBits .f32 0x47C35000#32 - (((0#32 : BitVec 32).toInt : ℝ) : EReal) = _
  rw [Cert.Consts.nodes_f32]
  simp

set_option maxRecDepth 200000 in
/-- The reference's variance at a channel: the mean squared deviation (the guard on the divisor holds). -/
theorem rVar_apply (P : NC) (q : Fin 32) :
    rVar P (ix1 q) = Ideal.div (∑ r : Fin 100000, (P (ix2 r q) - Ideal.div (S P q) N5) * (P (ix2 r q) - Ideal.div (S P q) N5))
      ((100000 : ℝ) : EReal) := by
  have hc : Ideal.cmp .ogt ((100000 : ℝ) : EReal) (Ideal.ofBits .f32 0x00000000#32) = 1#1 := by
    rw [Ideal.ofBits_zero_f32]
    simp [Ideal.cmp]
  have hsel : ∀ (a b : EReal) (j : (⟨0, ![]⟩ : Shape).Idx),
      Scalar.select (Ideal.cmp .ogt (rDof j) (Ideal.ofBits .f32 0x00000000#32)) a b = a := by
    intro a b j; rw [rDof_apply, hc, select_one]
  have hsum := hostSum_apply (mulf (F := Ideal) (rDev P) (rDev P)) q
  refine (hsel _ _ _).trans ?_
  refine (congrArg₂ Ideal.div hsum (rDof_apply _)).trans ?_
  refine congrArg (fun s => Ideal.div s _) (Finset.sum_congr rfl fun r _ => ?_)
  show rDev P (ix2 r q) * rDev P (ix2 r q) = _
  rw [rDev_apply]

/-- For a real column the two variances agree. -/
theorem var_eq (P : NC) (hP : AllR P) (u : Fin 1) (q : Fin 32) :
    varK (colSum P) (colSumSq P) (ix2 u q) = rVar P (ix1 q) := by
  rw [varK_apply, rVar_apply]
  choose a ha using fun r : Fin 100000 => hP (ix2 r q)
  have hn : (100000 : ℝ) ≠ 0 := by norm_num
  have hcard : (Fintype.card (Fin 100000) : ℝ) = 100000 := by simp
  have h := Cert.LibVariance.var_two_forms a hn hcard
  unfold S S2
  simp only [N5, Cert.Consts.nodes_f32, ha]
  exact h.symm

theorem mean_eq (P : NC) (u : Fin 1) (q : Fin 32) : meanK (colSum P) (ix2 u q) = rMean P (ix1 q) := by
  rw [meanK_apply, rMean_apply]

/-- The reference's activated pre-activation at an entry. -/
theorem rAct_apply (P : NC) (g be : V32) (r : Fin 100000) (q : Fin 32) :
    rAct P g be (ix2 r q) = act (P (ix2 r q)) (rMean P (ix1 q)) (rVar P (ix1 q)) (g (ix1 q)) (be (ix1 q)) := by
  show max (((P (ix2 r q) - bcChan (rMean P) (ix2 r q))
      * bcChan (Host.rsqrt (F := Ideal) (addf (rVar P) (broadcastInDim Cert.ReferenceIdeal.S32 ![] Cert.ReferenceIdeal.Gen.bcast_S_S32
          (constant Cert.ReferenceIdeal.S_ .f32 0x3727C5AC#32)))) (ix2 r q)) * bcChan g (ix2 r q) + bcChan be (ix2 r q))
    (Ideal.ofBits .f32 0x00000000#32) = _
  rw [bcChan_apply, bcChan_apply, bcChan_apply, bcChan_apply]
  rfl

/-- The activated pre-activations agree. -/
theorem act_eq (P : NC) (hP : AllR P) (g be : V32) :
    actW P (meanK (colSum P)) (varK (colSum P) (colSumSq P)) (rowV g) (rowV be) = rAct P g be := by
  funext i
  obtain ⟨r, q, rfl⟩ : ∃ (r : Fin 100000) (q : Fin 32), i = ix2 r q := ⟨i 0, i 1, eq_ix2 i⟩
  rw [actW_apply, mean_eq, var_eq P hP, rowV_apply, rowV_apply, rAct_apply]

/-- The reference's projections are matrix products. -/
theorem rDot0_eq (x : (⟨2, ![100000, 128]⟩ : Shape).Idx → EReal) (W : (⟨2, ![128, 32]⟩ : Shape).Idx → EReal) :
    rDot0 x W = MM (A := 100000) (K := 128) (B := 32) x W :=
  dotGeneral_eq Cert.ReferenceIdeal.dot_S100000x128_S128x32_S100000x32_1_0_0_1_n_n rfl rfl rfl rfl rfl rfl none .single x W

theorem rNext_eq (P : NC) (g be : V32) (W : (⟨2, ![32, 32]⟩ : Shape).Idx → EReal) :
    rNext P g be W = MM (A := 100000) (K := 32) (B := 32) (rAct P g be) W :=
  dotGeneral_eq Cert.ReferenceIdeal.dot_S100000x32_S32x32_S100000x32_1_0_0_1_n_n rfl rfl rfl rfl rfl rfl none .single _ W

/-- A hidden layer's next projection agrees, for a real pre-activation. -/
theorem nextH_eq (P : NC) (hP : AllR P) (g be : V32) (W : (⟨2, ![32, 32]⟩ : Shape).Idx → EReal) :
    nextH P g be W = rNext P g be W := by
  rw [rNext_eq]
  unfold nextH
  rw [act_eq P hP]

end Cert.Bridge

end
-- ==== Proof.BridgeReal.lean ====
/-
  Real entries stay real: from arguments with real entries every layer's pre-activation has real entries — the
  in-degrees plus one are positive, so the normalisation factors are real; gathers, products, finite sums and the
  bias keep real entries real; and the variance of real data plus a positive ε is positive, so batch norm does too.
-/
import proofs.«104369_j66383014527707_2_alg».proof.Proof.BridgeStats

set_option maxRecDepth 16384

noncomputable section

namespace Cert.Bridge

open Idealize.ShloMosaic Idealize.ShloMosaic.ValueIdx
open Cert.LibTake Cert.LibReal Cert.LibMatmul
open Cert.KernelIdeal.Chain Cert.KernelIdeal.Spec Cert.KernelIdeal.Reg
open Cert.ReferenceIdeal.RSpec

theorem allR_MM {A K B : Nat} (x : (⟨2, ![A, K]⟩ : Shape).Idx → EReal) (w : (⟨2, ![K, B]⟩ : Shape).Idx → EReal)
    (hx : AllR x) (hw : AllR w) : AllR (MM x w) :=
  fun _ => IsR.sum _ _ fun _ _ => (hx _).mul (hw _)

theorem allR_gather {s si t : Shape} (d : GatherDims s si t) {w : Nat} (x : s.Idx → EReal) (idx : IVec si w)
    (hx : AllR x) : AllR (Host.gather d x idx) := fun _ => hx _

theorem allR_bcast {s t : Shape} (dims : Fin s.rank → Fin t.rank) (h : s.BroadcastsInDim t dims) (v : s.Idx → EReal)
    (hv : AllR v) : AllR (broadcastInDim t dims h v) := fun _ => hv _

theorem allR_scatterAdd {s si su : Shape} (d : ScatterDims s si su) {w : Nat} (x : s.Idx → EReal) (idx : IVec si w)
    (upd : su.Idx → EReal) (hx : AllR x) (hu : AllR upd) : AllR (Ideal.hostScatterAdd d x idx upd) :=
  fun i => (hx i).add (IsR.sum _ _ fun j _ => hu j)

theorem allR_zero (s : Shape) : AllR (constant (F := Ideal) s .f32 0x00000000#32) :=
  fun _ => ⟨0, Ideal.ofBits_zero_f32⟩

theorem hostRsqrt_apply {s : Shape} (v : FVec Ideal s .f32) (i : s.Idx) : Host.rsqrt v i = Ideal.rsqrt (v i) := rfl

theorem scatterAdd_apply {s si su : Shape} (d : ScatterDims s si su) {w : Nat} (x : FVec Ideal s .f32) (idx : IVec si w)
    (upd : FVec Ideal su .f32) (i : s.Idx) :
    Host.scatterAdd d x idx upd i = x i + ∑ j ∈ Finset.univ.filter (fun j => d.resultIdx? j idx = some i), upd j := rfl

theorem bcastConst_apply {t : Shape} (h : (⟨0, ![]⟩ : Shape).BroadcastsInDim t (![] : Fin 0 → Fin t.rank)) (w : BitVec 32) (i : t.Idx) :
    broadcastInDim t ![] h (constant (F := Ideal) (⟨0, ![]⟩ : Shape) .f32 w) i = Ideal.ofBits .f32 w := rfl

/-- The normalisation factors are real: an in-degree plus one is a positive real. -/
theorem allR_rDinv (dst : IVec (⟨1, ![1600000]⟩ : Shape) 32) : AllR (rDinv dst) := by
  intro i
  unfold rDinv
  rw [hostRsqrt_apply, addf_apply, scatterAdd_apply, bcastConst_apply, bcastConst_apply]
  simp only [show ∀ x, broadcastInDim Cert.ReferenceIdeal.S1600000 ![] Cert.ReferenceIdeal.Gen.bcast_S_S1600000
    (constant (F := Ideal) Cert.ReferenceIdeal.S_ .f32 0x3F800000#32) x = ((1 : ℝ) : EReal) from fun _ => Cert.Consts.one_f32]
  obtain ⟨r, hr, e⟩ := sum_ones (Finset.univ.filter fun j : Cert.ReferenceIdeal.S1600000.Idx =>
    Cert.ReferenceIdeal.scatter_S100000_S1600000x1_S1600000_n_0_0_1.resultIdx? j (Cert.ReferenceIdeal.RSpec.colE dst) = some i)
  rw [Cert.Consts.one_f32, e, Ideal.ofBits_zero_f32, zero_add, ← EReal.coe_add]
  exact isR_rsqrt (by linarith)

theorem allR_rNorm (dinv : (⟨1, ![100000]⟩ : Shape).Idx → EReal) (hd : AllR dinv) (src dst : IVec (⟨1, ![1600000]⟩ : Shape) 32) :
    AllR (rNorm dinv src dst) := by
  intro j
  unfold rNorm
  rw [mulf_apply]
  exact (hd _).mul (hd _)

theorem allR_rAgg (h : NC) (hh : AllR h) (nrm : (⟨1, ![1600000]⟩ : Shape).Idx → EReal) (hn : AllR nrm)
    (src dst : IVec (⟨1, ![1600000]⟩ : Shape) 32) : AllR (rAgg h nrm src dst) := by
  intro i
  unfold rAgg
  rw [scatterAdd_apply, bcastConst_apply, Ideal.ofBits_zero_f32, zero_add]
  refine IsR.sum _ _ fun j _ => ?_
  rw [mulf_apply]
  exact (hh _).mul (hn _)

theorem allR_rPre (h : NC) (hh : AllR h) (src dst : IVec (⟨1, ![1600000]⟩ : Shape) 32) (b : V32) (hb : AllR b) :
    AllR (rPre h src dst b) := by
  intro i
  obtain ⟨r, q, rfl⟩ : ∃ (r : Fin 100000) (q : Fin 32), i = ix2 r q := ⟨i 0, i 1, eq_ix2 i⟩
  unfold rPre
  rw [addf_apply, addf_apply, mulf_apply, bcNode_apply, bcChan_apply, mulf_apply]
  exact ((allR_rAgg h hh _ (allR_rNorm _ (allR_rDinv dst) src dst) src dst _).add
    ((hh _).mul ((allR_rDinv dst _).mul (allR_rDinv dst _)))).add (hb _)

/-- Batch norm, scale, shift and rectifier keep real entries real. -/
theorem allR_rAct (P : NC) (hP : AllR P) (g be : V32) (hg : AllR g) (hbe : AllR be) : AllR (rAct P g be) := by
  intro i
  obtain ⟨r, q, rfl⟩ : ∃ (r : Fin 100000) (q : Fin 32), i = ix2 r q := ⟨i 0, i 1, eq_ix2 i⟩
  rw [rAct_apply, rMean_apply, rVar_apply]
  choose a ha using fun r : Fin 100000 => hP (ix2 r q)
  obtain ⟨e, he, hee⟩ := Cert.Consts.eps_f32
  have hn : (0 : ℝ) < 100000 := by norm_num
  obtain ⟨v, hv, hve⟩ := Cert.LibVariance.var_add_eps_pos a hn he
  have hmean : IsR (Ideal.div (S P q) N5) := by
    unfold S
    simp only [N5, Cert.Consts.nodes_f32, ha]
    exact (IsR.sum _ _ fun _ _ => isR_coe _).div hn.ne'
  have hrs : IsR (Ideal.rsqrt (Ideal.div (∑ r : Fin 100000, (P (ix2 r q) - Ideal.div (S P q) N5) * (P (ix2 r q) - Ideal.div (S P q) N5))
      ((100000 : ℝ) : EReal) + Ideal.ofBits .f32 0x3727C5AC#32)) := by
    unfold S
    simp only [N5, Cert.Consts.nodes_f32, ha, hee]
    rw [hve]
    exact isR_rsqrt hv
  unfold act
  exact ((((hP _).sub hmean).mul hrs).mul (hg _)).add (hbe _) |>.max ⟨0, Ideal.ofBits_zero_f32⟩

theorem allR_rNext (P : NC) (hP : AllR P) (g be : V32) (hg : AllR g) (hbe : AllR be)
    (W : (⟨2, ![32, 32]⟩ : Shape).Idx → EReal) (hW : AllR W) : AllR (rNext P g be W) := by
  rw [rNext_eq]
  exact allR_MM _ _ (allR_rAct P hP g be hg hbe) hW

end Cert.Bridge

end
-- ==== Proof.Bridge.lean ====
/-
  The two networks agree on arguments with real entries: layer by layer the sort drops out of the aggregation, the
  layouts agree, the projections are the same matrix products, and — every pre-activation having real entries — the
  two forms of the batch-norm variance agree.
-/
import proofs.«104369_j66383014527707_2_alg».proof.Proof.BridgeReal

set_option maxRecDepth 16384

noncomputable section

namespace Cert.Bridge

open Idealize.ShloMosaic Idealize.ShloMosaic.ValueIdx
open Cert.LibTake Cert.LibReal Cert.LibMatmul
open Cert.KernelIdeal.Chain Cert.KernelIdeal.Spec Cert.KernelIdeal.Reg
open Cert.ReferenceIdeal.RSpec

theorem sc3_eq : Cert.KernelIdeal.scatter_S64x32_S100000x1_S100000x32_1_0_0_1
    = Cert.ReferenceIdeal.scatter_S64x32_S100000x1_S100000x32_1_0_0_1 := rfl
theorem sc4_eq : Cert.KernelIdeal.scatter_S64_S100000x1_S100000_n_0_0_1
    = Cert.ReferenceIdeal.scatter_S64_S100000x1_S100000_n_0_0_1 := rfl

/-- The pooling is one function in both programs. -/
theorem tail_eq (out : NC) (batch : IVec (⟨1, ![100000]⟩ : Shape) 32) : tailOf out batch = rTail out batch := by
  unfold tailOf rTail
  rw [sc3_eq, sc4_eq]

/-- THE BRIDGE: on arguments with real entries the kernel program's network is the reference's. -/
theorem net_eq (x : (⟨2, ![100000, 128]⟩ : Shape).Idx → EReal) (ei : EI) (batch : IVec (⟨1, ![100000]⟩ : Shape) 32) (W0 : (⟨2, ![128, 32]⟩ : Shape).Idx → EReal) (b0 : (⟨1, ![32]⟩ : Shape).Idx → EReal) (g0 : (⟨1, ![32]⟩ : Shape).Idx → EReal) (be0 : (⟨1, ![32]⟩ : Shape).Idx → EReal) (W1 : (⟨2, ![32, 32]⟩ : Shape).Idx → EReal) (b1 : (⟨1, ![32]⟩ : Shape).Idx → EReal) (g1 : (⟨1, ![32]⟩ : Shape).Idx → EReal) (be1 : (⟨1, ![32]⟩ : Shape).Idx → EReal) (W2 : (⟨2, ![32, 32]⟩ : Shape).Idx → EReal) (b2 : (⟨1, ![32]⟩ : Shape).Idx → EReal) (g2 : (⟨1, ![32]⟩ : Shape).Idx → EReal) (be2 : (⟨1, ![32]⟩ : Shape).Idx → EReal) (Wc : (⟨2, ![32, 32]⟩ : Shape).Idx → EReal) (bc : (⟨1, ![32]⟩ : Shape).Idx → EReal)
    (hx : AllR x) (hW0 : AllR W0) (hb0 : AllR b0) (hg0 : AllR g0) (hbe0 : AllR be0) (hW1 : AllR W1) (hb1 : AllR b1) (hg1 : AllR g1) (hbe1 : AllR be1) (hW2 : AllR W2) (hb2 : AllR b2) (hg2 : AllR g2) (hbe2 : AllR be2) (hWc : AllR Wc) (hbc : AllR bc) :
    kNet x ei batch W0 b0 g0 be0 W1 b1 g1 be1 W2 b2 g2 be2 Wc bc = rNet x ei batch W0 b0 g0 be0 W1 b1 g1 be1 W2 b2 g2 be2 Wc bc := by
  unfold kNet rNet
  have rH0 : AllR (rDot0 x W0) := by rw [rDot0_eq]; exact allR_MM _ _ hx hW0
  have eP0 : preK ei (MM (A := 100000) (K := 128) (B := 32) x W0) b0 = rPre (rDot0 x W0) (rSrc ei) (rDst ei) b0 := by
    rw [preK_eq, rDot0_eq]
  have rP0 := allR_rPre _ rH0 (rSrc ei) (rDst ei) b0 hb0
  have rH1 := allR_rNext _ rP0 g0 be0 hg0 hbe0 W1 hW1
  have rP1 := allR_rPre _ rH1 (rSrc ei) (rDst ei) b1 hb1
  have rH2 := allR_rNext _ rP1 g1 be1 hg1 hbe1 W2 hW2
  have rP2 := allR_rPre _ rH2 (rSrc ei) (rDst ei) b2 hb2
  have eH1 : nextH (preK ei (MM (A := 100000) (K := 128) (B := 32) x W0) b0) g0 be0 W1
      = rNext (rPre (rDot0 x W0) (rSrc ei) (rDst ei) b0) g0 be0 W1 := by rw [eP0, nextH_eq _ rP0]
  have eP1 : preK ei (nextH (preK ei (MM (A := 100000) (K := 128) (B := 32) x W0) b0) g0 be0 W1) b1
      = rPre (rNext (rPre (rDot0 x W0) (rSrc ei) (rDst ei) b0) g0 be0 W1) (rSrc ei) (rDst ei) b1 := by rw [eH1, preK_eq]
  have eH2 : nextH (preK ei (nextH (preK ei (MM (A := 100000) (K := 128) (B := 32) x W0) b0) g0 be0 W1) b1) g1 be1 W2
      = rNext (rPre (rNext (rPre (rDot0 x W0) (rSrc ei) (rDst ei) b0) g0 be0 W1) (rSrc ei) (rDst ei) b1) g1 be1 W2 := by
    rw [eP1, nextH_eq _ rP1]
  have eP2 : preK ei (nextH (preK ei (nextH (preK ei (MM (A := 100000) (K := 128) (B := 32) x W0) b0) g0 be0 W1) b1) g1 be1 W2) b2
      = rPre (rNext (rPre (rNext (rPre (rDot0 x W0) (rSrc ei) (rDst ei) b0) g0 be0 W1) (rSrc ei) (rDst ei) b1) g1 be1 W2)
          (rSrc ei) (rDst ei) b2 := by rw [eH2, preK_eq]
  rw [eP2, nextH_eq _ rP2, preK_eq, tail_eq]

end Cert.Bridge

end
-- ==== Proof.lean ====
/-
  The certificate of a four-layer graph convolution network: the kernel program computes each layer's dense
  projection, the batch-norm statistics and the normalised, rectified next projection in tiled TensorCore regions
  of 5000 rows, with the edge list sorted by destination once; the reference computes the same network with plain
  array operations on the unsorted edge list.

  The three frames: the kernel programs' are their generated frame certificates; the reference's is its run as one
  straight line of host operations, no operation of which writes an argument array. The idealization rewrote no
  operation, so nothing is owed for it. The algebraic claim is the bridge between the two values.
-/
import proofs.«104369_j66383014527707_2_alg».proof.Defs
import proofs.«104369_j66383014527707_2_alg».proof.Proof.Gen.Kernel
import proofs.«104369_j66383014527707_2_alg».proof.Proof.Gen.Kernel.Frame
import proofs.«104369_j66383014527707_2_alg».proof.Proof.Gen.KernelIdeal
import proofs.«104369_j66383014527707_2_alg».proof.Proof.Gen.KernelIdeal.Frame
import proofs.«104369_j66383014527707_2_alg».proof.Proof.Gen.ReferenceIdeal
import proofs.«104369_j66383014527707_2_alg».proof.Proof.Gen.Pre_finite_inputs
import proofs.«104369_j66383014527707_2_alg».proof.Proof.RefRun
import proofs.«104369_j66383014527707_2_alg».proof.Proof.RefValue
import proofs.«104369_j66383014527707_2_alg».proof.Proof.KRun
import proofs.«104369_j66383014527707_2_alg».proof.Proof.KValue
import proofs.«104369_j66383014527707_2_alg».proof.Proof.PreReal
import proofs.«104369_j66383014527707_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  Cert.ReferenceIdeal.RefRun.frame (F := Ideal) m ρ

theorem preserves : Cert.preserves_Kernel_KernelIdeal := trivial

/-- The kernel program's result is its network of the arguments (the fold of its segments read at the result
    buffer); the reference's is its own network of its arguments; the arguments agree and, under the precondition,
    have real entries, on which the two networks are one function. -/
theorem algebraic : Cert.algebraic_KernelIdeal_ReferenceIdeal := by
  intro m ρ m' ρ' hpre hagree
  refine ⟨fun c => Cert.KernelIdeal.Gen.W19 m ρ c (Proc.devRef .tc Cert.KernelIdeal.main_v145),
    Cert.KernelIdeal.KRun.run_result m ρ, ?_⟩
  refine (θ_run Cert.ReferenceIdeal.defs _ _).mono (fun r h c => ⟨?_,
      (h c Cert.ReferenceIdeal.main_arg0).trans (Cert.ReferenceIdeal.RefRun.kept_main_arg0 _),
      (h c Cert.ReferenceIdeal.main_arg1).trans (Cert.ReferenceIdeal.RefRun.kept_main_arg1 _),
      (h c Cert.ReferenceIdeal.main_arg2).trans (Cert.ReferenceIdeal.RefRun.kept_main_arg2 _),
      (h c Cert.ReferenceIdeal.main_arg3).trans (Cert.ReferenceIdeal.RefRun.kept_main_arg3 _),
      (h c Cert.ReferenceIdeal.main_arg4).trans (Cert.ReferenceIdeal.RefRun.kept_main_arg4 _),
      (h c Cert.ReferenceIdeal.main_arg5).trans (Cert.ReferenceIdeal.RefRun.kept_main_arg5 _),
      (h c Cert.ReferenceIdeal.main_arg6).trans (Cert.ReferenceIdeal.RefRun.kept_main_arg6 _),
      (h c Cert.ReferenceIdeal.main_arg7).trans (Cert.ReferenceIdeal.RefRun.kept_main_arg7 _),
      (h c Cert.ReferenceIdeal.main_arg8).trans (Cert.ReferenceIdeal.RefRun.kept_main_arg8 _),
      (h c Cert.ReferenceIdeal.main_arg9).trans (Cert.ReferenceIdeal.RefRun.kept_main_arg9 _),
      (h c Cert.ReferenceIdeal.main_arg10).trans (Cert.ReferenceIdeal.RefRun.kept_main_arg10 _),
      (h c Cert.ReferenceIdeal.main_arg11).trans (Cert.ReferenceIdeal.RefRun.kept_main_arg11 _),
      (h c Cert.ReferenceIdeal.main_arg12).trans (Cert.ReferenceIdeal.RefRun.kept_main_arg12 _),
      (h c Cert.ReferenceIdeal.main_arg13).trans (Cert.ReferenceIdeal.RefRun.kept_main_arg13 _),
      (h c Cert.ReferenceIdeal.main_arg14).trans (Cert.ReferenceIdeal.RefRun.kept_main_arg14 _),
      (h c Cert.ReferenceIdeal.main_arg15).trans (Cert.ReferenceIdeal.RefRun.kept_main_arg15 _),
      (h c Cert.ReferenceIdeal.main_arg16).trans (Cert.ReferenceIdeal.RefRun.kept_main_arg16 _)⟩)
    (Cert.ReferenceIdeal.RefRun.run_main (F := Ideal) m' ρ')
  obtain ⟨g0, g1, g2, g3, g4, g5, g6, g7, g8, g9, g10, g11, g12, g13, g14, g15, g16⟩ := hagree c
  obtain ⟨r0, r3, r4, r5, r6, r7, r8, r9, r10, r11, r12, r13, r14, r15, r16⟩ := Cert.PreReal.pre_real _ _ _ _ _ _ _ _ _ _ _ _ _ _ _ _ _ (hpre c)
  have hnet := Cert.Bridge.net_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) r0 r3 r4 r5 r6 r7 r8 r9 r10 r11 r12 r13 r14 r15 r16
  refine (h c Cert.ReferenceIdeal.main_v251).trans ((Cert.ReferenceIdeal.RefRun.ref_value _).trans ?_)
  rw [show (Idealize.ShloMosaic.StableHlo.launchContents m' c (Proc.devRef .tc Cert.ReferenceIdeal.main_arg0)) = (m ((c.tc : Thread Cert.KernelIdeal.nD Cert.KernelIdeal.τ).loc Cert.KernelIdeal.main_arg0)) from g0,
      show (Idealize.ShloMosaic.StableHlo.launchContents m' c (Proc.devRef .tc Cert.ReferenceIdeal.main_arg1)) = (m ((c.tc : Thread Cert.KernelIdeal.nD Cert.KernelIdeal.τ).loc Cert.KernelIdeal.main_arg1)) from g1,
      show (Idealize.ShloMosaic.StableHlo.launchContents m' c (Proc.devRef .tc Cert.ReferenceIdeal.main_arg2)) = (m ((c.tc : Thread Cert.KernelIdeal.nD Cert.KernelIdeal.τ).loc Cert.KernelIdeal.main_arg2)) from g2,
      show (Idealize.ShloMosaic.StableHlo.launchContents m' c (Proc.devRef .tc Cert.ReferenceIdeal.main_arg3)) = (m ((c.tc : Thread Cert.KernelIdeal.nD Cert.KernelIdeal.τ).loc Cert.KernelIdeal.main_arg3)) from g3,
      show (Idealize.ShloMosaic.StableHlo.launchContents m' c (Proc.devRef .tc Cert.ReferenceIdeal.main_arg4)) = (m ((c.tc : Thread Cert.KernelIdeal.nD Cert.KernelIdeal.τ).loc Cert.KernelIdeal.main_arg4)) from g4,
      show (Idealize.ShloMosaic.StableHlo.launchContents m' c (Proc.devRef .tc Cert.ReferenceIdeal.main_arg5)) = (m ((c.tc : Thread Cert.KernelIdeal.nD Cert.KernelIdeal.τ).loc Cert.KernelIdeal.main_arg5)) from g5,
      show (Idealize.ShloMosaic.StableHlo.launchContents m' c (Proc.devRef .tc Cert.ReferenceIdeal.main_arg6)) = (m ((c.tc : Thread Cert.KernelIdeal.nD Cert.KernelIdeal.τ).loc Cert.KernelIdeal.main_arg6)) from g6,
      show (Idealize.ShloMosaic.StableHlo.launchContents m' c (Proc.devRef .tc Cert.ReferenceIdeal.main_arg7)) = (m ((c.tc : Thread Cert.KernelIdeal.nD Cert.KernelIdeal.τ).loc Cert.KernelIdeal.main_arg7)) from g7,
      show (Idealize.ShloMosaic.StableHlo.launchContents m' c (Proc.devRef .tc Cert.ReferenceIdeal.main_arg8)) = (m ((c.tc : Thread Cert.KernelIdeal.nD Cert.KernelIdeal.τ).loc Cert.KernelIdeal.main_arg8)) from g8,
      show (Idealize.ShloMosaic.StableHlo.launchContents m' c (Proc.devRef .tc Cert.ReferenceIdeal.main_arg9)) = (m ((c.tc : Thread Cert.KernelIdeal.nD Cert.KernelIdeal.τ).loc Cert.KernelIdeal.main_arg9)) from g9,
      show (Idealize.ShloMosaic.StableHlo.launchContents m' c (Proc.devRef .tc Cert.ReferenceIdeal.main_arg10)) = (m ((c.tc : Thread Cert.KernelIdeal.nD Cert.KernelIdeal.τ).loc Cert.KernelIdeal.main_arg10)) from g10,
      show (Idealize.ShloMosaic.StableHlo.launchContents m' c (Proc.devRef .tc Cert.ReferenceIdeal.main_arg11)) = (m ((c.tc : Thread Cert.KernelIdeal.nD Cert.KernelIdeal.τ).loc Cert.KernelIdeal.main_arg11)) from g11,
      show (Idealize.ShloMosaic.StableHlo.launchContents m' c (Proc.devRef .tc Cert.ReferenceIdeal.main_arg12)) = (m ((c.tc : Thread Cert.KernelIdeal.nD Cert.KernelIdeal.τ).loc Cert.KernelIdeal.main_arg12)) from g12,
      show (Idealize.ShloMosaic.StableHlo.launchContents m' c (Proc.devRef .tc Cert.ReferenceIdeal.main_arg13)) = (m ((c.tc : Thread Cert.KernelIdeal.nD Cert.KernelIdeal.τ).loc Cert.KernelIdeal.main_arg13)) from g13,
      show (Idealize.ShloMosaic.StableHlo.launchContents m' c (Proc.devRef .tc Cert.ReferenceIdeal.main_arg14)) = (m ((c.tc : Thread Cert.KernelIdeal.nD Cert.KernelIdeal.τ).loc Cert.KernelIdeal.main_arg14)) from g14,
      show (Idealize.ShloMosaic.StableHlo.launchContents m' c (Proc.devRef .tc Cert.ReferenceIdeal.main_arg15)) = (m ((c.tc : Thread Cert.KernelIdeal.nD Cert.KernelIdeal.τ).loc Cert.KernelIdeal.main_arg15)) from g15,
      show (Idealize.ShloMosaic.StableHlo.launchContents m' c (Proc.devRef .tc Cert.ReferenceIdeal.main_arg16)) = (m ((c.tc : Thread Cert.KernelIdeal.nD Cert.KernelIdeal.τ).loc Cert.KernelIdeal.main_arg16)) from g16]
  exact hnet.symm.trans (Cert.KernelIdeal.KValue.kernel_value m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
